-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_v297) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x128x32768 : Shape := ⟨3, ![3, 128, 32768]⟩
abbrev S_ : Shape := ⟨0, ![]⟩

class Facts : Prop where
  bcast_S_S3x128x32768 : S_.BroadcastsInDim S3x128x32768 (![] : Fin 0 → Fin S3x128x32768.rank)
  reducesTo_S3x128x32768_S_d0_1_2 : S3x128x32768.ReducesTo [0, 1, 2] S_
  h_S_ : 0 < S_.numel

variable [Facts]

def fn {F : FTy → Type} [FloatOps F] (main_arg0 : FVec F S3x128x32768 .f32) : IVec S_ 1 :=
  let main_v0 : FVec F S3x128x32768 .f32 := Host.absf main_arg0
  let main_cst : FVec F S_ .f32 := constant S_ .f32 0x7F800000#32
  let main_v1 : FVec F S3x128x32768 .f32 := broadcastInDim S3x128x32768 ![] bcast_S_S3x128x32768 main_cst
  let main_v2 : IVec S3x128x32768 1 := cmpf .olt main_v0 main_v1
  let main_c : IVec S_ 1 := constantI S_ 1 1#1
  let main_v3 : IVec S_ 1 := (fun x v => Host.reduce IntOp.andi x v reducesTo_S3x128x32768_S_d0_1_2 h_S_) main_v2 main_c
  main_v3
-- ==== Kernel.lean ====
abbrev S3x128x32768 : Shape := ⟨3, ![3, 128, 32768]⟩
abbrev S128x32768 : Shape := ⟨2, ![128, 32768]⟩
abbrev S4x128 : Shape := ⟨2, ![4, 128]⟩
abbrev S1x32768 : Shape := ⟨2, ![1, 32768]⟩
abbrev S_ : Shape := ⟨0, ![]⟩
abbrev S1x1x32768 : Shape := ⟨3, ![1, 1, 32768]⟩
abbrev S1x4x128 : Shape := ⟨3, ![1, 4, 128]⟩
abbrev S1x16 : Shape := ⟨2, ![1, 16]⟩
abbrev S16 : Shape := ⟨1, ![16]⟩
abbrev S1x128x32768 : Shape := ⟨3, ![1, 128, 32768]⟩

abbrev nBuf : Table → Nat
  | .hbm => 6
  | .local .scVector .vmem => 5
  | _ => 0

abbrev bufTy : (tb : Table) → Fin (nBuf tb) → BufTy
  | .hbm, ⟨0, _⟩ => ⟨S3x128x32768, .f32⟩
  | .hbm, ⟨1, _⟩ => ⟨S128x32768, .f32⟩
  | .hbm, ⟨2, _⟩ => ⟨S1x128x32768, .f32⟩
  | .hbm, ⟨3, _⟩ => ⟨S128x32768, .f32⟩
  | .hbm, ⟨4, _⟩ => ⟨S1x128x32768, .f32⟩
  | .hbm, ⟨5, _⟩ => ⟨S128x32768, .f32⟩
  | .local .scVector .vmem, ⟨0, _⟩ => ⟨S4x128, .f32⟩
  | .local .scVector .vmem, ⟨1, _⟩ => ⟨S4x128, .f32⟩
  | .local .scVector .vmem, ⟨2, _⟩ => ⟨S1x32768, .f32⟩
  | .local .scVector .vmem, ⟨3, _⟩ => ⟨S1x32768, .f32⟩
  | .local .scVector .vmem, ⟨4, _⟩ => ⟨S1x32768, .f32⟩
  | _, _ => ⟨S3x128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_1 : BitVec 32 := 0#32
  ![0, v3.toNat, 0]
def k0_off2 (i : grid0.Coords) : Fin 3 → Nat :=
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_160_r0 : BitVec 32 := 0#32
  ![0, v2.toNat, 0]
def k0_off3 (i : grid0.Coords) : Fin 3 → Nat :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c16384_i32_r1 : BitVec 32 := 16384#32
  ![0, v2.toNat, 16384]
def k0_off4 (i : grid0.Coords) (c0_i32_96 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v237 : BitVec 32 := Scalar.addi v2 c0_i32_96
  let c0_i32_97 : BitVec 32 := 0#32
  ![v237.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x1x32768_S1x32768 : S1x1x32768.Squeezes S1x32768
  squeezes_S1x4x128_S4x128 : S1x4x128.Squeezes S4x128
  inb_S4x128_S1x16_0_0 : ∀ a, (![0, 0] : Fin 2 → Nat) a + S1x16.size a ≤ S4x128.size a
  h_S1x16 : 0 < S1x16.numel
  shapeCasts_S1x16_S16 : S1x16.ShapeCasts S16
  broadcasts_S16_S16 : S16.Broadcasts S16
  shapeCasts_S16_S1x16 : S16.ShapeCasts S1x16
  inb_S4x128_S1x16_1_0 : ∀ a, (![1, 0] : Fin 2 → Nat) a + S1x16.size a ≤ S4x128.size a
  inb_S4x128_S1x16_2_0 : ∀ a, (![2, 0] : Fin 2 → Nat) a + S1x16.size a ≤ S4x128.size a
  inb_S4x128_S1x16_3_0 : ∀ a, (![3, 0] : Fin 2 → Nat) a + S1x16.size a ≤ S4x128.size a
  inb_S1x32768_S1x16_0_0 : ∀ a, (![0, 0] : Fin 2 → Nat) a + S1x16.size a ≤ S1x32768.size a
  inb_S1x32768_S1x16_0_16384 : ∀ a, (![0, 16384] : Fin 2 → Nat) a + S1x16.size a ≤ S1x32768.size a
  slices_S3x128x32768_S1x128x32768_1_0_0 : S3x128x32768.Slices ![1, 0, 0] S1x128x32768
  shapeCasts_S1x128x32768_S128x32768 : S1x128x32768.ShapeCasts S128x32768
  slices_S3x128x32768_S1x128x32768_2_0_0 : S3x128x32768.Slices ![2, 0, 0] S1x128x32768
  hcc0_scratch5 : 0 + S_.numel ≤ 8
  hcc0_scratch6 : 1 + S_.numel ≤ 8
  hcc0_scratch7 : 2 + S_.numel ≤ 8
  hcc0_scratch8 : 3 + S_.numel ≤ 8
  hcc0_scratch9 : 4 + S_.numel ≤ 8
  hcc0_scratch10 : 5 + S_.numel ≤ 8
  hcc0_scoped0 : 6 + S_.numel ≤ 8
  hcc0_scoped1 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 r.val)) a + S1x1x32768.size a ≤ S3x128x32768.size a
  k0_off2_inb : ∀ i : grid0.Coords, ∀ a, (k0_off2 i) a + S1x4x128.size a ≤ S3x128x32768.size a
  k0_off3_inb : ∀ i : grid0.Coords, ∀ a, (k0_off3 i) a + S1x4x128.size a ≤ S3x128x32768.size a
  k0_off4_inb : ∀ i : grid0.Coords, ∀ (r : Fin 4), ∀ a, (k0_off4 i (BitVec.ofNat 32 r.val)) a + S1x32768.size a ≤ S128x32768.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scoped0 : DmaSems sig S_ := SemArray.consecutive 6 S_ hcc0_scoped0
abbrev cc0_scoped1 : DmaSems sig S_ := SemArray.consecutive 7 S_ hcc0_scoped1

class Facts : Prop extends Facts₀ where

variable [Facts]
-- ==== ReferenceIdeal.lean ====
abbrev S3x128x32768 : Shape := ⟨3, ![3, 128, 32768]⟩
abbrev S1x128x32768 : Shape := ⟨3, ![1, 128, 32768]⟩
abbrev S128x32768 : Shape := ⟨2, ![128, 32768]⟩
abbrev S_ : Shape := ⟨0, ![]⟩
abbrev S128x1 : Shape := ⟨2, ![128, 1]⟩
abbrev S128 : Shape := ⟨1, ![128]⟩
abbrev S1 : Shape := ⟨1, ![1]⟩

abbrev nBuf : Space → Nat
  | .hbm => 893
  | .vmem => 0
  | .smem => 0
  | _ => 0

abbrev hbmTy0_0 (i : Nat) : BufTy := match i % 128 with
  | 0 => ⟨S3x128x32768, .f32⟩
  | 1 => ⟨S1x128x32768, .f32⟩
  | 2 => ⟨S128x32768, .f32⟩
  | 3 => ⟨S_, .f32⟩
  | 4 => ⟨S128x32768, .f32⟩
  | 5 => ⟨S128x32768, .f32⟩
  | 6 => ⟨S128x1, .f32⟩
  | 7 => ⟨S128, .f32⟩
  | 8 => ⟨S128x1, .f32⟩
  | 9 => ⟨S128, .f32⟩
  | 10 => ⟨S128, .f32⟩
  | 11 => ⟨S_, .i32⟩
  | 12 => ⟨S_, .f32⟩
  | 13 => ⟨S128, .f32⟩
  | 14 => ⟨S128, .f32⟩
  | 15 => ⟨S_, .f32⟩
  | 16 => ⟨S128, .f32⟩
  | 17 => ⟨S128, .i1⟩
  | 18 => ⟨S_, .f32⟩
  | 19 => ⟨S128, .f32⟩
  | 20 => ⟨S128, .i1⟩
  | 21 => ⟨S_, .f32⟩
  | 22 => ⟨S_, .i1⟩
  | 23 => ⟨S128, .i1⟩
  | 24 => ⟨S128, .i1⟩
  | 25 => ⟨S128, .i1⟩
  | 26 => ⟨S128, .f32⟩
  | 27 => ⟨S128, .f32⟩
  | 28 => ⟨S128, .f32⟩
  | 29 => ⟨S128x1, .f32⟩
  | 30 => ⟨S128, .f32⟩
  | 31 => ⟨S_, .f32⟩
  | 32 => ⟨S128, .f32⟩
  | 33 => ⟨S128, .f32⟩
  | 34 => ⟨S128x1, .f32⟩
  | 35 => ⟨S128, .f32⟩
  | 36 => ⟨S128, .f32⟩
  | 37 => ⟨S_, .i32⟩
  | 38 => ⟨S_, .f32⟩
  | 39 => ⟨S128, .f32⟩
  | 40 => ⟨S128, .f32⟩
  | 41 => ⟨S_, .f32⟩
  | 42 => ⟨S128, .f32⟩
  | 43 => ⟨S128, .i1⟩
  | 44 => ⟨S_, .f32⟩
  | 45 => ⟨S128, .f32⟩
  | 46 => ⟨S128, .i1⟩
  | 47 => ⟨S_, .f32⟩
  | 48 => ⟨S_, .i1⟩
  | 49 => ⟨S128, .i1⟩
  | 50 => ⟨S128, .i1⟩
  | 51 => ⟨S128, .i1⟩
  | 52 => ⟨S128, .f32⟩
  | 53 => ⟨S128, .f32⟩
  | 54 => ⟨S128, .f32⟩
  | 55 => ⟨S_, .i32⟩
  | 56 => ⟨S1, .i32⟩
  | 57 => ⟨S128x32768, .f32⟩
  | 58 => ⟨S_, .i32⟩
  | 59 => ⟨S1, .i32⟩
  | 60 => ⟨S128x32768, .f32⟩
  | 61 => ⟨S128x1, .f32⟩
  | 62 => ⟨S128, .f32⟩
  | 63 => ⟨S128x1, .f32⟩
  | 64 => ⟨S128, .f32⟩
  | 65 => ⟨S128, .f32⟩
  | 66 => ⟨S_, .i32⟩
  | 67 => ⟨S_, .f32⟩
  | 68 => ⟨S128, .f32⟩
  | 69 => ⟨S128, .f32⟩
  | 70 => ⟨S_, .f32⟩
  | 71 => ⟨S128, .f32⟩
  | 72 => ⟨S128, .i1⟩
  | 73 => ⟨S_, .f32⟩
  | 74 => ⟨S128, .f32⟩
  | 75 => ⟨S128, .i1⟩
  | 76 => ⟨S_, .f32⟩
  | 77 => ⟨S_, .i1⟩
  | 78 => ⟨S128, .i1⟩
  | 79 => ⟨S128, .i1⟩
  | 80 => ⟨S128, .i1⟩
  | 81 => ⟨S128, .f32⟩
  | 82 => ⟨S128, .f32⟩
  | 83 => ⟨S128, .f32⟩
  | 84 => ⟨S128x1, .f32⟩
  | 85 => ⟨S128, .f32⟩
  | 86 => ⟨S_, .f32⟩
  | 87 => ⟨S128, .f32⟩
  | 88 => ⟨S128, .f32⟩
  | 89 => ⟨S128x1, .f32⟩
  | 90 => ⟨S128, .f32⟩
  | 91 => ⟨S128, .f32⟩
  | 92 => ⟨S_, .i32⟩
  | 93 => ⟨S_, .f32⟩
  | 94 => ⟨S128, .f32⟩
  | 95 => ⟨S128, .f32⟩
  | 96 => ⟨S_, .f32⟩
  | 97 => ⟨S128, .f32⟩
  | 98 => ⟨S128, .i1⟩
  | 99 => ⟨S_, .f32⟩
  | 100 => ⟨S128, .f32⟩
  | 101 => ⟨S128, .i1⟩
  | 102 => ⟨S_, .f32⟩
  | 103 => ⟨S_, .i1⟩
  | 104 => ⟨S128, .i1⟩
  | 105 => ⟨S128, .i1⟩
  | 106 => ⟨S128, .i1⟩
  | 107 => ⟨S128, .f32⟩
  | 108 => ⟨S128, .f32⟩
  | 109 => ⟨S128, .f32⟩
  | 110 => ⟨S_, .i32⟩
  | 111 => ⟨S1, .i32⟩
  | 112 => ⟨S128x32768, .f32⟩
  | 113 => ⟨S_, .i32⟩
  | 114 => ⟨S1, .i32⟩
  | 115 => ⟨S128x32768, .f32⟩
  | 116 => ⟨S128x1, .f32⟩
  | 117 => ⟨S128, .f32⟩
  | 118 => ⟨S128x1, .f32⟩
  | 119 => ⟨S128, .f32⟩
  | 120 => ⟨S128, .f32⟩
  | 121 => ⟨S_, .i32⟩
  | 122 => ⟨S_, .f32⟩
  | 123 => ⟨S128, .f32⟩
  | 124 => ⟨S128, .f32⟩
  | 125 => ⟨S_, .f32⟩
  | 126 => ⟨S128, .f32⟩
  | 127 => ⟨S128, .i1⟩
  | _ => ⟨S3x128x32768, .f32⟩

abbrev hbmTy0_1 (i : Nat) : BufTy := match i % 128 with
  | 0 => ⟨S_, .f32⟩
  | 1 => ⟨S128, .f32⟩
  | 2 => ⟨S128, .i1⟩
  | 3 => ⟨S_, .f32⟩
  | 4 => ⟨S_, .i1⟩
  | 5 => ⟨S128, .i1⟩
  | 6 => ⟨S128, .i1⟩
  | 7 => ⟨S128, .i1⟩
  | 8 => ⟨S128, .f32⟩
  | 9 => ⟨S128, .f32⟩
  | 10 => ⟨S128, .f32⟩
  | 11 => ⟨S128x1, .f32⟩
  | 12 => ⟨S128, .f32⟩
  | 13 => ⟨S_, .f32⟩
  | 14 => ⟨S128, .f32⟩
  | 15 => ⟨S128, .f32⟩
  | 16 => ⟨S128x1, .f32⟩
  | 17 => ⟨S128, .f32⟩
  | 18 => ⟨S128, .f32⟩
  | 19 => ⟨S_, .i32⟩
  | 20 => ⟨S_, .f32⟩
  | 21 => ⟨S128, .f32⟩
  | 22 => ⟨S128, .f32⟩
  | 23 => ⟨S_, .f32⟩
  | 24 => ⟨S128, .f32⟩
  | 25 => ⟨S128, .i1⟩
  | 26 => ⟨S_, .f32⟩
  | 27 => ⟨S128, .f32⟩
  | 28 => ⟨S128, .i1⟩
  | 29 => ⟨S_, .f32⟩
  | 30 => ⟨S_, .i1⟩
  | 31 => ⟨S128, .i1⟩
  | 32 => ⟨S128, .i1⟩
  | 33 => ⟨S128, .i1⟩
  | 34 => ⟨S128, .f32⟩
  | 35 => ⟨S128, .f32⟩
  | 36 => ⟨S128, .f32⟩
  | 37 => ⟨S_, .i32⟩
  | 38 => ⟨S1, .i32⟩
  | 39 => ⟨S128x32768, .f32⟩
  | 40 => ⟨S_, .i32⟩
  | 41 => ⟨S1, .i32⟩
  | 42 => ⟨S128x32768, .f32⟩
  | 43 => ⟨S128x1, .f32⟩
  | 44 => ⟨S128, .f32⟩
  | 45 => ⟨S128x1, .f32⟩
  | 46 => ⟨S128, .f32⟩
  | 47 => ⟨S128, .f32⟩
  | 48 => ⟨S_, .i32⟩
  | 49 => ⟨S_, .f32⟩
  | 50 => ⟨S128, .f32⟩
  | 51 => ⟨S128, .f32⟩
  | 52 => ⟨S_, .f32⟩
  | 53 => ⟨S128, .f32⟩
  | 54 => ⟨S128, .i1⟩
  | 55 => ⟨S_, .f32⟩
  | 56 => ⟨S128, .f32⟩
  | 57 => ⟨S128, .i1⟩
  | 58 => ⟨S_, .f32⟩
  | 59 => ⟨S_, .i1⟩
  | 60 => ⟨S128, .i1⟩
  | 61 => ⟨S128, .i1⟩
  | 62 => ⟨S128, .i1⟩
  | 63 => ⟨S128, .f32⟩
  | 64 => ⟨S128, .f32⟩
  | 65 => ⟨S128, .f32⟩
  | 66 => ⟨S128x1, .f32⟩
  | 67 => ⟨S128, .f32⟩
  | 68 => ⟨S_, .f32⟩
  | 69 => ⟨S128, .f32⟩
  | 70 => ⟨S128, .f32⟩
  | 71 => ⟨S128x1, .f32⟩
  | 72 => ⟨S128, .f32⟩
  | 73 => ⟨S128, .f32⟩
  | 74 => ⟨S_, .i32⟩
  | 75 => ⟨S_, .f32⟩
  | 76 => ⟨S128, .f32⟩
  | 77 => ⟨S128, .f32⟩
  | 78 => ⟨S_, .f32⟩
  | 79 => ⟨S128, .f32⟩
  | 80 => ⟨S128, .i1⟩
  | 81 => ⟨S_, .f32⟩
  | 82 => ⟨S128, .f32⟩
  | 83 => ⟨S128, .i1⟩
  | 84 => ⟨S_, .f32⟩
  | 85 => ⟨S_, .i1⟩
  | 86 => ⟨S128, .i1⟩
  | 87 => ⟨S128, .i1⟩
  | 88 => ⟨S128, .i1⟩
  | 89 => ⟨S128, .f32⟩
  | 90 => ⟨S128, .f32⟩
  | 91 => ⟨S128, .f32⟩
  | 92 => ⟨S_, .i32⟩
  | 93 => ⟨S1, .i32⟩
  | 94 => ⟨S128x32768, .f32⟩
  | 95 => ⟨S_, .i32⟩
  | 96 => ⟨S1, .i32⟩
  | 97 => ⟨S128x32768, .f32⟩
  | 98 => ⟨S128x1, .f32⟩
  | 99 => ⟨S128, .f32⟩
  | 100 => ⟨S128x1, .f32⟩
  | 101 => ⟨S128, .f32⟩
  | 102 => ⟨S128, .f32⟩
  | 103 => ⟨S_, .i32⟩
  | 104 => ⟨S_, .f32⟩
  | 105 => ⟨S128, .f32⟩
  | 106 => ⟨S128, .f32⟩
  | 107 => ⟨S_, .f32⟩
  | 108 => ⟨S128, .f32⟩
  | 109 => ⟨S128, .i1⟩
  | 110 => ⟨S_, .f32⟩
  | 111 => ⟨S128, .f32⟩
  | 112 => ⟨S128, .i1⟩
  | 113 => ⟨S_, .f32⟩
  | 114 => ⟨S_, .i1⟩
  | 115 => ⟨S128, .i1⟩
  | 116 => ⟨S128, .i1⟩
  | 117 => ⟨S128, .i1⟩
  | 118 => ⟨S128, .f32⟩
  | 119 => ⟨S128, .f32⟩
  | 120 => ⟨S128, .f32⟩
  | 121 => ⟨S128x1, .f32⟩
  | 122 => ⟨S128, .f32⟩
  | 123 => ⟨S_, .f32⟩
  | 124 => ⟨S128, .f32⟩
  | 125 => ⟨S128, .f32⟩
  | 126 => ⟨S128x1, .f32⟩
  | 127 => ⟨S128, .f32⟩
  | _ => ⟨S3x128x32768, .f32⟩

abbrev hbmTy0_2 (i : Nat) : BufTy := match i % 128 with
  | 0 => ⟨S128, .f32⟩
  | 1 => ⟨S_, .i32⟩
  | 2 => ⟨S_, .f32⟩
  | 3 => ⟨S128, .f32⟩
  | 4 => ⟨S128, .f32⟩
  | 5 => ⟨S_, .f32⟩
  | 6 => ⟨S128, .f32⟩
  | 7 => ⟨S128, .i1⟩
  | 8 => ⟨S_, .f32⟩
  | 9 => ⟨S128, .f32⟩
  | 10 => ⟨S128, .i1⟩
  | 11 => ⟨S_, .f32⟩
  | 12 => ⟨S_, .i1⟩
  | 13 => ⟨S128, .i1⟩
  | 14 => ⟨S128, .i1⟩
  | 15 => ⟨S128, .i1⟩
  | 16 => ⟨S128, .f32⟩
  | 17 => ⟨S128, .f32⟩
  | 18 => ⟨S128, .f32⟩
  | 19 => ⟨S_, .i32⟩
  | 20 => ⟨S1, .i32⟩
  | 21 => ⟨S128x32768, .f32⟩
  | 22 => ⟨S_, .i32⟩
  | 23 => ⟨S1, .i32⟩
  | 24 => ⟨S128x32768, .f32⟩
  | 25 => ⟨S128x1, .f32⟩
  | 26 => ⟨S128, .f32⟩
  | 27 => ⟨S128x1, .f32⟩
  | 28 => ⟨S128, .f32⟩
  | 29 => ⟨S128, .f32⟩
  | 30 => ⟨S_, .i32⟩
  | 31 => ⟨S_, .f32⟩
  | 32 => ⟨S128, .f32⟩
  | 33 => ⟨S128, .f32⟩
  | 34 => ⟨S_, .f32⟩
  | 35 => ⟨S128, .f32⟩
  | 36 => ⟨S128, .i1⟩
  | 37 => ⟨S_, .f32⟩
  | 38 => ⟨S128, .f32⟩
  | 39 => ⟨S128, .i1⟩
  | 40 => ⟨S_, .f32⟩
  | 41 => ⟨S_, .i1⟩
  | 42 => ⟨S128, .i1⟩
  | 43 => ⟨S128, .i1⟩
  | 44 => ⟨S128, .i1⟩
  | 45 => ⟨S128, .f32⟩
  | 46 => ⟨S128, .f32⟩
  | 47 => ⟨S128, .f32⟩
  | 48 => ⟨S128x1, .f32⟩
  | 49 => ⟨S128, .f32⟩
  | 50 => ⟨S_, .f32⟩
  | 51 => ⟨S128, .f32⟩
  | 52 => ⟨S128, .f32⟩
  | 53 => ⟨S128x1, .f32⟩
  | 54 => ⟨S128, .f32⟩
  | 55 => ⟨S128, .f32⟩
  | 56 => ⟨S_, .i32⟩
  | 57 => ⟨S_, .f32⟩
  | 58 => ⟨S128, .f32⟩
  | 59 => ⟨S128, .f32⟩
  | 60 => ⟨S_, .f32⟩
  | 61 => ⟨S128, .f32⟩
  | 62 => ⟨S128, .i1⟩
  | 63 => ⟨S_, .f32⟩
  | 64 => ⟨S128, .f32⟩
  | 65 => ⟨S128, .i1⟩
  | 66 => ⟨S_, .f32⟩
  | 67 => ⟨S_, .i1⟩
  | 68 => ⟨S128, .i1⟩
  | 69 => ⟨S128, .i1⟩
  | 70 => ⟨S128, .i1⟩
  | 71 => ⟨S128, .f32⟩
  | 72 => ⟨S128, .f32⟩
  | 73 => ⟨S128, .f32⟩
  | 74 => ⟨S_, .i32⟩
  | 75 => ⟨S1, .i32⟩
  | 76 => ⟨S128x32768, .f32⟩
  | 77 => ⟨S_, .i32⟩
  | 78 => ⟨S1, .i32⟩
  | 79 => ⟨S128x32768, .f32⟩
  | 80 => ⟨S128x1, .f32⟩
  | 81 => ⟨S128, .f32⟩
  | 82 => ⟨S128x1, .f32⟩
  | 83 => ⟨S128, .f32⟩
  | 84 => ⟨S128, .f32⟩
  | 85 => ⟨S_, .i32⟩
  | 86 => ⟨S_, .f32⟩
  | 87 => ⟨S128, .f32⟩
  | 88 => ⟨S128, .f32⟩
  | 89 => ⟨S_, .f32⟩
  | 90 => ⟨S128, .f32⟩
  | 91 => ⟨S128, .i1⟩
  | 92 => ⟨S_, .f32⟩
  | 93 => ⟨S128, .f32⟩
  | 94 => ⟨S128, .i1⟩
  | 95 => ⟨S_, .f32⟩
  | 96 => ⟨S_, .i1⟩
  | 97 => ⟨S128, .i1⟩
  | 98 => ⟨S128, .i1⟩
  | 99 => ⟨S128, .i1⟩
  | 100 => ⟨S128, .f32⟩
  | 101 => ⟨S128, .f32⟩
  | 102 => ⟨S128, .f32⟩
  | 103 => ⟨S128x1, .f32⟩
  | 104 => ⟨S128, .f32⟩
  | 105 => ⟨S_, .f32⟩
  | 106 => ⟨S128, .f32⟩
  | 107 => ⟨S128, .f32⟩
  | 108 => ⟨S128x1, .f32⟩
  | 109 => ⟨S128, .f32⟩
  | 110 => ⟨S128, .f32⟩
  | 111 => ⟨S_, .i32⟩
  | 112 => ⟨S_, .f32⟩
  | 113 => ⟨S128, .f32⟩
  | 114 => ⟨S128, .f32⟩
  | 115 => ⟨S_, .f32⟩
  | 116 => ⟨S128, .f32⟩
  | 117 => ⟨S128, .i1⟩
  | 118 => ⟨S_, .f32⟩
  | 119 => ⟨S128, .f32⟩
  | 120 => ⟨S128, .i1⟩
  | 121 => ⟨S_, .f32⟩
  | 122 => ⟨S_, .i1⟩
  | 123 => ⟨S128, .i1⟩
  | 124 => ⟨S128, .i1⟩
  | 125 => ⟨S128, .i1⟩
  | 126 => ⟨S128, .f32⟩
  | 127 => ⟨S128, .f32⟩
  | _ => ⟨S3x128x32768, .f32⟩

abbrev hbmTy0_3 (i : Nat) : BufTy := match i % 128 with
  | 0 => ⟨S128, .f32⟩
  | 1 => ⟨S_, .i32⟩
  | 2 => ⟨S1, .i32⟩
  | 3 => ⟨S128x32768, .f32⟩
  | 4 => ⟨S_, .i32⟩
  | 5 => ⟨S1, .i32⟩
  | 6 => ⟨S128x32768, .f32⟩
  | 7 => ⟨S128x1, .f32⟩
  | 8 => ⟨S128, .f32⟩
  | 9 => ⟨S128x1, .f32⟩
  | 10 => ⟨S128, .f32⟩
  | 11 => ⟨S128, .f32⟩
  | 12 => ⟨S_, .i32⟩
  | 13 => ⟨S_, .f32⟩
  | 14 => ⟨S128, .f32⟩
  | 15 => ⟨S128, .f32⟩
  | 16 => ⟨S_, .f32⟩
  | 17 => ⟨S128, .f32⟩
  | 18 => ⟨S128, .i1⟩
  | 19 => ⟨S_, .f32⟩
  | 20 => ⟨S128, .f32⟩
  | 21 => ⟨S128, .i1⟩
  | 22 => ⟨S_, .f32⟩
  | 23 => ⟨S_, .i1⟩
  | 24 => ⟨S128, .i1⟩
  | 25 => ⟨S128, .i1⟩
  | 26 => ⟨S128, .i1⟩
  | 27 => ⟨S128, .f32⟩
  | 28 => ⟨S128, .f32⟩
  | 29 => ⟨S128, .f32⟩
  | 30 => ⟨S128x1, .f32⟩
  | 31 => ⟨S128, .f32⟩
  | 32 => ⟨S_, .f32⟩
  | 33 => ⟨S128, .f32⟩
  | 34 => ⟨S128, .f32⟩
  | 35 => ⟨S128x1, .f32⟩
  | 36 => ⟨S128, .f32⟩
  | 37 => ⟨S128, .f32⟩
  | 38 => ⟨S_, .i32⟩
  | 39 => ⟨S_, .f32⟩
  | 40 => ⟨S128, .f32⟩
  | 41 => ⟨S128, .f32⟩
  | 42 => ⟨S_, .f32⟩
  | 43 => ⟨S128, .f32⟩
  | 44 => ⟨S128, .i1⟩
  | 45 => ⟨S_, .f32⟩
  | 46 => ⟨S128, .f32⟩
  | 47 => ⟨S128, .i1⟩
  | 48 => ⟨S_, .f32⟩
  | 49 => ⟨S_, .i1⟩
  | 50 => ⟨S128, .i1⟩
  | 51 => ⟨S128, .i1⟩
  | 52 => ⟨S128, .i1⟩
  | 53 => ⟨S128, .f32⟩
  | 54 => ⟨S128, .f32⟩
  | 55 => ⟨S128, .f32⟩
  | 56 => ⟨S_, .i32⟩
  | 57 => ⟨S1, .i32⟩
  | 58 => ⟨S128x32768, .f32⟩
  | 59 => ⟨S_, .i32⟩
  | 60 => ⟨S1, .i32⟩
  | 61 => ⟨S128x32768, .f32⟩
  | 62 => ⟨S128x1, .f32⟩
  | 63 => ⟨S128, .f32⟩
  | 64 => ⟨S128x1, .f32⟩
  | 65 => ⟨S128, .f32⟩
  | 66 => ⟨S128, .f32⟩
  | 67 => ⟨S_, .i32⟩
  | 68 => ⟨S_, .f32⟩
  | 69 => ⟨S128, .f32⟩
  | 70 => ⟨S128, .f32⟩
  | 71 => ⟨S_, .f32⟩
  | 72 => ⟨S128, .f32⟩
  | 73 => ⟨S128, .i1⟩
  | 74 => ⟨S_, .f32⟩
  | 75 => ⟨S128, .f32⟩
  | 76 => ⟨S128, .i1⟩
  | 77 => ⟨S_, .f32⟩
  | 78 => ⟨S_, .i1⟩
  | 79 => ⟨S128, .i1⟩
  | 80 => ⟨S128, .i1⟩
  | 81 => ⟨S128, .i1⟩
  | 82 => ⟨S128, .f32⟩
  | 83 => ⟨S128, .f32⟩
  | 84 => ⟨S128, .f32⟩
  | 85 => ⟨S128x1, .f32⟩
  | 86 => ⟨S128, .f32⟩
  | 87 => ⟨S_, .f32⟩
  | 88 => ⟨S128, .f32⟩
  | 89 => ⟨S128, .f32⟩
  | 90 => ⟨S128x1, .f32⟩
  | 91 => ⟨S128, .f32⟩
  | 92 => ⟨S128, .f32⟩
  | 93 => ⟨S_, .i32⟩
  | 94 => ⟨S_, .f32⟩
  | 95 => ⟨S128, .f32⟩
  | 96 => ⟨S128, .f32⟩
  | 97 => ⟨S_, .f32⟩
  | 98 => ⟨S128, .f32⟩
  | 99 => ⟨S128, .i1⟩
  | 100 => ⟨S_, .f32⟩
  | 101 => ⟨S128, .f32⟩
  | 102 => ⟨S128, .i1⟩
  | 103 => ⟨S_, .f32⟩
  | 104 => ⟨S_, .i1⟩
  | 105 => ⟨S128, .i1⟩
  | 106 => ⟨S128, .i1⟩
  | 107 => ⟨S128, .i1⟩
  | 108 => ⟨S128, .f32⟩
  | 109 => ⟨S128, .f32⟩
  | 110 => ⟨S128, .f32⟩
  | 111 => ⟨S_, .i32⟩
  | 112 => ⟨S1, .i32⟩
  | 113 => ⟨S128x32768, .f32⟩
  | 114 => ⟨S_, .i32⟩
  | 115 => ⟨S1, .i32⟩
  | 116 => ⟨S128x32768, .f32⟩
  | 117 => ⟨S128x1, .f32⟩
  | 118 => ⟨S128, .f32⟩
  | 119 => ⟨S128x1, .f32⟩
  | 120 => ⟨S128, .f32⟩
  | 121 => ⟨S128, .f32⟩
  | 122 => ⟨S_, .i32⟩
  | 123 => ⟨S_, .f32⟩
  | 124 => ⟨S128, .f32⟩
  | 125 => ⟨S128, .f32⟩
  | 126 => ⟨S_, .f32⟩
  | 127 => ⟨S128, .f32⟩
  | _ => ⟨S3x128x32768, .f32⟩

abbrev hbmTy0_4 (i : Nat) : BufTy := match i % 128 with
  | 0 => ⟨S128, .i1⟩
  | 1 => ⟨S_, .f32⟩
  | 2 => ⟨S128, .f32⟩
  | 3 => ⟨S128, .i1⟩
  | 4 => ⟨S_, .f32⟩
  | 5 => ⟨S_, .i1⟩
  | 6 => ⟨S128, .i1⟩
  | 7 => ⟨S128, .i1⟩
  | 8 => ⟨S128, .i1⟩
  | 9 => ⟨S128, .f32⟩
  | 10 => ⟨S128, .f32⟩
  | 11 => ⟨S128, .f32⟩
  | 12 => ⟨S128x1, .f32⟩
  | 13 => ⟨S128, .f32⟩
  | 14 => ⟨S_, .f32⟩
  | 15 => ⟨S128, .f32⟩
  | 16 => ⟨S128, .f32⟩
  | 17 => ⟨S128x1, .f32⟩
  | 18 => ⟨S128, .f32⟩
  | 19 => ⟨S128, .f32⟩
  | 20 => ⟨S_, .i32⟩
  | 21 => ⟨S_, .f32⟩
  | 22 => ⟨S128, .f32⟩
  | 23 => ⟨S128, .f32⟩
  | 24 => ⟨S_, .f32⟩
  | 25 => ⟨S128, .f32⟩
  | 26 => ⟨S128, .i1⟩
  | 27 => ⟨S_, .f32⟩
  | 28 => ⟨S128, .f32⟩
  | 29 => ⟨S128, .i1⟩
  | 30 => ⟨S_, .f32⟩
  | 31 => ⟨S_, .i1⟩
  | 32 => ⟨S128, .i1⟩
  | 33 => ⟨S128, .i1⟩
  | 34 => ⟨S128, .i1⟩
  | 35 => ⟨S128, .f32⟩
  | 36 => ⟨S128, .f32⟩
  | 37 => ⟨S128, .f32⟩
  | 38 => ⟨S_, .i32⟩
  | 39 => ⟨S1, .i32⟩
  | 40 => ⟨S128x32768, .f32⟩
  | 41 => ⟨S_, .i32⟩
  | 42 => ⟨S1, .i32⟩
  | 43 => ⟨S128x32768, .f32⟩
  | 44 => ⟨S128x1, .f32⟩
  | 45 => ⟨S128, .f32⟩
  | 46 => ⟨S128x1, .f32⟩
  | 47 => ⟨S128, .f32⟩
  | 48 => ⟨S128, .f32⟩
  | 49 => ⟨S_, .i32⟩
  | 50 => ⟨S_, .f32⟩
  | 51 => ⟨S128, .f32⟩
  | 52 => ⟨S128, .f32⟩
  | 53 => ⟨S_, .f32⟩
  | 54 => ⟨S128, .f32⟩
  | 55 => ⟨S128, .i1⟩
  | 56 => ⟨S_, .f32⟩
  | 57 => ⟨S128, .f32⟩
  | 58 => ⟨S128, .i1⟩
  | 59 => ⟨S_, .f32⟩
  | 60 => ⟨S_, .i1⟩
  | 61 => ⟨S128, .i1⟩
  | 62 => ⟨S128, .i1⟩
  | 63 => ⟨S128, .i1⟩
  | 64 => ⟨S128, .f32⟩
  | 65 => ⟨S128, .f32⟩
  | 66 => ⟨S128, .f32⟩
  | 67 => ⟨S128x1, .f32⟩
  | 68 => ⟨S128, .f32⟩
  | 69 => ⟨S_, .f32⟩
  | 70 => ⟨S128, .f32⟩
  | 71 => ⟨S128, .f32⟩
  | 72 => ⟨S128x1, .f32⟩
  | 73 => ⟨S128, .f32⟩
  | 74 => ⟨S128, .f32⟩
  | 75 => ⟨S_, .i32⟩
  | 76 => ⟨S_, .f32⟩
  | 77 => ⟨S128, .f32⟩
  | 78 => ⟨S128, .f32⟩
  | 79 => ⟨S_, .f32⟩
  | 80 => ⟨S128, .f32⟩
  | 81 => ⟨S128, .i1⟩
  | 82 => ⟨S_, .f32⟩
  | 83 => ⟨S128, .f32⟩
  | 84 => ⟨S128, .i1⟩
  | 85 => ⟨S_, .f32⟩
  | 86 => ⟨S_, .i1⟩
  | 87 => ⟨S128, .i1⟩
  | 88 => ⟨S128, .i1⟩
  | 89 => ⟨S128, .i1⟩
  | 90 => ⟨S128, .f32⟩
  | 91 => ⟨S128, .f32⟩
  | 92 => ⟨S128, .f32⟩
  | 93 => ⟨S_, .i32⟩
  | 94 => ⟨S1, .i32⟩
  | 95 => ⟨S128x32768, .f32⟩
  | 96 => ⟨S_, .i32⟩
  | 97 => ⟨S1, .i32⟩
  | 98 => ⟨S128x32768, .f32⟩
  | 99 => ⟨S128x1, .f32⟩
  | 100 => ⟨S128, .f32⟩
  | 101 => ⟨S128x1, .f32⟩
  | 102 => ⟨S128, .f32⟩
  | 103 => ⟨S128, .f32⟩
  | 104 => ⟨S_, .i32⟩
  | 105 => ⟨S_, .f32⟩
  | 106 => ⟨S128, .f32⟩
  | 107 => ⟨S128, .f32⟩
  | 108 => ⟨S_, .f32⟩
  | 109 => ⟨S128, .f32⟩
  | 110 => ⟨S128, .i1⟩
  | 111 => ⟨S_, .f32⟩
  | 112 => ⟨S128, .f32⟩
  | 113 => ⟨S128, .i1⟩
  | 114 => ⟨S_, .f32⟩
  | 115 => ⟨S_, .i1⟩
  | 116 => ⟨S128, .i1⟩
  | 117 => ⟨S128, .i1⟩
  | 118 => ⟨S128, .i1⟩
  | 119 => ⟨S128, .f32⟩
  | 120 => ⟨S128, .f32⟩
  | 121 => ⟨S128, .f32⟩
  | 122 => ⟨S128x1, .f32⟩
  | 123 => ⟨S128, .f32⟩
  | 124 => ⟨S_, .f32⟩
  | 125 => ⟨S128, .f32⟩
  | 126 => ⟨S128, .f32⟩
  | 127 => ⟨S128x1, .f32⟩
  | _ => ⟨S3x128x32768, .f32⟩

abbrev hbmTy0_5 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S128, .f32⟩
  | 6 => ⟨S_, .f32⟩
  | 7 => ⟨S128, .f32⟩
  | 8 => ⟨S128, .i1⟩
  | 9 => ⟨S_, .f32⟩
  | 10 => ⟨S128, .f32⟩
  | 11 => ⟨S128, .i1⟩
  | 12 => ⟨S_, .f32⟩
  | 13 => ⟨S_, .i1⟩
  | 14 => ⟨S128, .i1⟩
  | 15 => ⟨S128, .i1⟩
  | 16 => ⟨S128, .i1⟩
  | 17 => ⟨S128, .f32⟩
  | 18 => ⟨S128, .f32⟩
  | 19 => ⟨S128, .f32⟩
  | 20 => ⟨S_, .i32⟩
  | 21 => ⟨S1, .i32⟩
  | 22 => ⟨S128x32768, .f32⟩
  | 23 => ⟨S_, .i32⟩
  | 24 => ⟨S1, .i32⟩
  | 25 => ⟨S128x32768, .f32⟩
  | 26 => ⟨S128x1, .f32⟩
  | 27 => ⟨S128, .f32⟩
  | 28 => ⟨S128x1, .f32⟩
  | 29 => ⟨S128, .f32⟩
  | 30 => ⟨S128, .f32⟩
  | 31 => ⟨S_, .i32⟩
  | 32 => ⟨S_, .f32⟩
  | 33 => ⟨S128, .f32⟩
  | 34 => ⟨S128, .f32⟩
  | 35 => ⟨S_, .f32⟩
  | 36 => ⟨S128, .f32⟩
  | 37 => ⟨S128, .i1⟩
  | 38 => ⟨S_, .f32⟩
  | 39 => ⟨S128, .f32⟩
  | 40 => ⟨S128, .i1⟩
  | 41 => ⟨S_, .f32⟩
  | 42 => ⟨S_, .i1⟩
  | 43 => ⟨S128, .i1⟩
  | 44 => ⟨S128, .i1⟩
  | 45 => ⟨S128, .i1⟩
  | 46 => ⟨S128, .f32⟩
  | 47 => ⟨S128, .f32⟩
  | 48 => ⟨S128, .f32⟩
  | 49 => ⟨S128x1, .f32⟩
  | 50 => ⟨S128, .f32⟩
  | 51 => ⟨S_, .f32⟩
  | 52 => ⟨S128, .f32⟩
  | 53 => ⟨S128, .f32⟩
  | 54 => ⟨S128x1, .f32⟩
  | 55 => ⟨S128, .f32⟩
  | 56 => ⟨S128, .f32⟩
  | 57 => ⟨S_, .i32⟩
  | 58 => ⟨S_, .f32⟩
  | 59 => ⟨S128, .f32⟩
  | 60 => ⟨S128, .f32⟩
  | 61 => ⟨S_, .f32⟩
  | 62 => ⟨S128, .f32⟩
  | 63 => ⟨S128, .i1⟩
  | 64 => ⟨S_, .f32⟩
  | 65 => ⟨S128, .f32⟩
  | 66 => ⟨S128, .i1⟩
  | 67 => ⟨S_, .f32⟩
  | 68 => ⟨S_, .i1⟩
  | 69 => ⟨S128, .i1⟩
  | 70 => ⟨S128, .i1⟩
  | 71 => ⟨S128, .i1⟩
  | 72 => ⟨S128, .f32⟩
  | 73 => ⟨S128, .f32⟩
  | 74 => ⟨S128, .f32⟩
  | 75 => ⟨S_, .i32⟩
  | 76 => ⟨S1, .i32⟩
  | 77 => ⟨S128x32768, .f32⟩
  | 78 => ⟨S_, .i32⟩
  | 79 => ⟨S1, .i32⟩
  | 80 => ⟨S128x32768, .f32⟩
  | 81 => ⟨S128x1, .f32⟩
  | 82 => ⟨S128, .f32⟩
  | 83 => ⟨S128x1, .f32⟩
  | 84 => ⟨S128, .f32⟩
  | 85 => ⟨S128, .f32⟩
  | 86 => ⟨S_, .i32⟩
  | 87 => ⟨S_, .f32⟩
  | 88 => ⟨S128, .f32⟩
  | 89 => ⟨S128, .f32⟩
  | 90 => ⟨S_, .f32⟩
  | 91 => ⟨S128, .f32⟩
  | 92 => ⟨S128, .i1⟩
  | 93 => ⟨S_, .f32⟩
  | 94 => ⟨S128, .f32⟩
  | 95 => ⟨S128, .i1⟩
  | 96 => ⟨S_, .f32⟩
  | 97 => ⟨S_, .i1⟩
  | 98 => ⟨S128, .i1⟩
  | 99 => ⟨S128, .i1⟩
  | 100 => ⟨S128, .i1⟩
  | 101 => ⟨S128, .f32⟩
  | 102 => ⟨S128, .f32⟩
  | 103 => ⟨S128, .f32⟩
  | 104 => ⟨S128x1, .f32⟩
  | 105 => ⟨S128, .f32⟩
  | 106 => ⟨S_, .f32⟩
  | 107 => ⟨S128, .f32⟩
  | 108 => ⟨S128, .f32⟩
  | 109 => ⟨S128x1, .f32⟩
  | 110 => ⟨S128, .f32⟩
  | 111 => ⟨S128, .f32⟩
  | 112 => ⟨S_, .i32⟩
  | 113 => ⟨S_, .f32⟩
  | 114 => ⟨S128, .f32⟩
  | 115 => ⟨S128, .f32⟩
  | 116 => ⟨S_, .f32⟩
  | 117 => ⟨S128, .f32⟩
  | 118 => ⟨S128, .i1⟩
  | 119 => ⟨S_, .f32⟩
  | 120 => ⟨S128, .f32⟩
  | 121 => ⟨S128, .i1⟩
  | 122 => ⟨S_, .f32⟩
  | 123 => ⟨S_, .i1⟩
  | 124 => ⟨S128, .i1⟩
  | 125 => ⟨S128, .i1⟩
  | 126 => ⟨S128, .i1⟩
  | 127 => ⟨S128, .f32⟩
  | _ => ⟨S3x128x32768, .f32⟩

abbrev hbmTy0_6 (i : Nat) : BufTy := match i % 128 with
  | 0 => ⟨S128, .f32⟩
  | 1 => ⟨S128, .f32⟩
  | 2 => ⟨S_, .i32⟩
  | 3 => ⟨S1, .i32⟩
  | 4 => ⟨S128x32768, .f32⟩
  | 5 => ⟨S_, .i32⟩
  | 6 => ⟨S1, .i32⟩
  | 7 => ⟨S128x32768, .f32⟩
  | 8 => ⟨S128x1, .f32⟩
  | 9 => ⟨S128, .f32⟩
  | 10 => ⟨S128x1, .f32⟩
  | 11 => ⟨S128, .f32⟩
  | 12 => ⟨S128, .f32⟩
  | 13 => ⟨S_, .i32⟩
  | 14 => ⟨S_, .f32⟩
  | 15 => ⟨S128, .f32⟩
  | 16 => ⟨S128, .f32⟩
  | 17 => ⟨S_, .f32⟩
  | 18 => ⟨S128, .f32⟩
  | 19 => ⟨S128, .i1⟩
  | 20 => ⟨S_, .f32⟩
  | 21 => ⟨S128, .f32⟩
  | 22 => ⟨S128, .i1⟩
  | 23 => ⟨S_, .f32⟩
  | 24 => ⟨S_, .i1⟩
  | 25 => ⟨S128, .i1⟩
  | 26 => ⟨S128, .i1⟩
  | 27 => ⟨S128, .i1⟩
  | 28 => ⟨S128, .f32⟩
  | 29 => ⟨S128, .f32⟩
  | 30 => ⟨S128, .f32⟩
  | 31 => ⟨S128x1, .f32⟩
  | 32 => ⟨S128, .f32⟩
  | 33 => ⟨S_, .f32⟩
  | 34 => ⟨S128, .f32⟩
  | 35 => ⟨S128, .f32⟩
  | 36 => ⟨S128x1, .f32⟩
  | 37 => ⟨S128, .f32⟩
  | 38 => ⟨S128, .f32⟩
  | 39 => ⟨S_, .i32⟩
  | 40 => ⟨S_, .f32⟩
  | 41 => ⟨S128, .f32⟩
  | 42 => ⟨S128, .f32⟩
  | 43 => ⟨S_, .f32⟩
  | 44 => ⟨S128, .f32⟩
  | 45 => ⟨S128, .i1⟩
  | 46 => ⟨S_, .f32⟩
  | 47 => ⟨S128, .f32⟩
  | 48 => ⟨S128, .i1⟩
  | 49 => ⟨S_, .f32⟩
  | 50 => ⟨S_, .i1⟩
  | 51 => ⟨S128, .i1⟩
  | 52 => ⟨S128, .i1⟩
  | 53 => ⟨S128, .i1⟩
  | 54 => ⟨S128, .f32⟩
  | 55 => ⟨S128, .f32⟩
  | 56 => ⟨S128, .f32⟩
  | 57 => ⟨S_, .i32⟩
  | 58 => ⟨S1, .i32⟩
  | 59 => ⟨S128x32768, .f32⟩
  | 60 => ⟨S_, .i32⟩
  | 61 => ⟨S1, .i32⟩
  | 62 => ⟨S128x32768, .f32⟩
  | 63 => ⟨S128x1, .f32⟩
  | 64 => ⟨S128, .f32⟩
  | 65 => ⟨S128x1, .f32⟩
  | 66 => ⟨S128, .f32⟩
  | 67 => ⟨S128, .f32⟩
  | 68 => ⟨S_, .i32⟩
  | 69 => ⟨S_, .f32⟩
  | 70 => ⟨S128, .f32⟩
  | 71 => ⟨S128, .f32⟩
  | 72 => ⟨S_, .f32⟩
  | 73 => ⟨S128, .f32⟩
  | 74 => ⟨S128, .i1⟩
  | 75 => ⟨S_, .f32⟩
  | 76 => ⟨S128, .f32⟩
  | 77 => ⟨S128, .i1⟩
  | 78 => ⟨S_, .f32⟩
  | 79 => ⟨S_, .i1⟩
  | 80 => ⟨S128, .i1⟩
  | 81 => ⟨S128, .i1⟩
  | 82 => ⟨S128, .i1⟩
  | 83 => ⟨S128, .f32⟩
  | 84 => ⟨S128, .f32⟩
  | 85 => ⟨S128, .f32⟩
  | 86 => ⟨S128x1, .f32⟩
  | 87 => ⟨S128, .f32⟩
  | 88 => ⟨S_, .f32⟩
  | 89 => ⟨S128, .f32⟩
  | 90 => ⟨S128, .f32⟩
  | 91 => ⟨S128x1, .f32⟩
  | 92 => ⟨S128, .f32⟩
  | 93 => ⟨S128, .f32⟩
  | 94 => ⟨S_, .i32⟩
  | 95 => ⟨S_, .f32⟩
  | 96 => ⟨S128, .f32⟩
  | 97 => ⟨S128, .f32⟩
  | 98 => ⟨S_, .f32⟩
  | 99 => ⟨S128, .f32⟩
  | 100 => ⟨S128, .i1⟩
  | 101 => ⟨S_, .f32⟩
  | 102 => ⟨S128, .f32⟩
  | 103 => ⟨S128, .i1⟩
  | 104 => ⟨S_, .f32⟩
  | 105 => ⟨S_, .i1⟩
  | 106 => ⟨S128, .i1⟩
  | 107 => ⟨S128, .i1⟩
  | 108 => ⟨S128, .i1⟩
  | 109 => ⟨S128, .f32⟩
  | 110 => ⟨S128, .f32⟩
  | 111 => ⟨S128, .f32⟩
  | 112 => ⟨S_, .i32⟩
  | 113 => ⟨S1, .i32⟩
  | 114 => ⟨S128x32768, .f32⟩
  | 115 => ⟨S_, .i32⟩
  | 116 => ⟨S1, .i32⟩
  | 117 => ⟨S128x32768, .f32⟩
  | 118 => ⟨S_, .f32⟩
  | 119 => ⟨S128x32768, .f32⟩
  | 120 => ⟨S128x32768, .f32⟩
  | 121 => ⟨S1x128x32768, .f32⟩
  | 122 => ⟨S128x32768, .f32⟩
  | 123 => ⟨S1x128x32768, .f32⟩
  | 124 => ⟨S128x32768, .f32⟩
  | _ => ⟨S3x128x32768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S3x128x32768, .f32⟩

abbrev bufTy : (tb : Table) → Fin (tcTables nBuf tb) → BufTy
  | .hbm, ⟨i, _⟩ => hbmTy i
  | _, _ => ⟨S3x128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_cst : Ref sig .tc := ⟨.hbm, 41, rfl⟩
abbrev main_call1_v3 : Ref sig .tc := ⟨.hbm, 42, rfl⟩
abbrev main_call1_v4 : Ref sig .tc := ⟨.hbm, 43, rfl⟩
abbrev main_call1_cst_0 : Ref sig .tc := ⟨.hbm, 44, rfl⟩
abbrev main_call1_v5 : Ref sig .tc := ⟨.hbm, 45, rfl⟩
abbrev main_call1_v6 : Ref sig .tc := ⟨.hbm, 46, rfl⟩
abbrev main_call1_cst_1 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_v17 : Ref sig .tc := ⟨.hbm, 54, rfl⟩
abbrev main_c_2 : Ref sig .tc := ⟨.hbm, 55, rfl⟩
abbrev main_v18 : Ref sig .tc := ⟨.hbm, 56, rfl⟩
abbrev main_v19 : Ref sig .tc := ⟨.hbm, 57, rfl⟩
abbrev main_c_3 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_c_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_cst : Ref sig .tc := ⟨.hbm, 70, rfl⟩
abbrev main_call2_v3 : Ref sig .tc := ⟨.hbm, 71, rfl⟩
abbrev main_call2_v4 : Ref sig .tc := ⟨.hbm, 72, rfl⟩
abbrev main_call2_cst_0 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_5 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_c_6 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_cst : Ref sig .tc := ⟨.hbm, 96, rfl⟩
abbrev main_call3_v3 : Ref sig .tc := ⟨.hbm, 97, rfl⟩
abbrev main_call3_v4 : Ref sig .tc := ⟨.hbm, 98, rfl⟩
abbrev main_call3_cst_0 : Ref sig .tc := ⟨.hbm, 99, rfl⟩
abbrev main_call3_v5 : Ref sig .tc := ⟨.hbm, 100, rfl⟩
abbrev main_call3_v6 : Ref sig .tc := ⟨.hbm, 101, rfl⟩
abbrev main_call3_cst_1 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_v12 : Ref sig .tc := ⟨.hbm, 108, rfl⟩
abbrev main_v35 : Ref sig .tc := ⟨.hbm, 109, rfl⟩
abbrev main_c_7 : Ref sig .tc := ⟨.hbm, 110, rfl⟩
abbrev main_v36 : Ref sig .tc := ⟨.hbm, 111, rfl⟩
abbrev main_v37 : Ref sig .tc := ⟨.hbm, 112, rfl⟩
abbrev main_c_8 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_c_9 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_cst : Ref sig .tc := ⟨.hbm, 125, rfl⟩
abbrev main_call4_v3 : Ref sig .tc := ⟨.hbm, 126, rfl⟩
abbrev main_call4_v4 : Ref sig .tc := ⟨.hbm, 127, rfl⟩
abbrev main_call4_cst_0 : Ref sig .tc := ⟨.hbm, 128, rfl⟩
abbrev main_call4_v5 : Ref sig .tc := ⟨.hbm, 129, rfl⟩
abbrev main_call4_v6 : Ref sig .tc := ⟨.hbm, 130, rfl⟩
abbrev main_call4_cst_1 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_v12 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_cst_10 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_c_11 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_cst : Ref sig .tc := ⟨.hbm, 151, rfl⟩
abbrev main_call5_v3 : Ref sig .tc := ⟨.hbm, 152, rfl⟩
abbrev main_call5_v4 : Ref sig .tc := ⟨.hbm, 153, rfl⟩
abbrev main_call5_cst_0 : Ref sig .tc := ⟨.hbm, 154, rfl⟩
abbrev main_call5_v5 : Ref sig .tc := ⟨.hbm, 155, rfl⟩
abbrev main_call5_v6 : Ref sig .tc := ⟨.hbm, 156, rfl⟩
abbrev main_call5_cst_1 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_v12 : Ref sig .tc := ⟨.hbm, 163, rfl⟩
abbrev main_v53 : Ref sig .tc := ⟨.hbm, 164, rfl⟩
abbrev main_c_12 : Ref sig .tc := ⟨.hbm, 165, rfl⟩
abbrev main_v54 : Ref sig .tc := ⟨.hbm, 166, rfl⟩
abbrev main_v55 : Ref sig .tc := ⟨.hbm, 167, rfl⟩
abbrev main_c_13 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_c_14 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_call6_cst : Ref sig .tc := ⟨.hbm, 180, rfl⟩
abbrev main_call6_v3 : Ref sig .tc := ⟨.hbm, 181, rfl⟩
abbrev main_call6_v4 : Ref sig .tc := ⟨.hbm, 182, rfl⟩
abbrev main_call6_cst_0 : Ref sig .tc := ⟨.hbm, 183, rfl⟩
abbrev main_call6_v5 : Ref sig .tc := ⟨.hbm, 184, rfl⟩
abbrev main_call6_v6 : Ref sig .tc := ⟨.hbm, 185, rfl⟩
abbrev main_call6_cst_1 : Ref sig .tc := ⟨.hbm, 186, rfl⟩
abbrev main_call6_v7 : Ref sig .tc := ⟨.hbm, 187, rfl⟩
abbrev main_call6_v8 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_v12 : Ref sig .tc := ⟨.hbm, 192, rfl⟩
abbrev main_v63 : Ref sig .tc := ⟨.hbm, 193, rfl⟩
abbrev main_v64 : Ref sig .tc := ⟨.hbm, 194, rfl⟩
abbrev main_v65 : Ref sig .tc := ⟨.hbm, 195, rfl⟩
abbrev main_cst_15 : Ref sig .tc := ⟨.hbm, 196, rfl⟩
abbrev main_v66 : Ref sig .tc := ⟨.hbm, 197, rfl⟩
abbrev main_v67 : Ref sig .tc := ⟨.hbm, 198, rfl⟩
abbrev main_v68 : Ref sig .tc := ⟨.hbm, 199, rfl⟩
abbrev main_v69 : Ref sig .tc := ⟨.hbm, 200, rfl⟩
abbrev main_v70 : Ref sig .tc := ⟨.hbm, 201, rfl⟩
abbrev main_c_16 : Ref sig .tc := ⟨.hbm, 202, rfl⟩
abbrev main_call7_v0 : Ref sig .tc := ⟨.hbm, 203, rfl⟩
abbrev main_call7_v1 : Ref sig .tc := ⟨.hbm, 204, rfl⟩
abbrev main_call7_v2 : Ref sig .tc := ⟨.hbm, 205, rfl⟩
abbrev main_call7_cst : Ref sig .tc := ⟨.hbm, 206, rfl⟩
abbrev main_call7_v3 : Ref sig .tc := ⟨.hbm, 207, rfl⟩
abbrev main_call7_v4 : Ref sig .tc := ⟨.hbm, 208, rfl⟩
abbrev main_call7_cst_0 : Ref sig .tc := ⟨.hbm, 209, rfl⟩
abbrev main_call7_v5 : Ref sig .tc := ⟨.hbm, 210, rfl⟩
abbrev main_call7_v6 : Ref sig .tc := ⟨.hbm, 211, rfl⟩
abbrev main_call7_cst_1 : Ref sig .tc := ⟨.hbm, 212, rfl⟩
abbrev main_call7_v7 : Ref sig .tc := ⟨.hbm, 213, rfl⟩
abbrev main_call7_v8 : Ref sig .tc := ⟨.hbm, 214, rfl⟩
abbrev main_call7_v9 : Ref sig .tc := ⟨.hbm, 215, rfl⟩
abbrev main_call7_v10 : Ref sig .tc := ⟨.hbm, 216, rfl⟩
abbrev main_call7_v11 : Ref sig .tc := ⟨.hbm, 217, rfl⟩
abbrev main_call7_v12 : Ref sig .tc := ⟨.hbm, 218, rfl⟩
abbrev main_v71 : Ref sig .tc := ⟨.hbm, 219, rfl⟩
abbrev main_c_17 : Ref sig .tc := ⟨.hbm, 220, rfl⟩
abbrev main_v72 : Ref sig .tc := ⟨.hbm, 221, rfl⟩
abbrev main_v73 : Ref sig .tc := ⟨.hbm, 222, rfl⟩
abbrev main_c_18 : Ref sig .tc := ⟨.hbm, 223, rfl⟩
abbrev main_v74 : Ref sig .tc := ⟨.hbm, 224, rfl⟩
abbrev main_v75 : Ref sig .tc := ⟨.hbm, 225, rfl⟩
abbrev main_v76 : Ref sig .tc := ⟨.hbm, 226, rfl⟩
abbrev main_v77 : Ref sig .tc := ⟨.hbm, 227, rfl⟩
abbrev main_v78 : Ref sig .tc := ⟨.hbm, 228, rfl⟩
abbrev main_v79 : Ref sig .tc := ⟨.hbm, 229, rfl⟩
abbrev main_v80 : Ref sig .tc := ⟨.hbm, 230, rfl⟩
abbrev main_c_19 : Ref sig .tc := ⟨.hbm, 231, rfl⟩
abbrev main_call8_v0 : Ref sig .tc := ⟨.hbm, 232, rfl⟩
abbrev main_call8_v1 : Ref sig .tc := ⟨.hbm, 233, rfl⟩
abbrev main_call8_v2 : Ref sig .tc := ⟨.hbm, 234, rfl⟩
abbrev main_call8_cst : Ref sig .tc := ⟨.hbm, 235, rfl⟩
abbrev main_call8_v3 : Ref sig .tc := ⟨.hbm, 236, rfl⟩
abbrev main_call8_v4 : Ref sig .tc := ⟨.hbm, 237, rfl⟩
abbrev main_call8_cst_0 : Ref sig .tc := ⟨.hbm, 238, rfl⟩
abbrev main_call8_v5 : Ref sig .tc := ⟨.hbm, 239, rfl⟩
abbrev main_call8_v6 : Ref sig .tc := ⟨.hbm, 240, rfl⟩
abbrev main_call8_cst_1 : Ref sig .tc := ⟨.hbm, 241, rfl⟩
abbrev main_call8_v7 : Ref sig .tc := ⟨.hbm, 242, rfl⟩
abbrev main_call8_v8 : Ref sig .tc := ⟨.hbm, 243, rfl⟩
abbrev main_call8_v9 : Ref sig .tc := ⟨.hbm, 244, rfl⟩
abbrev main_call8_v10 : Ref sig .tc := ⟨.hbm, 245, rfl⟩
abbrev main_call8_v11 : Ref sig .tc := ⟨.hbm, 246, rfl⟩
abbrev main_call8_v12 : Ref sig .tc := ⟨.hbm, 247, rfl⟩
abbrev main_v81 : Ref sig .tc := ⟨.hbm, 248, rfl⟩
abbrev main_v82 : Ref sig .tc := ⟨.hbm, 249, rfl⟩
abbrev main_v83 : Ref sig .tc := ⟨.hbm, 250, rfl⟩
abbrev main_cst_20 : Ref sig .tc := ⟨.hbm, 251, rfl⟩
abbrev main_v84 : Ref sig .tc := ⟨.hbm, 252, rfl⟩
abbrev main_v85 : Ref sig .tc := ⟨.hbm, 253, rfl⟩
abbrev main_v86 : Ref sig .tc := ⟨.hbm, 254, rfl⟩
abbrev main_v87 : Ref sig .tc := ⟨.hbm, 255, rfl⟩
abbrev main_v88 : Ref sig .tc := ⟨.hbm, 256, rfl⟩
abbrev main_c_21 : Ref sig .tc := ⟨.hbm, 257, rfl⟩
abbrev main_call9_v0 : Ref sig .tc := ⟨.hbm, 258, rfl⟩
abbrev main_call9_v1 : Ref sig .tc := ⟨.hbm, 259, rfl⟩
abbrev main_call9_v2 : Ref sig .tc := ⟨.hbm, 260, rfl⟩
abbrev main_call9_cst : Ref sig .tc := ⟨.hbm, 261, rfl⟩
abbrev main_call9_v3 : Ref sig .tc := ⟨.hbm, 262, rfl⟩
abbrev main_call9_v4 : Ref sig .tc := ⟨.hbm, 263, rfl⟩
abbrev main_call9_cst_0 : Ref sig .tc := ⟨.hbm, 264, rfl⟩
abbrev main_call9_v5 : Ref sig .tc := ⟨.hbm, 265, rfl⟩
abbrev main_call9_v6 : Ref sig .tc := ⟨.hbm, 266, rfl⟩
abbrev main_call9_cst_1 : Ref sig .tc := ⟨.hbm, 267, rfl⟩
abbrev main_call9_v7 : Ref sig .tc := ⟨.hbm, 268, rfl⟩
abbrev main_call9_v8 : Ref sig .tc := ⟨.hbm, 269, rfl⟩
abbrev main_call9_v9 : Ref sig .tc := ⟨.hbm, 270, rfl⟩
abbrev main_call9_v10 : Ref sig .tc := ⟨.hbm, 271, rfl⟩
abbrev main_call9_v11 : Ref sig .tc := ⟨.hbm, 272, rfl⟩
abbrev main_call9_v12 : Ref sig .tc := ⟨.hbm, 273, rfl⟩
abbrev main_v89 : Ref sig .tc := ⟨.hbm, 274, rfl⟩
abbrev main_c_22 : Ref sig .tc := ⟨.hbm, 275, rfl⟩
abbrev main_v90 : Ref sig .tc := ⟨.hbm, 276, rfl⟩
abbrev main_v91 : Ref sig .tc := ⟨.hbm, 277, rfl⟩
abbrev main_c_23 : Ref sig .tc := ⟨.hbm, 278, rfl⟩
abbrev main_v92 : Ref sig .tc := ⟨.hbm, 279, rfl⟩
abbrev main_v93 : Ref sig .tc := ⟨.hbm, 280, rfl⟩
abbrev main_v94 : Ref sig .tc := ⟨.hbm, 281, rfl⟩
abbrev main_v95 : Ref sig .tc := ⟨.hbm, 282, rfl⟩
abbrev main_v96 : Ref sig .tc := ⟨.hbm, 283, rfl⟩
abbrev main_v97 : Ref sig .tc := ⟨.hbm, 284, rfl⟩
abbrev main_v98 : Ref sig .tc := ⟨.hbm, 285, rfl⟩
abbrev main_c_24 : Ref sig .tc := ⟨.hbm, 286, rfl⟩
abbrev main_call10_v0 : Ref sig .tc := ⟨.hbm, 287, rfl⟩
abbrev main_call10_v1 : Ref sig .tc := ⟨.hbm, 288, rfl⟩
abbrev main_call10_v2 : Ref sig .tc := ⟨.hbm, 289, rfl⟩
abbrev main_call10_cst : Ref sig .tc := ⟨.hbm, 290, rfl⟩
abbrev main_call10_v3 : Ref sig .tc := ⟨.hbm, 291, rfl⟩
abbrev main_call10_v4 : Ref sig .tc := ⟨.hbm, 292, rfl⟩
abbrev main_call10_cst_0 : Ref sig .tc := ⟨.hbm, 293, rfl⟩
abbrev main_call10_v5 : Ref sig .tc := ⟨.hbm, 294, rfl⟩
abbrev main_call10_v6 : Ref sig .tc := ⟨.hbm, 295, rfl⟩
abbrev main_call10_cst_1 : Ref sig .tc := ⟨.hbm, 296, rfl⟩
abbrev main_call10_v7 : Ref sig .tc := ⟨.hbm, 297, rfl⟩
abbrev main_call10_v8 : Ref sig .tc := ⟨.hbm, 298, rfl⟩
abbrev main_call10_v9 : Ref sig .tc := ⟨.hbm, 299, rfl⟩
abbrev main_call10_v10 : Ref sig .tc := ⟨.hbm, 300, rfl⟩
abbrev main_call10_v11 : Ref sig .tc := ⟨.hbm, 301, rfl⟩
abbrev main_call10_v12 : Ref sig .tc := ⟨.hbm, 302, rfl⟩
abbrev main_v99 : Ref sig .tc := ⟨.hbm, 303, rfl⟩
abbrev main_v100 : Ref sig .tc := ⟨.hbm, 304, rfl⟩
abbrev main_v101 : Ref sig .tc := ⟨.hbm, 305, rfl⟩
abbrev main_cst_25 : Ref sig .tc := ⟨.hbm, 306, rfl⟩
abbrev main_v102 : Ref sig .tc := ⟨.hbm, 307, rfl⟩
abbrev main_v103 : Ref sig .tc := ⟨.hbm, 308, rfl⟩
abbrev main_v104 : Ref sig .tc := ⟨.hbm, 309, rfl⟩
abbrev main_v105 : Ref sig .tc := ⟨.hbm, 310, rfl⟩
abbrev main_v106 : Ref sig .tc := ⟨.hbm, 311, rfl⟩
abbrev main_c_26 : Ref sig .tc := ⟨.hbm, 312, rfl⟩
abbrev main_call11_v0 : Ref sig .tc := ⟨.hbm, 313, rfl⟩
abbrev main_call11_v1 : Ref sig .tc := ⟨.hbm, 314, rfl⟩
abbrev main_call11_v2 : Ref sig .tc := ⟨.hbm, 315, rfl⟩
abbrev main_call11_cst : Ref sig .tc := ⟨.hbm, 316, rfl⟩
abbrev main_call11_v3 : Ref sig .tc := ⟨.hbm, 317, rfl⟩
abbrev main_call11_v4 : Ref sig .tc := ⟨.hbm, 318, rfl⟩
abbrev main_call11_cst_0 : Ref sig .tc := ⟨.hbm, 319, rfl⟩
abbrev main_call11_v5 : Ref sig .tc := ⟨.hbm, 320, rfl⟩
abbrev main_call11_v6 : Ref sig .tc := ⟨.hbm, 321, rfl⟩
abbrev main_call11_cst_1 : Ref sig .tc := ⟨.hbm, 322, rfl⟩
abbrev main_call11_v7 : Ref sig .tc := ⟨.hbm, 323, rfl⟩
abbrev main_call11_v8 : Ref sig .tc := ⟨.hbm, 324, rfl⟩
abbrev main_call11_v9 : Ref sig .tc := ⟨.hbm, 325, rfl⟩
abbrev main_call11_v10 : Ref sig .tc := ⟨.hbm, 326, rfl⟩
abbrev main_call11_v11 : Ref sig .tc := ⟨.hbm, 327, rfl⟩
abbrev main_call11_v12 : Ref sig .tc := ⟨.hbm, 328, rfl⟩
abbrev main_v107 : Ref sig .tc := ⟨.hbm, 329, rfl⟩
abbrev main_c_27 : Ref sig .tc := ⟨.hbm, 330, rfl⟩
abbrev main_v108 : Ref sig .tc := ⟨.hbm, 331, rfl⟩
abbrev main_v109 : Ref sig .tc := ⟨.hbm, 332, rfl⟩
abbrev main_c_28 : Ref sig .tc := ⟨.hbm, 333, rfl⟩
abbrev main_v110 : Ref sig .tc := ⟨.hbm, 334, rfl⟩
abbrev main_v111 : Ref sig .tc := ⟨.hbm, 335, rfl⟩
abbrev main_v112 : Ref sig .tc := ⟨.hbm, 336, rfl⟩
abbrev main_v113 : Ref sig .tc := ⟨.hbm, 337, rfl⟩
abbrev main_v114 : Ref sig .tc := ⟨.hbm, 338, rfl⟩
abbrev main_v115 : Ref sig .tc := ⟨.hbm, 339, rfl⟩
abbrev main_v116 : Ref sig .tc := ⟨.hbm, 340, rfl⟩
abbrev main_c_29 : Ref sig .tc := ⟨.hbm, 341, rfl⟩
abbrev main_call12_v0 : Ref sig .tc := ⟨.hbm, 342, rfl⟩
abbrev main_call12_v1 : Ref sig .tc := ⟨.hbm, 343, rfl⟩
abbrev main_call12_v2 : Ref sig .tc := ⟨.hbm, 344, rfl⟩
abbrev main_call12_cst : Ref sig .tc := ⟨.hbm, 345, rfl⟩
abbrev main_call12_v3 : Ref sig .tc := ⟨.hbm, 346, rfl⟩
abbrev main_call12_v4 : Ref sig .tc := ⟨.hbm, 347, rfl⟩
abbrev main_call12_cst_0 : Ref sig .tc := ⟨.hbm, 348, rfl⟩
abbrev main_call12_v5 : Ref sig .tc := ⟨.hbm, 349, rfl⟩
abbrev main_call12_v6 : Ref sig .tc := ⟨.hbm, 350, rfl⟩
abbrev main_call12_cst_1 : Ref sig .tc := ⟨.hbm, 351, rfl⟩
abbrev main_call12_v7 : Ref sig .tc := ⟨.hbm, 352, rfl⟩
abbrev main_call12_v8 : Ref sig .tc := ⟨.hbm, 353, rfl⟩
abbrev main_call12_v9 : Ref sig .tc := ⟨.hbm, 354, rfl⟩
abbrev main_call12_v10 : Ref sig .tc := ⟨.hbm, 355, rfl⟩
abbrev main_call12_v11 : Ref sig .tc := ⟨.hbm, 356, rfl⟩
abbrev main_call12_v12 : Ref sig .tc := ⟨.hbm, 357, rfl⟩
abbrev main_v117 : Ref sig .tc := ⟨.hbm, 358, rfl⟩
abbrev main_v118 : Ref sig .tc := ⟨.hbm, 359, rfl⟩
abbrev main_v119 : Ref sig .tc := ⟨.hbm, 360, rfl⟩
abbrev main_cst_30 : Ref sig .tc := ⟨.hbm, 361, rfl⟩
abbrev main_v120 : Ref sig .tc := ⟨.hbm, 362, rfl⟩
abbrev main_v121 : Ref sig .tc := ⟨.hbm, 363, rfl⟩
abbrev main_v122 : Ref sig .tc := ⟨.hbm, 364, rfl⟩
abbrev main_v123 : Ref sig .tc := ⟨.hbm, 365, rfl⟩
abbrev main_v124 : Ref sig .tc := ⟨.hbm, 366, rfl⟩
abbrev main_c_31 : Ref sig .tc := ⟨.hbm, 367, rfl⟩
abbrev main_call13_v0 : Ref sig .tc := ⟨.hbm, 368, rfl⟩
abbrev main_call13_v1 : Ref sig .tc := ⟨.hbm, 369, rfl⟩
abbrev main_call13_v2 : Ref sig .tc := ⟨.hbm, 370, rfl⟩
abbrev main_call13_cst : Ref sig .tc := ⟨.hbm, 371, rfl⟩
abbrev main_call13_v3 : Ref sig .tc := ⟨.hbm, 372, rfl⟩
abbrev main_call13_v4 : Ref sig .tc := ⟨.hbm, 373, rfl⟩
abbrev main_call13_cst_0 : Ref sig .tc := ⟨.hbm, 374, rfl⟩
abbrev main_call13_v5 : Ref sig .tc := ⟨.hbm, 375, rfl⟩
abbrev main_call13_v6 : Ref sig .tc := ⟨.hbm, 376, rfl⟩
abbrev main_call13_cst_1 : Ref sig .tc := ⟨.hbm, 377, rfl⟩
abbrev main_call13_v7 : Ref sig .tc := ⟨.hbm, 378, rfl⟩
abbrev main_call13_v8 : Ref sig .tc := ⟨.hbm, 379, rfl⟩
abbrev main_call13_v9 : Ref sig .tc := ⟨.hbm, 380, rfl⟩
abbrev main_call13_v10 : Ref sig .tc := ⟨.hbm, 381, rfl⟩
abbrev main_call13_v11 : Ref sig .tc := ⟨.hbm, 382, rfl⟩
abbrev main_call13_v12 : Ref sig .tc := ⟨.hbm, 383, rfl⟩
abbrev main_v125 : Ref sig .tc := ⟨.hbm, 384, rfl⟩
abbrev main_c_32 : Ref sig .tc := ⟨.hbm, 385, rfl⟩
abbrev main_v126 : Ref sig .tc := ⟨.hbm, 386, rfl⟩
abbrev main_v127 : Ref sig .tc := ⟨.hbm, 387, rfl⟩
abbrev main_c_33 : Ref sig .tc := ⟨.hbm, 388, rfl⟩
abbrev main_v128 : Ref sig .tc := ⟨.hbm, 389, rfl⟩
abbrev main_v129 : Ref sig .tc := ⟨.hbm, 390, rfl⟩
abbrev main_v130 : Ref sig .tc := ⟨.hbm, 391, rfl⟩
abbrev main_v131 : Ref sig .tc := ⟨.hbm, 392, rfl⟩
abbrev main_v132 : Ref sig .tc := ⟨.hbm, 393, rfl⟩
abbrev main_v133 : Ref sig .tc := ⟨.hbm, 394, rfl⟩
abbrev main_v134 : Ref sig .tc := ⟨.hbm, 395, rfl⟩
abbrev main_c_34 : Ref sig .tc := ⟨.hbm, 396, rfl⟩
abbrev main_call14_v0 : Ref sig .tc := ⟨.hbm, 397, rfl⟩
abbrev main_call14_v1 : Ref sig .tc := ⟨.hbm, 398, rfl⟩
abbrev main_call14_v2 : Ref sig .tc := ⟨.hbm, 399, rfl⟩
abbrev main_call14_cst : Ref sig .tc := ⟨.hbm, 400, rfl⟩
abbrev main_call14_v3 : Ref sig .tc := ⟨.hbm, 401, rfl⟩
abbrev main_call14_v4 : Ref sig .tc := ⟨.hbm, 402, rfl⟩
abbrev main_call14_cst_0 : Ref sig .tc := ⟨.hbm, 403, rfl⟩
abbrev main_call14_v5 : Ref sig .tc := ⟨.hbm, 404, rfl⟩
abbrev main_call14_v6 : Ref sig .tc := ⟨.hbm, 405, rfl⟩
abbrev main_call14_cst_1 : Ref sig .tc := ⟨.hbm, 406, rfl⟩
abbrev main_call14_v7 : Ref sig .tc := ⟨.hbm, 407, rfl⟩
abbrev main_call14_v8 : Ref sig .tc := ⟨.hbm, 408, rfl⟩
abbrev main_call14_v9 : Ref sig .tc := ⟨.hbm, 409, rfl⟩
abbrev main_call14_v10 : Ref sig .tc := ⟨.hbm, 410, rfl⟩
abbrev main_call14_v11 : Ref sig .tc := ⟨.hbm, 411, rfl⟩
abbrev main_call14_v12 : Ref sig .tc := ⟨.hbm, 412, rfl⟩
abbrev main_v135 : Ref sig .tc := ⟨.hbm, 413, rfl⟩
abbrev main_v136 : Ref sig .tc := ⟨.hbm, 414, rfl⟩
abbrev main_v137 : Ref sig .tc := ⟨.hbm, 415, rfl⟩
abbrev main_cst_35 : Ref sig .tc := ⟨.hbm, 416, rfl⟩
abbrev main_v138 : Ref sig .tc := ⟨.hbm, 417, rfl⟩
abbrev main_v139 : Ref sig .tc := ⟨.hbm, 418, rfl⟩
abbrev main_v140 : Ref sig .tc := ⟨.hbm, 419, rfl⟩
abbrev main_v141 : Ref sig .tc := ⟨.hbm, 420, rfl⟩
abbrev main_v142 : Ref sig .tc := ⟨.hbm, 421, rfl⟩
abbrev main_c_36 : Ref sig .tc := ⟨.hbm, 422, rfl⟩
abbrev main_call15_v0 : Ref sig .tc := ⟨.hbm, 423, rfl⟩
abbrev main_call15_v1 : Ref sig .tc := ⟨.hbm, 424, rfl⟩
abbrev main_call15_v2 : Ref sig .tc := ⟨.hbm, 425, rfl⟩
abbrev main_call15_cst : Ref sig .tc := ⟨.hbm, 426, rfl⟩
abbrev main_call15_v3 : Ref sig .tc := ⟨.hbm, 427, rfl⟩
abbrev main_call15_v4 : Ref sig .tc := ⟨.hbm, 428, rfl⟩
abbrev main_call15_cst_0 : Ref sig .tc := ⟨.hbm, 429, rfl⟩
abbrev main_call15_v5 : Ref sig .tc := ⟨.hbm, 430, rfl⟩
abbrev main_call15_v6 : Ref sig .tc := ⟨.hbm, 431, rfl⟩
abbrev main_call15_cst_1 : Ref sig .tc := ⟨.hbm, 432, rfl⟩
abbrev main_call15_v7 : Ref sig .tc := ⟨.hbm, 433, rfl⟩
abbrev main_call15_v8 : Ref sig .tc := ⟨.hbm, 434, rfl⟩
abbrev main_call15_v9 : Ref sig .tc := ⟨.hbm, 435, rfl⟩
abbrev main_call15_v10 : Ref sig .tc := ⟨.hbm, 436, rfl⟩
abbrev main_call15_v11 : Ref sig .tc := ⟨.hbm, 437, rfl⟩
abbrev main_call15_v12 : Ref sig .tc := ⟨.hbm, 438, rfl⟩
abbrev main_v143 : Ref sig .tc := ⟨.hbm, 439, rfl⟩
abbrev main_c_37 : Ref sig .tc := ⟨.hbm, 440, rfl⟩
abbrev main_v144 : Ref sig .tc := ⟨.hbm, 441, rfl⟩
abbrev main_v145 : Ref sig .tc := ⟨.hbm, 442, rfl⟩
abbrev main_c_38 : Ref sig .tc := ⟨.hbm, 443, rfl⟩
abbrev main_v146 : Ref sig .tc := ⟨.hbm, 444, rfl⟩
abbrev main_v147 : Ref sig .tc := ⟨.hbm, 445, rfl⟩
abbrev main_v148 : Ref sig .tc := ⟨.hbm, 446, rfl⟩
abbrev main_v149 : Ref sig .tc := ⟨.hbm, 447, rfl⟩
abbrev main_v150 : Ref sig .tc := ⟨.hbm, 448, rfl⟩
abbrev main_v151 : Ref sig .tc := ⟨.hbm, 449, rfl⟩
abbrev main_v152 : Ref sig .tc := ⟨.hbm, 450, rfl⟩
abbrev main_c_39 : Ref sig .tc := ⟨.hbm, 451, rfl⟩
abbrev main_call16_v0 : Ref sig .tc := ⟨.hbm, 452, rfl⟩
abbrev main_call16_v1 : Ref sig .tc := ⟨.hbm, 453, rfl⟩
abbrev main_call16_v2 : Ref sig .tc := ⟨.hbm, 454, rfl⟩
abbrev main_call16_cst : Ref sig .tc := ⟨.hbm, 455, rfl⟩
abbrev main_call16_v3 : Ref sig .tc := ⟨.hbm, 456, rfl⟩
abbrev main_call16_v4 : Ref sig .tc := ⟨.hbm, 457, rfl⟩
abbrev main_call16_cst_0 : Ref sig .tc := ⟨.hbm, 458, rfl⟩
abbrev main_call16_v5 : Ref sig .tc := ⟨.hbm, 459, rfl⟩
abbrev main_call16_v6 : Ref sig .tc := ⟨.hbm, 460, rfl⟩
abbrev main_call16_cst_1 : Ref sig .tc := ⟨.hbm, 461, rfl⟩
abbrev main_call16_v7 : Ref sig .tc := ⟨.hbm, 462, rfl⟩
abbrev main_call16_v8 : Ref sig .tc := ⟨.hbm, 463, rfl⟩
abbrev main_call16_v9 : Ref sig .tc := ⟨.hbm, 464, rfl⟩
abbrev main_call16_v10 : Ref sig .tc := ⟨.hbm, 465, rfl⟩
abbrev main_call16_v11 : Ref sig .tc := ⟨.hbm, 466, rfl⟩
abbrev main_call16_v12 : Ref sig .tc := ⟨.hbm, 467, rfl⟩
abbrev main_v153 : Ref sig .tc := ⟨.hbm, 468, rfl⟩
abbrev main_v154 : Ref sig .tc := ⟨.hbm, 469, rfl⟩
abbrev main_v155 : Ref sig .tc := ⟨.hbm, 470, rfl⟩
abbrev main_cst_40 : Ref sig .tc := ⟨.hbm, 471, rfl⟩
abbrev main_v156 : Ref sig .tc := ⟨.hbm, 472, rfl⟩
abbrev main_v157 : Ref sig .tc := ⟨.hbm, 473, rfl⟩
abbrev main_v158 : Ref sig .tc := ⟨.hbm, 474, rfl⟩
abbrev main_v159 : Ref sig .tc := ⟨.hbm, 475, rfl⟩
abbrev main_v160 : Ref sig .tc := ⟨.hbm, 476, rfl⟩
abbrev main_c_41 : Ref sig .tc := ⟨.hbm, 477, rfl⟩
abbrev main_call17_v0 : Ref sig .tc := ⟨.hbm, 478, rfl⟩
abbrev main_call17_v1 : Ref sig .tc := ⟨.hbm, 479, rfl⟩
abbrev main_call17_v2 : Ref sig .tc := ⟨.hbm, 480, rfl⟩
abbrev main_call17_cst : Ref sig .tc := ⟨.hbm, 481, rfl⟩
abbrev main_call17_v3 : Ref sig .tc := ⟨.hbm, 482, rfl⟩
abbrev main_call17_v4 : Ref sig .tc := ⟨.hbm, 483, rfl⟩
abbrev main_call17_cst_0 : Ref sig .tc := ⟨.hbm, 484, rfl⟩
abbrev main_call17_v5 : Ref sig .tc := ⟨.hbm, 485, rfl⟩
abbrev main_call17_v6 : Ref sig .tc := ⟨.hbm, 486, rfl⟩
abbrev main_call17_cst_1 : Ref sig .tc := ⟨.hbm, 487, rfl⟩
abbrev main_call17_v7 : Ref sig .tc := ⟨.hbm, 488, rfl⟩
abbrev main_call17_v8 : Ref sig .tc := ⟨.hbm, 489, rfl⟩
abbrev main_call17_v9 : Ref sig .tc := ⟨.hbm, 490, rfl⟩
abbrev main_call17_v10 : Ref sig .tc := ⟨.hbm, 491, rfl⟩
abbrev main_call17_v11 : Ref sig .tc := ⟨.hbm, 492, rfl⟩
abbrev main_call17_v12 : Ref sig .tc := ⟨.hbm, 493, rfl⟩
abbrev main_v161 : Ref sig .tc := ⟨.hbm, 494, rfl⟩
abbrev main_c_42 : Ref sig .tc := ⟨.hbm, 495, rfl⟩
abbrev main_v162 : Ref sig .tc := ⟨.hbm, 496, rfl⟩
abbrev main_v163 : Ref sig .tc := ⟨.hbm, 497, rfl⟩
abbrev main_c_43 : Ref sig .tc := ⟨.hbm, 498, rfl⟩
abbrev main_v164 : Ref sig .tc := ⟨.hbm, 499, rfl⟩
abbrev main_v165 : Ref sig .tc := ⟨.hbm, 500, rfl⟩
abbrev main_v166 : Ref sig .tc := ⟨.hbm, 501, rfl⟩
abbrev main_v167 : Ref sig .tc := ⟨.hbm, 502, rfl⟩
abbrev main_v168 : Ref sig .tc := ⟨.hbm, 503, rfl⟩
abbrev main_v169 : Ref sig .tc := ⟨.hbm, 504, rfl⟩
abbrev main_v170 : Ref sig .tc := ⟨.hbm, 505, rfl⟩
abbrev main_c_44 : Ref sig .tc := ⟨.hbm, 506, rfl⟩
abbrev main_call18_v0 : Ref sig .tc := ⟨.hbm, 507, rfl⟩
abbrev main_call18_v1 : Ref sig .tc := ⟨.hbm, 508, rfl⟩
abbrev main_call18_v2 : Ref sig .tc := ⟨.hbm, 509, rfl⟩
abbrev main_call18_cst : Ref sig .tc := ⟨.hbm, 510, rfl⟩
abbrev main_call18_v3 : Ref sig .tc := ⟨.hbm, 511, rfl⟩
abbrev main_call18_v4 : Ref sig .tc := ⟨.hbm, 512, rfl⟩
abbrev main_call18_cst_0 : Ref sig .tc := ⟨.hbm, 513, rfl⟩
abbrev main_call18_v5 : Ref sig .tc := ⟨.hbm, 514, rfl⟩
abbrev main_call18_v6 : Ref sig .tc := ⟨.hbm, 515, rfl⟩
abbrev main_call18_cst_1 : Ref sig .tc := ⟨.hbm, 516, rfl⟩
abbrev main_call18_v7 : Ref sig .tc := ⟨.hbm, 517, rfl⟩
abbrev main_call18_v8 : Ref sig .tc := ⟨.hbm, 518, rfl⟩
abbrev main_call18_v9 : Ref sig .tc := ⟨.hbm, 519, rfl⟩
abbrev main_call18_v10 : Ref sig .tc := ⟨.hbm, 520, rfl⟩
abbrev main_call18_v11 : Ref sig .tc := ⟨.hbm, 521, rfl⟩
abbrev main_call18_v12 : Ref sig .tc := ⟨.hbm, 522, rfl⟩
abbrev main_v171 : Ref sig .tc := ⟨.hbm, 523, rfl⟩
abbrev main_v172 : Ref sig .tc := ⟨.hbm, 524, rfl⟩
abbrev main_v173 : Ref sig .tc := ⟨.hbm, 525, rfl⟩
abbrev main_cst_45 : Ref sig .tc := ⟨.hbm, 526, rfl⟩
abbrev main_v174 : Ref sig .tc := ⟨.hbm, 527, rfl⟩
abbrev main_v175 : Ref sig .tc := ⟨.hbm, 528, rfl⟩
abbrev main_v176 : Ref sig .tc := ⟨.hbm, 529, rfl⟩
abbrev main_v177 : Ref sig .tc := ⟨.hbm, 530, rfl⟩
abbrev main_v178 : Ref sig .tc := ⟨.hbm, 531, rfl⟩
abbrev main_c_46 : Ref sig .tc := ⟨.hbm, 532, rfl⟩
abbrev main_call19_v0 : Ref sig .tc := ⟨.hbm, 533, rfl⟩
abbrev main_call19_v1 : Ref sig .tc := ⟨.hbm, 534, rfl⟩
abbrev main_call19_v2 : Ref sig .tc := ⟨.hbm, 535, rfl⟩
abbrev main_call19_cst : Ref sig .tc := ⟨.hbm, 536, rfl⟩
abbrev main_call19_v3 : Ref sig .tc := ⟨.hbm, 537, rfl⟩
abbrev main_call19_v4 : Ref sig .tc := ⟨.hbm, 538, rfl⟩
abbrev main_call19_cst_0 : Ref sig .tc := ⟨.hbm, 539, rfl⟩
abbrev main_call19_v5 : Ref sig .tc := ⟨.hbm, 540, rfl⟩
abbrev main_call19_v6 : Ref sig .tc := ⟨.hbm, 541, rfl⟩
abbrev main_call19_cst_1 : Ref sig .tc := ⟨.hbm, 542, rfl⟩
abbrev main_call19_v7 : Ref sig .tc := ⟨.hbm, 543, rfl⟩
abbrev main_call19_v8 : Ref sig .tc := ⟨.hbm, 544, rfl⟩
abbrev main_call19_v9 : Ref sig .tc := ⟨.hbm, 545, rfl⟩
abbrev main_call19_v10 : Ref sig .tc := ⟨.hbm, 546, rfl⟩
abbrev main_call19_v11 : Ref sig .tc := ⟨.hbm, 547, rfl⟩
abbrev main_call19_v12 : Ref sig .tc := ⟨.hbm, 548, rfl⟩
abbrev main_v179 : Ref sig .tc := ⟨.hbm, 549, rfl⟩
abbrev main_c_47 : Ref sig .tc := ⟨.hbm, 550, rfl⟩
abbrev main_v180 : Ref sig .tc := ⟨.hbm, 551, rfl⟩
abbrev main_v181 : Ref sig .tc := ⟨.hbm, 552, rfl⟩
abbrev main_c_48 : Ref sig .tc := ⟨.hbm, 553, rfl⟩
abbrev main_v182 : Ref sig .tc := ⟨.hbm, 554, rfl⟩
abbrev main_v183 : Ref sig .tc := ⟨.hbm, 555, rfl⟩
abbrev main_v184 : Ref sig .tc := ⟨.hbm, 556, rfl⟩
abbrev main_v185 : Ref sig .tc := ⟨.hbm, 557, rfl⟩
abbrev main_v186 : Ref sig .tc := ⟨.hbm, 558, rfl⟩
abbrev main_v187 : Ref sig .tc := ⟨.hbm, 559, rfl⟩
abbrev main_v188 : Ref sig .tc := ⟨.hbm, 560, rfl⟩
abbrev main_c_49 : Ref sig .tc := ⟨.hbm, 561, rfl⟩
abbrev main_call20_v0 : Ref sig .tc := ⟨.hbm, 562, rfl⟩
abbrev main_call20_v1 : Ref sig .tc := ⟨.hbm, 563, rfl⟩
abbrev main_call20_v2 : Ref sig .tc := ⟨.hbm, 564, rfl⟩
abbrev main_call20_cst : Ref sig .tc := ⟨.hbm, 565, rfl⟩
abbrev main_call20_v3 : Ref sig .tc := ⟨.hbm, 566, rfl⟩
abbrev main_call20_v4 : Ref sig .tc := ⟨.hbm, 567, rfl⟩
abbrev main_call20_cst_0 : Ref sig .tc := ⟨.hbm, 568, rfl⟩
abbrev main_call20_v5 : Ref sig .tc := ⟨.hbm, 569, rfl⟩
abbrev main_call20_v6 : Ref sig .tc := ⟨.hbm, 570, rfl⟩
abbrev main_call20_cst_1 : Ref sig .tc := ⟨.hbm, 571, rfl⟩
abbrev main_call20_v7 : Ref sig .tc := ⟨.hbm, 572, rfl⟩
abbrev main_call20_v8 : Ref sig .tc := ⟨.hbm, 573, rfl⟩
abbrev main_call20_v9 : Ref sig .tc := ⟨.hbm, 574, rfl⟩
abbrev main_call20_v10 : Ref sig .tc := ⟨.hbm, 575, rfl⟩
abbrev main_call20_v11 : Ref sig .tc := ⟨.hbm, 576, rfl⟩
abbrev main_call20_v12 : Ref sig .tc := ⟨.hbm, 577, rfl⟩
abbrev main_v189 : Ref sig .tc := ⟨.hbm, 578, rfl⟩
abbrev main_v190 : Ref sig .tc := ⟨.hbm, 579, rfl⟩
abbrev main_v191 : Ref sig .tc := ⟨.hbm, 580, rfl⟩
abbrev main_cst_50 : Ref sig .tc := ⟨.hbm, 581, rfl⟩
abbrev main_v192 : Ref sig .tc := ⟨.hbm, 582, rfl⟩
abbrev main_v193 : Ref sig .tc := ⟨.hbm, 583, rfl⟩
abbrev main_v194 : Ref sig .tc := ⟨.hbm, 584, rfl⟩
abbrev main_v195 : Ref sig .tc := ⟨.hbm, 585, rfl⟩
abbrev main_v196 : Ref sig .tc := ⟨.hbm, 586, rfl⟩
abbrev main_c_51 : Ref sig .tc := ⟨.hbm, 587, rfl⟩
abbrev main_call21_v0 : Ref sig .tc := ⟨.hbm, 588, rfl⟩
abbrev main_call21_v1 : Ref sig .tc := ⟨.hbm, 589, rfl⟩
abbrev main_call21_v2 : Ref sig .tc := ⟨.hbm, 590, rfl⟩
abbrev main_call21_cst : Ref sig .tc := ⟨.hbm, 591, rfl⟩
abbrev main_call21_v3 : Ref sig .tc := ⟨.hbm, 592, rfl⟩
abbrev main_call21_v4 : Ref sig .tc := ⟨.hbm, 593, rfl⟩
abbrev main_call21_cst_0 : Ref sig .tc := ⟨.hbm, 594, rfl⟩
abbrev main_call21_v5 : Ref sig .tc := ⟨.hbm, 595, rfl⟩
abbrev main_call21_v6 : Ref sig .tc := ⟨.hbm, 596, rfl⟩
abbrev main_call21_cst_1 : Ref sig .tc := ⟨.hbm, 597, rfl⟩
abbrev main_call21_v7 : Ref sig .tc := ⟨.hbm, 598, rfl⟩
abbrev main_call21_v8 : Ref sig .tc := ⟨.hbm, 599, rfl⟩
abbrev main_call21_v9 : Ref sig .tc := ⟨.hbm, 600, rfl⟩
abbrev main_call21_v10 : Ref sig .tc := ⟨.hbm, 601, rfl⟩
abbrev main_call21_v11 : Ref sig .tc := ⟨.hbm, 602, rfl⟩
abbrev main_call21_v12 : Ref sig .tc := ⟨.hbm, 603, rfl⟩
abbrev main_v197 : Ref sig .tc := ⟨.hbm, 604, rfl⟩
abbrev main_c_52 : Ref sig .tc := ⟨.hbm, 605, rfl⟩
abbrev main_v198 : Ref sig .tc := ⟨.hbm, 606, rfl⟩
abbrev main_v199 : Ref sig .tc := ⟨.hbm, 607, rfl⟩
abbrev main_c_53 : Ref sig .tc := ⟨.hbm, 608, rfl⟩
abbrev main_v200 : Ref sig .tc := ⟨.hbm, 609, rfl⟩
abbrev main_v201 : Ref sig .tc := ⟨.hbm, 610, rfl⟩
abbrev main_v202 : Ref sig .tc := ⟨.hbm, 611, rfl⟩
abbrev main_v203 : Ref sig .tc := ⟨.hbm, 612, rfl⟩
abbrev main_v204 : Ref sig .tc := ⟨.hbm, 613, rfl⟩
abbrev main_v205 : Ref sig .tc := ⟨.hbm, 614, rfl⟩
abbrev main_v206 : Ref sig .tc := ⟨.hbm, 615, rfl⟩
abbrev main_c_54 : Ref sig .tc := ⟨.hbm, 616, rfl⟩
abbrev main_call22_v0 : Ref sig .tc := ⟨.hbm, 617, rfl⟩
abbrev main_call22_v1 : Ref sig .tc := ⟨.hbm, 618, rfl⟩
abbrev main_call22_v2 : Ref sig .tc := ⟨.hbm, 619, rfl⟩
abbrev main_call22_cst : Ref sig .tc := ⟨.hbm, 620, rfl⟩
abbrev main_call22_v3 : Ref sig .tc := ⟨.hbm, 621, rfl⟩
abbrev main_call22_v4 : Ref sig .tc := ⟨.hbm, 622, rfl⟩
abbrev main_call22_cst_0 : Ref sig .tc := ⟨.hbm, 623, rfl⟩
abbrev main_call22_v5 : Ref sig .tc := ⟨.hbm, 624, rfl⟩
abbrev main_call22_v6 : Ref sig .tc := ⟨.hbm, 625, rfl⟩
abbrev main_call22_cst_1 : Ref sig .tc := ⟨.hbm, 626, rfl⟩
abbrev main_call22_v7 : Ref sig .tc := ⟨.hbm, 627, rfl⟩
abbrev main_call22_v8 : Ref sig .tc := ⟨.hbm, 628, rfl⟩
abbrev main_call22_v9 : Ref sig .tc := ⟨.hbm, 629, rfl⟩
abbrev main_call22_v10 : Ref sig .tc := ⟨.hbm, 630, rfl⟩
abbrev main_call22_v11 : Ref sig .tc := ⟨.hbm, 631, rfl⟩
abbrev main_call22_v12 : Ref sig .tc := ⟨.hbm, 632, rfl⟩
abbrev main_v207 : Ref sig .tc := ⟨.hbm, 633, rfl⟩
abbrev main_v208 : Ref sig .tc := ⟨.hbm, 634, rfl⟩
abbrev main_v209 : Ref sig .tc := ⟨.hbm, 635, rfl⟩
abbrev main_cst_55 : Ref sig .tc := ⟨.hbm, 636, rfl⟩
abbrev main_v210 : Ref sig .tc := ⟨.hbm, 637, rfl⟩
abbrev main_v211 : Ref sig .tc := ⟨.hbm, 638, rfl⟩
abbrev main_v212 : Ref sig .tc := ⟨.hbm, 639, rfl⟩
abbrev main_v213 : Ref sig .tc := ⟨.hbm, 640, rfl⟩
abbrev main_v214 : Ref sig .tc := ⟨.hbm, 641, rfl⟩
abbrev main_c_56 : Ref sig .tc := ⟨.hbm, 642, rfl⟩
abbrev main_call23_v0 : Ref sig .tc := ⟨.hbm, 643, rfl⟩
abbrev main_call23_v1 : Ref sig .tc := ⟨.hbm, 644, rfl⟩
abbrev main_call23_v2 : Ref sig .tc := ⟨.hbm, 645, rfl⟩
abbrev main_call23_cst : Ref sig .tc := ⟨.hbm, 646, rfl⟩
abbrev main_call23_v3 : Ref sig .tc := ⟨.hbm, 647, rfl⟩
abbrev main_call23_v4 : Ref sig .tc := ⟨.hbm, 648, rfl⟩
abbrev main_call23_cst_0 : Ref sig .tc := ⟨.hbm, 649, rfl⟩
abbrev main_call23_v5 : Ref sig .tc := ⟨.hbm, 650, rfl⟩
abbrev main_call23_v6 : Ref sig .tc := ⟨.hbm, 651, rfl⟩
abbrev main_call23_cst_1 : Ref sig .tc := ⟨.hbm, 652, rfl⟩
abbrev main_call23_v7 : Ref sig .tc := ⟨.hbm, 653, rfl⟩
abbrev main_call23_v8 : Ref sig .tc := ⟨.hbm, 654, rfl⟩
abbrev main_call23_v9 : Ref sig .tc := ⟨.hbm, 655, rfl⟩
abbrev main_call23_v10 : Ref sig .tc := ⟨.hbm, 656, rfl⟩
abbrev main_call23_v11 : Ref sig .tc := ⟨.hbm, 657, rfl⟩
abbrev main_call23_v12 : Ref sig .tc := ⟨.hbm, 658, rfl⟩
abbrev main_v215 : Ref sig .tc := ⟨.hbm, 659, rfl⟩
abbrev main_c_57 : Ref sig .tc := ⟨.hbm, 660, rfl⟩
abbrev main_v216 : Ref sig .tc := ⟨.hbm, 661, rfl⟩
abbrev main_v217 : Ref sig .tc := ⟨.hbm, 662, rfl⟩
abbrev main_c_58 : Ref sig .tc := ⟨.hbm, 663, rfl⟩
abbrev main_v218 : Ref sig .tc := ⟨.hbm, 664, rfl⟩
abbrev main_v219 : Ref sig .tc := ⟨.hbm, 665, rfl⟩
abbrev main_v220 : Ref sig .tc := ⟨.hbm, 666, rfl⟩
abbrev main_v221 : Ref sig .tc := ⟨.hbm, 667, rfl⟩
abbrev main_v222 : Ref sig .tc := ⟨.hbm, 668, rfl⟩
abbrev main_v223 : Ref sig .tc := ⟨.hbm, 669, rfl⟩
abbrev main_v224 : Ref sig .tc := ⟨.hbm, 670, rfl⟩
abbrev main_c_59 : Ref sig .tc := ⟨.hbm, 671, rfl⟩
abbrev main_call24_v0 : Ref sig .tc := ⟨.hbm, 672, rfl⟩
abbrev main_call24_v1 : Ref sig .tc := ⟨.hbm, 673, rfl⟩
abbrev main_call24_v2 : Ref sig .tc := ⟨.hbm, 674, rfl⟩
abbrev main_call24_cst : Ref sig .tc := ⟨.hbm, 675, rfl⟩
abbrev main_call24_v3 : Ref sig .tc := ⟨.hbm, 676, rfl⟩
abbrev main_call24_v4 : Ref sig .tc := ⟨.hbm, 677, rfl⟩
abbrev main_call24_cst_0 : Ref sig .tc := ⟨.hbm, 678, rfl⟩
abbrev main_call24_v5 : Ref sig .tc := ⟨.hbm, 679, rfl⟩
abbrev main_call24_v6 : Ref sig .tc := ⟨.hbm, 680, rfl⟩
abbrev main_call24_cst_1 : Ref sig .tc := ⟨.hbm, 681, rfl⟩
abbrev main_call24_v7 : Ref sig .tc := ⟨.hbm, 682, rfl⟩
abbrev main_call24_v8 : Ref sig .tc := ⟨.hbm, 683, rfl⟩
abbrev main_call24_v9 : Ref sig .tc := ⟨.hbm, 684, rfl⟩
abbrev main_call24_v10 : Ref sig .tc := ⟨.hbm, 685, rfl⟩
abbrev main_call24_v11 : Ref sig .tc := ⟨.hbm, 686, rfl⟩
abbrev main_call24_v12 : Ref sig .tc := ⟨.hbm, 687, rfl⟩
abbrev main_v225 : Ref sig .tc := ⟨.hbm, 688, rfl⟩
abbrev main_v226 : Ref sig .tc := ⟨.hbm, 689, rfl⟩
abbrev main_v227 : Ref sig .tc := ⟨.hbm, 690, rfl⟩
abbrev main_cst_60 : Ref sig .tc := ⟨.hbm, 691, rfl⟩
abbrev main_v228 : Ref sig .tc := ⟨.hbm, 692, rfl⟩
abbrev main_v229 : Ref sig .tc := ⟨.hbm, 693, rfl⟩
abbrev main_v230 : Ref sig .tc := ⟨.hbm, 694, rfl⟩
abbrev main_v231 : Ref sig .tc := ⟨.hbm, 695, rfl⟩
abbrev main_v232 : Ref sig .tc := ⟨.hbm, 696, rfl⟩
abbrev main_c_61 : Ref sig .tc := ⟨.hbm, 697, rfl⟩
abbrev main_call25_v0 : Ref sig .tc := ⟨.hbm, 698, rfl⟩
abbrev main_call25_v1 : Ref sig .tc := ⟨.hbm, 699, rfl⟩
abbrev main_call25_v2 : Ref sig .tc := ⟨.hbm, 700, rfl⟩
abbrev main_call25_cst : Ref sig .tc := ⟨.hbm, 701, rfl⟩
abbrev main_call25_v3 : Ref sig .tc := ⟨.hbm, 702, rfl⟩
abbrev main_call25_v4 : Ref sig .tc := ⟨.hbm, 703, rfl⟩
abbrev main_call25_cst_0 : Ref sig .tc := ⟨.hbm, 704, rfl⟩
abbrev main_call25_v5 : Ref sig .tc := ⟨.hbm, 705, rfl⟩
abbrev main_call25_v6 : Ref sig .tc := ⟨.hbm, 706, rfl⟩
abbrev main_call25_cst_1 : Ref sig .tc := ⟨.hbm, 707, rfl⟩
abbrev main_call25_v7 : Ref sig .tc := ⟨.hbm, 708, rfl⟩
abbrev main_call25_v8 : Ref sig .tc := ⟨.hbm, 709, rfl⟩
abbrev main_call25_v9 : Ref sig .tc := ⟨.hbm, 710, rfl⟩
abbrev main_call25_v10 : Ref sig .tc := ⟨.hbm, 711, rfl⟩
abbrev main_call25_v11 : Ref sig .tc := ⟨.hbm, 712, rfl⟩
abbrev main_call25_v12 : Ref sig .tc := ⟨.hbm, 713, rfl⟩
abbrev main_v233 : Ref sig .tc := ⟨.hbm, 714, rfl⟩
abbrev main_c_62 : Ref sig .tc := ⟨.hbm, 715, rfl⟩
abbrev main_v234 : Ref sig .tc := ⟨.hbm, 716, rfl⟩
abbrev main_v235 : Ref sig .tc := ⟨.hbm, 717, rfl⟩
abbrev main_c_63 : Ref sig .tc := ⟨.hbm, 718, rfl⟩
abbrev main_v236 : Ref sig .tc := ⟨.hbm, 719, rfl⟩
abbrev main_v237 : Ref sig .tc := ⟨.hbm, 720, rfl⟩
abbrev main_v238 : Ref sig .tc := ⟨.hbm, 721, rfl⟩
abbrev main_v239 : Ref sig .tc := ⟨.hbm, 722, rfl⟩
abbrev main_v240 : Ref sig .tc := ⟨.hbm, 723, rfl⟩
abbrev main_v241 : Ref sig .tc := ⟨.hbm, 724, rfl⟩
abbrev main_v242 : Ref sig .tc := ⟨.hbm, 725, rfl⟩
abbrev main_c_64 : Ref sig .tc := ⟨.hbm, 726, rfl⟩
abbrev main_call26_v0 : Ref sig .tc := ⟨.hbm, 727, rfl⟩
abbrev main_call26_v1 : Ref sig .tc := ⟨.hbm, 728, rfl⟩
abbrev main_call26_v2 : Ref sig .tc := ⟨.hbm, 729, rfl⟩
abbrev main_call26_cst : Ref sig .tc := ⟨.hbm, 730, rfl⟩
abbrev main_call26_v3 : Ref sig .tc := ⟨.hbm, 731, rfl⟩
abbrev main_call26_v4 : Ref sig .tc := ⟨.hbm, 732, rfl⟩
abbrev main_call26_cst_0 : Ref sig .tc := ⟨.hbm, 733, rfl⟩
abbrev main_call26_v5 : Ref sig .tc := ⟨.hbm, 734, rfl⟩
abbrev main_call26_v6 : Ref sig .tc := ⟨.hbm, 735, rfl⟩
abbrev main_call26_cst_1 : Ref sig .tc := ⟨.hbm, 736, rfl⟩
abbrev main_call26_v7 : Ref sig .tc := ⟨.hbm, 737, rfl⟩
abbrev main_call26_v8 : Ref sig .tc := ⟨.hbm, 738, rfl⟩
abbrev main_call26_v9 : Ref sig .tc := ⟨.hbm, 739, rfl⟩
abbrev main_call26_v10 : Ref sig .tc := ⟨.hbm, 740, rfl⟩
abbrev main_call26_v11 : Ref sig .tc := ⟨.hbm, 741, rfl⟩
abbrev main_call26_v12 : Ref sig .tc := ⟨.hbm, 742, rfl⟩
abbrev main_v243 : Ref sig .tc := ⟨.hbm, 743, rfl⟩
abbrev main_v244 : Ref sig .tc := ⟨.hbm, 744, rfl⟩
abbrev main_v245 : Ref sig .tc := ⟨.hbm, 745, rfl⟩
abbrev main_cst_65 : Ref sig .tc := ⟨.hbm, 746, rfl⟩
abbrev main_v246 : Ref sig .tc := ⟨.hbm, 747, rfl⟩
abbrev main_v247 : Ref sig .tc := ⟨.hbm, 748, rfl⟩
abbrev main_v248 : Ref sig .tc := ⟨.hbm, 749, rfl⟩
abbrev main_v249 : Ref sig .tc := ⟨.hbm, 750, rfl⟩
abbrev main_v250 : Ref sig .tc := ⟨.hbm, 751, rfl⟩
abbrev main_c_66 : Ref sig .tc := ⟨.hbm, 752, rfl⟩
abbrev main_call27_v0 : Ref sig .tc := ⟨.hbm, 753, rfl⟩
abbrev main_call27_v1 : Ref sig .tc := ⟨.hbm, 754, rfl⟩
abbrev main_call27_v2 : Ref sig .tc := ⟨.hbm, 755, rfl⟩
abbrev main_call27_cst : Ref sig .tc := ⟨.hbm, 756, rfl⟩
abbrev main_call27_v3 : Ref sig .tc := ⟨.hbm, 757, rfl⟩
abbrev main_call27_v4 : Ref sig .tc := ⟨.hbm, 758, rfl⟩
abbrev main_call27_cst_0 : Ref sig .tc := ⟨.hbm, 759, rfl⟩
abbrev main_call27_v5 : Ref sig .tc := ⟨.hbm, 760, rfl⟩
abbrev main_call27_v6 : Ref sig .tc := ⟨.hbm, 761, rfl⟩
abbrev main_call27_cst_1 : Ref sig .tc := ⟨.hbm, 762, rfl⟩
abbrev main_call27_v7 : Ref sig .tc := ⟨.hbm, 763, rfl⟩
abbrev main_call27_v8 : Ref sig .tc := ⟨.hbm, 764, rfl⟩
abbrev main_call27_v9 : Ref sig .tc := ⟨.hbm, 765, rfl⟩
abbrev main_call27_v10 : Ref sig .tc := ⟨.hbm, 766, rfl⟩
abbrev main_call27_v11 : Ref sig .tc := ⟨.hbm, 767, rfl⟩
abbrev main_call27_v12 : Ref sig .tc := ⟨.hbm, 768, rfl⟩
abbrev main_v251 : Ref sig .tc := ⟨.hbm, 769, rfl⟩
abbrev main_c_67 : Ref sig .tc := ⟨.hbm, 770, rfl⟩
abbrev main_v252 : Ref sig .tc := ⟨.hbm, 771, rfl⟩
abbrev main_v253 : Ref sig .tc := ⟨.hbm, 772, rfl⟩
abbrev main_c_68 : Ref sig .tc := ⟨.hbm, 773, rfl⟩
abbrev main_v254 : Ref sig .tc := ⟨.hbm, 774, rfl⟩
abbrev main_v255 : Ref sig .tc := ⟨.hbm, 775, rfl⟩
abbrev main_v256 : Ref sig .tc := ⟨.hbm, 776, rfl⟩
abbrev main_v257 : Ref sig .tc := ⟨.hbm, 777, rfl⟩
abbrev main_v258 : Ref sig .tc := ⟨.hbm, 778, rfl⟩
abbrev main_v259 : Ref sig .tc := ⟨.hbm, 779, rfl⟩
abbrev main_v260 : Ref sig .tc := ⟨.hbm, 780, rfl⟩
abbrev main_c_69 : Ref sig .tc := ⟨.hbm, 781, rfl⟩
abbrev main_call28_v0 : Ref sig .tc := ⟨.hbm, 782, rfl⟩
abbrev main_call28_v1 : Ref sig .tc := ⟨.hbm, 783, rfl⟩
abbrev main_call28_v2 : Ref sig .tc := ⟨.hbm, 784, rfl⟩
abbrev main_call28_cst : Ref sig .tc := ⟨.hbm, 785, rfl⟩
abbrev main_call28_v3 : Ref sig .tc := ⟨.hbm, 786, rfl⟩
abbrev main_call28_v4 : Ref sig .tc := ⟨.hbm, 787, rfl⟩
abbrev main_call28_cst_0 : Ref sig .tc := ⟨.hbm, 788, rfl⟩
abbrev main_call28_v5 : Ref sig .tc := ⟨.hbm, 789, rfl⟩
abbrev main_call28_v6 : Ref sig .tc := ⟨.hbm, 790, rfl⟩
abbrev main_call28_cst_1 : Ref sig .tc := ⟨.hbm, 791, rfl⟩
abbrev main_call28_v7 : Ref sig .tc := ⟨.hbm, 792, rfl⟩
abbrev main_call28_v8 : Ref sig .tc := ⟨.hbm, 793, rfl⟩
abbrev main_call28_v9 : Ref sig .tc := ⟨.hbm, 794, rfl⟩
abbrev main_call28_v10 : Ref sig .tc := ⟨.hbm, 795, rfl⟩
abbrev main_call28_v11 : Ref sig .tc := ⟨.hbm, 796, rfl⟩
abbrev main_call28_v12 : Ref sig .tc := ⟨.hbm, 797, rfl⟩
abbrev main_v261 : Ref sig .tc := ⟨.hbm, 798, rfl⟩
abbrev main_v262 : Ref sig .tc := ⟨.hbm, 799, rfl⟩
abbrev main_v263 : Ref sig .tc := ⟨.hbm, 800, rfl⟩
abbrev main_cst_70 : Ref sig .tc := ⟨.hbm, 801, rfl⟩
abbrev main_v264 : Ref sig .tc := ⟨.hbm, 802, rfl⟩
abbrev main_v265 : Ref sig .tc := ⟨.hbm, 803, rfl⟩
abbrev main_v266 : Ref sig .tc := ⟨.hbm, 804, rfl⟩
abbrev main_v267 : Ref sig .tc := ⟨.hbm, 805, rfl⟩
abbrev main_v268 : Ref sig .tc := ⟨.hbm, 806, rfl⟩
abbrev main_c_71 : Ref sig .tc := ⟨.hbm, 807, rfl⟩
abbrev main_call29_v0 : Ref sig .tc := ⟨.hbm, 808, rfl⟩
abbrev main_call29_v1 : Ref sig .tc := ⟨.hbm, 809, rfl⟩
abbrev main_call29_v2 : Ref sig .tc := ⟨.hbm, 810, rfl⟩
abbrev main_call29_cst : Ref sig .tc := ⟨.hbm, 811, rfl⟩
abbrev main_call29_v3 : Ref sig .tc := ⟨.hbm, 812, rfl⟩
abbrev main_call29_v4 : Ref sig .tc := ⟨.hbm, 813, rfl⟩
abbrev main_call29_cst_0 : Ref sig .tc := ⟨.hbm, 814, rfl⟩
abbrev main_call29_v5 : Ref sig .tc := ⟨.hbm, 815, rfl⟩
abbrev main_call29_v6 : Ref sig .tc := ⟨.hbm, 816, rfl⟩
abbrev main_call29_cst_1 : Ref sig .tc := ⟨.hbm, 817, rfl⟩
abbrev main_call29_v7 : Ref sig .tc := ⟨.hbm, 818, rfl⟩
abbrev main_call29_v8 : Ref sig .tc := ⟨.hbm, 819, rfl⟩
abbrev main_call29_v9 : Ref sig .tc := ⟨.hbm, 820, rfl⟩
abbrev main_call29_v10 : Ref sig .tc := ⟨.hbm, 821, rfl⟩
abbrev main_call29_v11 : Ref sig .tc := ⟨.hbm, 822, rfl⟩
abbrev main_call29_v12 : Ref sig .tc := ⟨.hbm, 823, rfl⟩
abbrev main_v269 : Ref sig .tc := ⟨.hbm, 824, rfl⟩
abbrev main_c_72 : Ref sig .tc := ⟨.hbm, 825, rfl⟩
abbrev main_v270 : Ref sig .tc := ⟨.hbm, 826, rfl⟩
abbrev main_v271 : Ref sig .tc := ⟨.hbm, 827, rfl⟩
abbrev main_c_73 : Ref sig .tc := ⟨.hbm, 828, rfl⟩
abbrev main_v272 : Ref sig .tc := ⟨.hbm, 829, rfl⟩
abbrev main_v273 : Ref sig .tc := ⟨.hbm, 830, rfl⟩
abbrev main_v274 : Ref sig .tc := ⟨.hbm, 831, rfl⟩
abbrev main_v275 : Ref sig .tc := ⟨.hbm, 832, rfl⟩
abbrev main_v276 : Ref sig .tc := ⟨.hbm, 833, rfl⟩
abbrev main_v277 : Ref sig .tc := ⟨.hbm, 834, rfl⟩
abbrev main_v278 : Ref sig .tc := ⟨.hbm, 835, rfl⟩
abbrev main_c_74 : Ref sig .tc := ⟨.hbm, 836, rfl⟩
abbrev main_call30_v0 : Ref sig .tc := ⟨.hbm, 837, rfl⟩
abbrev main_call30_v1 : Ref sig .tc := ⟨.hbm, 838, rfl⟩
abbrev main_call30_v2 : Ref sig .tc := ⟨.hbm, 839, rfl⟩
abbrev main_call30_cst : Ref sig .tc := ⟨.hbm, 840, rfl⟩
abbrev main_call30_v3 : Ref sig .tc := ⟨.hbm, 841, rfl⟩
abbrev main_call30_v4 : Ref sig .tc := ⟨.hbm, 842, rfl⟩
abbrev main_call30_cst_0 : Ref sig .tc := ⟨.hbm, 843, rfl⟩
abbrev main_call30_v5 : Ref sig .tc := ⟨.hbm, 844, rfl⟩
abbrev main_call30_v6 : Ref sig .tc := ⟨.hbm, 845, rfl⟩
abbrev main_call30_cst_1 : Ref sig .tc := ⟨.hbm, 846, rfl⟩
abbrev main_call30_v7 : Ref sig .tc := ⟨.hbm, 847, rfl⟩
abbrev main_call30_v8 : Ref sig .tc := ⟨.hbm, 848, rfl⟩
abbrev main_call30_v9 : Ref sig .tc := ⟨.hbm, 849, rfl⟩
abbrev main_call30_v10 : Ref sig .tc := ⟨.hbm, 850, rfl⟩
abbrev main_call30_v11 : Ref sig .tc := ⟨.hbm, 851, rfl⟩
abbrev main_call30_v12 : Ref sig .tc := ⟨.hbm, 852, rfl⟩
abbrev main_v279 : Ref sig .tc := ⟨.hbm, 853, rfl⟩
abbrev main_v280 : Ref sig .tc := ⟨.hbm, 854, rfl⟩
abbrev main_v281 : Ref sig .tc := ⟨.hbm, 855, rfl⟩
abbrev main_cst_75 : Ref sig .tc := ⟨.hbm, 856, rfl⟩
abbrev main_v282 : Ref sig .tc := ⟨.hbm, 857, rfl⟩
abbrev main_v283 : Ref sig .tc := ⟨.hbm, 858, rfl⟩
abbrev main_v284 : Ref sig .tc := ⟨.hbm, 859, rfl⟩
abbrev main_v285 : Ref sig .tc := ⟨.hbm, 860, rfl⟩
abbrev main_v286 : Ref sig .tc := ⟨.hbm, 861, rfl⟩
abbrev main_c_76 : Ref sig .tc := ⟨.hbm, 862, rfl⟩
abbrev main_call31_v0 : Ref sig .tc := ⟨.hbm, 863, rfl⟩
abbrev main_call31_v1 : Ref sig .tc := ⟨.hbm, 864, rfl⟩
abbrev main_call31_v2 : Ref sig .tc := ⟨.hbm, 865, rfl⟩
abbrev main_call31_cst : Ref sig .tc := ⟨.hbm, 866, rfl⟩
abbrev main_call31_v3 : Ref sig .tc := ⟨.hbm, 867, rfl⟩
abbrev main_call31_v4 : Ref sig .tc := ⟨.hbm, 868, rfl⟩
abbrev main_call31_cst_0 : Ref sig .tc := ⟨.hbm, 869, rfl⟩
abbrev main_call31_v5 : Ref sig .tc := ⟨.hbm, 870, rfl⟩
abbrev main_call31_v6 : Ref sig .tc := ⟨.hbm, 871, rfl⟩
abbrev main_call31_cst_1 : Ref sig .tc := ⟨.hbm, 872, rfl⟩
abbrev main_call31_v7 : Ref sig .tc := ⟨.hbm, 873, rfl⟩
abbrev main_call31_v8 : Ref sig .tc := ⟨.hbm, 874, rfl⟩
abbrev main_call31_v9 : Ref sig .tc := ⟨.hbm, 875, rfl⟩
abbrev main_call31_v10 : Ref sig .tc := ⟨.hbm, 876, rfl⟩
abbrev main_call31_v11 : Ref sig .tc := ⟨.hbm, 877, rfl⟩
abbrev main_call31_v12 : Ref sig .tc := ⟨.hbm, 878, rfl⟩
abbrev main_v287 : Ref sig .tc := ⟨.hbm, 879, rfl⟩
abbrev main_c_77 : Ref sig .tc := ⟨.hbm, 880, rfl⟩
abbrev main_v288 : Ref sig .tc := ⟨.hbm, 881, rfl⟩
abbrev main_v289 : Ref sig .tc := ⟨.hbm, 882, rfl⟩
abbrev main_c_78 : Ref sig .tc := ⟨.hbm, 883, rfl⟩
abbrev main_v290 : Ref sig .tc := ⟨.hbm, 884, rfl⟩
abbrev main_v291 : Ref sig .tc := ⟨.hbm, 885, rfl⟩
abbrev main_cst_79 : Ref sig .tc := ⟨.hbm, 886, rfl⟩
abbrev main_v292 : Ref sig .tc := ⟨.hbm, 887, rfl⟩
abbrev main_v293 : Ref sig .tc := ⟨.hbm, 888, rfl⟩
abbrev main_v294 : Ref sig .tc := ⟨.hbm, 889, rfl⟩
abbrev main_v295 : Ref sig .tc := ⟨.hbm, 890, rfl⟩
abbrev main_v296 : Ref sig .tc := ⟨.hbm, 891, rfl⟩
abbrev main_v297 : Ref sig .tc := ⟨.hbm, 892, rfl⟩

abbrev nD : Nat := 1
abbrev τ : Topo := Topo.v7x

variable {F : FTy → Type} [FloatOps F]

class Facts₀ : Prop where
  slices_S3x128x32768_S1x128x32768_0_0_0 : S3x128x32768.Slices ![0, 0, 0] S1x128x32768
  shapeCasts_S1x128x32768_S128x32768 : S1x128x32768.ShapeCasts S128x32768
  bcast_S_S128x32768 : S_.BroadcastsInDim S128x32768 (![] : Fin 0 → Fin S128x32768.rank)
  slices_S128x32768_S128x1_0_0 : S128x32768.Slices ![0, 0] S128x1
  shapeCasts_S128x1_S128 : S128x1.ShapeCasts S128
  slices_S128x32768_S128x1_0_16384 : S128x32768.Slices ![0, 16384] S128x1
  bcast_S_S128 : S_.BroadcastsInDim S128 (![] : Fin 0 → Fin S128.rank)
  bcast_S_S1 : S_.BroadcastsInDim S1 (![] : Fin 0 → Fin S1.rank)
  slices_S128x32768_S128x1_0_1 : S128x32768.Slices ![0, 1] S128x1
  slices_S128x32768_S128x1_0_16385 : S128x32768.Slices ![0, 16385] S128x1
  slices_S128x32768_S128x1_0_2 : S128x32768.Slices ![0, 2] S128x1
  slices_S128x32768_S128x1_0_16386 : S128x32768.Slices ![0, 16386] S128x1
  slices_S128x32768_S128x1_0_3 : S128x32768.Slices ![0, 3] S128x1
  slices_S128x32768_S128x1_0_16387 : S128x32768.Slices ![0, 16387] S128x1
  slices_S128x32768_S128x1_0_4 : S128x32768.Slices ![0, 4] S128x1
  slices_S128x32768_S128x1_0_16388 : S128x32768.Slices ![0, 16388] S128x1
  slices_S128x32768_S128x1_0_5 : S128x32768.Slices ![0, 5] S128x1
  slices_S128x32768_S128x1_0_16389 : S128x32768.Slices ![0, 16389] S128x1
  slices_S128x32768_S128x1_0_6 : S128x32768.Slices ![0, 6] S128x1
  slices_S128x32768_S128x1_0_16390 : S128x32768.Slices ![0, 16390] S128x1
  slices_S128x32768_S128x1_0_7 : S128x32768.Slices ![0, 7] S128x1
  slices_S128x32768_S128x1_0_16391 : S128x32768.Slices ![0, 16391] S128x1
  slices_S128x32768_S128x1_0_8 : S128x32768.Slices ![0, 8] S128x1
  slices_S128x32768_S128x1_0_16392 : S128x32768.Slices ![0, 16392] S128x1
  slices_S128x32768_S128x1_0_9 : S128x32768.Slices ![0, 9] S128x1
  slices_S128x32768_S128x1_0_16393 : S128x32768.Slices ![0, 16393] S128x1
  slices_S128x32768_S128x1_0_10 : S128x32768.Slices ![0, 10] S128x1
  slices_S128x32768_S128x1_0_16394 : S128x32768.Slices ![0, 16394] S128x1
  slices_S128x32768_S128x1_0_11 : S128x32768.Slices ![0, 11] S128x1
  slices_S128x32768_S128x1_0_16395 : S128x32768.Slices ![0, 16395] S128x1
  slices_S128x32768_S128x1_0_12 : S128x32768.Slices ![0, 12] S128x1
  slices_S128x32768_S128x1_0_16396 : S128x32768.Slices ![0, 16396] S128x1
  slices_S128x32768_S128x1_0_13 : S128x32768.Slices ![0, 13] S128x1
  slices_S128x32768_S128x1_0_16397 : S128x32768.Slices ![0, 16397] S128x1
  slices_S128x32768_S128x1_0_14 : S128x32768.Slices ![0, 14] S128x1
  slices_S128x32768_S128x1_0_16398 : S128x32768.Slices ![0, 16398] S128x1
  slices_S128x32768_S128x1_0_15 : S128x32768.Slices ![0, 15] S128x1
  slices_S128x32768_S128x1_0_16399 : S128x32768.Slices ![0, 16399] S128x1
  slices_S3x128x32768_S1x128x32768_1_0_0 : S3x128x32768.Slices ![1, 0, 0] S1x128x32768
  slices_S3x128x32768_S1x128x32768_2_0_0 : S3x128x32768.Slices ![2, 0, 0] S1x128x32768
  scatter_S128x32768_S1_S128_0_1_1_0_wf : ScatterDims.WF S128x32768 S1 S128 [0] [1] [1] 0

variable [Facts₀]

def scatter_S128x32768_S1_S128_0_1_1_0 : ScatterDims S128x32768 S1 S128 where
  updateWindowDims := [0]
  insertedWindowDims := [1]
  scatterDimsToOperandDims := [1]
  indexVectorDim := 0
  wf := scatter_S128x32768_S1_S128_0_1_1_0_wf

class Facts : Prop extends Facts₀ where

variable [Facts]
-- ==== Proof.OnKernel.Setup.lean ====
/-
  The kernel as printed, as the SparseCore launch sees it: the program's configuration, the ghost state (the launch's
  handshake rounds beside the schedule-free transfer counters), and the memory a vector subcore works on, spelt as
  the kernel slices it.

  Vector subcore (core c, subcore s) owns rows 8 s + 4 c .. 8 s + 4 c + 3 of the 128 rows.  It reads those rows of
  plane 0 of the input twice — whole, one row per staging buffer, and as two 4 × 128 slabs at columns 0 and 16384 —
  and writes those rows of the output.  The two kinds of read overlap, so the subcore's block of the input is held
  at two half shares: the left half cut into the four rows, the right half into the two slabs and what is left.
-/
import proofs.«209894_g19731079758016_cont_8to1_1440_21_alg».proof.Defs
import Idealize.ShloMosaic.Lib.SparseCore.Launch
import Idealize.ShloMosaic.Lib.StableHlo.Run
import Idealize.ShloMosaic.Lib.Pipeline.Kit
import Idealize.ShloMosaic.Lib.Tactic
import proofs.«209894_g19731079758016_cont_8to1_1440_21_alg».proof.Proof.Gen.Kernel
import proofs.«209894_g19731079758016_cont_8to1_1440_21_alg».proof.Proof.Gen.Kernel.Skeleton

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the kernel names them -/

abbrev xLoc (d : Dev nD) : Loc nD τ sig := (SparseCore.T d).loc main_arg0
abbrev yLoc (d : Dev nD) : Loc nD τ sig := (SparseCore.T d).loc main_v0

abbrev xV : Memref sig .scVector .hbm S3x128x32768 .f32 := Memref.whole main_arg0_scv
abbrev yV : Memref sig .scVector .hbm S128x32768 .f32 := Memref.whole main_v0_scv
abbrev sA : Memref sig .scVector .vmem S4x128 .f32 := Memref.whole cc0_scratch0
abbrev sB : Memref sig .scVector .vmem S4x128 .f32 := Memref.whole cc0_scratch1
abbrev b0 : Memref sig .scVector .vmem S1x32768 .f32 := Memref.whole cc0_scratch2
abbrev b1 : Memref sig .scVector .vmem S1x32768 .f32 := Memref.whole cc0_scratch3
abbrev b2 : Memref sig .scVector .vmem S1x32768 .f32 := Memref.whole cc0_scratch4

abbrev cV (L : grid0.Coords) : Fin τ.nSC := (L 0).castLE hcore0
abbrev jV (L : grid0.Coords) : Fin τ.nSub := (L 1).castLE hsub0
abbrev thrOf (d : Dev nD) (L : grid0.Coords) : Thread nD τ := V d (cV L) (jV L)
abbrev cellOf (d : Dev nD) (L : grid0.Coords) (s : DmaSems sig S_) : GSem nD τ sig := (thrOf d L, .dma s.sem)

theorem cellOf_ne (d : Dev nD) (L : grid0.Coords) {a b : SemLoc sig} (h : a ≠ b) :
    ((thrOf d L, a) : GSem nD τ sig) ≠ (thrOf d L, b) := fun e => h (Prod.mk.inj e).2

/-- Row `r` of the subcore's four, in plane 0 of the input: what one whole-row copy reads. -/
abbrev xRow0 (L : grid0.Coords) : Memref sig .scVector .hbm S1x32768 .f32 :=
  ((xV).slice (Rect.unit (s := S3x128x32768) (k0_off1 L 0#32) S1x1x32768.size (k0_off1_inb L 0)) (fun _ => rfl)).squeeze S1x32768 squeezes_S1x1x32768_S1x32768
abbrev xRow1 (L : grid0.Coords) : Memref sig .scVector .hbm S1x32768 .f32 :=
  ((xV).slice (Rect.unit (s := S3x128x32768) (k0_off1 L 1#32) S1x1x32768.size (k0_off1_inb L 1)) (fun _ => rfl)).squeeze S1x32768 squeezes_S1x1x32768_S1x32768
abbrev xRow2 (L : grid0.Coords) : Memref sig .scVector .hbm S1x32768 .f32 :=
  ((xV).slice (Rect.unit (s := S3x128x32768) (k0_off1 L 2#32) S1x1x32768.size (k0_off1_inb L 2)) (fun _ => rfl)).squeeze S1x32768 squeezes_S1x1x32768_S1x32768
abbrev xRow3 (L : grid0.Coords) : Memref sig .scVector .hbm S1x32768 .f32 :=
  ((xV).slice (Rect.unit (s := S3x128x32768) (k0_off1 L 3#32) S1x1x32768.size (k0_off1_inb L 3)) (fun _ => rfl)).squeeze S1x32768 squeezes_S1x1x32768_S1x32768
/-- The 4 × 128 slabs of those rows at columns 0 and 16384. -/
abbrev xSlabA (L : grid0.Coords) : Memref sig .scVector .hbm S4x128 .f32 :=
  ((xV).slice (Rect.unit (s := S3x128x32768) (k0_off2 L) S1x4x128.size (k0_off2_inb L)) (fun _ => rfl)).squeeze S4x128 squeezes_S1x4x128_S4x128
abbrev xSlabB (L : grid0.Coords) : Memref sig .scVector .hbm S4x128 .f32 :=
  ((xV).slice (Rect.unit (s := S3x128x32768) (k0_off3 L) S1x4x128.size (k0_off3_inb L)) (fun _ => rfl)).squeeze S4x128 squeezes_S1x4x128_S4x128
/-- Row `r` of the subcore's four in the output. -/
abbrev yRow0 (L : grid0.Coords) : Memref sig .scVector .hbm S1x32768 .f32 :=
  (yV).slice (Rect.unit (s := S128x32768) (k0_off4 L 0#32) S1x32768.size (k0_off4_inb L 0)) (fun _ => rfl)
abbrev yRow1 (L : grid0.Coords) : Memref sig .scVector .hbm S1x32768 .f32 :=
  (yV).slice (Rect.unit (s := S128x32768) (k0_off4 L 1#32) S1x32768.size (k0_off4_inb L 1)) (fun _ => rfl)
abbrev yRow2 (L : grid0.Coords) : Memref sig .scVector .hbm S1x32768 .f32 :=
  (yV).slice (Rect.unit (s := S128x32768) (k0_off4 L 2#32) S1x32768.size (k0_off4_inb L 2)) (fun _ => rfl)
abbrev yRow3 (L : grid0.Coords) : Memref sig .scVector .hbm S1x32768 .f32 :=
  (yV).slice (Rect.unit (s := S128x32768) (k0_off4 L 3#32) S1x32768.size (k0_off4_inb L 3)) (fun _ => rfl)

section Tile

variable (d : Dev nD) (L : grid0.Coords)

theorem ownSems0_tile :
    (ownSems0 (thrOf d L) : sProp 𝕄)
      = iprop(semVal (cellOf d L cc0_scratch5) 0 ∗ semVal (cellOf d L cc0_scratch6) 0 ∗ semVal (cellOf d L cc0_scratch7) 0 ∗ semVal (cellOf d L cc0_scratch8) 0 ∗ semVal (cellOf d L cc0_scratch9) 0 ∗ semVal (cellOf d L cc0_scratch10) 0 ∗ semVal (cellOf d L cc0_scoped0) 0 ∗ semVal (cellOf d L cc0_scoped1) 0
          ∗ bigSep (((((((((ownCells (thrOf d L)).erase (cellOf d L cc0_scratch5)).erase (cellOf d L cc0_scratch6)).erase (cellOf d L cc0_scratch7)).erase (cellOf d L cc0_scratch8)).erase (cellOf d L cc0_scratch9)).erase (cellOf d L cc0_scratch10)).erase (cellOf d L cc0_scoped0)).erase (cellOf d L cc0_scoped1)) fun g => semVal g 0) := by
  unfold SparseCore.Cfg.ownSems0
  rw [SparseCore.bigSep_erase' ((mem_ownCells (g := cellOf d L cc0_scratch5)).mpr ⟨rfl, by show (SemLoc.dma cc0_scratch5.sem : SemLoc sig).isScoped .scVector = true; decide⟩),
    SparseCore.bigSep_erase' (Finset.mem_erase.mpr ⟨cellOf_ne d L (by decide : (SemLoc.dma cc0_scratch6.sem : SemLoc sig) ≠ SemLoc.dma cc0_scratch5.sem), (mem_ownCells (g := cellOf d L cc0_scratch6)).mpr ⟨rfl, by show (SemLoc.dma cc0_scratch6.sem : SemLoc sig).isScoped .scVector = true; decide⟩⟩),
    SparseCore.bigSep_erase' (Finset.mem_erase.mpr ⟨cellOf_ne d L (by decide : (SemLoc.dma cc0_scratch7.sem : SemLoc sig) ≠ SemLoc.dma cc0_scratch6.sem), Finset.mem_erase.mpr ⟨cellOf_ne d L (by decide : (SemLoc.dma cc0_scratch7.sem : SemLoc sig) ≠ SemLoc.dma cc0_scratch5.sem), (mem_ownCells (g := cellOf d L cc0_scratch7)).mpr ⟨rfl, by show (SemLoc.dma cc0_scratch7.sem : SemLoc sig).isScoped .scVector = true; decide⟩⟩⟩),
    SparseCore.bigSep_erase' (Finset.mem_erase.mpr ⟨cellOf_ne d L (by decide : (SemLoc.dma cc0_scratch8.sem : SemLoc sig) ≠ SemLoc.dma cc0_scratch7.sem), Finset.mem_erase.mpr ⟨cellOf_ne d L (by decide : (SemLoc.dma cc0_scratch8.sem : SemLoc sig) ≠ SemLoc.dma cc0_scratch6.sem), Finset.mem_erase.mpr ⟨cellOf_ne d L (by decide : (SemLoc.dma cc0_scratch8.sem : SemLoc sig) ≠ SemLoc.dma cc0_scratch5.sem), (mem_ownCells (g := cellOf d L cc0_scratch8)).mpr ⟨rfl, by show (SemLoc.dma cc0_scratch8.sem : SemLoc sig).isScoped .scVector = true; decide⟩⟩⟩⟩),
    SparseCore.bigSep_erase' (Finset.mem_erase.mpr ⟨cellOf_ne d L (by decide : (SemLoc.dma cc0_scratch9.sem : SemLoc sig) ≠ SemLoc.dma cc0_scratch8.sem), Finset.mem_erase.mpr ⟨cellOf_ne d L (by decide : (SemLoc.dma cc0_scratch9.sem : SemLoc sig) ≠ SemLoc.dma cc0_scratch7.sem), Finset.mem_erase.mpr ⟨cellOf_ne d L (by decide : (SemLoc.dma cc0_scratch9.sem : SemLoc sig) ≠ SemLoc.dma cc0_scratch6.sem), Finset.mem_erase.mpr ⟨cellOf_ne d L (by decide : (SemLoc.dma cc0_scratch9.sem : SemLoc sig) ≠ SemLoc.dma cc0_scratch5.sem), (mem_ownCells (g := cellOf d L cc0_scratch9)).mpr ⟨rfl, by show (SemLoc.dma cc0_scratch9.sem : SemLoc sig).isScoped .scVector = true; decide⟩⟩⟩⟩⟩),
    SparseCore.bigSep_erase' (Finset.mem_erase.mpr ⟨cellOf_ne d L (by decide : (SemLoc.dma cc0_scratch10.sem : SemLoc sig) ≠ SemLoc.dma cc0_scratch9.sem), Finset.mem_erase.mpr ⟨cellOf_ne d L (by decide : (SemLoc.dma cc0_scratch10.sem : SemLoc sig) ≠ SemLoc.dma cc0_scratch8.sem), Finset.mem_erase.mpr ⟨cellOf_ne d L (by decide : (SemLoc.dma cc0_scratch10.sem : SemLoc sig) ≠ SemLoc.dma cc0_scratch7.sem), Finset.mem_erase.mpr ⟨cellOf_ne d L (by decide : (SemLoc.dma cc0_scratch10.sem : SemLoc sig) ≠ SemLoc.dma cc0_scratch6.sem), Finset.mem_erase.mpr ⟨cellOf_ne d L (by decide : (SemLoc.dma cc0_scratch10.sem : SemLoc sig) ≠ SemLoc.dma cc0_scratch5.sem), (mem_ownCells (g := cellOf d L cc0_scratch10)).mpr ⟨rfl, by show (SemLoc.dma cc0_scratch10.sem : SemLoc sig).isScoped .scVector = true; decide⟩⟩⟩⟩⟩⟩),
    SparseCore.bigSep_erase' (Finset.mem_erase.mpr ⟨cellOf_ne d L (by decide : (SemLoc.dma cc0_scoped0.sem : SemLoc sig) ≠ SemLoc.dma cc0_scratch10.sem), Finset.mem_erase.mpr ⟨cellOf_ne d L (by decide : (SemLoc.dma cc0_scoped0.sem : SemLoc sig) ≠ SemLoc.dma cc0_scratch9.sem), Finset.mem_erase.mpr ⟨cellOf_ne d L (by decide : (SemLoc.dma cc0_scoped0.sem : SemLoc sig) ≠ SemLoc.dma cc0_scratch8.sem), Finset.mem_erase.mpr ⟨cellOf_ne d L (by decide : (SemLoc.dma cc0_scoped0.sem : SemLoc sig) ≠ SemLoc.dma cc0_scratch7.sem), Finset.mem_erase.mpr ⟨cellOf_ne d L (by decide : (SemLoc.dma cc0_scoped0.sem : SemLoc sig) ≠ SemLoc.dma cc0_scratch6.sem), Finset.mem_erase.mpr ⟨cellOf_ne d L (by decide : (SemLoc.dma cc0_scoped0.sem : SemLoc sig) ≠ SemLoc.dma cc0_scratch5.sem), (mem_ownCells (g := cellOf d L cc0_scoped0)).mpr ⟨rfl, by show (SemLoc.dma cc0_scoped0.sem : SemLoc sig).isScoped .scVector = true; decide⟩⟩⟩⟩⟩⟩⟩),
    SparseCore.bigSep_erase' (Finset.mem_erase.mpr ⟨cellOf_ne d L (by decide : (SemLoc.dma cc0_scoped1.sem : SemLoc sig) ≠ SemLoc.dma cc0_scoped0.sem), Finset.mem_erase.mpr ⟨cellOf_ne d L (by decide : (SemLoc.dma cc0_scoped1.sem : SemLoc sig) ≠ SemLoc.dma cc0_scratch10.sem), Finset.mem_erase.mpr ⟨cellOf_ne d L (by decide : (SemLoc.dma cc0_scoped1.sem : SemLoc sig) ≠ SemLoc.dma cc0_scratch9.sem), Finset.mem_erase.mpr ⟨cellOf_ne d L (by decide : (SemLoc.dma cc0_scoped1.sem : SemLoc sig) ≠ SemLoc.dma cc0_scratch8.sem), Finset.mem_erase.mpr ⟨cellOf_ne d L (by decide : (SemLoc.dma cc0_scoped1.sem : SemLoc sig) ≠ SemLoc.dma cc0_scratch7.sem), Finset.mem_erase.mpr ⟨cellOf_ne d L (by decide : (SemLoc.dma cc0_scoped1.sem : SemLoc sig) ≠ SemLoc.dma cc0_scratch6.sem), Finset.mem_erase.mpr ⟨cellOf_ne d L (by decide : (SemLoc.dma cc0_scoped1.sem : SemLoc sig) ≠ SemLoc.dma cc0_scratch5.sem), (mem_ownCells (g := cellOf d L cc0_scoped1)).mpr ⟨rfl, by show (SemLoc.dma cc0_scoped1.sem : SemLoc sig).isScoped .scVector = true; decide⟩⟩⟩⟩⟩⟩⟩⟩)]

theorem ownBufs_tile :
    (ownBufs (thrOf d L) : sProp 𝕄)
      = iprop((∃ f, (thrOf d L).loc cc0_scratch0 ↦{fullShare} f) ∗ (∃ f, (thrOf d L).loc cc0_scratch1 ↦{fullShare} f) ∗ (∃ f, (thrOf d L).loc cc0_scratch2 ↦{fullShare} f) ∗ (∃ f, (thrOf d L).loc cc0_scratch3 ↦{fullShare} f) ∗ (∃ f, (thrOf d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

end Tile

end Cert.Proof.OnKernel

end
-- ==== Proof.OnKernel.Blocks.lean ====
/-
  The memory one vector subcore works on, as sets of indices.  Subcore (core c, subcore s) owns rows
  8 s + 4 c .. 8 s + 4 c + 3.  Its block of the input (those rows, all three planes) contains the four rows of plane 0
  its whole-row copies read and the two 4 × 128 slabs (columns 0.. and 16384..) its slab copies read; rows and slabs
  overlap, so the block is held as two half shares, one cut along the rows, one along the slabs.  Its block of the
  output is exactly its four rows.  Membership in each piece is stated coordinate by coordinate, and every inclusion
  and disjointness below is arithmetic on those coordinates.
-/
import proofs.«209894_g19731079758016_cont_8to1_1440_21_alg».proof.Proof.OnKernel.Setup

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Membership in a rectangle, coordinate by coordinate -/

theorem mem_unit3 {n0 n1 n2 : ℕ} {off size : Fin 3 → ℕ} {inb} (j : (⟨3, ![n0, n1, n2]⟩ : Shape).Idx) :
    Iff (j ∈ (Rect.unit (s := ⟨3, ![n0, n1, n2]⟩) off size inb).set)
      ((off 0 ≤ (j 0).val ∧ (j 0).val < off 0 + size 0) ∧ (off 1 ≤ (j 1).val ∧ (j 1).val < off 1 + size 1)
        ∧ (off 2 ≤ (j 2).val ∧ (j 2).val < off 2 + size 2)) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

theorem mem_unit2 {n0 n1 : ℕ} {off size : Fin 2 → ℕ} {inb} (j : (⟨2, ![n0, n1]⟩ : Shape).Idx) :
    Iff (j ∈ (Rect.unit (s := ⟨2, ![n0, n1]⟩) off size inb).set)
      ((off 0 ≤ (j 0).val ∧ (j 0).val < off 0 + size 0) ∧ (off 1 ≤ (j 1).val ∧ (j 1).val < off 1 + size 1)) := by
  rw [Rect.mem_set_unit]
  constructor
  · intro h; exact ⟨h 0, h 1⟩
  · rintro ⟨h0, h1⟩ a
    match a with
    | ⟨0, _⟩ => exact h0
    | ⟨1, _⟩ => exact h1

/-! ## The pieces of the input and output a subcore's copies read and write -/

def XR0 (L : grid0.Coords) : Finset S3x128x32768.Idx := (xRow0 L).view.set
def XR1 (L : grid0.Coords) : Finset S3x128x32768.Idx := (xRow1 L).view.set
def XR2 (L : grid0.Coords) : Finset S3x128x32768.Idx := (xRow2 L).view.set
def XR3 (L : grid0.Coords) : Finset S3x128x32768.Idx := (xRow3 L).view.set
def XSA (L : grid0.Coords) : Finset S3x128x32768.Idx := (xSlabA L).view.set
def XSB (L : grid0.Coords) : Finset S3x128x32768.Idx := (xSlabB L).view.set
def YR0 (L : grid0.Coords) : Finset S128x32768.Idx := (yRow0 L).view.set
def YR1 (L : grid0.Coords) : Finset S128x32768.Idx := (yRow1 L).view.set
def YR2 (L : grid0.Coords) : Finset S128x32768.Idx := (yRow2 L).view.set
def YR3 (L : grid0.Coords) : Finset S128x32768.Idx := (yRow3 L).view.set

/-- First row of the block of subcore `s` of core `c`. -/
def row0 (c s : ℕ) : ℕ := 8 * s + 4 * c

theorem xBlock_inb (c s : ℕ) (hc : c < 2) (hs : s < 16) :
    ∀ a, (![0, row0 c s, 0] : Fin 3 → Nat) a + (![3, 4, 32768] : Fin 3 → Nat) a ≤ S3x128x32768.size a := by
  intro a
  match a with
  | ⟨0, _⟩ => show 0 + 3 ≤ 3; omega
  | ⟨1, _⟩ => show row0 c s + 4 ≤ 128; unfold row0; omega
  | ⟨2, _⟩ => show 0 + 32768 ≤ 32768; omega
theorem yBlock_inb (c s : ℕ) (hc : c < 2) (hs : s < 16) :
    ∀ a, (![row0 c s, 0] : Fin 2 → Nat) a + (![4, 32768] : Fin 2 → Nat) a ≤ S128x32768.size a := by
  intro a
  match a with
  | ⟨0, _⟩ => show row0 c s + 4 ≤ 128; unfold row0; omega
  | ⟨1, _⟩ => show 0 + 32768 ≤ 32768; omega

/-- The block of the input of subcore `s` of core `c`: its four rows in all three planes; of the output: its four rows. -/
def XB (c s : ℕ) (hc : c < 2) (hs : s < 16) : Finset S3x128x32768.Idx := (Rect.unit (s := S3x128x32768) _ _ (xBlock_inb c s hc hs)).set
def YB (c s : ℕ) (hc : c < 2) (hs : s < 16) : Finset S128x32768.Idx := (Rect.unit (s := S128x32768) _ _ (yBlock_inb c s hc hs)).set

theorem mem_XB (c s : ℕ) (hc : c < 2) (hs : s < 16) (j : S3x128x32768.Idx) : Iff (j ∈ XB c s hc hs) (row0 c s ≤ (j 1).val ∧ (j 1).val < row0 c s + 4) := by
  unfold XB
  rw [mem_unit3]
  have h0 : (j 0).val < 3 := (j 0).isLt
  have h2 : (j 2).val < 32768 := (j 2).isLt
  show Iff ((0 ≤ (j 0).val ∧ (j 0).val < 0 + 3) ∧ (row0 c s ≤ (j 1).val ∧ (j 1).val < row0 c s + 4) ∧ (0 ≤ (j 2).val ∧ (j 2).val < 0 + 32768)) (row0 c s ≤ (j 1).val ∧ (j 1).val < row0 c s + 4)
  omega
theorem mem_YB (c s : ℕ) (hc : c < 2) (hs : s < 16) (j : S128x32768.Idx) : Iff (j ∈ YB c s hc hs) (row0 c s ≤ (j 0).val ∧ (j 0).val < row0 c s + 4) := by
  unfold YB
  rw [mem_unit2]
  have h1 : (j 1).val < 32768 := (j 1).isLt
  show Iff ((row0 c s ≤ (j 0).val ∧ (j 0).val < row0 c s + 4) ∧ (0 ≤ (j 1).val ∧ (j 1).val < 0 + 32768)) (row0 c s ≤ (j 0).val ∧ (j 0).val < row0 c s + 4)
  omega

section Sets

variable (L : grid0.Coords)

theorem L0_lt : (L 0).val < 2 := (L 0).isLt
theorem L1_lt : (L 1).val < 16 := (L 1).isLt

abbrev XT : Finset S3x128x32768.Idx := XB (L 0).val (L 1).val (L0_lt L) (L1_lt L)
abbrev YT : Finset S128x32768.Idx := YB (L 0).val (L 1).val (L0_lt L) (L1_lt L)

theorem mem_XR0 (j : S3x128x32768.Idx) : Iff (j ∈ XR0 L) ((j 0).val = 0 ∧ (j 1).val = row0 (L 0).val (L 1).val + 0) := by
  unfold XR0
  simp only [Memref.view_squeeze, Memref.view_slice, Memref.view_whole, View.set_reshape, View.set_slice_whole]
  rw [mem_unit3, show k0_off1 L 0#32 = ![0, 8 * (L 1).val + 4 * (L 0).val + 0, 0] from k0_off1_eq L 0]
  have h2 : (j 2).val < 32768 := (j 2).isLt
  show Iff ((0 ≤ (j 0).val ∧ (j 0).val < 0 + 1) ∧ (8 * (L 1).val + 4 * (L 0).val + 0 ≤ (j 1).val ∧ (j 1).val < 8 * (L 1).val + 4 * (L 0).val + 0 + 1)
    ∧ (0 ≤ (j 2).val ∧ (j 2).val < 0 + 32768)) ((j 0).val = 0 ∧ (j 1).val = row0 (L 0).val (L 1).val + 0)
  unfold row0; omega
theorem mem_XR1 (j : S3x128x32768.Idx) : Iff (j ∈ XR1 L) ((j 0).val = 0 ∧ (j 1).val = row0 (L 0).val (L 1).val + 1) := by
  unfold XR1
  simp only [Memref.view_squeeze, Memref.view_slice, Memref.view_whole, View.set_reshape, View.set_slice_whole]
  rw [mem_unit3, show k0_off1 L 1#32 = ![0, 8 * (L 1).val + 4 * (L 0).val + 1, 0] from k0_off1_eq L 1]
  have h2 : (j 2).val < 32768 := (j 2).isLt
  show Iff ((0 ≤ (j 0).val ∧ (j 0).val < 0 + 1) ∧ (8 * (L 1).val + 4 * (L 0).val + 1 ≤ (j 1).val ∧ (j 1).val < 8 * (L 1).val + 4 * (L 0).val + 1 + 1)
    ∧ (0 ≤ (j 2).val ∧ (j 2).val < 0 + 32768)) ((j 0).val = 0 ∧ (j 1).val = row0 (L 0).val (L 1).val + 1)
  unfold row0; omega
theorem mem_XR2 (j : S3x128x32768.Idx) : Iff (j ∈ XR2 L) ((j 0).val = 0 ∧ (j 1).val = row0 (L 0).val (L 1).val + 2) := by
  unfold XR2
  simp only [Memref.view_squeeze, Memref.view_slice, Memref.view_whole, View.set_reshape, View.set_slice_whole]
  rw [mem_unit3, show k0_off1 L 2#32 = ![0, 8 * (L 1).val + 4 * (L 0).val + 2, 0] from k0_off1_eq L 2]
  have h2 : (j 2).val < 32768 := (j 2).isLt
  show Iff ((0 ≤ (j 0).val ∧ (j 0).val < 0 + 1) ∧ (8 * (L 1).val + 4 * (L 0).val + 2 ≤ (j 1).val ∧ (j 1).val < 8 * (L 1).val + 4 * (L 0).val + 2 + 1)
    ∧ (0 ≤ (j 2).val ∧ (j 2).val < 0 + 32768)) ((j 0).val = 0 ∧ (j 1).val = row0 (L 0).val (L 1).val + 2)
  unfold row0; omega
theorem mem_XR3 (j : S3x128x32768.Idx) : Iff (j ∈ XR3 L) ((j 0).val = 0 ∧ (j 1).val = row0 (L 0).val (L 1).val + 3) := by
  unfold XR3
  simp only [Memref.view_squeeze, Memref.view_slice, Memref.view_whole, View.set_reshape, View.set_slice_whole]
  rw [mem_unit3, show k0_off1 L 3#32 = ![0, 8 * (L 1).val + 4 * (L 0).val + 3, 0] from k0_off1_eq L 3]
  have h2 : (j 2).val < 32768 := (j 2).isLt
  show Iff ((0 ≤ (j 0).val ∧ (j 0).val < 0 + 1) ∧ (8 * (L 1).val + 4 * (L 0).val + 3 ≤ (j 1).val ∧ (j 1).val < 8 * (L 1).val + 4 * (L 0).val + 3 + 1)
    ∧ (0 ≤ (j 2).val ∧ (j 2).val < 0 + 32768)) ((j 0).val = 0 ∧ (j 1).val = row0 (L 0).val (L 1).val + 3)
  unfold row0; omega
theorem mem_YR0 (j : S128x32768.Idx) : Iff (j ∈ YR0 L) ((j 0).val = row0 (L 0).val (L 1).val + 0) := by
  unfold YR0
  simp only [Memref.view_squeeze, Memref.view_slice, Memref.view_whole, View.set_reshape, View.set_slice_whole]
  rw [mem_unit2, show k0_off4 L 0#32 = ![8 * (L 1).val + 4 * (L 0).val + 0, 0] from k0_off4_eq L 0]
  have h1 : (j 1).val < 32768 := (j 1).isLt
  show Iff ((8 * (L 1).val + 4 * (L 0).val + 0 ≤ (j 0).val ∧ (j 0).val < 8 * (L 1).val + 4 * (L 0).val + 0 + 1)
    ∧ (0 ≤ (j 1).val ∧ (j 1).val < 0 + 32768)) ((j 0).val = row0 (L 0).val (L 1).val + 0)
  unfold row0; omega
theorem mem_YR1 (j : S128x32768.Idx) : Iff (j ∈ YR1 L) ((j 0).val = row0 (L 0).val (L 1).val + 1) := by
  unfold YR1
  simp only [Memref.view_squeeze, Memref.view_slice, Memref.view_whole, View.set_reshape, View.set_slice_whole]
  rw [mem_unit2, show k0_off4 L 1#32 = ![8 * (L 1).val + 4 * (L 0).val + 1, 0] from k0_off4_eq L 1]
  have h1 : (j 1).val < 32768 := (j 1).isLt
  show Iff ((8 * (L 1).val + 4 * (L 0).val + 1 ≤ (j 0).val ∧ (j 0).val < 8 * (L 1).val + 4 * (L 0).val + 1 + 1)
    ∧ (0 ≤ (j 1).val ∧ (j 1).val < 0 + 32768)) ((j 0).val = row0 (L 0).val (L 1).val + 1)
  unfold row0; omega
theorem mem_YR2 (j : S128x32768.Idx) : Iff (j ∈ YR2 L) ((j 0).val = row0 (L 0).val (L 1).val + 2) := by
  unfold YR2
  simp only [Memref.view_squeeze, Memref.view_slice, Memref.view_whole, View.set_reshape, View.set_slice_whole]
  rw [mem_unit2, show k0_off4 L 2#32 = ![8 * (L 1).val + 4 * (L 0).val + 2, 0] from k0_off4_eq L 2]
  have h1 : (j 1).val < 32768 := (j 1).isLt
  show Iff ((8 * (L 1).val + 4 * (L 0).val + 2 ≤ (j 0).val ∧ (j 0).val < 8 * (L 1).val + 4 * (L 0).val + 2 + 1)
    ∧ (0 ≤ (j 1).val ∧ (j 1).val < 0 + 32768)) ((j 0).val = row0 (L 0).val (L 1).val + 2)
  unfold row0; omega
theorem mem_YR3 (j : S128x32768.Idx) : Iff (j ∈ YR3 L) ((j 0).val = row0 (L 0).val (L 1).val + 3) := by
  unfold YR3
  simp only [Memref.view_squeeze, Memref.view_slice, Memref.view_whole, View.set_reshape, View.set_slice_whole]
  rw [mem_unit2, show k0_off4 L 3#32 = ![8 * (L 1).val + 4 * (L 0).val + 3, 0] from k0_off4_eq L 3]
  have h1 : (j 1).val < 32768 := (j 1).isLt
  show Iff ((8 * (L 1).val + 4 * (L 0).val + 3 ≤ (j 0).val ∧ (j 0).val < 8 * (L 1).val + 4 * (L 0).val + 3 + 1)
    ∧ (0 ≤ (j 1).val ∧ (j 1).val < 0 + 32768)) ((j 0).val = row0 (L 0).val (L 1).val + 3)
  unfold row0; omega
theorem mem_XSA (j : S3x128x32768.Idx) : Iff (j ∈ XSA L) ((j 0).val = 0 ∧ (row0 (L 0).val (L 1).val ≤ (j 1).val ∧ (j 1).val < row0 (L 0).val (L 1).val + 4) ∧ (j 2).val < 128) := by
  unfold XSA
  simp only [Memref.view_squeeze, Memref.view_slice, Memref.view_whole, View.set_reshape, View.set_slice_whole]
  rw [mem_unit3, show k0_off2 L = ![0, 8 * (L 1).val + 4 * (L 0).val, 0] from k0_off2_eq L]
  show Iff ((0 ≤ (j 0).val ∧ (j 0).val < 0 + 1) ∧ (8 * (L 1).val + 4 * (L 0).val ≤ (j 1).val ∧ (j 1).val < 8 * (L 1).val + 4 * (L 0).val + 4)
    ∧ (0 ≤ (j 2).val ∧ (j 2).val < 0 + 128)) ((j 0).val = 0 ∧ (row0 (L 0).val (L 1).val ≤ (j 1).val ∧ (j 1).val < row0 (L 0).val (L 1).val + 4) ∧ (j 2).val < 128)
  unfold row0; omega
theorem mem_XSB (j : S3x128x32768.Idx) : Iff (j ∈ XSB L) ((j 0).val = 0 ∧ (row0 (L 0).val (L 1).val ≤ (j 1).val ∧ (j 1).val < row0 (L 0).val (L 1).val + 4) ∧ (16384 ≤ (j 2).val ∧ (j 2).val < 16512)) := by
  unfold XSB
  simp only [Memref.view_squeeze, Memref.view_slice, Memref.view_whole, View.set_reshape, View.set_slice_whole]
  rw [mem_unit3, show k0_off3 L = ![0, 8 * (L 1).val + 4 * (L 0).val, 16384] from k0_off3_eq L]
  show Iff ((0 ≤ (j 0).val ∧ (j 0).val < 0 + 1) ∧ (8 * (L 1).val + 4 * (L 0).val ≤ (j 1).val ∧ (j 1).val < 8 * (L 1).val + 4 * (L 0).val + 4)
    ∧ (16384 ≤ (j 2).val ∧ (j 2).val < 16384 + 128)) ((j 0).val = 0 ∧ (row0 (L 0).val (L 1).val ≤ (j 1).val ∧ (j 1).val < row0 (L 0).val (L 1).val + 4) ∧ (16384 ≤ (j 2).val ∧ (j 2).val < 16512))
  unfold row0; omega

end Sets

section Blocks

variable (L : grid0.Coords)

/-- What is left of the block's left half share after the four rows of plane 0, of its right half after the two
    slabs, and of the output block after its four rows (nothing). -/
def XL4 : Finset S3x128x32768.Idx := (((XT L \ XR0 L) \ XR1 L) \ XR2 L) \ XR3 L
def XRr : Finset S3x128x32768.Idx := (XT L \ XSA L) \ XSB L
def YE : Finset S128x32768.Idx := (((YT L \ YR0 L) \ YR1 L) \ YR2 L) \ YR3 L

theorem sub_XR0 : XR0 L ⊆ XT L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XR1 : XR1 L ⊆ XT L \ XR0 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XR2 : XR2 L ⊆ (XT L \ XR0 L) \ XR1 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XR3 : XR3 L ⊆ ((XT L \ XR0 L) \ XR1 L) \ XR2 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XSA : XSA L ⊆ XT L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XSB : XSB L ⊆ XT L \ XSA L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR0 : YR0 L ⊆ YT L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR1 : YR1 L ⊆ YT L \ YR0 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR2 : YR2 L ⊆ (YT L \ YR0 L) \ YR1 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR3 : YR3 L ⊆ ((YT L \ YR0 L) \ YR1 L) \ YR2 L := by
  intro j hj; simp only [mem_XR0, mem_XR1, mem_XR2, mem_XR3, mem_XSA, mem_XSB, mem_YR0, mem_YR1, mem_YR2, mem_YR3, mem_XB, mem_YB, Finset.mem_sdiff] at hj ⊢; omega
theorem YE_empty : YE L = ∅ := by
  apply Finset.eq_empty_of_forall_notMem
  intro j hj; unfold YE at hj; simp only [mem_XR0, mem_XR1, mem_XR2, mem_XR3, mem_XSA, mem_XSB, mem_YR0, mem_YR1, mem_YR2, mem_YR3, mem_XB, mem_YB, Finset.mem_sdiff] at hj; omega

variable (d : Dev nD)

theorem eq_of_equiv {P Q : sProp 𝕄} (h : P ⊣⊢ Q) : P = Q := BI.equiv_iff.mp ⟨h.1, h.2⟩

/-- A subcore's block of the input, at contents `f`: the left half share as the four rows and a rest, the right half
    as the two slabs and a rest. -/
theorem xBlock_pieces (f : Buf (Elt F) (xLoc d)) :
    (xLoc d ↦[XT L]{fullShare} f : sProp 𝕄)
      = iprop(((xLoc d ↦[XR0 L]{fullShare.left} f) ∗ (xLoc d ↦[XR1 L]{fullShare.left} f) ∗ (xLoc d ↦[XR2 L]{fullShare.left} f)
            ∗ (xLoc d ↦[XR3 L]{fullShare.left} f) ∗ (xLoc d ↦[XL4 L]{fullShare.left} f))
          ∗ ((xLoc d ↦[XSA L]{fullShare.right} f) ∗ (xLoc d ↦[XSB L]{fullShare.right} f) ∗ (xLoc d ↦[XRr L]{fullShare.right} f))) := by
  rw [eq_of_equiv (pointsTo_share (ℓ := xLoc d) (I := XT L) (f := f) (PosShare.mem_left_op_right fullShare)),
    eq_of_equiv (pointsTo_split_subset (ℓ := xLoc d) (S := XT L) (I := XR0 L) (f := f) (q := fullShare.left) (sub_XR0 L)),
    eq_of_equiv (pointsTo_split_subset (ℓ := xLoc d) (S := XT L \ XR0 L) (I := XR1 L) (f := f) (q := fullShare.left) (sub_XR1 L)),
    eq_of_equiv (pointsTo_split_subset (ℓ := xLoc d) (S := (XT L \ XR0 L) \ XR1 L) (I := XR2 L) (f := f) (q := fullShare.left) (sub_XR2 L)),
    eq_of_equiv (pointsTo_split_subset (ℓ := xLoc d) (S := ((XT L \ XR0 L) \ XR1 L) \ XR2 L) (I := XR3 L) (f := f) (q := fullShare.left) (sub_XR3 L)),
    eq_of_equiv (pointsTo_split_subset (ℓ := xLoc d) (S := XT L) (I := XSA L) (f := f) (q := fullShare.right) (sub_XSA L)),
    eq_of_equiv (pointsTo_split_subset (ℓ := xLoc d) (S := XT L \ XSA L) (I := XSB L) (f := f) (q := fullShare.right) (sub_XSB L))]
  rfl

/-- A subcore's block of the output is its four rows. -/
theorem yBlock_pieces (f : Buf (Elt F) (yLoc d)) :
    (yLoc d ↦[YT L]{fullShare} f : sProp 𝕄)
      = iprop((yLoc d ↦[YR0 L]{fullShare} f) ∗ (yLoc d ↦[YR1 L]{fullShare} f) ∗ (yLoc d ↦[YR2 L]{fullShare} f) ∗ (yLoc d ↦[YR3 L]{fullShare} f)) := by
  rw [eq_of_equiv (pointsTo_split_subset (ℓ := yLoc d) (S := YT L) (I := YR0 L) (f := f) (q := fullShare) (sub_YR0 L)),
    eq_of_equiv (pointsTo_split_subset (ℓ := yLoc d) (S := YT L \ YR0 L) (I := YR1 L) (f := f) (q := fullShare) (sub_YR1 L)),
    eq_of_equiv (pointsTo_split_subset (ℓ := yLoc d) (S := (YT L \ YR0 L) \ YR1 L) (I := YR2 L) (f := f) (q := fullShare) (sub_YR2 L)),
    eq_of_equiv (pointsTo_split_subset (ℓ := yLoc d) (S := ((YT L \ YR0 L) \ YR1 L) \ YR2 L) (I := YR3 L) (f := f) (q := fullShare) (sub_YR3 L))]
  show iprop(_ ∗ _ ∗ _ ∗ _ ∗ (yLoc d ↦[YE L]{fullShare} f)) = _
  rw [YE_empty, pointsTo_empty]
  exact eq_of_equiv ⟨by iintro ⟨H0, H1, H2, H3, -⟩; isplitl [H0]; · iexact H0
                        isplitl [H1]; · iexact H1
                        isplitl [H2]; · iexact H2
                        iexact H3,
                     by iintro ⟨H0, H1, H2, H3⟩; isplitl [H0]; · iexact H0
                        isplitl [H1]; · iexact H1
                        isplitl [H2]; · iexact H2
                        isplitl [H3]; · iexact H3
                        iempintro⟩

end Blocks

end Cert.Proof.OnKernel

end
-- ==== Proof.OnKernel.Value.lean ====
/-
  What the kernel writes, as one function `G` of the input, and why each output row ends at it.  Row `r` of a
  subcore's four is staged whole from plane 0 of the input; columns 0..15 of the staged row are then overwritten by
  the left values and columns 16384..16399 by the right values of that row, both computed lane by lane from the
  first sixteen lanes of the two slabs' row `r`; the staged row is copied out.  Read back index by index — through
  the copy out, the two partial stores, the copy in, and the slab scratches' own stores and copies — an element of
  the output row is the left value, the right value, or the input's element, as its column says.
-/
import proofs.«209894_g19731079758016_cont_8to1_1440_21_alg».proof.Proof.OnKernel.Blocks
import Idealize.ShloMosaic.Lib.ValueIdx
import Idealize.ShloMosaic.Lib.Writes
import Idealize.ShloMosaic.Lib.Pipeline.Value
import Idealize.ShloMosaic.Lib.Tactic

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

/-! ## What the kernel writes, as a function of the input -/

section Value

variable [FloatOps F]

/-- ((a + b) rem 1024, plus 1024 when negative) + 1, in the kernel's operations. -/
def mixL (a b : F .f32) : F .f32 :=
  FloatOps.addf
    (Scalar.select
      (IntOp.andi (IntOp.xori (FloatOps.cmpf .olt (FloatOps.remf (FloatOps.addf a b) (Scalar.ofBits .f32 0x44800000#32)) (Scalar.ofBits .f32 0x00000000#32))
          (Scalar.cmpf .olt (Scalar.ofBits (F := F) .f32 0x44800000#32) (Scalar.ofBits .f32 0x00000000#32)))
        (FloatOps.cmpf .one (FloatOps.remf (FloatOps.addf a b) (Scalar.ofBits .f32 0x44800000#32)) (Scalar.ofBits .f32 0x00000000#32)))
      (FloatOps.addf (FloatOps.remf (FloatOps.addf a b) (Scalar.ofBits .f32 0x44800000#32)) (Scalar.ofBits .f32 0x44800000#32))
      (FloatOps.remf (FloatOps.addf a b) (Scalar.ofBits .f32 0x44800000#32)))
    (Scalar.ofBits .f32 0x3F800000#32)

/-- (((1024 + a) - b) rem 1024, plus 1024 when negative) + 1. -/
def mixR (a b : F .f32) : F .f32 :=
  FloatOps.addf
    (Scalar.select
      (IntOp.andi (IntOp.xori (FloatOps.cmpf .olt (FloatOps.remf (FloatOps.subf (FloatOps.addf (Scalar.ofBits .f32 0x44800000#32) a) b) (Scalar.ofBits .f32 0x44800000#32)) (Scalar.ofBits .f32 0x00000000#32))
          (Scalar.cmpf .olt (Scalar.ofBits (F := F) .f32 0x44800000#32) (Scalar.ofBits .f32 0x00000000#32)))
        (FloatOps.cmpf .one (FloatOps.remf (FloatOps.subf (FloatOps.addf (Scalar.ofBits .f32 0x44800000#32) a) b) (Scalar.ofBits .f32 0x44800000#32)) (Scalar.ofBits .f32 0x00000000#32)))
      (FloatOps.addf (FloatOps.remf (FloatOps.subf (FloatOps.addf (Scalar.ofBits .f32 0x44800000#32) a) b) (Scalar.ofBits .f32 0x44800000#32)) (Scalar.ofBits .f32 0x44800000#32))
      (FloatOps.remf (FloatOps.subf (FloatOps.addf (Scalar.ofBits .f32 0x44800000#32) a) b) (Scalar.ofBits .f32 0x44800000#32)))
    (Scalar.ofBits .f32 0x3F800000#32)

/-- The output as one function of the input: columns 0..15 and 16384..16399 of each row mixed, the rest of plane 0 kept. -/
def G (d : Dev nD) (X : Buf (Elt F) (xLoc d)) : Buf (Elt F) (yLoc d) := fun i =>
  if h : (i 1).val < 16 then
    mixL (X (ix3 (0 : Fin 3) (i 0) (⟨(i 1).val, by omega⟩ : Fin 32768))) (X (ix3 (0 : Fin 3) (i 0) (⟨(i 1).val + 16384, by omega⟩ : Fin 32768)))
  else if h' : 16384 ≤ (i 1).val ∧ (i 1).val < 16400 then
    mixR (X (ix3 (0 : Fin 3) (i 0) (⟨(i 1).val - 16384, by omega⟩ : Fin 32768))) (X (ix3 (0 : Fin 3) (i 0) (i 1)))
  else X (ix3 (0 : Fin 3) (i 0) (i 1))

end Value

/-- `G` at a row and a column. -/
theorem G_at [FloatOps F] (d : Dev nD) (X : Buf (Elt F) (xLoc d)) (R : Fin 128) (c : Fin 32768) :
    G d X (ix2 R c) = if h : c.val < 16 then
        mixL (X (ix3 (0 : Fin 3) R (⟨c.val, by omega⟩ : Fin 32768))) (X (ix3 (0 : Fin 3) R (⟨c.val + 16384, by omega⟩ : Fin 32768)))
      else if h' : 16384 ≤ c.val ∧ c.val < 16400 then
        mixR (X (ix3 (0 : Fin 3) R (⟨c.val - 16384, by omega⟩ : Fin 32768))) (X (ix3 (0 : Fin 3) R c))
      else X (ix3 (0 : Fin 3) R c) := rfl

section Payloads
variable [FloatOps F]

/-- A cast to the flat lane shape and back reads the same lane. -/
theorem lane_roundtrip (v : Vec F S1x16 .f32) (x : S1x16.Idx) :
    v (Shape.reshapeEquiv shapeCasts_S1x16_S16 (Shape.reshapeEquiv shapeCasts_S16_S1x16 x)) = v x := by
  rw [Shape.reshapeEquiv_reshapeEquiv, Shape.reshapeEquiv_self]

/-- The eight stored vectors — left and right value of each of the four rows — are the two scalar functions lane by
    lane, whatever way their operations were grouped. -/
theorem payA0 (a b : Vec F S1x16 .f32) (x : S1x16.Idx) : k0_pay3 a b x = mixL (a x) (b x) := by
  unfold k0_pay3 k0_pay1 k0_pay2 mixL
  simp only [shapeCast, addf, subf, remf, cmpf, select, xori, andi, broadcast, broadcastTo, lane_roundtrip]
theorem payB0 (a b : Vec F S1x16 .f32) (x : S1x16.Idx) :
    k0_pay7 (Scalar.ofBits (F := F) .f32 0x44800000#32) (k0_pay4 a b) (k0_pay5 a b) (k0_pay6 a b) (Scalar.ofBits (F := F) .f32 0x00000000#32) x = mixR (a x) (b x) := by
  unfold k0_pay7 k0_pay6 k0_pay5 k0_pay4 k0_pay1 k0_pay2 mixR
  simp only [shapeCast, addf, subf, remf, cmpf, select, xori, andi, broadcast, broadcastTo, lane_roundtrip]
theorem payA1 (a b : Vec F S1x16 .f32) (x : S1x16.Idx) : k0_pay10 a b x = mixL (a x) (b x) := by
  unfold k0_pay10 k0_pay8 k0_pay9 mixL
  simp only [shapeCast, addf, subf, remf, cmpf, select, xori, andi, broadcast, broadcastTo, lane_roundtrip]
theorem payB1 (a b : Vec F S1x16 .f32) (x : S1x16.Idx) : k0_pay12 (k0_pay9 b) (k0_pay11 a) x = mixR (a x) (b x) := by
  unfold k0_pay12 k0_pay11 k0_pay9 k0_pay8 mixR
  simp only [shapeCast, addf, subf, remf, cmpf, select, xori, andi, broadcast, broadcastTo, lane_roundtrip]
theorem payA2 (a b : Vec F S1x16 .f32) (x : S1x16.Idx) : k0_pay17 (k0_pay15 a b) k0_pay16 x = mixL (a x) (b x) := by
  unfold k0_pay17 k0_pay16 k0_pay15 k0_pay13 k0_pay14 mixL
  simp only [shapeCast, addf, subf, remf, cmpf, select, xori, andi, broadcast, broadcastTo, lane_roundtrip]
theorem payB2 (a b : Vec F S1x16 .f32) (x : S1x16.Idx) : k0_pay18 (k0_pay13 a) (k0_pay14 b) x = mixR (a x) (b x) := by
  unfold k0_pay18 k0_pay13 k0_pay14 mixR
  simp only [shapeCast, addf, subf, remf, cmpf, select, xori, andi, broadcast, broadcastTo, lane_roundtrip]
theorem payA3 (a b : Vec F S1x16 .f32) (x : S1x16.Idx) :
    k0_pay24 (Scalar.ofBits (F := F) .f32 0x44800000#32) (k0_pay21 a b) (k0_pay22 a b) (k0_pay23 a b) x = mixL (a x) (b x) := by
  unfold k0_pay24 k0_pay23 k0_pay22 k0_pay21 k0_pay19 k0_pay20 mixL
  simp only [shapeCast, addf, subf, remf, cmpf, select, xori, andi, broadcast, broadcastTo, lane_roundtrip]
theorem payB3 (a b : Vec F S1x16 .f32) (x : S1x16.Idx) : k0_pay25 (k0_pay19 a) (k0_pay20 b) x = mixR (a x) (b x) := by
  unfold k0_pay25 k0_pay19 k0_pay20 mixR
  simp only [shapeCast, addf, subf, remf, cmpf, select, xori, andi, broadcast, broadcastTo, lane_roundtrip]

end Payloads

section Emb
variable (L : grid0.Coords)

theorem rowK_lt (r : ℕ) (hr : r < 4) : row0 (L 0).val (L 1).val + r < 128 := by
  have := L0_lt L; have := L1_lt L; unfold row0; omega

/-- Where the elements of each row and slab memref sit in the arrays. -/
theorem yRow0_emb (j : S1x32768.Idx) : (yRow0 L).view.emb j = ix2 (⟨row0 (L 0).val (L 1).val + 0, rowK_lt L 0 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 0#32) 0 + 1 * (j 0).val = row0 (L 0).val (L 1).val + 0
    rw [show k0_off4 L 0#32 = ![8 * (L 1).val + 4 * (L 0).val + 0, 0] from k0_off4_eq L 0]
    show 8 * (L 1).val + 4 * (L 0).val + 0 + 1 * (j 0).val = row0 (L 0).val (L 1).val + 0
    unfold row0; omega
  | ⟨1, _⟩ =>
    show (k0_off4 L 0#32) 1 + 1 * (j 1).val = (j 1).val
    rw [show k0_off4 L 0#32 = ![8 * (L 1).val + 4 * (L 0).val + 0, 0] from k0_off4_eq L 0]
    show 0 + 1 * (j 1).val = (j 1).val
    omega
theorem yRow1_emb (j : S1x32768.Idx) : (yRow1 L).view.emb j = ix2 (⟨row0 (L 0).val (L 1).val + 1, rowK_lt L 1 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 1#32) 0 + 1 * (j 0).val = row0 (L 0).val (L 1).val + 1
    rw [show k0_off4 L 1#32 = ![8 * (L 1).val + 4 * (L 0).val + 1, 0] from k0_off4_eq L 1]
    show 8 * (L 1).val + 4 * (L 0).val + 1 + 1 * (j 0).val = row0 (L 0).val (L 1).val + 1
    unfold row0; omega
  | ⟨1, _⟩ =>
    show (k0_off4 L 1#32) 1 + 1 * (j 1).val = (j 1).val
    rw [show k0_off4 L 1#32 = ![8 * (L 1).val + 4 * (L 0).val + 1, 0] from k0_off4_eq L 1]
    show 0 + 1 * (j 1).val = (j 1).val
    omega
theorem yRow2_emb (j : S1x32768.Idx) : (yRow2 L).view.emb j = ix2 (⟨row0 (L 0).val (L 1).val + 2, rowK_lt L 2 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 2#32) 0 + 1 * (j 0).val = row0 (L 0).val (L 1).val + 2
    rw [show k0_off4 L 2#32 = ![8 * (L 1).val + 4 * (L 0).val + 2, 0] from k0_off4_eq L 2]
    show 8 * (L 1).val + 4 * (L 0).val + 2 + 1 * (j 0).val = row0 (L 0).val (L 1).val + 2
    unfold row0; omega
  | ⟨1, _⟩ =>
    show (k0_off4 L 2#32) 1 + 1 * (j 1).val = (j 1).val
    rw [show k0_off4 L 2#32 = ![8 * (L 1).val + 4 * (L 0).val + 2, 0] from k0_off4_eq L 2]
    show 0 + 1 * (j 1).val = (j 1).val
    omega
theorem yRow3_emb (j : S1x32768.Idx) : (yRow3 L).view.emb j = ix2 (⟨row0 (L 0).val (L 1).val + 3, rowK_lt L 3 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 3#32) 0 + 1 * (j 0).val = row0 (L 0).val (L 1).val + 3
    rw [show k0_off4 L 3#32 = ![8 * (L 1).val + 4 * (L 0).val + 3, 0] from k0_off4_eq L 3]
    show 8 * (L 1).val + 4 * (L 0).val + 3 + 1 * (j 0).val = row0 (L 0).val (L 1).val + 3
    unfold row0; omega
  | ⟨1, _⟩ =>
    show (k0_off4 L 3#32) 1 + 1 * (j 1).val = (j 1).val
    rw [show k0_off4 L 3#32 = ![8 * (L 1).val + 4 * (L 0).val + 3, 0] from k0_off4_eq L 3]
    show 0 + 1 * (j 1).val = (j 1).val
    omega
theorem xRow0_emb (j : S1x32768.Idx) : (xRow0 L).view.emb j = ix3 (0 : Fin 3) (⟨row0 (L 0).val (L 1).val + 0, rowK_lt L 0 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 0#32) 0 + 1 * 0 = 0
    rw [show k0_off1 L 0#32 = ![0, 8 * (L 1).val + 4 * (L 0).val + 0, 0] from k0_off1_eq L 0]; rfl
  | ⟨1, _⟩ =>
    show (k0_off1 L 0#32) 1 + 1 * 0 = row0 (L 0).val (L 1).val + 0
    rw [show k0_off1 L 0#32 = ![0, 8 * (L 1).val + 4 * (L 0).val + 0, 0] from k0_off1_eq L 0]
    show 8 * (L 1).val + 4 * (L 0).val + 0 + 1 * 0 = row0 (L 0).val (L 1).val + 0
    unfold row0; omega
  | ⟨2, _⟩ =>
    show (k0_off1 L 0#32) 2 + 1 * (j 1).val = (j 1).val
    rw [show k0_off1 L 0#32 = ![0, 8 * (L 1).val + 4 * (L 0).val + 0, 0] from k0_off1_eq L 0]
    show 0 + 1 * (j 1).val = (j 1).val
    omega
theorem xRow1_emb (j : S1x32768.Idx) : (xRow1 L).view.emb j = ix3 (0 : Fin 3) (⟨row0 (L 0).val (L 1).val + 1, rowK_lt L 1 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 1#32) 0 + 1 * 0 = 0
    rw [show k0_off1 L 1#32 = ![0, 8 * (L 1).val + 4 * (L 0).val + 1, 0] from k0_off1_eq L 1]; rfl
  | ⟨1, _⟩ =>
    show (k0_off1 L 1#32) 1 + 1 * 0 = row0 (L 0).val (L 1).val + 1
    rw [show k0_off1 L 1#32 = ![0, 8 * (L 1).val + 4 * (L 0).val + 1, 0] from k0_off1_eq L 1]
    show 8 * (L 1).val + 4 * (L 0).val + 1 + 1 * 0 = row0 (L 0).val (L 1).val + 1
    unfold row0; omega
  | ⟨2, _⟩ =>
    show (k0_off1 L 1#32) 2 + 1 * (j 1).val = (j 1).val
    rw [show k0_off1 L 1#32 = ![0, 8 * (L 1).val + 4 * (L 0).val + 1, 0] from k0_off1_eq L 1]
    show 0 + 1 * (j 1).val = (j 1).val
    omega
theorem xRow2_emb (j : S1x32768.Idx) : (xRow2 L).view.emb j = ix3 (0 : Fin 3) (⟨row0 (L 0).val (L 1).val + 2, rowK_lt L 2 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 2#32) 0 + 1 * 0 = 0
    rw [show k0_off1 L 2#32 = ![0, 8 * (L 1).val + 4 * (L 0).val + 2, 0] from k0_off1_eq L 2]; rfl
  | ⟨1, _⟩ =>
    show (k0_off1 L 2#32) 1 + 1 * 0 = row0 (L 0).val (L 1).val + 2
    rw [show k0_off1 L 2#32 = ![0, 8 * (L 1).val + 4 * (L 0).val + 2, 0] from k0_off1_eq L 2]
    show 8 * (L 1).val + 4 * (L 0).val + 2 + 1 * 0 = row0 (L 0).val (L 1).val + 2
    unfold row0; omega
  | ⟨2, _⟩ =>
    show (k0_off1 L 2#32) 2 + 1 * (j 1).val = (j 1).val
    rw [show k0_off1 L 2#32 = ![0, 8 * (L 1).val + 4 * (L 0).val + 2, 0] from k0_off1_eq L 2]
    show 0 + 1 * (j 1).val = (j 1).val
    omega
theorem xRow3_emb (j : S1x32768.Idx) : (xRow3 L).view.emb j = ix3 (0 : Fin 3) (⟨row0 (L 0).val (L 1).val + 3, rowK_lt L 3 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 3#32) 0 + 1 * 0 = 0
    rw [show k0_off1 L 3#32 = ![0, 8 * (L 1).val + 4 * (L 0).val + 3, 0] from k0_off1_eq L 3]; rfl
  | ⟨1, _⟩ =>
    show (k0_off1 L 3#32) 1 + 1 * 0 = row0 (L 0).val (L 1).val + 3
    rw [show k0_off1 L 3#32 = ![0, 8 * (L 1).val + 4 * (L 0).val + 3, 0] from k0_off1_eq L 3]
    show 8 * (L 1).val + 4 * (L 0).val + 3 + 1 * 0 = row0 (L 0).val (L 1).val + 3
    unfold row0; omega
  | ⟨2, _⟩ =>
    show (k0_off1 L 3#32) 2 + 1 * (j 1).val = (j 1).val
    rw [show k0_off1 L 3#32 = ![0, 8 * (L 1).val + 4 * (L 0).val + 3, 0] from k0_off1_eq L 3]
    show 0 + 1 * (j 1).val = (j 1).val
    omega
theorem xSlabA_emb (y : S4x128.Idx) : (xSlabA L).view.emb y
    = ix3 (0 : Fin 3) (⟨row0 (L 0).val (L 1).val + (y 0).val, rowK_lt L _ (y 0).isLt⟩ : Fin 128) (⟨(y 1).val, by have h : (y 1).val < 128 := (y 1).isLt; omega⟩ : Fin 32768) := by
  have e : Shape.reshapeEquiv (s := S1x4x128) (s' := S4x128) squeezes_S1x4x128_S4x128.numel_eq y
      = (ix3 (0 : Fin 1) (y 0 : Fin 4) (y 1 : Fin 128) : S1x4x128.Idx) := by
    apply Shape.reshapeEquiv_eq_of_rowMajor
    have h1 := Shape.rowMajor_val_three (d := ![1, 4, 128]) (ix3 (0 : Fin 1) (y 0 : Fin 4) (y 1 : Fin 128))
    have h2 := Shape.rowMajor_val_two (d := ![4, 128]) y
    refine h1.trans (Eq.trans ?_ h2.symm)
    show ((0 : ℕ) * 4 + (y 0).val) * 128 + (y 1).val = (y 0).val * 128 + (y 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off2 L) 0 + 1 * 0 = 0
    rw [show k0_off2 L = ![0, 8 * (L 1).val + 4 * (L 0).val, 0] from k0_off2_eq L]; rfl
  | ⟨1, _⟩ =>
    show (k0_off2 L) 1 + 1 * (y 0).val = row0 (L 0).val (L 1).val + (y 0).val
    rw [show k0_off2 L = ![0, 8 * (L 1).val + 4 * (L 0).val, 0] from k0_off2_eq L]
    show 8 * (L 1).val + 4 * (L 0).val + 1 * (y 0).val = row0 (L 0).val (L 1).val + (y 0).val
    unfold row0; omega
  | ⟨2, _⟩ =>
    show (k0_off2 L) 2 + 1 * (y 1).val = (y 1).val
    rw [show k0_off2 L = ![0, 8 * (L 1).val + 4 * (L 0).val, 0] from k0_off2_eq L]
    show 0 + 1 * (y 1).val = (y 1).val
    omega
theorem xSlabB_emb (y : S4x128.Idx) : (xSlabB L).view.emb y
    = ix3 (0 : Fin 3) (⟨row0 (L 0).val (L 1).val + (y 0).val, rowK_lt L _ (y 0).isLt⟩ : Fin 128) (⟨(y 1).val + 16384, by have h : (y 1).val < 128 := (y 1).isLt; omega⟩ : Fin 32768) := by
  have e : Shape.reshapeEquiv (s := S1x4x128) (s' := S4x128) squeezes_S1x4x128_S4x128.numel_eq y
      = (ix3 (0 : Fin 1) (y 0 : Fin 4) (y 1 : Fin 128) : S1x4x128.Idx) := by
    apply Shape.reshapeEquiv_eq_of_rowMajor
    have h1 := Shape.rowMajor_val_three (d := ![1, 4, 128]) (ix3 (0 : Fin 1) (y 0 : Fin 4) (y 1 : Fin 128))
    have h2 := Shape.rowMajor_val_two (d := ![4, 128]) y
    refine h1.trans (Eq.trans ?_ h2.symm)
    show ((0 : ℕ) * 4 + (y 0).val) * 128 + (y 1).val = (y 0).val * 128 + (y 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off3 L) 0 + 1 * 0 = 0
    rw [show k0_off3 L = ![0, 8 * (L 1).val + 4 * (L 0).val, 16384] from k0_off3_eq L]; rfl
  | ⟨1, _⟩ =>
    show (k0_off3 L) 1 + 1 * (y 0).val = row0 (L 0).val (L 1).val + (y 0).val
    rw [show k0_off3 L = ![0, 8 * (L 1).val + 4 * (L 0).val, 16384] from k0_off3_eq L]
    show 8 * (L 1).val + 4 * (L 0).val + 1 * (y 0).val = row0 (L 0).val (L 1).val + (y 0).val
    unfold row0; omega
  | ⟨2, _⟩ =>
    show (k0_off3 L) 2 + 1 * (y 1).val = (y 1).val + 16384
    rw [show k0_off3 L = ![0, 8 * (L 1).val + 4 * (L 0).val, 16384] from k0_off3_eq L]
    show 16384 + 1 * (y 1).val = (y 1).val + 16384
    omega

end Emb

section Reads
variable [FloatOps F]

/-- A staged row read back: columns 0..15 and 16384..16399 are the two vectors stored over it, every other column
    is the copied row. -/
theorem staged_read {κ : Kind} {sp : Space} (w : View sig κ sp S1x32768 .f32) (f : w.ty.Contents (Elt F)) (D : S1x32768.Idx → Elt F .f32)
    (pA : (Rect.unit (s := S1x32768) ![0, 0] S1x16.size inb_S1x32768_S1x16_0_0).shape.Idx → Elt F .f32) (pB : (Rect.unit (s := S1x32768) ![0, 16384] S1x16.size inb_S1x32768_S1x16_0_16384).shape.Idx → Elt F .f32) (j : S1x32768.Idx) :
    w.read (Elt F) (w.writes (Elt F) (w.write (Elt F) f D Finset.univ) [⟨(Rect.unit (s := S1x32768) ![0, 16384] S1x16.size inb_S1x32768_S1x16_0_16384), pB⟩, ⟨(Rect.unit (s := S1x32768) ![0, 0] S1x16.size inb_S1x32768_S1x16_0_0), pA⟩]) j
      = if h : (j 1).val < 16 then pA (ix2 (0 : Fin 1) (⟨(j 1).val, h⟩ : Fin 16))
        else if h' : 16384 ≤ (j 1).val ∧ (j 1).val < 16400 then pB (ix2 (0 : Fin 1) (⟨(j 1).val - 16384, by omega⟩ : Fin 16))
        else D j := by
  have hj0 : (j 0).val < 1 := (j 0).isLt
  by_cases h : (j 1).val < 16
  · rw [dif_pos h]
    have e : j = (Rect.unit (s := S1x32768) ![0, 0] S1x16.size inb_S1x32768_S1x16_0_0).emb (ix2 (0 : Fin 1) (⟨(j 1).val, h⟩ : Fin 16)) := by
      funext a; apply Fin.ext
      match a with
      | ⟨0, _⟩ => show (j 0).val = 0 + 1 * 0; omega
      | ⟨1, _⟩ => show (j 1).val = 0 + 1 * (j 1).val; omega
    have hnot : ∀ p ∈ ([⟨(Rect.unit (s := S1x32768) ![0, 16384] S1x16.size inb_S1x32768_S1x16_0_16384), pB⟩] : List (View.Piece (Elt F) S1x32768 .f32)), j ∉ p.1.set := by
      intro p hp; rw [List.mem_singleton] at hp; subst hp
      intro hh; rw [mem_unit2] at hh
      have h1 : 16384 ≤ (j 1).val := hh.2.1
      omega
    rw [show ([⟨(Rect.unit (s := S1x32768) ![0, 16384] S1x16.size inb_S1x32768_S1x16_0_16384), pB⟩, ⟨(Rect.unit (s := S1x32768) ![0, 0] S1x16.size inb_S1x32768_S1x16_0_0), pA⟩] : List (View.Piece (Elt F) S1x32768 .f32)) = [⟨(Rect.unit (s := S1x32768) ![0, 16384] S1x16.size inb_S1x32768_S1x16_0_16384), pB⟩] ++ [⟨(Rect.unit (s := S1x32768) ![0, 0] S1x16.size inb_S1x32768_S1x16_0_0), pA⟩] from rfl,
      View.writes_append, View.read_writes_apply_of_forall_not_mem _ _ _ _ hnot]
    conv_lhs => rw [e]
    exact View.read_writes_cons_emb w _ _ pA [] _
  · rw [dif_neg h]
    by_cases h' : 16384 ≤ (j 1).val ∧ (j 1).val < 16400
    · rw [dif_pos h']
      have e : j = (Rect.unit (s := S1x32768) ![0, 16384] S1x16.size inb_S1x32768_S1x16_0_16384).emb (ix2 (0 : Fin 1) (⟨(j 1).val - 16384, by omega⟩ : Fin 16)) := by
        funext a; apply Fin.ext
        match a with
        | ⟨0, _⟩ => show (j 0).val = 0 + 1 * 0; omega
        | ⟨1, _⟩ => show (j 1).val = 16384 + 1 * ((j 1).val - 16384); omega
      conv_lhs => rw [e]
      exact View.read_writes_cons_emb w _ _ pB _ _
    · rw [dif_neg h']
      have hnot : ∀ p ∈ ([⟨(Rect.unit (s := S1x32768) ![0, 16384] S1x16.size inb_S1x32768_S1x16_0_16384), pB⟩, ⟨(Rect.unit (s := S1x32768) ![0, 0] S1x16.size inb_S1x32768_S1x16_0_0), pA⟩] : List (View.Piece (Elt F) S1x32768 .f32)), j ∉ p.1.set := by
        intro p hp
        simp only [List.mem_cons, List.not_mem_nil, or_false] at hp
        rcases hp with rfl | rfl
        · intro hh; rw [mem_unit2] at hh
          have h1 : 16384 ≤ (j 1).val := hh.2.1
          have h2 : (j 1).val < 16384 + 16 := hh.2.2
          omega
        · intro hh; rw [mem_unit2] at hh
          have h2 : (j 1).val < 0 + 16 := hh.2.2
          omega
      rw [View.read_writes_apply_of_forall_not_mem _ _ _ _ hnot, View.read_write_univ]

/-- Row `r` of a slab scratch, read after the four rows' stores, is what was stored in row `r`. -/
theorem rowK_emb (k : ℕ) (hk : k < 4) (inb) (x : (Rect.unit (s := S4x128) ![k, 0] S1x16.size inb).shape.Idx) :
    (Rect.unit (s := S4x128) ![k, 0] S1x16.size inb).emb x = ix2 (⟨k, hk⟩ : Fin 4) (⟨(x 1).val, by have h : (x 1).val < 16 := (x 1).isLt; omega⟩ : Fin 128) := by
  have h0 : (x 0).val < 1 := (x 0).isLt
  funext a; apply Fin.ext
  match a with
  | ⟨0, _⟩ => show k + 1 * (x 0).val = k; omega
  | ⟨1, _⟩ => show 0 + 1 * (x 1).val = (x 1).val; omega

theorem readCov_hit {κ : Kind} {sp : Space} {s : Shape} (v : View sig κ sp s .f32) (L1 : List (View.Piece (Elt F) s .f32)) (R : Rect s)
    (w : R.shape.Idx → Elt F .f32) (L2 : List (View.Piece (Elt F) s .f32)) (h : ∀ p ∈ L1, ∀ x : R.shape.Idx, R.emb x ∉ p.1.set) :
    v.readCov (L1 ++ ⟨R, w⟩ :: L2) R.toLoadRect = w := by
  funext x
  show v.read (Elt F) (v.writes (Elt F) v.junk (L1 ++ ⟨R, w⟩ :: L2)) (R.emb x) = w x
  rw [View.writes_append, View.read_writes_apply_of_forall_not_mem _ _ _ L1 (fun p hp => h p hp x)]
  exact View.read_writes_cons_emb v _ R w L2 x

theorem rows_apart (k k' : ℕ) (hne : k ≠ k') (inb inb') (x : (Rect.unit (s := S4x128) ![k, 0] S1x16.size inb).shape.Idx) :
    (Rect.unit (s := S4x128) ![k, 0] S1x16.size inb).emb x ∉ (Rect.unit (s := S4x128) ![k', 0] S1x16.size inb').set := by
  have h0 : (x 0).val < 1 := (x 0).isLt
  intro hh; rw [mem_unit2] at hh
  have h1 : k' ≤ k + 1 * (x 0).val := hh.1.1
  have h2 : k + 1 * (x 0).val < k' + 1 := hh.1.2
  omega

/-- A load of a rectangle of a buffer a copy has just filled reads the copied data there. -/
theorem load_filled {κ : Kind} {sp : Space} {s : Shape} (v : View sig κ sp s .f32) (f : v.ty.Contents (Elt F)) (D : s.Idx → Elt F .f32) (R : Rect s) :
    v.readAt (Elt F) R.toLoadRect (v.write (Elt F) f D Finset.univ) = fun x => D (R.emb x) := by
  funext x
  show v.read (Elt F) (v.write (Elt F) f D Finset.univ) (R.emb x) = _
  rw [View.read_write_univ]

/-- A buffer written whole reads back what was written. -/
theorem whole_written {κ : Kind} {sp : Space} {s : Shape} (v : View sig κ sp s .f32) (g : v.ty.Contents (Elt F)) (P : s.Idx → Elt F .f32) (j : s.Idx) :
    v.read (Elt F) (v.writes (Elt F) g [⟨Rect.whole s, P⟩]) j = P j := by
  have h := View.read_writes_cons_emb v g (Rect.whole s) P [] j
  rw [Rect.emb_whole_apply] at h
  exact h

end Reads

section Rows
variable (m : (ℓ : Loc nD τ sig) → Buf (Elt F) ℓ) [FloatOps F] (d : Dev nD) (L : grid0.Coords)

/-- What the two slab scratches hold once their copies have landed: the two 4 × 128 slabs of the subcore's rows. -/
def slabA : S4x128.Idx → Elt F .f32 := View.read (Elt F) (xSlabA L).view (m (xLoc d))
def slabB : S4x128.Idx → Elt F .f32 := View.read (Elt F) (xSlabB L).view (m (xLoc d))

/-- The four stores into each slab scratch, the last first: row `k` receives the left (resp. right) value of row `k`,
    computed from the first sixteen lanes of the two slabs' row `k`. -/
def HA (fa : Buf (Elt F) ((thrOf d L).loc cc0_scratch0)) (fb : Buf (Elt F) ((thrOf d L).loc cc0_scratch1)) : List (View.Piece (Elt F) S4x128 .f32) :=
  [⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩,
   ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩,
   ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩,
   ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩]
def HB (fa : Buf (Elt F) ((thrOf d L).loc cc0_scratch0)) (fb : Buf (Elt F) ((thrOf d L).loc cc0_scratch1)) : List (View.Piece (Elt F) S4x128 .f32) :=
  [⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩,
   ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩,
   ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩,
   ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩]

theorem covA0 (fa : Buf (Elt F) ((thrOf d L).loc cc0_scratch0)) (fb : Buf (Elt F) ((thrOf d L).loc cc0_scratch1)) :
    sA.view.readCov (HA m d L fa fb) (Rect.unit (s := S4x128) ![0, 0] S1x16.size inb_S4x128_S1x16_0_0).toLoadRect
      = fun x => mixL (m (xLoc d) (ix3 (0 : Fin 3) (⟨row0 (L 0).val (L 1).val + 0, rowK_lt L 0 (by omega)⟩ : Fin 128) (⟨(x 1).val, by have h : (x 1).val < 16 := (x 1).isLt; omega⟩ : Fin 32768)))
          (m (xLoc d) (ix3 (0 : Fin 3) (⟨row0 (L 0).val (L 1).val + 0, rowK_lt L 0 (by omega)⟩ : Fin 128) (⟨(x 1).val + 16384, by have h : (x 1).val < 16 := (x 1).isLt; omega⟩ : Fin 32768))) := by
  have hsplit : HA m d L fa fb = ([⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩, ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩] : List (View.Piece (Elt F) S4x128 .f32)) ++ ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩ :: [] := rfl
  rw [hsplit, readCov_hit (F := F) sA.view _ _ _ _ (by
    intro p hp x
    simp only [List.mem_cons, List.not_mem_nil, or_false] at hp
    rcases hp with rfl | rfl | rfl
    · exact rows_apart 0 3 (by omega) inb_S4x128_S1x16_0_0 inb_S4x128_S1x16_3_0 x
    · exact rows_apart 0 2 (by omega) inb_S4x128_S1x16_0_0 inb_S4x128_S1x16_2_0 x
    · exact rows_apart 0 1 (by omega) inb_S4x128_S1x16_0_0 inb_S4x128_S1x16_1_0 x)]
  funext x
  rw [payA0, load_filled, load_filled]
  show mixL (m (xLoc d) ((xSlabA L).view.emb ((Rect.unit (s := S4x128) ![0, 0] S1x16.size inb_S4x128_S1x16_0_0).emb x))) (m (xLoc d) ((xSlabB L).view.emb ((Rect.unit (s := S4x128) ![0, 0] S1x16.size inb_S4x128_S1x16_0_0).emb x))) = _
  rw [rowK_emb 0 (by omega), xSlabA_emb, xSlabB_emb]
theorem covB0 (fa : Buf (Elt F) ((thrOf d L).loc cc0_scratch0)) (fb : Buf (Elt F) ((thrOf d L).loc cc0_scratch1)) :
    sB.view.readCov (HB m d L fa fb) (Rect.unit (s := S4x128) ![0, 0] S1x16.size inb_S4x128_S1x16_0_0).toLoadRect
      = fun x => mixR (m (xLoc d) (ix3 (0 : Fin 3) (⟨row0 (L 0).val (L 1).val + 0, rowK_lt L 0 (by omega)⟩ : Fin 128) (⟨(x 1).val, by have h : (x 1).val < 16 := (x 1).isLt; omega⟩ : Fin 32768)))
          (m (xLoc d) (ix3 (0 : Fin 3) (⟨row0 (L 0).val (L 1).val + 0, rowK_lt L 0 (by omega)⟩ : Fin 128) (⟨(x 1).val + 16384, by have h : (x 1).val < 16 := (x 1).isLt; omega⟩ : Fin 32768))) := by
  have hsplit : HB m d L fa fb = ([⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩, ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩] : List (View.Piece (Elt F) S4x128 .f32)) ++ ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩ :: [] := rfl
  rw [hsplit, readCov_hit (F := F) sB.view _ _ _ _ (by
    intro p hp x
    simp only [List.mem_cons, List.not_mem_nil, or_false] at hp
    rcases hp with rfl | rfl | rfl
    · exact rows_apart 0 3 (by omega) inb_S4x128_S1x16_0_0 inb_S4x128_S1x16_3_0 x
    · exact rows_apart 0 2 (by omega) inb_S4x128_S1x16_0_0 inb_S4x128_S1x16_2_0 x
    · exact rows_apart 0 1 (by omega) inb_S4x128_S1x16_0_0 inb_S4x128_S1x16_1_0 x)]
  funext x
  rw [payB0, load_filled, load_filled]
  show mixR (m (xLoc d) ((xSlabA L).view.emb ((Rect.unit (s := S4x128) ![0, 0] S1x16.size inb_S4x128_S1x16_0_0).emb x))) (m (xLoc d) ((xSlabB L).view.emb ((Rect.unit (s := S4x128) ![0, 0] S1x16.size inb_S4x128_S1x16_0_0).emb x))) = _
  rw [rowK_emb 0 (by omega), xSlabA_emb, xSlabB_emb]
theorem covA1 (fa : Buf (Elt F) ((thrOf d L).loc cc0_scratch0)) (fb : Buf (Elt F) ((thrOf d L).loc cc0_scratch1)) :
    sA.view.readCov (HA m d L fa fb) (Rect.unit (s := S4x128) ![1, 0] S1x16.size inb_S4x128_S1x16_1_0).toLoadRect
      = fun x => mixL (m (xLoc d) (ix3 (0 : Fin 3) (⟨row0 (L 0).val (L 1).val + 1, rowK_lt L 1 (by omega)⟩ : Fin 128) (⟨(x 1).val, by have h : (x 1).val < 16 := (x 1).isLt; omega⟩ : Fin 32768)))
          (m (xLoc d) (ix3 (0 : Fin 3) (⟨row0 (L 0).val (L 1).val + 1, rowK_lt L 1 (by omega)⟩ : Fin 128) (⟨(x 1).val + 16384, by have h : (x 1).val < 16 := (x 1).isLt; omega⟩ : Fin 32768))) := by
  have hsplit : HA m d L fa fb = ([⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩] : List (View.Piece (Elt F) S4x128 .f32)) ++ ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩ :: [⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩] := rfl
  rw [hsplit, readCov_hit (F := F) sA.view _ _ _ _ (by
    intro p hp x
    simp only [List.mem_cons, List.not_mem_nil, or_false] at hp
    rcases hp with rfl | rfl
    · exact rows_apart 1 3 (by omega) inb_S4x128_S1x16_1_0 inb_S4x128_S1x16_3_0 x
    · exact rows_apart 1 2 (by omega) inb_S4x128_S1x16_1_0 inb_S4x128_S1x16_2_0 x)]
  funext x
  rw [payA1, load_filled, load_filled]
  show mixL (m (xLoc d) ((xSlabA L).view.emb ((Rect.unit (s := S4x128) ![1, 0] S1x16.size inb_S4x128_S1x16_1_0).emb x))) (m (xLoc d) ((xSlabB L).view.emb ((Rect.unit (s := S4x128) ![1, 0] S1x16.size inb_S4x128_S1x16_1_0).emb x))) = _
  rw [rowK_emb 1 (by omega), xSlabA_emb, xSlabB_emb]
theorem covB1 (fa : Buf (Elt F) ((thrOf d L).loc cc0_scratch0)) (fb : Buf (Elt F) ((thrOf d L).loc cc0_scratch1)) :
    sB.view.readCov (HB m d L fa fb) (Rect.unit (s := S4x128) ![1, 0] S1x16.size inb_S4x128_S1x16_1_0).toLoadRect
      = fun x => mixR (m (xLoc d) (ix3 (0 : Fin 3) (⟨row0 (L 0).val (L 1).val + 1, rowK_lt L 1 (by omega)⟩ : Fin 128) (⟨(x 1).val, by have h : (x 1).val < 16 := (x 1).isLt; omega⟩ : Fin 32768)))
          (m (xLoc d) (ix3 (0 : Fin 3) (⟨row0 (L 0).val (L 1).val + 1, rowK_lt L 1 (by omega)⟩ : Fin 128) (⟨(x 1).val + 16384, by have h : (x 1).val < 16 := (x 1).isLt; omega⟩ : Fin 32768))) := by
  have hsplit : HB m d L fa fb = ([⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩] : List (View.Piece (Elt F) S4x128 .f32)) ++ ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩ :: [⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩] := rfl
  rw [hsplit, readCov_hit (F := F) sB.view _ _ _ _ (by
    intro p hp x
    simp only [List.mem_cons, List.not_mem_nil, or_false] at hp
    rcases hp with rfl | rfl
    · exact rows_apart 1 3 (by omega) inb_S4x128_S1x16_1_0 inb_S4x128_S1x16_3_0 x
    · exact rows_apart 1 2 (by omega) inb_S4x128_S1x16_1_0 inb_S4x128_S1x16_2_0 x)]
  funext x
  rw [payB1, load_filled, load_filled]
  show mixR (m (xLoc d) ((xSlabA L).view.emb ((Rect.unit (s := S4x128) ![1, 0] S1x16.size inb_S4x128_S1x16_1_0).emb x))) (m (xLoc d) ((xSlabB L).view.emb ((Rect.unit (s := S4x128) ![1, 0] S1x16.size inb_S4x128_S1x16_1_0).emb x))) = _
  rw [rowK_emb 1 (by omega), xSlabA_emb, xSlabB_emb]
theorem covA2 (fa : Buf (Elt F) ((thrOf d L).loc cc0_scratch0)) (fb : Buf (Elt F) ((thrOf d L).loc cc0_scratch1)) :
    sA.view.readCov (HA m d L fa fb) (Rect.unit (s := S4x128) ![2, 0] S1x16.size inb_S4x128_S1x16_2_0).toLoadRect
      = fun x => mixL (m (xLoc d) (ix3 (0 : Fin 3) (⟨row0 (L 0).val (L 1).val + 2, rowK_lt L 2 (by omega)⟩ : Fin 128) (⟨(x 1).val, by have h : (x 1).val < 16 := (x 1).isLt; omega⟩ : Fin 32768)))
          (m (xLoc d) (ix3 (0 : Fin 3) (⟨row0 (L 0).val (L 1).val + 2, rowK_lt L 2 (by omega)⟩ : Fin 128) (⟨(x 1).val + 16384, by have h : (x 1).val < 16 := (x 1).isLt; omega⟩ : Fin 32768))) := by
  have hsplit : HA m d L fa fb = ([⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩] : List (View.Piece (Elt F) S4x128 .f32)) ++ ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩ :: [⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩, ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩] := rfl
  rw [hsplit, readCov_hit (F := F) sA.view _ _ _ _ (by
    intro p hp x
    simp only [List.mem_cons, List.not_mem_nil, or_false] at hp
    rcases hp with rfl
    · exact rows_apart 2 3 (by omega) inb_S4x128_S1x16_2_0 inb_S4x128_S1x16_3_0 x)]
  funext x
  rw [payA2, load_filled, load_filled]
  show mixL (m (xLoc d) ((xSlabA L).view.emb ((Rect.unit (s := S4x128) ![2, 0] S1x16.size inb_S4x128_S1x16_2_0).emb x))) (m (xLoc d) ((xSlabB L).view.emb ((Rect.unit (s := S4x128) ![2, 0] S1x16.size inb_S4x128_S1x16_2_0).emb x))) = _
  rw [rowK_emb 2 (by omega), xSlabA_emb, xSlabB_emb]
theorem covB2 (fa : Buf (Elt F) ((thrOf d L).loc cc0_scratch0)) (fb : Buf (Elt F) ((thrOf d L).loc cc0_scratch1)) :
    sB.view.readCov (HB m d L fa fb) (Rect.unit (s := S4x128) ![2, 0] S1x16.size inb_S4x128_S1x16_2_0).toLoadRect
      = fun x => mixR (m (xLoc d) (ix3 (0 : Fin 3) (⟨row0 (L 0).val (L 1).val + 2, rowK_lt L 2 (by omega)⟩ : Fin 128) (⟨(x 1).val, by have h : (x 1).val < 16 := (x 1).isLt; omega⟩ : Fin 32768)))
          (m (xLoc d) (ix3 (0 : Fin 3) (⟨row0 (L 0).val (L 1).val + 2, rowK_lt L 2 (by omega)⟩ : Fin 128) (⟨(x 1).val + 16384, by have h : (x 1).val < 16 := (x 1).isLt; omega⟩ : Fin 32768))) := by
  have hsplit : HB m d L fa fb = ([⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩] : List (View.Piece (Elt F) S4x128 .f32)) ++ ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩ :: [⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩, ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩] := rfl
  rw [hsplit, readCov_hit (F := F) sB.view _ _ _ _ (by
    intro p hp x
    simp only [List.mem_cons, List.not_mem_nil, or_false] at hp
    rcases hp with rfl
    · exact rows_apart 2 3 (by omega) inb_S4x128_S1x16_2_0 inb_S4x128_S1x16_3_0 x)]
  funext x
  rw [payB2, load_filled, load_filled]
  show mixR (m (xLoc d) ((xSlabA L).view.emb ((Rect.unit (s := S4x128) ![2, 0] S1x16.size inb_S4x128_S1x16_2_0).emb x))) (m (xLoc d) ((xSlabB L).view.emb ((Rect.unit (s := S4x128) ![2, 0] S1x16.size inb_S4x128_S1x16_2_0).emb x))) = _
  rw [rowK_emb 2 (by omega), xSlabA_emb, xSlabB_emb]
theorem covA3 (fa : Buf (Elt F) ((thrOf d L).loc cc0_scratch0)) (fb : Buf (Elt F) ((thrOf d L).loc cc0_scratch1)) :
    sA.view.readCov (HA m d L fa fb) (Rect.unit (s := S4x128) ![3, 0] S1x16.size inb_S4x128_S1x16_3_0).toLoadRect
      = fun x => mixL (m (xLoc d) (ix3 (0 : Fin 3) (⟨row0 (L 0).val (L 1).val + 3, rowK_lt L 3 (by omega)⟩ : Fin 128) (⟨(x 1).val, by have h : (x 1).val < 16 := (x 1).isLt; omega⟩ : Fin 32768)))
          (m (xLoc d) (ix3 (0 : Fin 3) (⟨row0 (L 0).val (L 1).val + 3, rowK_lt L 3 (by omega)⟩ : Fin 128) (⟨(x 1).val + 16384, by have h : (x 1).val < 16 := (x 1).isLt; omega⟩ : Fin 32768))) := by
  have hsplit : HA m d L fa fb = ([] : List (View.Piece (Elt F) S4x128 .f32)) ++ ⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩ :: [⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩, ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩, ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩] := rfl
  rw [hsplit, readCov_hit (F := F) sA.view _ _ _ _ (by
    intro p hp x
    simp at hp)]
  funext x
  rw [payA3, load_filled, load_filled]
  show mixL (m (xLoc d) ((xSlabA L).view.emb ((Rect.unit (s := S4x128) ![3, 0] S1x16.size inb_S4x128_S1x16_3_0).emb x))) (m (xLoc d) ((xSlabB L).view.emb ((Rect.unit (s := S4x128) ![3, 0] S1x16.size inb_S4x128_S1x16_3_0).emb x))) = _
  rw [rowK_emb 3 (by omega), xSlabA_emb, xSlabB_emb]
theorem covB3 (fa : Buf (Elt F) ((thrOf d L).loc cc0_scratch0)) (fb : Buf (Elt F) ((thrOf d L).loc cc0_scratch1)) :
    sB.view.readCov (HB m d L fa fb) (Rect.unit (s := S4x128) ![3, 0] S1x16.size inb_S4x128_S1x16_3_0).toLoadRect
      = fun x => mixR (m (xLoc d) (ix3 (0 : Fin 3) (⟨row0 (L 0).val (L 1).val + 3, rowK_lt L 3 (by omega)⟩ : Fin 128) (⟨(x 1).val, by have h : (x 1).val < 16 := (x 1).isLt; omega⟩ : Fin 32768)))
          (m (xLoc d) (ix3 (0 : Fin 3) (⟨row0 (L 0).val (L 1).val + 3, rowK_lt L 3 (by omega)⟩ : Fin 128) (⟨(x 1).val + 16384, by have h : (x 1).val < 16 := (x 1).isLt; omega⟩ : Fin 32768))) := by
  have hsplit : HB m d L fa fb = ([] : List (View.Piece (Elt F) S4x128 .f32)) ++ ⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩ :: [⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩, ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩, ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩] := rfl
  rw [hsplit, readCov_hit (F := F) sB.view _ _ _ _ (by
    intro p hp x
    simp at hp)]
  funext x
  rw [payB3, load_filled, load_filled]
  show mixR (m (xLoc d) ((xSlabA L).view.emb ((Rect.unit (s := S4x128) ![3, 0] S1x16.size inb_S4x128_S1x16_3_0).emb x))) (m (xLoc d) ((xSlabB L).view.emb ((Rect.unit (s := S4x128) ![3, 0] S1x16.size inb_S4x128_S1x16_3_0).emb x))) = _
  rw [rowK_emb 3 (by omega), xSlabA_emb, xSlabB_emb]

/-- What an output row holds at the end is `G` of the input on that row. -/
theorem row_val0 (fa : Buf (Elt F) ((thrOf d L).loc cc0_scratch0)) (fb : Buf (Elt F) ((thrOf d L).loc cc0_scratch1))
    (f : b0.view.ty.Contents (Elt F)) :
    ∀ i ∈ YR0 L, ((yRow0 L).view.writes (Elt F) (m (yLoc d)) [⟨Rect.whole S1x32768, View.read (Elt F) b0.view (b0.view.writes (Elt F) (View.write (Elt F) b0.view f (View.read (Elt F) (xRow0 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![0, 0] S1x16.size inb_S4x128_S1x16_0_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![0, 0] S1x16.size inb_S4x128_S1x16_0_0).toLoadRect) shapeCasts_S1x16_S16) shapeCasts_S16_S1x16⟩])⟩]) i = G d (m (xLoc d)) i := by
  intro i hi
  unfold YR0 at hi
  obtain ⟨j, -, rfl⟩ := Finset.mem_map.mp hi
  have hj1 : (j 1).val < 32768 := (j 1).isLt
  have hread : ∀ T : (yRow0 L).view.ty.Contents (Elt F), T ((yRow0 L).view.emb j) = (yRow0 L).view.read (Elt F) T j := fun T => rfl
  refine (hread _).trans ?_
  rw [whole_written, staged_read, shapeCast_shapeCast, shapeCast_shapeCast, covA0, covB0, yRow0_emb]
  refine Eq.trans ?_ (G_at d (m (xLoc d)) (⟨row0 (L 0).val (L 1).val + 0, rowK_lt L 0 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 0, rowK_lt L 0 (by omega)⟩ : Fin 128) (⟨(j 1).val - 16384, by omega⟩ : Fin 32768))) (m (xLoc d) (ix3 (0 : Fin 3) (⟨row0 (L 0).val (L 1).val + 0, rowK_lt L 0 (by omega)⟩ : Fin 128) c)))
        (Fin.ext (by show (j 1).val - 16384 + 16384 = (j 1).val; omega))
    · rw [dif_neg h', dif_neg h']
      show m (xLoc d) ((xRow0 L).view.emb j) = _
      rw [xRow0_emb]; rfl
theorem row_val1 (fa : Buf (Elt F) ((thrOf d L).loc cc0_scratch0)) (fb : Buf (Elt F) ((thrOf d L).loc cc0_scratch1))
    (f : b1.view.ty.Contents (Elt F)) :
    ∀ i ∈ YR1 L, ((yRow1 L).view.writes (Elt F) (m (yLoc d)) [⟨Rect.whole S1x32768, View.read (Elt F) b1.view (b1.view.writes (Elt F) (View.write (Elt F) b1.view f (View.read (Elt F) (xRow1 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![1, 0] S1x16.size inb_S4x128_S1x16_1_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![1, 0] S1x16.size inb_S4x128_S1x16_1_0).toLoadRect) shapeCasts_S1x16_S16) shapeCasts_S16_S1x16⟩])⟩]) i = G d (m (xLoc d)) i := by
  intro i hi
  unfold YR1 at hi
  obtain ⟨j, -, rfl⟩ := Finset.mem_map.mp hi
  have hj1 : (j 1).val < 32768 := (j 1).isLt
  have hread : ∀ T : (yRow1 L).view.ty.Contents (Elt F), T ((yRow1 L).view.emb j) = (yRow1 L).view.read (Elt F) T j := fun T => rfl
  refine (hread _).trans ?_
  rw [whole_written, staged_read, shapeCast_shapeCast, shapeCast_shapeCast, covA1, covB1, yRow1_emb]
  refine Eq.trans ?_ (G_at d (m (xLoc d)) (⟨row0 (L 0).val (L 1).val + 1, rowK_lt L 1 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 1, rowK_lt L 1 (by omega)⟩ : Fin 128) (⟨(j 1).val - 16384, by omega⟩ : Fin 32768))) (m (xLoc d) (ix3 (0 : Fin 3) (⟨row0 (L 0).val (L 1).val + 1, rowK_lt L 1 (by omega)⟩ : Fin 128) c)))
        (Fin.ext (by show (j 1).val - 16384 + 16384 = (j 1).val; omega))
    · rw [dif_neg h', dif_neg h']
      show m (xLoc d) ((xRow1 L).view.emb j) = _
      rw [xRow1_emb]; rfl
theorem row_val2 (fa : Buf (Elt F) ((thrOf d L).loc cc0_scratch0)) (fb : Buf (Elt F) ((thrOf d L).loc cc0_scratch1))
    (f : b2.view.ty.Contents (Elt F)) :
    ∀ i ∈ YR2 L, ((yRow2 L).view.writes (Elt F) (m (yLoc d)) [⟨Rect.whole S1x32768, View.read (Elt F) b2.view (b2.view.writes (Elt F) (View.write (Elt F) b2.view f (View.read (Elt F) (xRow2 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![2, 0] S1x16.size inb_S4x128_S1x16_2_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![2, 0] S1x16.size inb_S4x128_S1x16_2_0).toLoadRect) shapeCasts_S1x16_S16) shapeCasts_S16_S1x16⟩])⟩]) i = G d (m (xLoc d)) i := by
  intro i hi
  unfold YR2 at hi
  obtain ⟨j, -, rfl⟩ := Finset.mem_map.mp hi
  have hj1 : (j 1).val < 32768 := (j 1).isLt
  have hread : ∀ T : (yRow2 L).view.ty.Contents (Elt F), T ((yRow2 L).view.emb j) = (yRow2 L).view.read (Elt F) T j := fun T => rfl
  refine (hread _).trans ?_
  rw [whole_written, staged_read, shapeCast_shapeCast, shapeCast_shapeCast, covA2, covB2, yRow2_emb]
  refine Eq.trans ?_ (G_at d (m (xLoc d)) (⟨row0 (L 0).val (L 1).val + 2, rowK_lt L 2 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 2, rowK_lt L 2 (by omega)⟩ : Fin 128) (⟨(j 1).val - 16384, by omega⟩ : Fin 32768))) (m (xLoc d) (ix3 (0 : Fin 3) (⟨row0 (L 0).val (L 1).val + 2, rowK_lt L 2 (by omega)⟩ : Fin 128) c)))
        (Fin.ext (by show (j 1).val - 16384 + 16384 = (j 1).val; omega))
    · rw [dif_neg h', dif_neg h']
      show m (xLoc d) ((xRow2 L).view.emb j) = _
      rw [xRow2_emb]; rfl
theorem row_val3 (fa : Buf (Elt F) ((thrOf d L).loc cc0_scratch0)) (fb : Buf (Elt F) ((thrOf d L).loc cc0_scratch1))
    (f : b0.view.ty.Contents (Elt F)) :
    ∀ i ∈ YR3 L, ((yRow3 L).view.writes (Elt F) (m (yLoc d)) [⟨Rect.whole S1x32768, View.read (Elt F) b0.view (b0.view.writes (Elt F) (View.write (Elt F) b0.view f (View.read (Elt F) (xRow3 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![3, 0] S1x16.size inb_S4x128_S1x16_3_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![3, 0] S1x16.size inb_S4x128_S1x16_3_0).toLoadRect) shapeCasts_S1x16_S16) shapeCasts_S16_S1x16⟩])⟩]) i = G d (m (xLoc d)) i := by
  intro i hi
  unfold YR3 at hi
  obtain ⟨j, -, rfl⟩ := Finset.mem_map.mp hi
  have hj1 : (j 1).val < 32768 := (j 1).isLt
  have hread : ∀ T : (yRow3 L).view.ty.Contents (Elt F), T ((yRow3 L).view.emb j) = (yRow3 L).view.read (Elt F) T j := fun T => rfl
  refine (hread _).trans ?_
  rw [whole_written, staged_read, shapeCast_shapeCast, shapeCast_shapeCast, covA3, covB3, yRow3_emb]
  refine Eq.trans ?_ (G_at d (m (xLoc d)) (⟨row0 (L 0).val (L 1).val + 3, rowK_lt L 3 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 3, rowK_lt L 3 (by omega)⟩ : Fin 128) (⟨(j 1).val - 16384, by omega⟩ : Fin 32768))) (m (xLoc d) (ix3 (0 : Fin 3) (⟨row0 (L 0).val (L 1).val + 3, rowK_lt L 3 (by omega)⟩ : Fin 128) c)))
        (Fin.ext (by show (j 1).val - 16384 + 16384 = (j 1).val; omega))
    · rw [dif_neg h', dif_neg h']
      show m (xLoc d) ((xRow3 L).view.emb j) = _
      rw [xRow3_emb]; rfl

end Rows

end Cert.Proof.OnKernel

end
-- ==== Proof.OnKernel.Tile.lean ====
/-
  One vector subcore's task.  It copies each of its four rows of plane 0 through a staging buffer, overwrites columns
  0..15 and 16384..16399 of the staged row with the mixed values computed from the two 4 × 128 slabs, and copies the
  staged row out.  Each copy in flight has a semaphore of its own, so the transfers need no schedule.  What the
  subcore leaves in its rows of the output is one function `G` of the input, index by index.
-/
import proofs.«209894_g19731079758016_cont_8to1_1440_21_alg».proof.Proof.OnKernel.Value

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

section TileBody

variable (m : (ℓ : Loc nD τ sig) → Buf (Elt F) ℓ)
variable [FloatOps F]
variable (d : Dev nD) (L : grid0.Coords)

/-- What a subcore is handed — its block of the input and of the output as the launch left them — and what it hands
    back: the input block unchanged, the output block at `G` of the input. -/
def goRes : sProp 𝕄 := iprop((xLoc d ↦[XT L]{fullShare} m (xLoc d)) ∗ (yLoc d ↦[YT L]{fullShare} m (yLoc d)))
def tdRes : sProp 𝕄 := iprop((xLoc d ↦[XT L]{fullShare} m (xLoc d)) ∗ (yLoc d ↦[YT L]{fullShare} G d (m (xLoc d))))

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goRes m d L
        ∗ scopedBufs (thrOf d L) ∗ scopedSems0 (thrOf d L) ∗ owes (thrOf d L) O W)
      ⊢ wp frame (wpE (defs₀ (F := F)) 𝒱₀ (thrOf d L) none) Set.univ
          (cc0__mix_copy_body L xV (Memref.isWhole_whole _) yV (Memref.isWhole_whole _) sA (Memref.isWhole_whole _) sB (Memref.isWhole_whole _) b0 (Memref.isWhole_whole _) b1 (Memref.isWhole_whole _) b2 (Memref.isWhole_whole _) cc0_scratch5 cc0_scratch6 cc0_scratch7 cc0_scratch8 cc0_scratch9 cc0_scratch10 cc0_scoped0 cc0_scoped1)
          fun _ => iprop(tdRes m d L ∗ scopedBufs (thrOf d L) ∗ scopedSems0 (thrOf d L)
            ∗ ∃ W', ⌜∀ p ∈ W', p ∈ W ∨ p.2 = none⌝ ∗ owes (thrOf d L) O W') := by
  unfold goRes tdRes
  rw [xBlock_pieces, yBlock_pieces, yBlock_pieces]
  simp only [cc0__mix_copy_body_eq_skeleton]; unfold cc0__mix_copy_body_skel
  rw [(K (F := F)).scopedBufs_V hF d (cV L) (jV L), SparseCore.Cfg.scopedSems0_V (Val := Elt F) d (cV L) (jV L), ownSems0_tile, ownBufs_tile]
  iintro ⟨#Hlv, -, ⟨⟨⟨Hx0, Hx1, Hx2, Hx3, HxL⟩, ⟨HxA, HxB, HxR⟩⟩, ⟨Hy0, Hy1, Hy2, Hy3⟩⟩,
    ⟨⟨%fa, HsA⟩, ⟨%fb, HsB⟩, ⟨%f0, Hb0⟩, ⟨%f1, Hb1⟩, ⟨%f2, Hb2⟩, Hbufs⟩, ⟨Hc5, Hc6, Hc7, Hc8, Hc9, Hc10, Hcs0, Hcs1, Hsems⟩, HO⟩
  ihave Hmw := ((K (F := F)).mayWaits_none (thr := thrOf d L) hO) $$ Hlv
  ihave Hx0' := (Entails.of_eq (show ((xLoc d ↦[XR0 L]{fullShare.left} m (xLoc d) : sProp 𝕄)) = ((xRow0 L).view.loc (thrOf d L) ↦[(xRow0 L).view.set]{fullShare.left} m (xLoc d)) from rfl)) $$ Hx0
  ihave Hx1' := (Entails.of_eq (show ((xLoc d ↦[XR1 L]{fullShare.left} m (xLoc d) : sProp 𝕄)) = ((xRow1 L).view.loc (thrOf d L) ↦[(xRow1 L).view.set]{fullShare.left} m (xLoc d)) from rfl)) $$ Hx1
  ihave Hx2' := (Entails.of_eq (show ((xLoc d ↦[XR2 L]{fullShare.left} m (xLoc d) : sProp 𝕄)) = ((xRow2 L).view.loc (thrOf d L) ↦[(xRow2 L).view.set]{fullShare.left} m (xLoc d)) from rfl)) $$ Hx2
  ihave Hx3' := (Entails.of_eq (show ((xLoc d ↦[XR3 L]{fullShare.left} m (xLoc d) : sProp 𝕄)) = ((xRow3 L).view.loc (thrOf d L) ↦[(xRow3 L).view.set]{fullShare.left} m (xLoc d)) from rfl)) $$ Hx3
  ihave HxA' := (Entails.of_eq (show ((xLoc d ↦[XSA L]{fullShare.right} m (xLoc d) : sProp 𝕄)) = ((xSlabA L).view.loc (thrOf d L) ↦[(xSlabA L).view.set]{fullShare.right} m (xLoc d)) from rfl)) $$ HxA
  ihave HxB' := (Entails.of_eq (show ((xLoc d ↦[XSB L]{fullShare.right} m (xLoc d) : sProp 𝕄)) = ((xSlabB L).view.loc (thrOf d L) ↦[(xSlabB L).view.set]{fullShare.right} m (xLoc d)) from rfl)) $$ HxB
  ihave Hy0' := (Entails.of_eq (show ((yLoc d ↦[YR0 L]{fullShare} m (yLoc d) : sProp 𝕄)) = ((yRow0 L).view.loc (thrOf d L) ↦[(yRow0 L).view.set]{fullShare} m (yLoc d)) from rfl)) $$ Hy0
  ihave Hy1' := (Entails.of_eq (show ((yLoc d ↦[YR1 L]{fullShare} m (yLoc d) : sProp 𝕄)) = ((yRow1 L).view.loc (thrOf d L) ↦[(yRow1 L).view.set]{fullShare} m (yLoc d)) from rfl)) $$ Hy1
  ihave Hy2' := (Entails.of_eq (show ((yLoc d ↦[YR2 L]{fullShare} m (yLoc d) : sProp 𝕄)) = ((yRow2 L).view.loc (thrOf d L) ↦[(yRow2 L).view.set]{fullShare} m (yLoc d)) from rfl)) $$ Hy2
  ihave Hy3' := (Entails.of_eq (show ((yLoc d ↦[YR3 L]{fullShare} m (yLoc d) : sProp 𝕄)) = ((yRow3 L).view.loc (thrOf d L) ↦[(yRow3 L).view.set]{fullShare} m (yLoc d)) from rfl)) $$ Hy3
  ihave HsA' := (Entails.of_eq (show (((thrOf d L).loc cc0_scratch0 ↦{fullShare} fa : sProp 𝕄)) = ((sA).view.loc (thrOf d L) ↦{fullShare} fa) from rfl)) $$ HsA
  ihave HsB' := (Entails.of_eq (show (((thrOf d L).loc cc0_scratch1 ↦{fullShare} fb : sProp 𝕄)) = ((sB).view.loc (thrOf d L) ↦{fullShare} fb) from rfl)) $$ HsB
  ihave Hb0' := (Entails.of_eq (show (((thrOf d L).loc cc0_scratch2 ↦{fullShare} f0 : sProp 𝕄)) = ((b0).view.loc (thrOf d L) ↦{fullShare} f0) from rfl)) $$ Hb0
  ihave Hb1' := (Entails.of_eq (show (((thrOf d L).loc cc0_scratch3 ↦{fullShare} f1 : sProp 𝕄)) = ((b1).view.loc (thrOf d L) ↦{fullShare} f1) from rfl)) $$ Hb1
  ihave Hb2' := (Entails.of_eq (show (((thrOf d L).loc cc0_scratch4 ↦{fullShare} f2 : sProp 𝕄)) = ((b2).view.loc (thrOf d L) ↦{fullShare} f2) from rfl)) $$ Hb2
  sl_exec_parts
  sl_step
  ihave Hx0 := (Entails.of_eq (show (((xRow0 L).view.loc (thrOf d L) ↦[(xRow0 L).view.set]{fullShare.left} m (xLoc d) : sProp 𝕄)) = (xLoc d ↦[XR0 L]{fullShare.left} m (xLoc d)) from rfl)) $$ Hx0'
  ihave Hx1 := (Entails.of_eq (show (((xRow1 L).view.loc (thrOf d L) ↦[(xRow1 L).view.set]{fullShare.left} m (xLoc d) : sProp 𝕄)) = (xLoc d ↦[XR1 L]{fullShare.left} m (xLoc d)) from rfl)) $$ Hx1'
  ihave Hx2 := (Entails.of_eq (show (((xRow2 L).view.loc (thrOf d L) ↦[(xRow2 L).view.set]{fullShare.left} m (xLoc d) : sProp 𝕄)) = (xLoc d ↦[XR2 L]{fullShare.left} m (xLoc d)) from rfl)) $$ Hx2'
  ihave Hx3 := (Entails.of_eq (show (((xRow3 L).view.loc (thrOf d L) ↦[(xRow3 L).view.set]{fullShare.left} m (xLoc d) : sProp 𝕄)) = (xLoc d ↦[XR3 L]{fullShare.left} m (xLoc d)) from rfl)) $$ Hx3'
  ihave HxA := (Entails.of_eq (show (((xSlabA L).view.loc (thrOf d L) ↦[(xSlabA L).view.set]{fullShare.right} m (xLoc d) : sProp 𝕄)) = (xLoc d ↦[XSA L]{fullShare.right} m (xLoc d)) from rfl)) $$ HxA'
  ihave HxB := (Entails.of_eq (show (((xSlabB L).view.loc (thrOf d L) ↦[(xSlabB L).view.set]{fullShare.right} m (xLoc d) : sProp 𝕄)) = (xLoc d ↦[XSB L]{fullShare.right} m (xLoc d)) from rfl)) $$ HxB'
  have hv0 : ∀ i ∈ YR0 L, ((yRow0 L).view.writes (Elt F) (m (yLoc d)) [⟨Rect.whole S1x32768, tile_body.sl.dma30 m d L fa fb f0⟩]) i = G d (m (xLoc d)) i :=
    row_val0 m d L fa fb f0
  ihave Hy0 := (Entails.of_eq ((show (((yRow0 L).view.loc (thrOf d L) ↦[(yRow0 L).view.set]{fullShare} ((yRow0 L).view.writes (Elt F) (m (yLoc d)) [⟨Rect.whole S1x32768, tile_body.sl.dma30 m d L fa fb f0⟩]) : sProp 𝕄))
      = (yLoc d ↦[YR0 L]{fullShare} ((yRow0 L).view.writes (Elt F) (m (yLoc d)) [⟨Rect.whole S1x32768, tile_body.sl.dma30 m d L fa fb f0⟩])) from rfl).trans (pointsTo_congr hv0))) $$ Hy0'
  have hv1 : ∀ i ∈ YR1 L, ((yRow1 L).view.writes (Elt F) (m (yLoc d)) [⟨Rect.whole S1x32768, tile_body.sl.dma36 m d L fa fb f1⟩]) i = G d (m (xLoc d)) i :=
    row_val1 m d L fa fb f1
  ihave Hy1 := (Entails.of_eq ((show (((yRow1 L).view.loc (thrOf d L) ↦[(yRow1 L).view.set]{fullShare} ((yRow1 L).view.writes (Elt F) (m (yLoc d)) [⟨Rect.whole S1x32768, tile_body.sl.dma36 m d L fa fb f1⟩]) : sProp 𝕄))
      = (yLoc d ↦[YR1 L]{fullShare} ((yRow1 L).view.writes (Elt F) (m (yLoc d)) [⟨Rect.whole S1x32768, tile_body.sl.dma36 m d L fa fb f1⟩])) from rfl).trans (pointsTo_congr hv1))) $$ Hy1'
  have hv2 : ∀ i ∈ YR2 L, ((yRow2 L).view.writes (Elt F) (m (yLoc d)) [⟨Rect.whole S1x32768, tile_body.sl.dma42 m d L fa fb f2⟩]) i = G d (m (xLoc d)) i :=
    row_val2 m d L fa fb f2
  ihave Hy2 := (Entails.of_eq ((show (((yRow2 L).view.loc (thrOf d L) ↦[(yRow2 L).view.set]{fullShare} ((yRow2 L).view.writes (Elt F) (m (yLoc d)) [⟨Rect.whole S1x32768, tile_body.sl.dma42 m d L fa fb f2⟩]) : sProp 𝕄))
      = (yLoc d ↦[YR2 L]{fullShare} ((yRow2 L).view.writes (Elt F) (m (yLoc d)) [⟨Rect.whole S1x32768, tile_body.sl.dma42 m d L fa fb f2⟩])) from rfl).trans (pointsTo_congr hv2))) $$ Hy2'
  have hv3 : ∀ i ∈ YR3 L, ((yRow3 L).view.writes (Elt F) (m (yLoc d)) [⟨Rect.whole S1x32768, tile_body.sl.dma48 m d L fa fb f0⟩]) i = G d (m (xLoc d)) i :=
    row_val3 m d L fa fb _
  ihave Hy3 := (Entails.of_eq ((show (((yRow3 L).view.loc (thrOf d L) ↦[(yRow3 L).view.set]{fullShare} ((yRow3 L).view.writes (Elt F) (m (yLoc d)) [⟨Rect.whole S1x32768, tile_body.sl.dma48 m d L fa fb f0⟩]) : sProp 𝕄))
      = (yLoc d ↦[YR3 L]{fullShare} ((yRow3 L).view.writes (Elt F) (m (yLoc d)) [⟨Rect.whole S1x32768, tile_body.sl.dma48 m d L fa fb f0⟩])) from rfl).trans (pointsTo_congr hv3))) $$ Hy3'
  ihave HsA := (Entails.of_eq (show (((sA).view.loc (thrOf d L) ↦{fullShare} _ : sProp 𝕄)) = ((thrOf d L).loc cc0_scratch0 ↦{fullShare} _) from rfl)) $$ HsA'
  ihave HsB := (Entails.of_eq (show (((sB).view.loc (thrOf d L) ↦{fullShare} _ : sProp 𝕄)) = ((thrOf d L).loc cc0_scratch1 ↦{fullShare} _) from rfl)) $$ HsB'
  ihave Hb0 := (Entails.of_eq (show (((b0).view.loc (thrOf d L) ↦{fullShare} _ : sProp 𝕄)) = ((thrOf d L).loc cc0_scratch2 ↦{fullShare} _) from rfl)) $$ Hb0'
  ihave Hb1 := (Entails.of_eq (show (((b1).view.loc (thrOf d L) ↦{fullShare} _ : sProp 𝕄)) = ((thrOf d L).loc cc0_scratch3 ↦{fullShare} _) from rfl)) $$ Hb1'
  ihave Hb2 := (Entails.of_eq (show (((b2).view.loc (thrOf d L) ↦{fullShare} _ : sProp 𝕄)) = ((thrOf d L).loc cc0_scratch4 ↦{fullShare} _) from rfl)) $$ Hb2'
  isplitl [Hx0 Hx1 Hx2 Hx3 HxL HxA HxB HxR Hy0 Hy1 Hy2 Hy3]
  · isplitl [Hx0 Hx1 Hx2 Hx3 HxL HxA HxB HxR]
    · isplitl [Hx0 Hx1 Hx2 Hx3 HxL]
      · isplitl [Hx0]; · iexact Hx0
        isplitl [Hx1]; · iexact Hx1
        isplitl [Hx2]; · iexact Hx2
        isplitl [Hx3]; · iexact Hx3
        iexact HxL
      · isplitl [HxA]; · iexact HxA
        isplitl [HxB]; · iexact HxB
        iexact HxR
    · isplitl [Hy0]; · iexact Hy0
      isplitl [Hy1]; · iexact Hy1
      isplitl [Hy2]; · iexact Hy2
      iexact Hy3
  isplitl [HsA HsB Hb0 Hb1 Hb2 Hbufs]
  · isplitl [HsA]; · iexists _; iexact HsA
    isplitl [HsB]; · iexists _; iexact HsB
    isplitl [Hb0]; · iexists _; iexact Hb0
    isplitl [Hb1]; · iexists _; iexact Hb1
    isplitl [Hb2]; · iexists _; iexact Hb2
    iexact Hbufs
  isplitl [Hc5 Hc6 Hc7 Hc8 Hc9 Hc10 Hcs0 Hcs1 Hsems]
  · isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hcs0]; · iexact Hcs0
    isplitl [Hcs1]; · iexact Hcs1
    iexact Hsems
  iexists _; isplitr
  swap
  · iexact HO
  · ipureintro; intro p hp
    simp only [Finset.mem_insert] at hp
    rcases hp with rfl | rfl | rfl | rfl | rfl | rfl | rfl | rfl | rfl | rfl | hp
    all_goals first | exact .inr rfl | exact .inl hp

end TileBody

end Cert.Proof.OnKernel

end
-- ==== Proof.OnKernel.Launch.lean ====
/-
  The whole program from the subcores' tasks.  The one call hands every vector subcore its block of the input and of the
  output — the 32 blocks tile both arrays, block (core c, subcore s) being rows 8 s + 4 c .. + 3 — and takes them back
  with the output at `G` of the input; the two slices of the input that follow the call run on the TensorCore over the
  arrays held whole.  Every weakly fair execution of all the threads therefore ends, faulting nowhere, with the input
  unchanged, the first result at `G` of the input and the other two at planes 1 and 2 of it.
-/
import proofs.«209894_g19731079758016_cont_8to1_1440_21_alg».proof.Proof.OnKernel.Tile

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The 32 blocks tile the arrays -/

theorem xBlocks_disjoint : ∀ p ∈ (Finset.univ : Finset (Fin 2 × Fin 16)), ∀ p' ∈ (Finset.univ : Finset (Fin 2 × Fin 16)), p ≠ p' →
    Disjoint (XB p.1.val p.2.val p.1.isLt p.2.isLt) (XB p'.1.val p'.2.val p'.1.isLt p'.2.isLt) := by
  intro p _ p' _ hne
  rw [Finset.disjoint_left]
  intro j hj hj'
  rw [mem_XB] at hj hj'
  have h1 := p.1.isLt; have h2 := p.2.isLt; have h1' := p'.1.isLt; have h2' := p'.2.isLt
  unfold row0 at hj hj'
  exact hne (Prod.ext (Fin.ext (by omega)) (Fin.ext (by omega)))
theorem yBlocks_disjoint : ∀ p ∈ (Finset.univ : Finset (Fin 2 × Fin 16)), ∀ p' ∈ (Finset.univ : Finset (Fin 2 × Fin 16)), p ≠ p' →
    Disjoint (YB p.1.val p.2.val p.1.isLt p.2.isLt) (YB p'.1.val p'.2.val p'.1.isLt p'.2.isLt) := by
  intro p _ p' _ hne
  rw [Finset.disjoint_left]
  intro j hj hj'
  rw [mem_YB] at hj hj'
  have h1 := p.1.isLt; have h2 := p.2.isLt; have h1' := p'.1.isLt; have h2' := p'.2.isLt
  unfold row0 at hj hj'
  exact hne (Prod.ext (Fin.ext (by omega)) (Fin.ext (by omega)))
theorem xBlocks_cover : (Finset.univ : Finset (Fin 2 × Fin 16)).biUnion (fun p => XB p.1.val p.2.val p.1.isLt p.2.isLt) = Finset.univ := by
  ext j
  simp only [Finset.mem_biUnion, Finset.mem_univ, true_and, iff_true]
  have hj : (j 1).val < 128 := (j 1).isLt
  refine ⟨(⟨((j 1).val % 8) / 4, by omega⟩, ⟨(j 1).val / 8, by omega⟩), ?_⟩
  rw [mem_XB]; unfold row0; dsimp only; omega
theorem yBlocks_cover : (Finset.univ : Finset (Fin 2 × Fin 16)).biUnion (fun p => YB p.1.val p.2.val p.1.isLt p.2.isLt) = Finset.univ := by
  ext j
  simp only [Finset.mem_biUnion, Finset.mem_univ, true_and, iff_true]
  have hj : (j 0).val < 128 := (j 0).isLt
  refine ⟨(⟨((j 0).val % 8) / 4, by omega⟩, ⟨(j 0).val / 8, by omega⟩), ?_⟩
  rw [mem_YB]; unfold row0; dsimp only; omega

theorem xWhole_blocks (d : Dev nD) (f : Buf (Elt F) (xLoc d)) :
    (xLoc d ↦{fullShare} f : sProp 𝕄)
      = bigSep (Finset.univ : Finset (Fin 2)) fun c => bigSep (Finset.univ : Finset (Fin 16)) fun i => xLoc d ↦[XB c.val i.val c.isLt i.isLt]{fullShare} f := by
  rw [← SparseCore.bigSep_product (M := 𝕄) Finset.univ Finset.univ (fun p : Fin 2 × Fin 16 => xLoc d ↦[XB p.1.val p.2.val p.1.isLt p.2.isLt]{fullShare} f),
    Finset.univ_product_univ, ← pointsTo_biUnion Finset.univ (ℓ := xLoc d) (fun p : Fin 2 × Fin 16 => XB p.1.val p.2.val p.1.isLt p.2.isLt) xBlocks_disjoint, xBlocks_cover]
  try rfl
theorem yWhole_blocks (d : Dev nD) (f : Buf (Elt F) (yLoc d)) :
    (yLoc d ↦{fullShare} f : sProp 𝕄)
      = bigSep (Finset.univ : Finset (Fin 2)) fun c => bigSep (Finset.univ : Finset (Fin 16)) fun i => yLoc d ↦[YB c.val i.val c.isLt i.isLt]{fullShare} f := by
  rw [← SparseCore.bigSep_product (M := 𝕄) Finset.univ Finset.univ (fun p : Fin 2 × Fin 16 => yLoc d ↦[YB p.1.val p.2.val p.1.isLt p.2.isLt]{fullShare} f),
    Finset.univ_product_univ, ← pointsTo_biUnion Finset.univ (ℓ := yLoc d) (fun p : Fin 2 × Fin 16 => YB p.1.val p.2.val p.1.isLt p.2.isLt) yBlocks_disjoint, yBlocks_cover]
  try rfl

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

abbrev xPts (d : Dev nD) : sProp 𝕄 := xLoc d ↦{fullShare} m (xLoc d)
abbrev yPts (d : Dev nD) (f : Buf (Elt F) (yLoc d)) : sProp 𝕄 := yLoc d ↦{fullShare} f

/-- The one call takes both arrays for its two SparseCores, each SparseCore its sixteen subcores' blocks, each subcore
    its block; back the same way, the output at `G` of the input. -/
def P : (K (F := F)).Pay (nD := nD) (Val := Elt F) (Name := ℕ) (U := UU) where
  st := fun q d c => match q with
    | 0 => bigSep (Finset.univ : Finset (Fin 16)) fun i => goRes m d (coordsV ⟨c.val, c.isLt⟩ ⟨i.val, i.isLt⟩)
  dn := fun q d c => match q with
    | 0 => bigSep (Finset.univ : Finset (Fin 16)) fun i => tdRes m d (coordsV ⟨c.val, c.isLt⟩ ⟨i.val, i.isLt⟩)
  go := fun q d c i => match q with | 0 => goRes m d (coordsV ⟨c.val, c.isLt⟩ ⟨i.val, i.isLt⟩)
  td := fun q d c i => match q with | 0 => tdRes m d (coordsV ⟨c.val, c.isLt⟩ ⟨i.val, i.isLt⟩)
  x := fun _ _ => iprop(emp)

instance goRes_storable (d : Dev nD) (L : grid0.Coords) : BI.Storable (upEmb : UEmb _ 𝕄) (goRes m d L) := by
  unfold goRes; infer_instance
instance tdRes_storable (d : Dev nD) (L : grid0.Coords) : BI.Storable (upEmb : UEmb _ 𝕄) (tdRes m d L) := by
  unfold tdRes; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## The launch theorem's obligations -/

theorem defs₀_vector (c : Fin τ.nSC) (s : Fin τ.nSub) :
    defs₀ (F := F) (.scVector c s) 0 ()
      = SparseCore.onTile hcore0 hsub0 (fun c s => cc0__mix_copy_body (coordsV c s)
          xV (Memref.isWhole_whole _) yV (Memref.isWhole_whole _) sA (Memref.isWhole_whole _) sB (Memref.isWhole_whole _)
          b0 (Memref.isWhole_whole _) b1 (Memref.isWhole_whole _) b2 (Memref.isWhole_whole _)
          cc0_scratch5 cc0_scratch6 cc0_scratch7 cc0_scratch8 cc0_scratch9 cc0_scratch10 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (bigSep (Finset.univ : Finset (Fin 16)) fun i => goRes m d (coordsV ⟨c.val, c.isLt⟩ ⟨i.val, i.isLt⟩)) ⊢ |={Set.univ}=> iprop(
      (bigSep (Finset.univ : Finset (Fin 16)) fun i => goRes m d (coordsV ⟨c.val, c.isLt⟩ ⟨i.val, i.isLt⟩))
      ∗ ((bigSep (Finset.univ : Finset (Fin 16)) fun i => tdRes m d (coordsV ⟨c.val, c.isLt⟩ ⟨i.val, i.isLt⟩))
          -∗ (bigSep (Finset.univ : Finset (Fin 16)) fun i => tdRes m d (coordsV ⟨c.val, c.isLt⟩ ⟨i.val, i.isLt⟩))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev y' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)

/-- The two slices of the input after the call, each reshaped to a plane. -/
abbrev hostOps : List (HloOp τ sig (Elt F)) :=
  [ StableHlo.unary main_arg0 main_v1 ((extractStridedSlice S1x128x32768 ![1, 0, 0] · slices_S3x128x32768_S1x128x32768_1_0_0) : (⟨S3x128x32768, .f32⟩ : BufTy).Contents (Elt F) → (⟨S1x128x32768, .f32⟩ : BufTy).Contents (Elt F)),
    StableHlo.reshape main_v1 main_v2 rfl shapeCasts_S1x128x32768_S128x32768,
    StableHlo.unary main_arg0 main_v3 ((extractStridedSlice S1x128x32768 ![2, 0, 0] · slices_S3x128x32768_S1x128x32768_2_0_0) : (⟨S3x128x32768, .f32⟩ : BufTy).Contents (Elt F) → (⟨S1x128x32768, .f32⟩ : BufTy).Contents (Elt F)),
    StableHlo.reshape main_v3 main_v4 rfl shapeCasts_S1x128x32768_S128x32768 ]

/-- The TensorCore's arrays, all unscoped; the two the call takes. -/
abbrev S6 : Finset (DevRef τ sig) := {x', y', r1', r2', r3', r4'}
abbrev S2 : Finset (DevRef τ sig) := {x', y'}

omit [FloatOps F] in
theorem held_S6 (d : Dev nD) (W : Valuation τ sig (Elt F)) :
    (StableHlo.held (T d) S6 W : sProp 𝕄) = iprop((xLoc d ↦{fullShare} W x') ∗ (yLoc d ↦{fullShare} W y') ∗ ((SparseCore.T d).loc main_v1 ↦{fullShare} W r1')
      ∗ ((SparseCore.T d).loc main_v2 ↦{fullShare} W r2') ∗ ((SparseCore.T d).loc main_v3 ↦{fullShare} W r3') ∗ ((SparseCore.T d).loc main_v4 ↦{fullShare} W r4')) := by
  unfold StableHlo.held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3) ∗ ((SparseCore.T d).loc main_v4 ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the call, the output at `G` of the input. -/
def V0 (d : Dev nD) : Valuation τ sig (Elt F) := fun b => m (d, b)
def V1 (d : Dev nD) : Valuation τ sig (Elt F) := Function.update (V0 m d) y' (G d (m (xLoc d)))

theorem unscoped_held (d : Dev nD) : (unscopedBufs d (fun b => m ((SparseCore.T d).loc b)) : sProp 𝕄) = StableHlo.held (T d) S6 (V0 m d) := by
  rw [unscopedBufs_eq, held_S6]; rfl

theorem V1_y (d : Dev nD) : V1 m d y' = G d (m (xLoc d)) := Function.update_self _ _ _
theorem V1_x (d : Dev nD) : V1 m d x' = m (xLoc d) := Function.update_of_ne (show x' ≠ y' by decide) _ _
theorem V1_r1 (d : Dev nD) : V1 m d r1' = V0 m d r1' := Function.update_of_ne (show r1' ≠ y' by decide) _ _
theorem V1_r2 (d : Dev nD) : V1 m d r2' = V0 m d r2' := Function.update_of_ne (show r2' ≠ y' by decide) _ _
theorem V1_r3 (d : Dev nD) : V1 m d r3' = V0 m d r3' := Function.update_of_ne (show r3' ≠ y' by decide) _ _
theorem V1_r4 (d : Dev nD) : V1 m d r4' = V0 m d r4' := Function.update_of_ne (show r4' ≠ y' by decide) _ _

/-- What the call takes for the two SparseCores, and what it hands back: the arrays whole. -/
theorem st0_eq (d : Dev nD) : (bigSep Finset.univ fun c : Fin ((K (F := F)).nCore 0) => (P m).st 0 d c) = iprop(xPts m d ∗ yPts d (m (yLoc d))) := by
  show (bigSep (Finset.univ : Finset (Fin 2)) fun c => bigSep (Finset.univ : Finset (Fin 16)) fun i =>
      iprop((xLoc d ↦[XB c.val i.val c.isLt i.isLt]{fullShare} m (xLoc d)) ∗ (yLoc d ↦[YB c.val i.val c.isLt i.isLt]{fullShare} m (yLoc d)))) = _
  unfold xPts yPts
  rw [xWhole_blocks, yWhole_blocks, ← bigSep_sep']
  exact bigSep_congr fun c _ => bigSep_sep' _ _ _
theorem dn0_eq (d : Dev nD) : (bigSep Finset.univ fun c : Fin ((K (F := F)).nCore 0) => (P m).dn 0 d c) = iprop(xPts m d ∗ yPts d (G d (m (xLoc d)))) := by
  show (bigSep (Finset.univ : Finset (Fin 2)) fun c => bigSep (Finset.univ : Finset (Fin 16)) fun i =>
      iprop((xLoc d ↦[XB c.val i.val c.isLt i.isLt]{fullShare} m (xLoc d)) ∗ (yLoc d ↦[YB c.val i.val c.isLt i.isLt]{fullShare} G d (m (xLoc d))))) = _
  unfold xPts yPts
  rw [xWhole_blocks, yWhole_blocks, ← bigSep_sep']
  exact bigSep_congr fun c _ => bigSep_sep' _ _ _

theorem hostOps_sub : ∀ op ∈ (hostOps (F := F)), op.bufs ⊆ S6 := by
  intro op h
  simp only [List.mem_cons, List.not_mem_nil, or_false] at h
  rcases h with rfl | rfl | rfl | rfl
  · rw [StableHlo.unary_bufs]; decide
  · rw [StableHlo.reshape_bufs]; decide
  · rw [StableHlo.unary_bufs]; decide
  · rw [StableHlo.reshape_bufs]; decide
theorem hostOps_fresh : ∀ op ∈ (hostOps (F := F)), op.fresh = ∅ := by
  intro _ h; (repeat (cases h with | head => rfl | tail _ h => ?_)); exact nomatch h

/-- What @main leaves the claim: all six arrays, at the two slices' results over the call's. -/
def FIN (d : Dev nD) : sProp 𝕄 := StableHlo.held (T d) S6 (StableHlo.after hostOps (V1 m d))

theorem main_eq (d : Dev nD) : main (F := F) d = ((K (F := F)).run d 0 >>= fun _ => (StableHlo.seq hostOps >>= fun u => Pure.pure u)) := by
  rw [bind_pure]; rfl

set_option backward.isDefEq.respectTransparency.types false in
/-- @main on device `d`'s TensorCore: the call, from the two arrays whole; then the two slices over all six arrays held. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq, wp_bind]
  iintro ⟨#Hctx, Hst, ⟨Hb, Hheld, -, -⟩, -⟩
  ihave Hh := (Entails.of_eq (held_S6 (F := F) d _)) $$ Hheld
  icases Hh with ⟨Hx, Hy, H1, H2, H3, H4⟩
  iapply ((K (F := F)).wp_run (D (F := F)) 𝒱 (EH := EH) (P := P m) κ d 0) $$ [Hst Hx Hy Hb H1 H2 H3 H4]
  isplitr; · iexact Hctx
  isplitl [Hst]; · iexact Hst
  isplitl [Hx Hy]
  · rw [st0_eq]
    isplitl [Hx]; · iexact Hx
    iexact Hy
  iintro ⟨Hst, Hdn⟩
  ihave Hdn' := (Entails.of_eq (dn0_eq m d)) $$ Hdn
  icases Hdn' with ⟨Hx, Hy⟩
  iapply (StableHlo.wp_seq 𝒱 none Set.univ d S6 (fun u => Pure.pure u) (hostOps (F := F)) hostOps_sub hostOps_fresh (V1 m d)) $$ [Hb Hx Hy H1 H2 H3 H4]
  · isplitl [Hb]; · iexact Hb
    rw [held_S6, V1_x, V1_y, V1_r1, V1_r2, V1_r3, V1_r4]
    isplitl [Hx]; · iexact Hx
    isplitl [Hy]; · iexact Hy
    isplitl [H1]; · iexact H1
    isplitl [H2]; · iexact H2
    isplitl [H3]; · iexact H3
    iexact H4
  iintro ⟨-, Hheld⟩
  rw [wp_pure]; imodintro
  isplitl [Hst]; · iexact Hst
  unfold FIN; iexact Hheld

/-! ## The final memory -/

attribute [local irreducible] G in
theorem fin_x (d : Dev nD) : StableHlo.after (hostOps (F := F)) (V1 m d) x' = m (xLoc d) := by
  simp only [StableHlo.after_cons, StableHlo.after_nil]; rfl
attribute [local irreducible] G in
theorem fin_y (d : Dev nD) : StableHlo.after (hostOps (F := F)) (V1 m d) y' = G d (m (xLoc d)) := by
  simp only [StableHlo.after_cons, StableHlo.after_nil]; exact V1_y m d
attribute [local irreducible] G in
theorem fin_r2 (d : Dev nD) : StableHlo.after (hostOps (F := F)) (V1 m d) r2'
    = shapeCast S128x32768 (extractStridedSlice S1x128x32768 ![1, 0, 0] (m (xLoc d)) slices_S3x128x32768_S1x128x32768_1_0_0) shapeCasts_S1x128x32768_S128x32768 := by
  simp only [StableHlo.after_cons, StableHlo.after_nil]; rfl
attribute [local irreducible] G in
theorem fin_r4 (d : Dev nD) : StableHlo.after (hostOps (F := F)) (V1 m d) r4'
    = shapeCast S128x32768 (extractStridedSlice S1x128x32768 ![2, 0, 0] (m (xLoc d)) slices_S3x128x32768_S1x128x32768_2_0_0) shapeCasts_S1x128x32768_S128x32768 := by
  simp only [StableHlo.after_cons, StableHlo.after_nil]; rfl

def fq (d : Dev nD) (s' : Phys nD τ sig (Elt F)) : Prop :=
  s'.mem.mem ((SparseCore.T d).loc main_v0) = G d (m (xLoc d))
  ∧ s'.mem.mem ((SparseCore.T d).loc main_v2) = shapeCast S128x32768 (extractStridedSlice S1x128x32768 ![1, 0, 0] (m (xLoc d)) slices_S3x128x32768_S1x128x32768_1_0_0) shapeCasts_S1x128x32768_S128x32768
  ∧ s'.mem.mem ((SparseCore.T d).loc main_v4) = shapeCast S128x32768 (extractStridedSlice S1x128x32768 ![2, 0, 0] (m (xLoc d)) slices_S3x128x32768_S1x128x32768_2_0_0) shapeCasts_S1x128x32768_S128x32768
  ∧ s'.mem.mem (xLoc d) = m (xLoc d)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (st := s') (c := d) (qs := fun _ => fullShare) (F := StableHlo.after (hostOps (F := F)) (V1 m d)) S6) $$ [HSI H]
  · isplitl [HSI]; · iexact HSI
    iexact H
  ipureintro
  exact ⟨(h y' (by decide)).trans (fin_y m d), (h r2' (by decide)).trans (fin_r2 m d), (h r4' (by decide)).trans (fin_r4 m d), (h x' (by decide)).trans (fin_x m d)⟩

/-! ## The program's run -/

def QC : PUnit × MemSt nD τ sig (Elt F) → Prop := fun r => ∀ c : Dev nD,
  r.2.mem ((SparseCore.T c).loc main_v0) = G c (m (xLoc c))
  ∧ r.2.mem ((SparseCore.T c).loc main_v2) = shapeCast S128x32768 (extractStridedSlice S1x128x32768 ![1, 0, 0] (m (xLoc c)) slices_S3x128x32768_S1x128x32768_1_0_0) shapeCasts_S1x128x32768_S128x32768
  ∧ r.2.mem ((SparseCore.T c).loc main_v4) = shapeCast S128x32768 (extractStridedSlice S1x128x32768 ![2, 0, 0] (m (xLoc c)) slices_S3x128x32768_S1x128x32768_2_0_0) shapeCasts_S1x128x32768_S128x32768
  ∧ r.2.mem (xLoc c) = m (xLoc c)

/-- Every weakly fair execution of the device's threads terminates, nothing faulting, with the first result at `G` of
    the input, the other two at its planes 1 and 2, and the input unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.OnKernel

end
-- ==== Proof.OnKernelIdeal.Setup.lean ====
/-
  The idealized kernel as the SparseCore launch sees it: the program's configuration, the ghost state (the launch's
  handshake rounds beside the schedule-free transfer counters), and the memory a vector subcore works on, spelt as
  the kernel slices it.

  Vector subcore (core c, subcore s) owns rows 8 s + 4 c .. 8 s + 4 c + 3 of the 128 rows.  It reads those rows of
  plane 0 of the input twice — whole, one row per staging buffer, and as two 4 × 128 slabs at columns 0 and 16384 —
  and writes those rows of the output.  The two kinds of read overlap, so the subcore's block of the input is held
  at two half shares: the left half cut into the four rows, the right half into the two slabs and what is left.
-/
import proofs.«209894_g19731079758016_cont_8to1_1440_21_alg».proof.Defs
import Idealize.ShloMosaic.Lib.SparseCore.Launch
import Idealize.ShloMosaic.Lib.StableHlo.Run
import Idealize.ShloMosaic.Lib.Pipeline.Kit
import Idealize.ShloMosaic.Lib.Tactic
import proofs.«209894_g19731079758016_cont_8to1_1440_21_alg».proof.Proof.Gen.KernelIdeal
import proofs.«209894_g19731079758016_cont_8to1_1440_21_alg».proof.Proof.Gen.KernelIdeal.Skeleton

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the kernel names them -/

abbrev xLoc (d : Dev nD) : Loc nD τ sig := (SparseCore.T d).loc main_arg0
abbrev yLoc (d : Dev nD) : Loc nD τ sig := (SparseCore.T d).loc main_v0

abbrev xV : Memref sig .scVector .hbm S3x128x32768 .f32 := Memref.whole main_arg0_scv
abbrev yV : Memref sig .scVector .hbm S128x32768 .f32 := Memref.whole main_v0_scv
abbrev sA : Memref sig .scVector .vmem S4x128 .f32 := Memref.whole cc0_scratch0
abbrev sB : Memref sig .scVector .vmem S4x128 .f32 := Memref.whole cc0_scratch1
abbrev b0 : Memref sig .scVector .vmem S1x32768 .f32 := Memref.whole cc0_scratch2
abbrev b1 : Memref sig .scVector .vmem S1x32768 .f32 := Memref.whole cc0_scratch3
abbrev b2 : Memref sig .scVector .vmem S1x32768 .f32 := Memref.whole cc0_scratch4

abbrev cV (L : grid0.Coords) : Fin τ.nSC := (L 0).castLE hcore0
abbrev jV (L : grid0.Coords) : Fin τ.nSub := (L 1).castLE hsub0
abbrev thrOf (d : Dev nD) (L : grid0.Coords) : Thread nD τ := V d (cV L) (jV L)
abbrev cellOf (d : Dev nD) (L : grid0.Coords) (s : DmaSems sig S_) : GSem nD τ sig := (thrOf d L, .dma s.sem)

theorem cellOf_ne (d : Dev nD) (L : grid0.Coords) {a b : SemLoc sig} (h : a ≠ b) :
    ((thrOf d L, a) : GSem nD τ sig) ≠ (thrOf d L, b) := fun e => h (Prod.mk.inj e).2

/-- Row `r` of the subcore's four, in plane 0 of the input: what one whole-row copy reads. -/
abbrev xRow0 (L : grid0.Coords) : Memref sig .scVector .hbm S1x32768 .f32 :=
  ((xV).slice (Rect.unit (s := S3x128x32768) (k0_off1 L 0#32) S1x1x32768.size (k0_off1_inb L 0)) (fun _ => rfl)).squeeze S1x32768 squeezes_S1x1x32768_S1x32768
abbrev xRow1 (L : grid0.Coords) : Memref sig .scVector .hbm S1x32768 .f32 :=
  ((xV).slice (Rect.unit (s := S3x128x32768) (k0_off1 L 1#32) S1x1x32768.size (k0_off1_inb L 1)) (fun _ => rfl)).squeeze S1x32768 squeezes_S1x1x32768_S1x32768
abbrev xRow2 (L : grid0.Coords) : Memref sig .scVector .hbm S1x32768 .f32 :=
  ((xV).slice (Rect.unit (s := S3x128x32768) (k0_off1 L 2#32) S1x1x32768.size (k0_off1_inb L 2)) (fun _ => rfl)).squeeze S1x32768 squeezes_S1x1x32768_S1x32768
abbrev xRow3 (L : grid0.Coords) : Memref sig .scVector .hbm S1x32768 .f32 :=
  ((xV).slice (Rect.unit (s := S3x128x32768) (k0_off1 L 3#32) S1x1x32768.size (k0_off1_inb L 3)) (fun _ => rfl)).squeeze S1x32768 squeezes_S1x1x32768_S1x32768
/-- The 4 × 128 slabs of those rows at columns 0 and 16384. -/
abbrev xSlabA (L : grid0.Coords) : Memref sig .scVector .hbm S4x128 .f32 :=
  ((xV).slice (Rect.unit (s := S3x128x32768) (k0_off2 L) S1x4x128.size (k0_off2_inb L)) (fun _ => rfl)).squeeze S4x128 squeezes_S1x4x128_S4x128
abbrev xSlabB (L : grid0.Coords) : Memref sig .scVector .hbm S4x128 .f32 :=
  ((xV).slice (Rect.unit (s := S3x128x32768) (k0_off3 L) S1x4x128.size (k0_off3_inb L)) (fun _ => rfl)).squeeze S4x128 squeezes_S1x4x128_S4x128
/-- Row `r` of the subcore's four in the output. -/
abbrev yRow0 (L : grid0.Coords) : Memref sig .scVector .hbm S1x32768 .f32 :=
  (yV).slice (Rect.unit (s := S128x32768) (k0_off4 L 0#32) S1x32768.size (k0_off4_inb L 0)) (fun _ => rfl)
abbrev yRow1 (L : grid0.Coords) : Memref sig .scVector .hbm S1x32768 .f32 :=
  (yV).slice (Rect.unit (s := S128x32768) (k0_off4 L 1#32) S1x32768.size (k0_off4_inb L 1)) (fun _ => rfl)
abbrev yRow2 (L : grid0.Coords) : Memref sig .scVector .hbm S1x32768 .f32 :=
  (yV).slice (Rect.unit (s := S128x32768) (k0_off4 L 2#32) S1x32768.size (k0_off4_inb L 2)) (fun _ => rfl)
abbrev yRow3 (L : grid0.Coords) : Memref sig .scVector .hbm S1x32768 .f32 :=
  (yV).slice (Rect.unit (s := S128x32768) (k0_off4 L 3#32) S1x32768.size (k0_off4_inb L 3)) (fun _ => rfl)

section Tile

variable (d : Dev nD) (L : grid0.Coords)

theorem ownSems0_tile :
    (ownSems0 (thrOf d L) : sProp 𝕄)
      = iprop(semVal (cellOf d L cc0_scratch5) 0 ∗ semVal (cellOf d L cc0_scratch6) 0 ∗ semVal (cellOf d L cc0_scratch7) 0 ∗ semVal (cellOf d L cc0_scratch8) 0 ∗ semVal (cellOf d L cc0_scratch9) 0 ∗ semVal (cellOf d L cc0_scratch10) 0 ∗ semVal (cellOf d L cc0_scoped0) 0 ∗ semVal (cellOf d L cc0_scoped1) 0
          ∗ bigSep (((((((((ownCells (thrOf d L)).erase (cellOf d L cc0_scratch5)).erase (cellOf d L cc0_scratch6)).erase (cellOf d L cc0_scratch7)).erase (cellOf d L cc0_scratch8)).erase (cellOf d L cc0_scratch9)).erase (cellOf d L cc0_scratch10)).erase (cellOf d L cc0_scoped0)).erase (cellOf d L cc0_scoped1)) fun g => semVal g 0) := by
  unfold SparseCore.Cfg.ownSems0
  rw [SparseCore.bigSep_erase' ((mem_ownCells (g := cellOf d L cc0_scratch5)).mpr ⟨rfl, by show (SemLoc.dma cc0_scratch5.sem : SemLoc sig).isScoped .scVector = true; decide⟩),
    SparseCore.bigSep_erase' (Finset.mem_erase.mpr ⟨cellOf_ne d L (by decide : (SemLoc.dma cc0_scratch6.sem : SemLoc sig) ≠ SemLoc.dma cc0_scratch5.sem), (mem_ownCells (g := cellOf d L cc0_scratch6)).mpr ⟨rfl, by show (SemLoc.dma cc0_scratch6.sem : SemLoc sig).isScoped .scVector = true; decide⟩⟩),
    SparseCore.bigSep_erase' (Finset.mem_erase.mpr ⟨cellOf_ne d L (by decide : (SemLoc.dma cc0_scratch7.sem : SemLoc sig) ≠ SemLoc.dma cc0_scratch6.sem), Finset.mem_erase.mpr ⟨cellOf_ne d L (by decide : (SemLoc.dma cc0_scratch7.sem : SemLoc sig) ≠ SemLoc.dma cc0_scratch5.sem), (mem_ownCells (g := cellOf d L cc0_scratch7)).mpr ⟨rfl, by show (SemLoc.dma cc0_scratch7.sem : SemLoc sig).isScoped .scVector = true; decide⟩⟩⟩),
    SparseCore.bigSep_erase' (Finset.mem_erase.mpr ⟨cellOf_ne d L (by decide : (SemLoc.dma cc0_scratch8.sem : SemLoc sig) ≠ SemLoc.dma cc0_scratch7.sem), Finset.mem_erase.mpr ⟨cellOf_ne d L (by decide : (SemLoc.dma cc0_scratch8.sem : SemLoc sig) ≠ SemLoc.dma cc0_scratch6.sem), Finset.mem_erase.mpr ⟨cellOf_ne d L (by decide : (SemLoc.dma cc0_scratch8.sem : SemLoc sig) ≠ SemLoc.dma cc0_scratch5.sem), (mem_ownCells (g := cellOf d L cc0_scratch8)).mpr ⟨rfl, by show (SemLoc.dma cc0_scratch8.sem : SemLoc sig).isScoped .scVector = true; decide⟩⟩⟩⟩),
    SparseCore.bigSep_erase' (Finset.mem_erase.mpr ⟨cellOf_ne d L (by decide : (SemLoc.dma cc0_scratch9.sem : SemLoc sig) ≠ SemLoc.dma cc0_scratch8.sem), Finset.mem_erase.mpr ⟨cellOf_ne d L (by decide : (SemLoc.dma cc0_scratch9.sem : SemLoc sig) ≠ SemLoc.dma cc0_scratch7.sem), Finset.mem_erase.mpr ⟨cellOf_ne d L (by decide : (SemLoc.dma cc0_scratch9.sem : SemLoc sig) ≠ SemLoc.dma cc0_scratch6.sem), Finset.mem_erase.mpr ⟨cellOf_ne d L (by decide : (SemLoc.dma cc0_scratch9.sem : SemLoc sig) ≠ SemLoc.dma cc0_scratch5.sem), (mem_ownCells (g := cellOf d L cc0_scratch9)).mpr ⟨rfl, by show (SemLoc.dma cc0_scratch9.sem : SemLoc sig).isScoped .scVector = true; decide⟩⟩⟩⟩⟩),
    SparseCore.bigSep_erase' (Finset.mem_erase.mpr ⟨cellOf_ne d L (by decide : (SemLoc.dma cc0_scratch10.sem : SemLoc sig) ≠ SemLoc.dma cc0_scratch9.sem), Finset.mem_erase.mpr ⟨cellOf_ne d L (by decide : (SemLoc.dma cc0_scratch10.sem : SemLoc sig) ≠ SemLoc.dma cc0_scratch8.sem), Finset.mem_erase.mpr ⟨cellOf_ne d L (by decide : (SemLoc.dma cc0_scratch10.sem : SemLoc sig) ≠ SemLoc.dma cc0_scratch7.sem), Finset.mem_erase.mpr ⟨cellOf_ne d L (by decide : (SemLoc.dma cc0_scratch10.sem : SemLoc sig) ≠ SemLoc.dma cc0_scratch6.sem), Finset.mem_erase.mpr ⟨cellOf_ne d L (by decide : (SemLoc.dma cc0_scratch10.sem : SemLoc sig) ≠ SemLoc.dma cc0_scratch5.sem), (mem_ownCells (g := cellOf d L cc0_scratch10)).mpr ⟨rfl, by show (SemLoc.dma cc0_scratch10.sem : SemLoc sig).isScoped .scVector = true; decide⟩⟩⟩⟩⟩⟩),
    SparseCore.bigSep_erase' (Finset.mem_erase.mpr ⟨cellOf_ne d L (by decide : (SemLoc.dma cc0_scoped0.sem : SemLoc sig) ≠ SemLoc.dma cc0_scratch10.sem), Finset.mem_erase.mpr ⟨cellOf_ne d L (by decide : (SemLoc.dma cc0_scoped0.sem : SemLoc sig) ≠ SemLoc.dma cc0_scratch9.sem), Finset.mem_erase.mpr ⟨cellOf_ne d L (by decide : (SemLoc.dma cc0_scoped0.sem : SemLoc sig) ≠ SemLoc.dma cc0_scratch8.sem), Finset.mem_erase.mpr ⟨cellOf_ne d L (by decide : (SemLoc.dma cc0_scoped0.sem : SemLoc sig) ≠ SemLoc.dma cc0_scratch7.sem), Finset.mem_erase.mpr ⟨cellOf_ne d L (by decide : (SemLoc.dma cc0_scoped0.sem : SemLoc sig) ≠ SemLoc.dma cc0_scratch6.sem), Finset.mem_erase.mpr ⟨cellOf_ne d L (by decide : (SemLoc.dma cc0_scoped0.sem : SemLoc sig) ≠ SemLoc.dma cc0_scratch5.sem), (mem_ownCells (g := cellOf d L cc0_scoped0)).mpr ⟨rfl, by show (SemLoc.dma cc0_scoped0.sem : SemLoc sig).isScoped .scVector = true; decide⟩⟩⟩⟩⟩⟩⟩),
    SparseCore.bigSep_erase' (Finset.mem_erase.mpr ⟨cellOf_ne d L (by decide : (SemLoc.dma cc0_scoped1.sem : SemLoc sig) ≠ SemLoc.dma cc0_scoped0.sem), Finset.mem_erase.mpr ⟨cellOf_ne d L (by decide : (SemLoc.dma cc0_scoped1.sem : SemLoc sig) ≠ SemLoc.dma cc0_scratch10.sem), Finset.mem_erase.mpr ⟨cellOf_ne d L (by decide : (SemLoc.dma cc0_scoped1.sem : SemLoc sig) ≠ SemLoc.dma cc0_scratch9.sem), Finset.mem_erase.mpr ⟨cellOf_ne d L (by decide : (SemLoc.dma cc0_scoped1.sem : SemLoc sig) ≠ SemLoc.dma cc0_scratch8.sem), Finset.mem_erase.mpr ⟨cellOf_ne d L (by decide : (SemLoc.dma cc0_scoped1.sem : SemLoc sig) ≠ SemLoc.dma cc0_scratch7.sem), Finset.mem_erase.mpr ⟨cellOf_ne d L (by decide : (SemLoc.dma cc0_scoped1.sem : SemLoc sig) ≠ SemLoc.dma cc0_scratch6.sem), Finset.mem_erase.mpr ⟨cellOf_ne d L (by decide : (SemLoc.dma cc0_scoped1.sem : SemLoc sig) ≠ SemLoc.dma cc0_scratch5.sem), (mem_ownCells (g := cellOf d L cc0_scoped1)).mpr ⟨rfl, by show (SemLoc.dma cc0_scoped1.sem : SemLoc sig).isScoped .scVector = true; decide⟩⟩⟩⟩⟩⟩⟩⟩)]

theorem ownBufs_tile :
    (ownBufs (thrOf d L) : sProp 𝕄)
      = iprop((∃ f, (thrOf d L).loc cc0_scratch0 ↦{fullShare} f) ∗ (∃ f, (thrOf d L).loc cc0_scratch1 ↦{fullShare} f) ∗ (∃ f, (thrOf d L).loc cc0_scratch2 ↦{fullShare} f) ∗ (∃ f, (thrOf d L).loc cc0_scratch3 ↦{fullShare} f) ∗ (∃ f, (thrOf d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

end Tile

end Cert.Proof.OnKernelIdeal

end
-- ==== Proof.OnKernelIdeal.Blocks.lean ====
/-
  The memory one vector subcore works on, as sets of indices.  Subcore (core c, subcore s) owns rows
  8 s + 4 c .. 8 s + 4 c + 3.  Its block of the input (those rows, all three planes) contains the four rows of plane 0
  its whole-row copies read and the two 4 × 128 slabs (columns 0.. and 16384..) its slab copies read; rows and slabs
  overlap, so the block is held as two half shares, one cut along the rows, one along the slabs.  Its block of the
  output is exactly its four rows.  Membership in each piece is stated coordinate by coordinate, and every inclusion
  and disjointness below is arithmetic on those coordinates.
-/
import proofs.«209894_g19731079758016_cont_8to1_1440_21_alg».proof.Proof.OnKernelIdeal.Setup

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Membership in a rectangle, coordinate by coordinate -/

theorem mem_unit3 {n0 n1 n2 : ℕ} {off size : Fin 3 → ℕ} {inb} (j : (⟨3, ![n0, n1, n2]⟩ : Shape).Idx) :
    Iff (j ∈ (Rect.unit (s := ⟨3, ![n0, n1, n2]⟩) off size inb).set)
      ((off 0 ≤ (j 0).val ∧ (j 0).val < off 0 + size 0) ∧ (off 1 ≤ (j 1).val ∧ (j 1).val < off 1 + size 1)
        ∧ (off 2 ≤ (j 2).val ∧ (j 2).val < off 2 + size 2)) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

theorem mem_unit2 {n0 n1 : ℕ} {off size : Fin 2 → ℕ} {inb} (j : (⟨2, ![n0, n1]⟩ : Shape).Idx) :
    Iff (j ∈ (Rect.unit (s := ⟨2, ![n0, n1]⟩) off size inb).set)
      ((off 0 ≤ (j 0).val ∧ (j 0).val < off 0 + size 0) ∧ (off 1 ≤ (j 1).val ∧ (j 1).val < off 1 + size 1)) := by
  rw [Rect.mem_set_unit]
  constructor
  · intro h; exact ⟨h 0, h 1⟩
  · rintro ⟨h0, h1⟩ a
    match a with
    | ⟨0, _⟩ => exact h0
    | ⟨1, _⟩ => exact h1

/-! ## The pieces of the input and output a subcore's copies read and write -/

def XR0 (L : grid0.Coords) : Finset S3x128x32768.Idx := (xRow0 L).view.set
def XR1 (L : grid0.Coords) : Finset S3x128x32768.Idx := (xRow1 L).view.set
def XR2 (L : grid0.Coords) : Finset S3x128x32768.Idx := (xRow2 L).view.set
def XR3 (L : grid0.Coords) : Finset S3x128x32768.Idx := (xRow3 L).view.set
def XSA (L : grid0.Coords) : Finset S3x128x32768.Idx := (xSlabA L).view.set
def XSB (L : grid0.Coords) : Finset S3x128x32768.Idx := (xSlabB L).view.set
def YR0 (L : grid0.Coords) : Finset S128x32768.Idx := (yRow0 L).view.set
def YR1 (L : grid0.Coords) : Finset S128x32768.Idx := (yRow1 L).view.set
def YR2 (L : grid0.Coords) : Finset S128x32768.Idx := (yRow2 L).view.set
def YR3 (L : grid0.Coords) : Finset S128x32768.Idx := (yRow3 L).view.set

/-- First row of the block of subcore `s` of core `c`. -/
def row0 (c s : ℕ) : ℕ := 8 * s + 4 * c

theorem xBlock_inb (c s : ℕ) (hc : c < 2) (hs : s < 16) :
    ∀ a, (![0, row0 c s, 0] : Fin 3 → Nat) a + (![3, 4, 32768] : Fin 3 → Nat) a ≤ S3x128x32768.size a := by
  intro a
  match a with
  | ⟨0, _⟩ => show 0 + 3 ≤ 3; omega
  | ⟨1, _⟩ => show row0 c s + 4 ≤ 128; unfold row0; omega
  | ⟨2, _⟩ => show 0 + 32768 ≤ 32768; omega
theorem yBlock_inb (c s : ℕ) (hc : c < 2) (hs : s < 16) :
    ∀ a, (![row0 c s, 0] : Fin 2 → Nat) a + (![4, 32768] : Fin 2 → Nat) a ≤ S128x32768.size a := by
  intro a
  match a with
  | ⟨0, _⟩ => show row0 c s + 4 ≤ 128; unfold row0; omega
  | ⟨1, _⟩ => show 0 + 32768 ≤ 32768; omega

/-- The block of the input of subcore `s` of core `c`: its four rows in all three planes; of the output: its four rows. -/
def XB (c s : ℕ) (hc : c < 2) (hs : s < 16) : Finset S3x128x32768.Idx := (Rect.unit (s := S3x128x32768) _ _ (xBlock_inb c s hc hs)).set
def YB (c s : ℕ) (hc : c < 2) (hs : s < 16) : Finset S128x32768.Idx := (Rect.unit (s := S128x32768) _ _ (yBlock_inb c s hc hs)).set

theorem mem_XB (c s : ℕ) (hc : c < 2) (hs : s < 16) (j : S3x128x32768.Idx) : Iff (j ∈ XB c s hc hs) (row0 c s ≤ (j 1).val ∧ (j 1).val < row0 c s + 4) := by
  unfold XB
  rw [mem_unit3]
  have h0 : (j 0).val < 3 := (j 0).isLt
  have h2 : (j 2).val < 32768 := (j 2).isLt
  show Iff ((0 ≤ (j 0).val ∧ (j 0).val < 0 + 3) ∧ (row0 c s ≤ (j 1).val ∧ (j 1).val < row0 c s + 4) ∧ (0 ≤ (j 2).val ∧ (j 2).val < 0 + 32768)) (row0 c s ≤ (j 1).val ∧ (j 1).val < row0 c s + 4)
  omega
theorem mem_YB (c s : ℕ) (hc : c < 2) (hs : s < 16) (j : S128x32768.Idx) : Iff (j ∈ YB c s hc hs) (row0 c s ≤ (j 0).val ∧ (j 0).val < row0 c s + 4) := by
  unfold YB
  rw [mem_unit2]
  have h1 : (j 1).val < 32768 := (j 1).isLt
  show Iff ((row0 c s ≤ (j 0).val ∧ (j 0).val < row0 c s + 4) ∧ (0 ≤ (j 1).val ∧ (j 1).val < 0 + 32768)) (row0 c s ≤ (j 0).val ∧ (j 0).val < row0 c s + 4)
  omega

section Sets

variable (L : grid0.Coords)

theorem L0_lt : (L 0).val < 2 := (L 0).isLt
theorem L1_lt : (L 1).val < 16 := (L 1).isLt

abbrev XT : Finset S3x128x32768.Idx := XB (L 0).val (L 1).val (L0_lt L) (L1_lt L)
abbrev YT : Finset S128x32768.Idx := YB (L 0).val (L 1).val (L0_lt L) (L1_lt L)

theorem mem_XR0 (j : S3x128x32768.Idx) : Iff (j ∈ XR0 L) ((j 0).val = 0 ∧ (j 1).val = row0 (L 0).val (L 1).val + 0) := by
  unfold XR0
  simp only [Memref.view_squeeze, Memref.view_slice, Memref.view_whole, View.set_reshape, View.set_slice_whole]
  rw [mem_unit3, show k0_off1 L 0#32 = ![0, 8 * (L 1).val + 4 * (L 0).val + 0, 0] from k0_off1_eq L 0]
  have h2 : (j 2).val < 32768 := (j 2).isLt
  show Iff ((0 ≤ (j 0).val ∧ (j 0).val < 0 + 1) ∧ (8 * (L 1).val + 4 * (L 0).val + 0 ≤ (j 1).val ∧ (j 1).val < 8 * (L 1).val + 4 * (L 0).val + 0 + 1)
    ∧ (0 ≤ (j 2).val ∧ (j 2).val < 0 + 32768)) ((j 0).val = 0 ∧ (j 1).val = row0 (L 0).val (L 1).val + 0)
  unfold row0; omega
theorem mem_XR1 (j : S3x128x32768.Idx) : Iff (j ∈ XR1 L) ((j 0).val = 0 ∧ (j 1).val = row0 (L 0).val (L 1).val + 1) := by
  unfold XR1
  simp only [Memref.view_squeeze, Memref.view_slice, Memref.view_whole, View.set_reshape, View.set_slice_whole]
  rw [mem_unit3, show k0_off1 L 1#32 = ![0, 8 * (L 1).val + 4 * (L 0).val + 1, 0] from k0_off1_eq L 1]
  have h2 : (j 2).val < 32768 := (j 2).isLt
  show Iff ((0 ≤ (j 0).val ∧ (j 0).val < 0 + 1) ∧ (8 * (L 1).val + 4 * (L 0).val + 1 ≤ (j 1).val ∧ (j 1).val < 8 * (L 1).val + 4 * (L 0).val + 1 + 1)
    ∧ (0 ≤ (j 2).val ∧ (j 2).val < 0 + 32768)) ((j 0).val = 0 ∧ (j 1).val = row0 (L 0).val (L 1).val + 1)
  unfold row0; omega
theorem mem_XR2 (j : S3x128x32768.Idx) : Iff (j ∈ XR2 L) ((j 0).val = 0 ∧ (j 1).val = row0 (L 0).val (L 1).val + 2) := by
  unfold XR2
  simp only [Memref.view_squeeze, Memref.view_slice, Memref.view_whole, View.set_reshape, View.set_slice_whole]
  rw [mem_unit3, show k0_off1 L 2#32 = ![0, 8 * (L 1).val + 4 * (L 0).val + 2, 0] from k0_off1_eq L 2]
  have h2 : (j 2).val < 32768 := (j 2).isLt
  show Iff ((0 ≤ (j 0).val ∧ (j 0).val < 0 + 1) ∧ (8 * (L 1).val + 4 * (L 0).val + 2 ≤ (j 1).val ∧ (j 1).val < 8 * (L 1).val + 4 * (L 0).val + 2 + 1)
    ∧ (0 ≤ (j 2).val ∧ (j 2).val < 0 + 32768)) ((j 0).val = 0 ∧ (j 1).val = row0 (L 0).val (L 1).val + 2)
  unfold row0; omega
theorem mem_XR3 (j : S3x128x32768.Idx) : Iff (j ∈ XR3 L) ((j 0).val = 0 ∧ (j 1).val = row0 (L 0).val (L 1).val + 3) := by
  unfold XR3
  simp only [Memref.view_squeeze, Memref.view_slice, Memref.view_whole, View.set_reshape, View.set_slice_whole]
  rw [mem_unit3, show k0_off1 L 3#32 = ![0, 8 * (L 1).val + 4 * (L 0).val + 3, 0] from k0_off1_eq L 3]
  have h2 : (j 2).val < 32768 := (j 2).isLt
  show Iff ((0 ≤ (j 0).val ∧ (j 0).val < 0 + 1) ∧ (8 * (L 1).val + 4 * (L 0).val + 3 ≤ (j 1).val ∧ (j 1).val < 8 * (L 1).val + 4 * (L 0).val + 3 + 1)
    ∧ (0 ≤ (j 2).val ∧ (j 2).val < 0 + 32768)) ((j 0).val = 0 ∧ (j 1).val = row0 (L 0).val (L 1).val + 3)
  unfold row0; omega
theorem mem_YR0 (j : S128x32768.Idx) : Iff (j ∈ YR0 L) ((j 0).val = row0 (L 0).val (L 1).val + 0) := by
  unfold YR0
  simp only [Memref.view_squeeze, Memref.view_slice, Memref.view_whole, View.set_reshape, View.set_slice_whole]
  rw [mem_unit2, show k0_off4 L 0#32 = ![8 * (L 1).val + 4 * (L 0).val + 0, 0] from k0_off4_eq L 0]
  have h1 : (j 1).val < 32768 := (j 1).isLt
  show Iff ((8 * (L 1).val + 4 * (L 0).val + 0 ≤ (j 0).val ∧ (j 0).val < 8 * (L 1).val + 4 * (L 0).val + 0 + 1)
    ∧ (0 ≤ (j 1).val ∧ (j 1).val < 0 + 32768)) ((j 0).val = row0 (L 0).val (L 1).val + 0)
  unfold row0; omega
theorem mem_YR1 (j : S128x32768.Idx) : Iff (j ∈ YR1 L) ((j 0).val = row0 (L 0).val (L 1).val + 1) := by
  unfold YR1
  simp only [Memref.view_squeeze, Memref.view_slice, Memref.view_whole, View.set_reshape, View.set_slice_whole]
  rw [mem_unit2, show k0_off4 L 1#32 = ![8 * (L 1).val + 4 * (L 0).val + 1, 0] from k0_off4_eq L 1]
  have h1 : (j 1).val < 32768 := (j 1).isLt
  show Iff ((8 * (L 1).val + 4 * (L 0).val + 1 ≤ (j 0).val ∧ (j 0).val < 8 * (L 1).val + 4 * (L 0).val + 1 + 1)
    ∧ (0 ≤ (j 1).val ∧ (j 1).val < 0 + 32768)) ((j 0).val = row0 (L 0).val (L 1).val + 1)
  unfold row0; omega
theorem mem_YR2 (j : S128x32768.Idx) : Iff (j ∈ YR2 L) ((j 0).val = row0 (L 0).val (L 1).val + 2) := by
  unfold YR2
  simp only [Memref.view_squeeze, Memref.view_slice, Memref.view_whole, View.set_reshape, View.set_slice_whole]
  rw [mem_unit2, show k0_off4 L 2#32 = ![8 * (L 1).val + 4 * (L 0).val + 2, 0] from k0_off4_eq L 2]
  have h1 : (j 1).val < 32768 := (j 1).isLt
  show Iff ((8 * (L 1).val + 4 * (L 0).val + 2 ≤ (j 0).val ∧ (j 0).val < 8 * (L 1).val + 4 * (L 0).val + 2 + 1)
    ∧ (0 ≤ (j 1).val ∧ (j 1).val < 0 + 32768)) ((j 0).val = row0 (L 0).val (L 1).val + 2)
  unfold row0; omega
theorem mem_YR3 (j : S128x32768.Idx) : Iff (j ∈ YR3 L) ((j 0).val = row0 (L 0).val (L 1).val + 3) := by
  unfold YR3
  simp only [Memref.view_squeeze, Memref.view_slice, Memref.view_whole, View.set_reshape, View.set_slice_whole]
  rw [mem_unit2, show k0_off4 L 3#32 = ![8 * (L 1).val + 4 * (L 0).val + 3, 0] from k0_off4_eq L 3]
  have h1 : (j 1).val < 32768 := (j 1).isLt
  show Iff ((8 * (L 1).val + 4 * (L 0).val + 3 ≤ (j 0).val ∧ (j 0).val < 8 * (L 1).val + 4 * (L 0).val + 3 + 1)
    ∧ (0 ≤ (j 1).val ∧ (j 1).val < 0 + 32768)) ((j 0).val = row0 (L 0).val (L 1).val + 3)
  unfold row0; omega
theorem mem_XSA (j : S3x128x32768.Idx) : Iff (j ∈ XSA L) ((j 0).val = 0 ∧ (row0 (L 0).val (L 1).val ≤ (j 1).val ∧ (j 1).val < row0 (L 0).val (L 1).val + 4) ∧ (j 2).val < 128) := by
  unfold XSA
  simp only [Memref.view_squeeze, Memref.view_slice, Memref.view_whole, View.set_reshape, View.set_slice_whole]
  rw [mem_unit3, show k0_off2 L = ![0, 8 * (L 1).val + 4 * (L 0).val, 0] from k0_off2_eq L]
  show Iff ((0 ≤ (j 0).val ∧ (j 0).val < 0 + 1) ∧ (8 * (L 1).val + 4 * (L 0).val ≤ (j 1).val ∧ (j 1).val < 8 * (L 1).val + 4 * (L 0).val + 4)
    ∧ (0 ≤ (j 2).val ∧ (j 2).val < 0 + 128)) ((j 0).val = 0 ∧ (row0 (L 0).val (L 1).val ≤ (j 1).val ∧ (j 1).val < row0 (L 0).val (L 1).val + 4) ∧ (j 2).val < 128)
  unfold row0; omega
theorem mem_XSB (j : S3x128x32768.Idx) : Iff (j ∈ XSB L) ((j 0).val = 0 ∧ (row0 (L 0).val (L 1).val ≤ (j 1).val ∧ (j 1).val < row0 (L 0).val (L 1).val + 4) ∧ (16384 ≤ (j 2).val ∧ (j 2).val < 16512)) := by
  unfold XSB
  simp only [Memref.view_squeeze, Memref.view_slice, Memref.view_whole, View.set_reshape, View.set_slice_whole]
  rw [mem_unit3, show k0_off3 L = ![0, 8 * (L 1).val + 4 * (L 0).val, 16384] from k0_off3_eq L]
  show Iff ((0 ≤ (j 0).val ∧ (j 0).val < 0 + 1) ∧ (8 * (L 1).val + 4 * (L 0).val ≤ (j 1).val ∧ (j 1).val < 8 * (L 1).val + 4 * (L 0).val + 4)
    ∧ (16384 ≤ (j 2).val ∧ (j 2).val < 16384 + 128)) ((j 0).val = 0 ∧ (row0 (L 0).val (L 1).val ≤ (j 1).val ∧ (j 1).val < row0 (L 0).val (L 1).val + 4) ∧ (16384 ≤ (j 2).val ∧ (j 2).val < 16512))
  unfold row0; omega

end Sets

section Blocks

variable (L : grid0.Coords)

/-- What is left of the block's left half share after the four rows of plane 0, of its right half after the two
    slabs, and of the output block after its four rows (nothing). -/
def XL4 : Finset S3x128x32768.Idx := (((XT L \ XR0 L) \ XR1 L) \ XR2 L) \ XR3 L
def XRr : Finset S3x128x32768.Idx := (XT L \ XSA L) \ XSB L
def YE : Finset S128x32768.Idx := (((YT L \ YR0 L) \ YR1 L) \ YR2 L) \ YR3 L

theorem sub_XR0 : XR0 L ⊆ XT L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XR1 : XR1 L ⊆ XT L \ XR0 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XR2 : XR2 L ⊆ (XT L \ XR0 L) \ XR1 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XR3 : XR3 L ⊆ ((XT L \ XR0 L) \ XR1 L) \ XR2 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XSA : XSA L ⊆ XT L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_XSB : XSB L ⊆ XT L \ XSA L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR0 : YR0 L ⊆ YT L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR1 : YR1 L ⊆ YT L \ YR0 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR2 : YR2 L ⊆ (YT L \ YR0 L) \ YR1 L := by
  intro j hj; simp only [mem_XR0, mem_XR1, mem_XR2, mem_XR3, mem_XSA, mem_XSB, mem_YR0, mem_YR1, mem_YR2, mem_YR3, mem_XB, mem_YB, Finset.mem_sdiff] at hj ⊢; omega
theorem sub_YR3 : YR3 L ⊆ ((YT L \ YR0 L) \ YR1 L) \ YR2 L := by
  intro j hj; simp only [mem_XR0, mem_XR1, mem_XR2, mem_XR3, mem_XSA, mem_XSB, mem_YR0, mem_YR1, mem_YR2, mem_YR3, mem_XB, mem_YB, Finset.mem_sdiff] at hj ⊢; omega
theorem YE_empty : YE L = ∅ := by
  apply Finset.eq_empty_of_forall_notMem
  intro j hj; unfold YE at hj; simp only [mem_XR0, mem_XR1, mem_XR2, mem_XR3, mem_XSA, mem_XSB, mem_YR0, mem_YR1, mem_YR2, mem_YR3, mem_XB, mem_YB, Finset.mem_sdiff] at hj; omega

variable (d : Dev nD)

theorem eq_of_equiv {P Q : sProp 𝕄} (h : P ⊣⊢ Q) : P = Q := BI.equiv_iff.mp ⟨h.1, h.2⟩

/-- A subcore's block of the input, at contents `f`: the left half share as the four rows and a rest, the right half
    as the two slabs and a rest. -/
theorem xBlock_pieces (f : Buf (Elt F) (xLoc d)) :
    (xLoc d ↦[XT L]{fullShare} f : sProp 𝕄)
      = iprop(((xLoc d ↦[XR0 L]{fullShare.left} f) ∗ (xLoc d ↦[XR1 L]{fullShare.left} f) ∗ (xLoc d ↦[XR2 L]{fullShare.left} f)
            ∗ (xLoc d ↦[XR3 L]{fullShare.left} f) ∗ (xLoc d ↦[XL4 L]{fullShare.left} f))
          ∗ ((xLoc d ↦[XSA L]{fullShare.right} f) ∗ (xLoc d ↦[XSB L]{fullShare.right} f) ∗ (xLoc d ↦[XRr L]{fullShare.right} f))) := by
  rw [eq_of_equiv (pointsTo_share (ℓ := xLoc d) (I := XT L) (f := f) (PosShare.mem_left_op_right fullShare)),
    eq_of_equiv (pointsTo_split_subset (ℓ := xLoc d) (S := XT L) (I := XR0 L) (f := f) (q := fullShare.left) (sub_XR0 L)),
    eq_of_equiv (pointsTo_split_subset (ℓ := xLoc d) (S := XT L \ XR0 L) (I := XR1 L) (f := f) (q := fullShare.left) (sub_XR1 L)),
    eq_of_equiv (pointsTo_split_subset (ℓ := xLoc d) (S := (XT L \ XR0 L) \ XR1 L) (I := XR2 L) (f := f) (q := fullShare.left) (sub_XR2 L)),
    eq_of_equiv (pointsTo_split_subset (ℓ := xLoc d) (S := ((XT L \ XR0 L) \ XR1 L) \ XR2 L) (I := XR3 L) (f := f) (q := fullShare.left) (sub_XR3 L)),
    eq_of_equiv (pointsTo_split_subset (ℓ := xLoc d) (S := XT L) (I := XSA L) (f := f) (q := fullShare.right) (sub_XSA L)),
    eq_of_equiv (pointsTo_split_subset (ℓ := xLoc d) (S := XT L \ XSA L) (I := XSB L) (f := f) (q := fullShare.right) (sub_XSB L))]
  rfl

/-- A subcore's block of the output is its four rows. -/
theorem yBlock_pieces (f : Buf (Elt F) (yLoc d)) :
    (yLoc d ↦[YT L]{fullShare} f : sProp 𝕄)
      = iprop((yLoc d ↦[YR0 L]{fullShare} f) ∗ (yLoc d ↦[YR1 L]{fullShare} f) ∗ (yLoc d ↦[YR2 L]{fullShare} f) ∗ (yLoc d ↦[YR3 L]{fullShare} f)) := by
  rw [eq_of_equiv (pointsTo_split_subset (ℓ := yLoc d) (S := YT L) (I := YR0 L) (f := f) (q := fullShare) (sub_YR0 L)),
    eq_of_equiv (pointsTo_split_subset (ℓ := yLoc d) (S := YT L \ YR0 L) (I := YR1 L) (f := f) (q := fullShare) (sub_YR1 L)),
    eq_of_equiv (pointsTo_split_subset (ℓ := yLoc d) (S := (YT L \ YR0 L) \ YR1 L) (I := YR2 L) (f := f) (q := fullShare) (sub_YR2 L)),
    eq_of_equiv (pointsTo_split_subset (ℓ := yLoc d) (S := ((YT L \ YR0 L) \ YR1 L) \ YR2 L) (I := YR3 L) (f := f) (q := fullShare) (sub_YR3 L))]
  show iprop(_ ∗ _ ∗ _ ∗ _ ∗ (yLoc d ↦[YE L]{fullShare} f)) = _
  rw [YE_empty, pointsTo_empty]
  exact eq_of_equiv ⟨by iintro ⟨H0, H1, H2, H3, -⟩; isplitl [H0]; · iexact H0
                        isplitl [H1]; · iexact H1
                        isplitl [H2]; · iexact H2
                        iexact H3,
                     by iintro ⟨H0, H1, H2, H3⟩; isplitl [H0]; · iexact H0
                        isplitl [H1]; · iexact H1
                        isplitl [H2]; · iexact H2
                        isplitl [H3]; · iexact H3
                        iempintro⟩

end Blocks

end Cert.Proof.OnKernelIdeal

end
-- ==== Proof.OnKernelIdeal.Value.lean ====
/-
  What the kernel writes, as one function `G` of the input, and why each output row ends at it.  Row `r` of a
  subcore's four is staged whole from plane 0 of the input; columns 0..15 of the staged row are then overwritten by
  the left values and columns 16384..16399 by the right values of that row, both computed lane by lane from the
  first sixteen lanes of the two slabs' row `r`; the staged row is copied out.  Read back index by index — through
  the copy out, the two partial stores, the copy in, and the slab scratches' own stores and copies — an element of
  the output row is the left value, the right value, or the input's element, as its column says.
-/
import proofs.«209894_g19731079758016_cont_8to1_1440_21_alg».proof.Proof.OnKernelIdeal.Blocks
import Idealize.ShloMosaic.Lib.ValueIdx
import Idealize.ShloMosaic.Lib.Writes
import Idealize.ShloMosaic.Lib.Pipeline.Value
import Idealize.ShloMosaic.Lib.Tactic

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

/-! ## What the kernel writes, as a function of the input -/

section Value

variable [FloatOps F]

/-- ((a + b) rem 1024, plus 1024 when negative) + 1, in the kernel's operations. -/
def mixL (a b : F .f32) : F .f32 :=
  FloatOps.addf
    (Scalar.select
      (IntOp.andi (IntOp.xori (FloatOps.cmpf .olt (FloatOps.remf (FloatOps.addf a b) (Scalar.ofBits .f32 0x44800000#32)) (Scalar.ofBits .f32 0x00000000#32))
          (Scalar.cmpf .olt (Scalar.ofBits (F := F) .f32 0x44800000#32) (Scalar.ofBits .f32 0x00000000#32)))
        (FloatOps.cmpf .one (FloatOps.remf (FloatOps.addf a b) (Scalar.ofBits .f32 0x44800000#32)) (Scalar.ofBits .f32 0x00000000#32)))
      (FloatOps.addf (FloatOps.remf (FloatOps.addf a b) (Scalar.ofBits .f32 0x44800000#32)) (Scalar.ofBits .f32 0x44800000#32))
      (FloatOps.remf (FloatOps.addf a b) (Scalar.ofBits .f32 0x44800000#32)))
    (Scalar.ofBits .f32 0x3F800000#32)

/-- (((1024 + a) - b) rem 1024, plus 1024 when negative) + 1. -/
def mixR (a b : F .f32) : F .f32 :=
  FloatOps.addf
    (Scalar.select
      (IntOp.andi (IntOp.xori (FloatOps.cmpf .olt (FloatOps.remf (FloatOps.subf (FloatOps.addf (Scalar.ofBits .f32 0x44800000#32) a) b) (Scalar.ofBits .f32 0x44800000#32)) (Scalar.ofBits .f32 0x00000000#32))
          (Scalar.cmpf .olt (Scalar.ofBits (F := F) .f32 0x44800000#32) (Scalar.ofBits .f32 0x00000000#32)))
        (FloatOps.cmpf .one (FloatOps.remf (FloatOps.subf (FloatOps.addf (Scalar.ofBits .f32 0x44800000#32) a) b) (Scalar.ofBits .f32 0x44800000#32)) (Scalar.ofBits .f32 0x00000000#32)))
      (FloatOps.addf (FloatOps.remf (FloatOps.subf (FloatOps.addf (Scalar.ofBits .f32 0x44800000#32) a) b) (Scalar.ofBits .f32 0x44800000#32)) (Scalar.ofBits .f32 0x44800000#32))
      (FloatOps.remf (FloatOps.subf (FloatOps.addf (Scalar.ofBits .f32 0x44800000#32) a) b) (Scalar.ofBits .f32 0x44800000#32)))
    (Scalar.ofBits .f32 0x3F800000#32)

/-- The output as one function of the input: columns 0..15 and 16384..16399 of each row mixed, the rest of plane 0 kept. -/
def G (d : Dev nD) (X : Buf (Elt F) (xLoc d)) : Buf (Elt F) (yLoc d) := fun i =>
  if h : (i 1).val < 16 then
    mixL (X (ix3 (0 : Fin 3) (i 0) (⟨(i 1).val, by omega⟩ : Fin 32768))) (X (ix3 (0 : Fin 3) (i 0) (⟨(i 1).val + 16384, by omega⟩ : Fin 32768)))
  else if h' : 16384 ≤ (i 1).val ∧ (i 1).val < 16400 then
    mixR (X (ix3 (0 : Fin 3) (i 0) (⟨(i 1).val - 16384, by omega⟩ : Fin 32768))) (X (ix3 (0 : Fin 3) (i 0) (i 1)))
  else X (ix3 (0 : Fin 3) (i 0) (i 1))

end Value

/-- `G` at a row and a column. -/
theorem G_at [FloatOps F] (d : Dev nD) (X : Buf (Elt F) (xLoc d)) (R : Fin 128) (c : Fin 32768) :
    G d X (ix2 R c) = if h : c.val < 16 then
        mixL (X (ix3 (0 : Fin 3) R (⟨c.val, by omega⟩ : Fin 32768))) (X (ix3 (0 : Fin 3) R (⟨c.val + 16384, by omega⟩ : Fin 32768)))
      else if h' : 16384 ≤ c.val ∧ c.val < 16400 then
        mixR (X (ix3 (0 : Fin 3) R (⟨c.val - 16384, by omega⟩ : Fin 32768))) (X (ix3 (0 : Fin 3) R c))
      else X (ix3 (0 : Fin 3) R c) := rfl

section Payloads
variable [FloatOps F]

/-- A cast to the flat lane shape and back reads the same lane. -/
theorem lane_roundtrip (v : Vec F S1x16 .f32) (x : S1x16.Idx) :
    v (Shape.reshapeEquiv shapeCasts_S1x16_S16 (Shape.reshapeEquiv shapeCasts_S16_S1x16 x)) = v x := by
  rw [Shape.reshapeEquiv_reshapeEquiv, Shape.reshapeEquiv_self]

/-- The eight stored vectors — left and right value of each of the four rows — are the two scalar functions lane by
    lane, whatever way their operations were grouped. -/
theorem payA0 (a b : Vec F S1x16 .f32) (x : S1x16.Idx) : k0_pay3 a b x = mixL (a x) (b x) := by
  unfold k0_pay3 k0_pay1 k0_pay2 mixL
  simp only [shapeCast, addf, subf, remf, cmpf, select, xori, andi, broadcast, broadcastTo, lane_roundtrip]
theorem payB0 (a b : Vec F S1x16 .f32) (x : S1x16.Idx) :
    k0_pay7 (Scalar.ofBits (F := F) .f32 0x44800000#32) (k0_pay4 a b) (k0_pay5 a b) (k0_pay6 a b) (Scalar.ofBits (F := F) .f32 0x00000000#32) x = mixR (a x) (b x) := by
  unfold k0_pay7 k0_pay6 k0_pay5 k0_pay4 k0_pay1 k0_pay2 mixR
  simp only [shapeCast, addf, subf, remf, cmpf, select, xori, andi, broadcast, broadcastTo, lane_roundtrip]
theorem payA1 (a b : Vec F S1x16 .f32) (x : S1x16.Idx) : k0_pay10 a b x = mixL (a x) (b x) := by
  unfold k0_pay10 k0_pay8 k0_pay9 mixL
  simp only [shapeCast, addf, subf, remf, cmpf, select, xori, andi, broadcast, broadcastTo, lane_roundtrip]
theorem payB1 (a b : Vec F S1x16 .f32) (x : S1x16.Idx) : k0_pay12 (k0_pay9 b) (k0_pay11 a) x = mixR (a x) (b x) := by
  unfold k0_pay12 k0_pay11 k0_pay9 k0_pay8 mixR
  simp only [shapeCast, addf, subf, remf, cmpf, select, xori, andi, broadcast, broadcastTo, lane_roundtrip]
theorem payA2 (a b : Vec F S1x16 .f32) (x : S1x16.Idx) : k0_pay17 (k0_pay15 a b) k0_pay16 x = mixL (a x) (b x) := by
  unfold k0_pay17 k0_pay16 k0_pay15 k0_pay13 k0_pay14 mixL
  simp only [shapeCast, addf, subf, remf, cmpf, select, xori, andi, broadcast, broadcastTo, lane_roundtrip]
theorem payB2 (a b : Vec F S1x16 .f32) (x : S1x16.Idx) : k0_pay18 (k0_pay13 a) (k0_pay14 b) x = mixR (a x) (b x) := by
  unfold k0_pay18 k0_pay13 k0_pay14 mixR
  simp only [shapeCast, addf, subf, remf, cmpf, select, xori, andi, broadcast, broadcastTo, lane_roundtrip]
theorem payA3 (a b : Vec F S1x16 .f32) (x : S1x16.Idx) :
    k0_pay24 (Scalar.ofBits (F := F) .f32 0x44800000#32) (k0_pay21 a b) (k0_pay22 a b) (k0_pay23 a b) x = mixL (a x) (b x) := by
  unfold k0_pay24 k0_pay23 k0_pay22 k0_pay21 k0_pay19 k0_pay20 mixL
  simp only [shapeCast, addf, subf, remf, cmpf, select, xori, andi, broadcast, broadcastTo, lane_roundtrip]
theorem payB3 (a b : Vec F S1x16 .f32) (x : S1x16.Idx) : k0_pay25 (k0_pay19 a) (k0_pay20 b) x = mixR (a x) (b x) := by
  unfold k0_pay25 k0_pay19 k0_pay20 mixR
  simp only [shapeCast, addf, subf, remf, cmpf, select, xori, andi, broadcast, broadcastTo, lane_roundtrip]

end Payloads

section Emb
variable (L : grid0.Coords)

theorem rowK_lt (r : ℕ) (hr : r < 4) : row0 (L 0).val (L 1).val + r < 128 := by
  have := L0_lt L; have := L1_lt L; unfold row0; omega

/-- Where the elements of each row and slab memref sit in the arrays. -/
theorem yRow0_emb (j : S1x32768.Idx) : (yRow0 L).view.emb j = ix2 (⟨row0 (L 0).val (L 1).val + 0, rowK_lt L 0 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 0#32) 0 + 1 * (j 0).val = row0 (L 0).val (L 1).val + 0
    rw [show k0_off4 L 0#32 = ![8 * (L 1).val + 4 * (L 0).val + 0, 0] from k0_off4_eq L 0]
    show 8 * (L 1).val + 4 * (L 0).val + 0 + 1 * (j 0).val = row0 (L 0).val (L 1).val + 0
    unfold row0; omega
  | ⟨1, _⟩ =>
    show (k0_off4 L 0#32) 1 + 1 * (j 1).val = (j 1).val
    rw [show k0_off4 L 0#32 = ![8 * (L 1).val + 4 * (L 0).val + 0, 0] from k0_off4_eq L 0]
    show 0 + 1 * (j 1).val = (j 1).val
    omega
theorem yRow1_emb (j : S1x32768.Idx) : (yRow1 L).view.emb j = ix2 (⟨row0 (L 0).val (L 1).val + 1, rowK_lt L 1 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 1#32) 0 + 1 * (j 0).val = row0 (L 0).val (L 1).val + 1
    rw [show k0_off4 L 1#32 = ![8 * (L 1).val + 4 * (L 0).val + 1, 0] from k0_off4_eq L 1]
    show 8 * (L 1).val + 4 * (L 0).val + 1 + 1 * (j 0).val = row0 (L 0).val (L 1).val + 1
    unfold row0; omega
  | ⟨1, _⟩ =>
    show (k0_off4 L 1#32) 1 + 1 * (j 1).val = (j 1).val
    rw [show k0_off4 L 1#32 = ![8 * (L 1).val + 4 * (L 0).val + 1, 0] from k0_off4_eq L 1]
    show 0 + 1 * (j 1).val = (j 1).val
    omega
theorem yRow2_emb (j : S1x32768.Idx) : (yRow2 L).view.emb j = ix2 (⟨row0 (L 0).val (L 1).val + 2, rowK_lt L 2 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 2#32) 0 + 1 * (j 0).val = row0 (L 0).val (L 1).val + 2
    rw [show k0_off4 L 2#32 = ![8 * (L 1).val + 4 * (L 0).val + 2, 0] from k0_off4_eq L 2]
    show 8 * (L 1).val + 4 * (L 0).val + 2 + 1 * (j 0).val = row0 (L 0).val (L 1).val + 2
    unfold row0; omega
  | ⟨1, _⟩ =>
    show (k0_off4 L 2#32) 1 + 1 * (j 1).val = (j 1).val
    rw [show k0_off4 L 2#32 = ![8 * (L 1).val + 4 * (L 0).val + 2, 0] from k0_off4_eq L 2]
    show 0 + 1 * (j 1).val = (j 1).val
    omega
theorem yRow3_emb (j : S1x32768.Idx) : (yRow3 L).view.emb j = ix2 (⟨row0 (L 0).val (L 1).val + 3, rowK_lt L 3 (by omega)⟩ : Fin 128) (j 1) := by
  funext a
  apply Fin.ext
  simp only [Memref.view_slice, Memref.view_whole, View.emb_slice, View.emb_whole, Function.Embedding.trans_apply, Function.Embedding.refl_apply, Rect.emb_apply]
  have h0 : (j 0).val < 1 := (j 0).isLt
  match a with
  | ⟨0, _⟩ =>
    show (k0_off4 L 3#32) 0 + 1 * (j 0).val = row0 (L 0).val (L 1).val + 3
    rw [show k0_off4 L 3#32 = ![8 * (L 1).val + 4 * (L 0).val + 3, 0] from k0_off4_eq L 3]
    show 8 * (L 1).val + 4 * (L 0).val + 3 + 1 * (j 0).val = row0 (L 0).val (L 1).val + 3
    unfold row0; omega
  | ⟨1, _⟩ =>
    show (k0_off4 L 3#32) 1 + 1 * (j 1).val = (j 1).val
    rw [show k0_off4 L 3#32 = ![8 * (L 1).val + 4 * (L 0).val + 3, 0] from k0_off4_eq L 3]
    show 0 + 1 * (j 1).val = (j 1).val
    omega
theorem xRow0_emb (j : S1x32768.Idx) : (xRow0 L).view.emb j = ix3 (0 : Fin 3) (⟨row0 (L 0).val (L 1).val + 0, rowK_lt L 0 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 0#32) 0 + 1 * 0 = 0
    rw [show k0_off1 L 0#32 = ![0, 8 * (L 1).val + 4 * (L 0).val + 0, 0] from k0_off1_eq L 0]; rfl
  | ⟨1, _⟩ =>
    show (k0_off1 L 0#32) 1 + 1 * 0 = row0 (L 0).val (L 1).val + 0
    rw [show k0_off1 L 0#32 = ![0, 8 * (L 1).val + 4 * (L 0).val + 0, 0] from k0_off1_eq L 0]
    show 8 * (L 1).val + 4 * (L 0).val + 0 + 1 * 0 = row0 (L 0).val (L 1).val + 0
    unfold row0; omega
  | ⟨2, _⟩ =>
    show (k0_off1 L 0#32) 2 + 1 * (j 1).val = (j 1).val
    rw [show k0_off1 L 0#32 = ![0, 8 * (L 1).val + 4 * (L 0).val + 0, 0] from k0_off1_eq L 0]
    show 0 + 1 * (j 1).val = (j 1).val
    omega
theorem xRow1_emb (j : S1x32768.Idx) : (xRow1 L).view.emb j = ix3 (0 : Fin 3) (⟨row0 (L 0).val (L 1).val + 1, rowK_lt L 1 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 1#32) 0 + 1 * 0 = 0
    rw [show k0_off1 L 1#32 = ![0, 8 * (L 1).val + 4 * (L 0).val + 1, 0] from k0_off1_eq L 1]; rfl
  | ⟨1, _⟩ =>
    show (k0_off1 L 1#32) 1 + 1 * 0 = row0 (L 0).val (L 1).val + 1
    rw [show k0_off1 L 1#32 = ![0, 8 * (L 1).val + 4 * (L 0).val + 1, 0] from k0_off1_eq L 1]
    show 8 * (L 1).val + 4 * (L 0).val + 1 + 1 * 0 = row0 (L 0).val (L 1).val + 1
    unfold row0; omega
  | ⟨2, _⟩ =>
    show (k0_off1 L 1#32) 2 + 1 * (j 1).val = (j 1).val
    rw [show k0_off1 L 1#32 = ![0, 8 * (L 1).val + 4 * (L 0).val + 1, 0] from k0_off1_eq L 1]
    show 0 + 1 * (j 1).val = (j 1).val
    omega
theorem xRow2_emb (j : S1x32768.Idx) : (xRow2 L).view.emb j = ix3 (0 : Fin 3) (⟨row0 (L 0).val (L 1).val + 2, rowK_lt L 2 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 2#32) 0 + 1 * 0 = 0
    rw [show k0_off1 L 2#32 = ![0, 8 * (L 1).val + 4 * (L 0).val + 2, 0] from k0_off1_eq L 2]; rfl
  | ⟨1, _⟩ =>
    show (k0_off1 L 2#32) 1 + 1 * 0 = row0 (L 0).val (L 1).val + 2
    rw [show k0_off1 L 2#32 = ![0, 8 * (L 1).val + 4 * (L 0).val + 2, 0] from k0_off1_eq L 2]
    show 8 * (L 1).val + 4 * (L 0).val + 2 + 1 * 0 = row0 (L 0).val (L 1).val + 2
    unfold row0; omega
  | ⟨2, _⟩ =>
    show (k0_off1 L 2#32) 2 + 1 * (j 1).val = (j 1).val
    rw [show k0_off1 L 2#32 = ![0, 8 * (L 1).val + 4 * (L 0).val + 2, 0] from k0_off1_eq L 2]
    show 0 + 1 * (j 1).val = (j 1).val
    omega
theorem xRow3_emb (j : S1x32768.Idx) : (xRow3 L).view.emb j = ix3 (0 : Fin 3) (⟨row0 (L 0).val (L 1).val + 3, rowK_lt L 3 (by omega)⟩ : Fin 128) (j 1) := by
  have h0 : (j 0).val < 1 := (j 0).isLt
  have e : Shape.reshapeEquiv (s := S1x1x32768) (s' := S1x32768) squeezes_S1x1x32768_S1x32768.numel_eq j
      = (ix3 (0 : Fin 1) (0 : Fin 1) (j 1 : Fin 32768) : S1x1x32768.Idx) := by
    apply Shape.reshapeEquiv_eq_of_rowMajor
    have h1 := Shape.rowMajor_val_three (d := ![1, 1, 32768]) (ix3 (0 : Fin 1) (0 : Fin 1) (j 1 : Fin 32768))
    have h2 := Shape.rowMajor_val_two (d := ![1, 32768]) j
    refine h1.trans (Eq.trans ?_ h2.symm)
    show ((0 : ℕ) * 1 + 0) * 32768 + (j 1).val = (j 0).val * 32768 + (j 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off1 L 3#32) 0 + 1 * 0 = 0
    rw [show k0_off1 L 3#32 = ![0, 8 * (L 1).val + 4 * (L 0).val + 3, 0] from k0_off1_eq L 3]; rfl
  | ⟨1, _⟩ =>
    show (k0_off1 L 3#32) 1 + 1 * 0 = row0 (L 0).val (L 1).val + 3
    rw [show k0_off1 L 3#32 = ![0, 8 * (L 1).val + 4 * (L 0).val + 3, 0] from k0_off1_eq L 3]
    show 8 * (L 1).val + 4 * (L 0).val + 3 + 1 * 0 = row0 (L 0).val (L 1).val + 3
    unfold row0; omega
  | ⟨2, _⟩ =>
    show (k0_off1 L 3#32) 2 + 1 * (j 1).val = (j 1).val
    rw [show k0_off1 L 3#32 = ![0, 8 * (L 1).val + 4 * (L 0).val + 3, 0] from k0_off1_eq L 3]
    show 0 + 1 * (j 1).val = (j 1).val
    omega
theorem xSlabA_emb (y : S4x128.Idx) : (xSlabA L).view.emb y
    = ix3 (0 : Fin 3) (⟨row0 (L 0).val (L 1).val + (y 0).val, rowK_lt L _ (y 0).isLt⟩ : Fin 128) (⟨(y 1).val, by have h : (y 1).val < 128 := (y 1).isLt; omega⟩ : Fin 32768) := by
  have e : Shape.reshapeEquiv (s := S1x4x128) (s' := S4x128) squeezes_S1x4x128_S4x128.numel_eq y
      = (ix3 (0 : Fin 1) (y 0 : Fin 4) (y 1 : Fin 128) : S1x4x128.Idx) := by
    apply Shape.reshapeEquiv_eq_of_rowMajor
    have h1 := Shape.rowMajor_val_three (d := ![1, 4, 128]) (ix3 (0 : Fin 1) (y 0 : Fin 4) (y 1 : Fin 128))
    have h2 := Shape.rowMajor_val_two (d := ![4, 128]) y
    refine h1.trans (Eq.trans ?_ h2.symm)
    show ((0 : ℕ) * 4 + (y 0).val) * 128 + (y 1).val = (y 0).val * 128 + (y 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off2 L) 0 + 1 * 0 = 0
    rw [show k0_off2 L = ![0, 8 * (L 1).val + 4 * (L 0).val, 0] from k0_off2_eq L]; rfl
  | ⟨1, _⟩ =>
    show (k0_off2 L) 1 + 1 * (y 0).val = row0 (L 0).val (L 1).val + (y 0).val
    rw [show k0_off2 L = ![0, 8 * (L 1).val + 4 * (L 0).val, 0] from k0_off2_eq L]
    show 8 * (L 1).val + 4 * (L 0).val + 1 * (y 0).val = row0 (L 0).val (L 1).val + (y 0).val
    unfold row0; omega
  | ⟨2, _⟩ =>
    show (k0_off2 L) 2 + 1 * (y 1).val = (y 1).val
    rw [show k0_off2 L = ![0, 8 * (L 1).val + 4 * (L 0).val, 0] from k0_off2_eq L]
    show 0 + 1 * (y 1).val = (y 1).val
    omega
theorem xSlabB_emb (y : S4x128.Idx) : (xSlabB L).view.emb y
    = ix3 (0 : Fin 3) (⟨row0 (L 0).val (L 1).val + (y 0).val, rowK_lt L _ (y 0).isLt⟩ : Fin 128) (⟨(y 1).val + 16384, by have h : (y 1).val < 128 := (y 1).isLt; omega⟩ : Fin 32768) := by
  have e : Shape.reshapeEquiv (s := S1x4x128) (s' := S4x128) squeezes_S1x4x128_S4x128.numel_eq y
      = (ix3 (0 : Fin 1) (y 0 : Fin 4) (y 1 : Fin 128) : S1x4x128.Idx) := by
    apply Shape.reshapeEquiv_eq_of_rowMajor
    have h1 := Shape.rowMajor_val_three (d := ![1, 4, 128]) (ix3 (0 : Fin 1) (y 0 : Fin 4) (y 1 : Fin 128))
    have h2 := Shape.rowMajor_val_two (d := ![4, 128]) y
    refine h1.trans (Eq.trans ?_ h2.symm)
    show ((0 : ℕ) * 4 + (y 0).val) * 128 + (y 1).val = (y 0).val * 128 + (y 1).val
    omega
  funext a
  apply Fin.ext
  simp only [Memref.view_squeeze, Memref.view_slice, Memref.view_whole, View.emb_reshape, View.emb_slice, View.emb_whole, Function.Embedding.trans_apply,
    Function.Embedding.refl_apply, Equiv.coe_toEmbedding, Rect.emb_apply, e]
  match a with
  | ⟨0, _⟩ =>
    show (k0_off3 L) 0 + 1 * 0 = 0
    rw [show k0_off3 L = ![0, 8 * (L 1).val + 4 * (L 0).val, 16384] from k0_off3_eq L]; rfl
  | ⟨1, _⟩ =>
    show (k0_off3 L) 1 + 1 * (y 0).val = row0 (L 0).val (L 1).val + (y 0).val
    rw [show k0_off3 L = ![0, 8 * (L 1).val + 4 * (L 0).val, 16384] from k0_off3_eq L]
    show 8 * (L 1).val + 4 * (L 0).val + 1 * (y 0).val = row0 (L 0).val (L 1).val + (y 0).val
    unfold row0; omega
  | ⟨2, _⟩ =>
    show (k0_off3 L) 2 + 1 * (y 1).val = (y 1).val + 16384
    rw [show k0_off3 L = ![0, 8 * (L 1).val + 4 * (L 0).val, 16384] from k0_off3_eq L]
    show 16384 + 1 * (y 1).val = (y 1).val + 16384
    omega

end Emb

section Reads
variable [FloatOps F]

/-- A staged row read back: columns 0..15 and 16384..16399 are the two vectors stored over it, every other column
    is the copied row. -/
theorem staged_read {κ : Kind} {sp : Space} (w : View sig κ sp S1x32768 .f32) (f : w.ty.Contents (Elt F)) (D : S1x32768.Idx → Elt F .f32)
    (pA : (Rect.unit (s := S1x32768) ![0, 0] S1x16.size inb_S1x32768_S1x16_0_0).shape.Idx → Elt F .f32) (pB : (Rect.unit (s := S1x32768) ![0, 16384] S1x16.size inb_S1x32768_S1x16_0_16384).shape.Idx → Elt F .f32) (j : S1x32768.Idx) :
    w.read (Elt F) (w.writes (Elt F) (w.write (Elt F) f D Finset.univ) [⟨(Rect.unit (s := S1x32768) ![0, 16384] S1x16.size inb_S1x32768_S1x16_0_16384), pB⟩, ⟨(Rect.unit (s := S1x32768) ![0, 0] S1x16.size inb_S1x32768_S1x16_0_0), pA⟩]) j
      = if h : (j 1).val < 16 then pA (ix2 (0 : Fin 1) (⟨(j 1).val, h⟩ : Fin 16))
        else if h' : 16384 ≤ (j 1).val ∧ (j 1).val < 16400 then pB (ix2 (0 : Fin 1) (⟨(j 1).val - 16384, by omega⟩ : Fin 16))
        else D j := by
  have hj0 : (j 0).val < 1 := (j 0).isLt
  by_cases h : (j 1).val < 16
  · rw [dif_pos h]
    have e : j = (Rect.unit (s := S1x32768) ![0, 0] S1x16.size inb_S1x32768_S1x16_0_0).emb (ix2 (0 : Fin 1) (⟨(j 1).val, h⟩ : Fin 16)) := by
      funext a; apply Fin.ext
      match a with
      | ⟨0, _⟩ => show (j 0).val = 0 + 1 * 0; omega
      | ⟨1, _⟩ => show (j 1).val = 0 + 1 * (j 1).val; omega
    have hnot : ∀ p ∈ ([⟨(Rect.unit (s := S1x32768) ![0, 16384] S1x16.size inb_S1x32768_S1x16_0_16384), pB⟩] : List (View.Piece (Elt F) S1x32768 .f32)), j ∉ p.1.set := by
      intro p hp; rw [List.mem_singleton] at hp; subst hp
      intro hh; rw [mem_unit2] at hh
      have h1 : 16384 ≤ (j 1).val := hh.2.1
      omega
    rw [show ([⟨(Rect.unit (s := S1x32768) ![0, 16384] S1x16.size inb_S1x32768_S1x16_0_16384), pB⟩, ⟨(Rect.unit (s := S1x32768) ![0, 0] S1x16.size inb_S1x32768_S1x16_0_0), pA⟩] : List (View.Piece (Elt F) S1x32768 .f32)) = [⟨(Rect.unit (s := S1x32768) ![0, 16384] S1x16.size inb_S1x32768_S1x16_0_16384), pB⟩] ++ [⟨(Rect.unit (s := S1x32768) ![0, 0] S1x16.size inb_S1x32768_S1x16_0_0), pA⟩] from rfl,
      View.writes_append, View.read_writes_apply_of_forall_not_mem _ _ _ _ hnot]
    conv_lhs => rw [e]
    exact View.read_writes_cons_emb w _ _ pA [] _
  · rw [dif_neg h]
    by_cases h' : 16384 ≤ (j 1).val ∧ (j 1).val < 16400
    · rw [dif_pos h']
      have e : j = (Rect.unit (s := S1x32768) ![0, 16384] S1x16.size inb_S1x32768_S1x16_0_16384).emb (ix2 (0 : Fin 1) (⟨(j 1).val - 16384, by omega⟩ : Fin 16)) := by
        funext a; apply Fin.ext
        match a with
        | ⟨0, _⟩ => show (j 0).val = 0 + 1 * 0; omega
        | ⟨1, _⟩ => show (j 1).val = 16384 + 1 * ((j 1).val - 16384); omega
      conv_lhs => rw [e]
      exact View.read_writes_cons_emb w _ _ pB _ _
    · rw [dif_neg h']
      have hnot : ∀ p ∈ ([⟨(Rect.unit (s := S1x32768) ![0, 16384] S1x16.size inb_S1x32768_S1x16_0_16384), pB⟩, ⟨(Rect.unit (s := S1x32768) ![0, 0] S1x16.size inb_S1x32768_S1x16_0_0), pA⟩] : List (View.Piece (Elt F) S1x32768 .f32)), j ∉ p.1.set := by
        intro p hp
        simp only [List.mem_cons, List.not_mem_nil, or_false] at hp
        rcases hp with rfl | rfl
        · intro hh; rw [mem_unit2] at hh
          have h1 : 16384 ≤ (j 1).val := hh.2.1
          have h2 : (j 1).val < 16384 + 16 := hh.2.2
          omega
        · intro hh; rw [mem_unit2] at hh
          have h2 : (j 1).val < 0 + 16 := hh.2.2
          omega
      rw [View.read_writes_apply_of_forall_not_mem _ _ _ _ hnot, View.read_write_univ]

/-- Row `r` of a slab scratch, read after the four rows' stores, is what was stored in row `r`. -/
theorem rowK_emb (k : ℕ) (hk : k < 4) (inb) (x : (Rect.unit (s := S4x128) ![k, 0] S1x16.size inb).shape.Idx) :
    (Rect.unit (s := S4x128) ![k, 0] S1x16.size inb).emb x = ix2 (⟨k, hk⟩ : Fin 4) (⟨(x 1).val, by have h : (x 1).val < 16 := (x 1).isLt; omega⟩ : Fin 128) := by
  have h0 : (x 0).val < 1 := (x 0).isLt
  funext a; apply Fin.ext
  match a with
  | ⟨0, _⟩ => show k + 1 * (x 0).val = k; omega
  | ⟨1, _⟩ => show 0 + 1 * (x 1).val = (x 1).val; omega

theorem readCov_hit {κ : Kind} {sp : Space} {s : Shape} (v : View sig κ sp s .f32) (L1 : List (View.Piece (Elt F) s .f32)) (R : Rect s)
    (w : R.shape.Idx → Elt F .f32) (L2 : List (View.Piece (Elt F) s .f32)) (h : ∀ p ∈ L1, ∀ x : R.shape.Idx, R.emb x ∉ p.1.set) :
    v.readCov (L1 ++ ⟨R, w⟩ :: L2) R.toLoadRect = w := by
  funext x
  show v.read (Elt F) (v.writes (Elt F) v.junk (L1 ++ ⟨R, w⟩ :: L2)) (R.emb x) = w x
  rw [View.writes_append, View.read_writes_apply_of_forall_not_mem _ _ _ L1 (fun p hp => h p hp x)]
  exact View.read_writes_cons_emb v _ R w L2 x

theorem rows_apart (k k' : ℕ) (hne : k ≠ k') (inb inb') (x : (Rect.unit (s := S4x128) ![k, 0] S1x16.size inb).shape.Idx) :
    (Rect.unit (s := S4x128) ![k, 0] S1x16.size inb).emb x ∉ (Rect.unit (s := S4x128) ![k', 0] S1x16.size inb').set := by
  have h0 : (x 0).val < 1 := (x 0).isLt
  intro hh; rw [mem_unit2] at hh
  have h1 : k' ≤ k + 1 * (x 0).val := hh.1.1
  have h2 : k + 1 * (x 0).val < k' + 1 := hh.1.2
  omega

/-- A load of a rectangle of a buffer a copy has just filled reads the copied data there. -/
theorem load_filled {κ : Kind} {sp : Space} {s : Shape} (v : View sig κ sp s .f32) (f : v.ty.Contents (Elt F)) (D : s.Idx → Elt F .f32) (R : Rect s) :
    v.readAt (Elt F) R.toLoadRect (v.write (Elt F) f D Finset.univ) = fun x => D (R.emb x) := by
  funext x
  show v.read (Elt F) (v.write (Elt F) f D Finset.univ) (R.emb x) = _
  rw [View.read_write_univ]

/-- A buffer written whole reads back what was written. -/
theorem whole_written {κ : Kind} {sp : Space} {s : Shape} (v : View sig κ sp s .f32) (g : v.ty.Contents (Elt F)) (P : s.Idx → Elt F .f32) (j : s.Idx) :
    v.read (Elt F) (v.writes (Elt F) g [⟨Rect.whole s, P⟩]) j = P j := by
  have h := View.read_writes_cons_emb v g (Rect.whole s) P [] j
  rw [Rect.emb_whole_apply] at h
  exact h

end Reads

section Rows
variable (m : (ℓ : Loc nD τ sig) → Buf (Elt F) ℓ) [FloatOps F] (d : Dev nD) (L : grid0.Coords)

/-- What the two slab scratches hold once their copies have landed: the two 4 × 128 slabs of the subcore's rows. -/
def slabA : S4x128.Idx → Elt F .f32 := View.read (Elt F) (xSlabA L).view (m (xLoc d))
def slabB : S4x128.Idx → Elt F .f32 := View.read (Elt F) (xSlabB L).view (m (xLoc d))

/-- The four stores into each slab scratch, the last first: row `k` receives the left (resp. right) value of row `k`,
    computed from the first sixteen lanes of the two slabs' row `k`. -/
def HA (fa : Buf (Elt F) ((thrOf d L).loc cc0_scratch0)) (fb : Buf (Elt F) ((thrOf d L).loc cc0_scratch1)) : List (View.Piece (Elt F) S4x128 .f32) :=
  [⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩,
   ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩,
   ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩,
   ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩]
def HB (fa : Buf (Elt F) ((thrOf d L).loc cc0_scratch0)) (fb : Buf (Elt F) ((thrOf d L).loc cc0_scratch1)) : List (View.Piece (Elt F) S4x128 .f32) :=
  [⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩,
   ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩,
   ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩,
   ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩]

theorem covA0 (fa : Buf (Elt F) ((thrOf d L).loc cc0_scratch0)) (fb : Buf (Elt F) ((thrOf d L).loc cc0_scratch1)) :
    sA.view.readCov (HA m d L fa fb) (Rect.unit (s := S4x128) ![0, 0] S1x16.size inb_S4x128_S1x16_0_0).toLoadRect
      = fun x => mixL (m (xLoc d) (ix3 (0 : Fin 3) (⟨row0 (L 0).val (L 1).val + 0, rowK_lt L 0 (by omega)⟩ : Fin 128) (⟨(x 1).val, by have h : (x 1).val < 16 := (x 1).isLt; omega⟩ : Fin 32768)))
          (m (xLoc d) (ix3 (0 : Fin 3) (⟨row0 (L 0).val (L 1).val + 0, rowK_lt L 0 (by omega)⟩ : Fin 128) (⟨(x 1).val + 16384, by have h : (x 1).val < 16 := (x 1).isLt; omega⟩ : Fin 32768))) := by
  have hsplit : HA m d L fa fb = ([⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩, ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩] : List (View.Piece (Elt F) S4x128 .f32)) ++ ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩ :: [] := rfl
  rw [hsplit, readCov_hit (F := F) sA.view _ _ _ _ (by
    intro p hp x
    simp only [List.mem_cons, List.not_mem_nil, or_false] at hp
    rcases hp with rfl | rfl | rfl
    · exact rows_apart 0 3 (by omega) inb_S4x128_S1x16_0_0 inb_S4x128_S1x16_3_0 x
    · exact rows_apart 0 2 (by omega) inb_S4x128_S1x16_0_0 inb_S4x128_S1x16_2_0 x
    · exact rows_apart 0 1 (by omega) inb_S4x128_S1x16_0_0 inb_S4x128_S1x16_1_0 x)]
  funext x
  rw [payA0, load_filled, load_filled]
  show mixL (m (xLoc d) ((xSlabA L).view.emb ((Rect.unit (s := S4x128) ![0, 0] S1x16.size inb_S4x128_S1x16_0_0).emb x))) (m (xLoc d) ((xSlabB L).view.emb ((Rect.unit (s := S4x128) ![0, 0] S1x16.size inb_S4x128_S1x16_0_0).emb x))) = _
  rw [rowK_emb 0 (by omega), xSlabA_emb, xSlabB_emb]
theorem covB0 (fa : Buf (Elt F) ((thrOf d L).loc cc0_scratch0)) (fb : Buf (Elt F) ((thrOf d L).loc cc0_scratch1)) :
    sB.view.readCov (HB m d L fa fb) (Rect.unit (s := S4x128) ![0, 0] S1x16.size inb_S4x128_S1x16_0_0).toLoadRect
      = fun x => mixR (m (xLoc d) (ix3 (0 : Fin 3) (⟨row0 (L 0).val (L 1).val + 0, rowK_lt L 0 (by omega)⟩ : Fin 128) (⟨(x 1).val, by have h : (x 1).val < 16 := (x 1).isLt; omega⟩ : Fin 32768)))
          (m (xLoc d) (ix3 (0 : Fin 3) (⟨row0 (L 0).val (L 1).val + 0, rowK_lt L 0 (by omega)⟩ : Fin 128) (⟨(x 1).val + 16384, by have h : (x 1).val < 16 := (x 1).isLt; omega⟩ : Fin 32768))) := by
  have hsplit : HB m d L fa fb = ([⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩, ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩] : List (View.Piece (Elt F) S4x128 .f32)) ++ ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩ :: [] := rfl
  rw [hsplit, readCov_hit (F := F) sB.view _ _ _ _ (by
    intro p hp x
    simp only [List.mem_cons, List.not_mem_nil, or_false] at hp
    rcases hp with rfl | rfl | rfl
    · exact rows_apart 0 3 (by omega) inb_S4x128_S1x16_0_0 inb_S4x128_S1x16_3_0 x
    · exact rows_apart 0 2 (by omega) inb_S4x128_S1x16_0_0 inb_S4x128_S1x16_2_0 x
    · exact rows_apart 0 1 (by omega) inb_S4x128_S1x16_0_0 inb_S4x128_S1x16_1_0 x)]
  funext x
  rw [payB0, load_filled, load_filled]
  show mixR (m (xLoc d) ((xSlabA L).view.emb ((Rect.unit (s := S4x128) ![0, 0] S1x16.size inb_S4x128_S1x16_0_0).emb x))) (m (xLoc d) ((xSlabB L).view.emb ((Rect.unit (s := S4x128) ![0, 0] S1x16.size inb_S4x128_S1x16_0_0).emb x))) = _
  rw [rowK_emb 0 (by omega), xSlabA_emb, xSlabB_emb]
theorem covA1 (fa : Buf (Elt F) ((thrOf d L).loc cc0_scratch0)) (fb : Buf (Elt F) ((thrOf d L).loc cc0_scratch1)) :
    sA.view.readCov (HA m d L fa fb) (Rect.unit (s := S4x128) ![1, 0] S1x16.size inb_S4x128_S1x16_1_0).toLoadRect
      = fun x => mixL (m (xLoc d) (ix3 (0 : Fin 3) (⟨row0 (L 0).val (L 1).val + 1, rowK_lt L 1 (by omega)⟩ : Fin 128) (⟨(x 1).val, by have h : (x 1).val < 16 := (x 1).isLt; omega⟩ : Fin 32768)))
          (m (xLoc d) (ix3 (0 : Fin 3) (⟨row0 (L 0).val (L 1).val + 1, rowK_lt L 1 (by omega)⟩ : Fin 128) (⟨(x 1).val + 16384, by have h : (x 1).val < 16 := (x 1).isLt; omega⟩ : Fin 32768))) := by
  have hsplit : HA m d L fa fb = ([⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩] : List (View.Piece (Elt F) S4x128 .f32)) ++ ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩ :: [⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩] := rfl
  rw [hsplit, readCov_hit (F := F) sA.view _ _ _ _ (by
    intro p hp x
    simp only [List.mem_cons, List.not_mem_nil, or_false] at hp
    rcases hp with rfl | rfl
    · exact rows_apart 1 3 (by omega) inb_S4x128_S1x16_1_0 inb_S4x128_S1x16_3_0 x
    · exact rows_apart 1 2 (by omega) inb_S4x128_S1x16_1_0 inb_S4x128_S1x16_2_0 x)]
  funext x
  rw [payA1, load_filled, load_filled]
  show mixL (m (xLoc d) ((xSlabA L).view.emb ((Rect.unit (s := S4x128) ![1, 0] S1x16.size inb_S4x128_S1x16_1_0).emb x))) (m (xLoc d) ((xSlabB L).view.emb ((Rect.unit (s := S4x128) ![1, 0] S1x16.size inb_S4x128_S1x16_1_0).emb x))) = _
  rw [rowK_emb 1 (by omega), xSlabA_emb, xSlabB_emb]
theorem covB1 (fa : Buf (Elt F) ((thrOf d L).loc cc0_scratch0)) (fb : Buf (Elt F) ((thrOf d L).loc cc0_scratch1)) :
    sB.view.readCov (HB m d L fa fb) (Rect.unit (s := S4x128) ![1, 0] S1x16.size inb_S4x128_S1x16_1_0).toLoadRect
      = fun x => mixR (m (xLoc d) (ix3 (0 : Fin 3) (⟨row0 (L 0).val (L 1).val + 1, rowK_lt L 1 (by omega)⟩ : Fin 128) (⟨(x 1).val, by have h : (x 1).val < 16 := (x 1).isLt; omega⟩ : Fin 32768)))
          (m (xLoc d) (ix3 (0 : Fin 3) (⟨row0 (L 0).val (L 1).val + 1, rowK_lt L 1 (by omega)⟩ : Fin 128) (⟨(x 1).val + 16384, by have h : (x 1).val < 16 := (x 1).isLt; omega⟩ : Fin 32768))) := by
  have hsplit : HB m d L fa fb = ([⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩, ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩] : List (View.Piece (Elt F) S4x128 .f32)) ++ ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩ :: [⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩] := rfl
  rw [hsplit, readCov_hit (F := F) sB.view _ _ _ _ (by
    intro p hp x
    simp only [List.mem_cons, List.not_mem_nil, or_false] at hp
    rcases hp with rfl | rfl
    · exact rows_apart 1 3 (by omega) inb_S4x128_S1x16_1_0 inb_S4x128_S1x16_3_0 x
    · exact rows_apart 1 2 (by omega) inb_S4x128_S1x16_1_0 inb_S4x128_S1x16_2_0 x)]
  funext x
  rw [payB1, load_filled, load_filled]
  show mixR (m (xLoc d) ((xSlabA L).view.emb ((Rect.unit (s := S4x128) ![1, 0] S1x16.size inb_S4x128_S1x16_1_0).emb x))) (m (xLoc d) ((xSlabB L).view.emb ((Rect.unit (s := S4x128) ![1, 0] S1x16.size inb_S4x128_S1x16_1_0).emb x))) = _
  rw [rowK_emb 1 (by omega), xSlabA_emb, xSlabB_emb]
theorem covA2 (fa : Buf (Elt F) ((thrOf d L).loc cc0_scratch0)) (fb : Buf (Elt F) ((thrOf d L).loc cc0_scratch1)) :
    sA.view.readCov (HA m d L fa fb) (Rect.unit (s := S4x128) ![2, 0] S1x16.size inb_S4x128_S1x16_2_0).toLoadRect
      = fun x => mixL (m (xLoc d) (ix3 (0 : Fin 3) (⟨row0 (L 0).val (L 1).val + 2, rowK_lt L 2 (by omega)⟩ : Fin 128) (⟨(x 1).val, by have h : (x 1).val < 16 := (x 1).isLt; omega⟩ : Fin 32768)))
          (m (xLoc d) (ix3 (0 : Fin 3) (⟨row0 (L 0).val (L 1).val + 2, rowK_lt L 2 (by omega)⟩ : Fin 128) (⟨(x 1).val + 16384, by have h : (x 1).val < 16 := (x 1).isLt; omega⟩ : Fin 32768))) := by
  have hsplit : HA m d L fa fb = ([⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩] : List (View.Piece (Elt F) S4x128 .f32)) ++ ⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩ :: [⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩, ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩] := rfl
  rw [hsplit, readCov_hit (F := F) sA.view _ _ _ _ (by
    intro p hp x
    simp only [List.mem_cons, List.not_mem_nil, or_false] at hp
    rcases hp with rfl
    · exact rows_apart 2 3 (by omega) inb_S4x128_S1x16_2_0 inb_S4x128_S1x16_3_0 x)]
  funext x
  rw [payA2, load_filled, load_filled]
  show mixL (m (xLoc d) ((xSlabA L).view.emb ((Rect.unit (s := S4x128) ![2, 0] S1x16.size inb_S4x128_S1x16_2_0).emb x))) (m (xLoc d) ((xSlabB L).view.emb ((Rect.unit (s := S4x128) ![2, 0] S1x16.size inb_S4x128_S1x16_2_0).emb x))) = _
  rw [rowK_emb 2 (by omega), xSlabA_emb, xSlabB_emb]
theorem covB2 (fa : Buf (Elt F) ((thrOf d L).loc cc0_scratch0)) (fb : Buf (Elt F) ((thrOf d L).loc cc0_scratch1)) :
    sB.view.readCov (HB m d L fa fb) (Rect.unit (s := S4x128) ![2, 0] S1x16.size inb_S4x128_S1x16_2_0).toLoadRect
      = fun x => mixR (m (xLoc d) (ix3 (0 : Fin 3) (⟨row0 (L 0).val (L 1).val + 2, rowK_lt L 2 (by omega)⟩ : Fin 128) (⟨(x 1).val, by have h : (x 1).val < 16 := (x 1).isLt; omega⟩ : Fin 32768)))
          (m (xLoc d) (ix3 (0 : Fin 3) (⟨row0 (L 0).val (L 1).val + 2, rowK_lt L 2 (by omega)⟩ : Fin 128) (⟨(x 1).val + 16384, by have h : (x 1).val < 16 := (x 1).isLt; omega⟩ : Fin 32768))) := by
  have hsplit : HB m d L fa fb = ([⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩] : List (View.Piece (Elt F) S4x128 .f32)) ++ ⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩ :: [⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩, ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩] := rfl
  rw [hsplit, readCov_hit (F := F) sB.view _ _ _ _ (by
    intro p hp x
    simp only [List.mem_cons, List.not_mem_nil, or_false] at hp
    rcases hp with rfl
    · exact rows_apart 2 3 (by omega) inb_S4x128_S1x16_2_0 inb_S4x128_S1x16_3_0 x)]
  funext x
  rw [payB2, load_filled, load_filled]
  show mixR (m (xLoc d) ((xSlabA L).view.emb ((Rect.unit (s := S4x128) ![2, 0] S1x16.size inb_S4x128_S1x16_2_0).emb x))) (m (xLoc d) ((xSlabB L).view.emb ((Rect.unit (s := S4x128) ![2, 0] S1x16.size inb_S4x128_S1x16_2_0).emb x))) = _
  rw [rowK_emb 2 (by omega), xSlabA_emb, xSlabB_emb]
theorem covA3 (fa : Buf (Elt F) ((thrOf d L).loc cc0_scratch0)) (fb : Buf (Elt F) ((thrOf d L).loc cc0_scratch1)) :
    sA.view.readCov (HA m d L fa fb) (Rect.unit (s := S4x128) ![3, 0] S1x16.size inb_S4x128_S1x16_3_0).toLoadRect
      = fun x => mixL (m (xLoc d) (ix3 (0 : Fin 3) (⟨row0 (L 0).val (L 1).val + 3, rowK_lt L 3 (by omega)⟩ : Fin 128) (⟨(x 1).val, by have h : (x 1).val < 16 := (x 1).isLt; omega⟩ : Fin 32768)))
          (m (xLoc d) (ix3 (0 : Fin 3) (⟨row0 (L 0).val (L 1).val + 3, rowK_lt L 3 (by omega)⟩ : Fin 128) (⟨(x 1).val + 16384, by have h : (x 1).val < 16 := (x 1).isLt; omega⟩ : Fin 32768))) := by
  have hsplit : HA m d L fa fb = ([] : List (View.Piece (Elt F) S4x128 .f32)) ++ ⟨(Rect.unit (s := S4x128) ![3, 0] S1x16.size inb_S4x128_S1x16_3_0), k0_pay24 (Scalar.ofBits (F := F) .f32 0x44800000#32) (k0_pay21 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay22 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ))) (k0_pay23 (View.readAt (Elt F) sA.view (Rect.unit (s := S4x128) ![3, 0] S1x16.size inb_S4x128_S1x16_3_0).toLoadRect (View.write (Elt F) sA.view fa (slabA m d L) Finset.univ)) (View.readAt (Elt F) sB.view (Rect.unit (s := S4x128) ![3, 0] S1x16.size inb_S4x128_S1x16_3_0).toLoadRect (View.write (Elt F) sB.view fb (slabB m d L) Finset.univ)))⟩ :: [⟨(Rect.unit (s := S4x128) ![2, 0] S1x16.size inb_S4x128_S1x16_2_0), k0_pay17 (k0_pay15 (View.readAt (Elt F) sA.view (Rect.unit (s := S4x128) ![2, 0] S1x16.size inb_S4x128_S1x16_2_0).toLoadRect (View.write (Elt F) sA.view fa (slabA m d L) Finset.univ)) (View.readAt (Elt F) sB.view (Rect.unit (s := S4x128) ![2, 0] S1x16.size inb_S4x128_S1x16_2_0).toLoadRect (View.write (Elt F) sB.view fb (slabB m d L) Finset.univ))) k0_pay16⟩, ⟨(Rect.unit (s := S4x128) ![1, 0] S1x16.size inb_S4x128_S1x16_1_0), k0_pay10 (View.readAt (Elt F) sA.view (Rect.unit (s := S4x128) ![1, 0] S1x16.size inb_S4x128_S1x16_1_0).toLoadRect (View.write (Elt F) sA.view fa (slabA m d L) Finset.univ)) (View.readAt (Elt F) sB.view (Rect.unit (s := S4x128) ![1, 0] S1x16.size inb_S4x128_S1x16_1_0).toLoadRect (View.write (Elt F) sB.view fb (slabB m d L) Finset.univ))⟩, ⟨(Rect.unit (s := S4x128) ![0, 0] S1x16.size inb_S4x128_S1x16_0_0), k0_pay3 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))⟩] := rfl
  rw [hsplit, readCov_hit (F := F) sA.view _ _ _ _ (by
    intro p hp x
    simp at hp)]
  funext x
  rw [payA3, load_filled, load_filled]
  show mixL (m (xLoc d) ((xSlabA L).view.emb ((Rect.unit (s := S4x128) ![3, 0] S1x16.size inb_S4x128_S1x16_3_0).emb x))) (m (xLoc d) ((xSlabB L).view.emb ((Rect.unit (s := S4x128) ![3, 0] S1x16.size inb_S4x128_S1x16_3_0).emb x))) = _
  rw [rowK_emb 3 (by omega), xSlabA_emb, xSlabB_emb]
theorem covB3 (fa : Buf (Elt F) ((thrOf d L).loc cc0_scratch0)) (fb : Buf (Elt F) ((thrOf d L).loc cc0_scratch1)) :
    sB.view.readCov (HB m d L fa fb) (Rect.unit (s := S4x128) ![3, 0] S1x16.size inb_S4x128_S1x16_3_0).toLoadRect
      = fun x => mixR (m (xLoc d) (ix3 (0 : Fin 3) (⟨row0 (L 0).val (L 1).val + 3, rowK_lt L 3 (by omega)⟩ : Fin 128) (⟨(x 1).val, by have h : (x 1).val < 16 := (x 1).isLt; omega⟩ : Fin 32768)))
          (m (xLoc d) (ix3 (0 : Fin 3) (⟨row0 (L 0).val (L 1).val + 3, rowK_lt L 3 (by omega)⟩ : Fin 128) (⟨(x 1).val + 16384, by have h : (x 1).val < 16 := (x 1).isLt; omega⟩ : Fin 32768))) := by
  have hsplit : HB m d L fa fb = ([] : List (View.Piece (Elt F) S4x128 .f32)) ++ ⟨(Rect.unit (s := S4x128) ![3, 0] S1x16.size inb_S4x128_S1x16_3_0), k0_pay25 (k0_pay19 (View.readAt (Elt F) sA.view (Rect.unit (s := S4x128) ![3, 0] S1x16.size inb_S4x128_S1x16_3_0).toLoadRect (View.write (Elt F) sA.view fa (slabA m d L) Finset.univ))) (k0_pay20 (View.readAt (Elt F) sB.view (Rect.unit (s := S4x128) ![3, 0] S1x16.size inb_S4x128_S1x16_3_0).toLoadRect (View.write (Elt F) sB.view fb (slabB m d L) Finset.univ)))⟩ :: [⟨(Rect.unit (s := S4x128) ![2, 0] S1x16.size inb_S4x128_S1x16_2_0), k0_pay18 (k0_pay13 (View.readAt (Elt F) sA.view (Rect.unit (s := S4x128) ![2, 0] S1x16.size inb_S4x128_S1x16_2_0).toLoadRect (View.write (Elt F) sA.view fa (slabA m d L) Finset.univ))) (k0_pay14 (View.readAt (Elt F) sB.view (Rect.unit (s := S4x128) ![2, 0] S1x16.size inb_S4x128_S1x16_2_0).toLoadRect (View.write (Elt F) sB.view fb (slabB m d L) Finset.univ)))⟩, ⟨(Rect.unit (s := S4x128) ![1, 0] S1x16.size inb_S4x128_S1x16_1_0), k0_pay12 (k0_pay9 (View.readAt (Elt F) sB.view (Rect.unit (s := S4x128) ![1, 0] S1x16.size inb_S4x128_S1x16_1_0).toLoadRect (View.write (Elt F) sB.view fb (slabB m d L) Finset.univ))) (k0_pay11 (View.readAt (Elt F) sA.view (Rect.unit (s := S4x128) ![1, 0] S1x16.size inb_S4x128_S1x16_1_0).toLoadRect (View.write (Elt F) sA.view fa (slabA m d L) Finset.univ)))⟩, ⟨(Rect.unit (s := S4x128) ![0, 0] S1x16.size inb_S4x128_S1x16_0_0), k0_pay7 (Scalar.ofBits (F := F) .f32 0x44800000#32) (k0_pay4 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay5 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (k0_pay6 (View.readAt (Elt F) sA.view (Rect.unit (s := S4x128) ![0, 0] S1x16.size inb_S4x128_S1x16_0_0).toLoadRect (View.write (Elt F) sA.view fa (slabA m d L) Finset.univ)) (View.readAt (Elt F) sB.view (Rect.unit (s := S4x128) ![0, 0] S1x16.size inb_S4x128_S1x16_0_0).toLoadRect (View.write (Elt F) sB.view fb (slabB m d L) Finset.univ))) (Scalar.ofBits (F := F) .f32 0x00000000#32)⟩] := rfl
  rw [hsplit, readCov_hit (F := F) sB.view _ _ _ _ (by
    intro p hp x
    simp at hp)]
  funext x
  rw [payB3, load_filled, load_filled]
  show mixR (m (xLoc d) ((xSlabA L).view.emb ((Rect.unit (s := S4x128) ![3, 0] S1x16.size inb_S4x128_S1x16_3_0).emb x))) (m (xLoc d) ((xSlabB L).view.emb ((Rect.unit (s := S4x128) ![3, 0] S1x16.size inb_S4x128_S1x16_3_0).emb x))) = _
  rw [rowK_emb 3 (by omega), xSlabA_emb, xSlabB_emb]

/-- What an output row holds at the end is `G` of the input on that row. -/
theorem row_val0 (fa : Buf (Elt F) ((thrOf d L).loc cc0_scratch0)) (fb : Buf (Elt F) ((thrOf d L).loc cc0_scratch1))
    (f : b0.view.ty.Contents (Elt F)) :
    ∀ i ∈ YR0 L, ((yRow0 L).view.writes (Elt F) (m (yLoc d)) [⟨Rect.whole S1x32768, View.read (Elt F) b0.view (b0.view.writes (Elt F) (View.write (Elt F) b0.view f (View.read (Elt F) (xRow0 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![0, 0] S1x16.size inb_S4x128_S1x16_0_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![0, 0] S1x16.size inb_S4x128_S1x16_0_0).toLoadRect) shapeCasts_S1x16_S16) shapeCasts_S16_S1x16⟩])⟩]) i = G d (m (xLoc d)) i := by
  intro i hi
  unfold YR0 at hi
  obtain ⟨j, -, rfl⟩ := Finset.mem_map.mp hi
  have hj1 : (j 1).val < 32768 := (j 1).isLt
  have hread : ∀ T : (yRow0 L).view.ty.Contents (Elt F), T ((yRow0 L).view.emb j) = (yRow0 L).view.read (Elt F) T j := fun T => rfl
  refine (hread _).trans ?_
  rw [whole_written, staged_read, shapeCast_shapeCast, shapeCast_shapeCast, covA0, covB0, yRow0_emb]
  refine Eq.trans ?_ (G_at d (m (xLoc d)) (⟨row0 (L 0).val (L 1).val + 0, rowK_lt L 0 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 0, rowK_lt L 0 (by omega)⟩ : Fin 128) (⟨(j 1).val - 16384, by omega⟩ : Fin 32768))) (m (xLoc d) (ix3 (0 : Fin 3) (⟨row0 (L 0).val (L 1).val + 0, rowK_lt L 0 (by omega)⟩ : Fin 128) c)))
        (Fin.ext (by show (j 1).val - 16384 + 16384 = (j 1).val; omega))
    · rw [dif_neg h', dif_neg h']
      show m (xLoc d) ((xRow0 L).view.emb j) = _
      rw [xRow0_emb]; rfl
theorem row_val1 (fa : Buf (Elt F) ((thrOf d L).loc cc0_scratch0)) (fb : Buf (Elt F) ((thrOf d L).loc cc0_scratch1))
    (f : b1.view.ty.Contents (Elt F)) :
    ∀ i ∈ YR1 L, ((yRow1 L).view.writes (Elt F) (m (yLoc d)) [⟨Rect.whole S1x32768, View.read (Elt F) b1.view (b1.view.writes (Elt F) (View.write (Elt F) b1.view f (View.read (Elt F) (xRow1 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![1, 0] S1x16.size inb_S4x128_S1x16_1_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![1, 0] S1x16.size inb_S4x128_S1x16_1_0).toLoadRect) shapeCasts_S1x16_S16) shapeCasts_S16_S1x16⟩])⟩]) i = G d (m (xLoc d)) i := by
  intro i hi
  unfold YR1 at hi
  obtain ⟨j, -, rfl⟩ := Finset.mem_map.mp hi
  have hj1 : (j 1).val < 32768 := (j 1).isLt
  have hread : ∀ T : (yRow1 L).view.ty.Contents (Elt F), T ((yRow1 L).view.emb j) = (yRow1 L).view.read (Elt F) T j := fun T => rfl
  refine (hread _).trans ?_
  rw [whole_written, staged_read, shapeCast_shapeCast, shapeCast_shapeCast, covA1, covB1, yRow1_emb]
  refine Eq.trans ?_ (G_at d (m (xLoc d)) (⟨row0 (L 0).val (L 1).val + 1, rowK_lt L 1 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 1, rowK_lt L 1 (by omega)⟩ : Fin 128) (⟨(j 1).val - 16384, by omega⟩ : Fin 32768))) (m (xLoc d) (ix3 (0 : Fin 3) (⟨row0 (L 0).val (L 1).val + 1, rowK_lt L 1 (by omega)⟩ : Fin 128) c)))
        (Fin.ext (by show (j 1).val - 16384 + 16384 = (j 1).val; omega))
    · rw [dif_neg h', dif_neg h']
      show m (xLoc d) ((xRow1 L).view.emb j) = _
      rw [xRow1_emb]; rfl
theorem row_val2 (fa : Buf (Elt F) ((thrOf d L).loc cc0_scratch0)) (fb : Buf (Elt F) ((thrOf d L).loc cc0_scratch1))
    (f : b2.view.ty.Contents (Elt F)) :
    ∀ i ∈ YR2 L, ((yRow2 L).view.writes (Elt F) (m (yLoc d)) [⟨Rect.whole S1x32768, View.read (Elt F) b2.view (b2.view.writes (Elt F) (View.write (Elt F) b2.view f (View.read (Elt F) (xRow2 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![2, 0] S1x16.size inb_S4x128_S1x16_2_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![2, 0] S1x16.size inb_S4x128_S1x16_2_0).toLoadRect) shapeCasts_S1x16_S16) shapeCasts_S16_S1x16⟩])⟩]) i = G d (m (xLoc d)) i := by
  intro i hi
  unfold YR2 at hi
  obtain ⟨j, -, rfl⟩ := Finset.mem_map.mp hi
  have hj1 : (j 1).val < 32768 := (j 1).isLt
  have hread : ∀ T : (yRow2 L).view.ty.Contents (Elt F), T ((yRow2 L).view.emb j) = (yRow2 L).view.read (Elt F) T j := fun T => rfl
  refine (hread _).trans ?_
  rw [whole_written, staged_read, shapeCast_shapeCast, shapeCast_shapeCast, covA2, covB2, yRow2_emb]
  refine Eq.trans ?_ (G_at d (m (xLoc d)) (⟨row0 (L 0).val (L 1).val + 2, rowK_lt L 2 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 2, rowK_lt L 2 (by omega)⟩ : Fin 128) (⟨(j 1).val - 16384, by omega⟩ : Fin 32768))) (m (xLoc d) (ix3 (0 : Fin 3) (⟨row0 (L 0).val (L 1).val + 2, rowK_lt L 2 (by omega)⟩ : Fin 128) c)))
        (Fin.ext (by show (j 1).val - 16384 + 16384 = (j 1).val; omega))
    · rw [dif_neg h', dif_neg h']
      show m (xLoc d) ((xRow2 L).view.emb j) = _
      rw [xRow2_emb]; rfl
theorem row_val3 (fa : Buf (Elt F) ((thrOf d L).loc cc0_scratch0)) (fb : Buf (Elt F) ((thrOf d L).loc cc0_scratch1))
    (f : b0.view.ty.Contents (Elt F)) :
    ∀ i ∈ YR3 L, ((yRow3 L).view.writes (Elt F) (m (yLoc d)) [⟨Rect.whole S1x32768, View.read (Elt F) b0.view (b0.view.writes (Elt F) (View.write (Elt F) b0.view f (View.read (Elt F) (xRow3 L).view (m (xLoc d))) Finset.univ)
        [⟨(Rect.unit (s := S1x32768) ![0, 16384] S1x16.size inb_S1x32768_S1x16_0_16384), shapeCast S1x16 (shapeCast S16 (sB.view.readCov (HB m d L fa fb) (Rect.unit (s := S4x128) ![3, 0] S1x16.size inb_S4x128_S1x16_3_0).toLoadRect) shapeCasts_S1x16_S16) shapeCasts_S16_S1x16⟩,
         ⟨(Rect.unit (s := S1x32768) ![0, 0] S1x16.size inb_S1x32768_S1x16_0_0), shapeCast S1x16 (shapeCast S16 (sA.view.readCov (HA m d L fa fb) (Rect.unit (s := S4x128) ![3, 0] S1x16.size inb_S4x128_S1x16_3_0).toLoadRect) shapeCasts_S1x16_S16) shapeCasts_S16_S1x16⟩])⟩]) i = G d (m (xLoc d)) i := by
  intro i hi
  unfold YR3 at hi
  obtain ⟨j, -, rfl⟩ := Finset.mem_map.mp hi
  have hj1 : (j 1).val < 32768 := (j 1).isLt
  have hread : ∀ T : (yRow3 L).view.ty.Contents (Elt F), T ((yRow3 L).view.emb j) = (yRow3 L).view.read (Elt F) T j := fun T => rfl
  refine (hread _).trans ?_
  rw [whole_written, staged_read, shapeCast_shapeCast, shapeCast_shapeCast, covA3, covB3, yRow3_emb]
  refine Eq.trans ?_ (G_at d (m (xLoc d)) (⟨row0 (L 0).val (L 1).val + 3, rowK_lt L 3 (by omega)⟩ : Fin 128) (j 1)).symm
  by_cases h : (j 1).val < 16
  · rw [dif_pos h, dif_pos h]
  · rw [dif_neg h, dif_neg h]
    by_cases h' : 16384 ≤ (j 1).val ∧ (j 1).val < 16400
    · rw [dif_pos h', dif_pos h']
      exact congrArg (fun c : Fin 32768 => mixR (m (xLoc d) (ix3 (0 : Fin 3) (⟨row0 (L 0).val (L 1).val + 3, rowK_lt L 3 (by omega)⟩ : Fin 128) (⟨(j 1).val - 16384, by omega⟩ : Fin 32768))) (m (xLoc d) (ix3 (0 : Fin 3) (⟨row0 (L 0).val (L 1).val + 3, rowK_lt L 3 (by omega)⟩ : Fin 128) c)))
        (Fin.ext (by show (j 1).val - 16384 + 16384 = (j 1).val; omega))
    · rw [dif_neg h', dif_neg h']
      show m (xLoc d) ((xRow3 L).view.emb j) = _
      rw [xRow3_emb]; rfl

end Rows

end Cert.Proof.OnKernelIdeal

end
-- ==== Proof.OnKernelIdeal.Tile.lean ====
/-
  One vector subcore's task.  It copies each of its four rows of plane 0 through a staging buffer, overwrites columns
  0..15 and 16384..16399 of the staged row with the mixed values computed from the two 4 × 128 slabs, and copies the
  staged row out.  Each copy in flight has a semaphore of its own, so the transfers need no schedule.  What the
  subcore leaves in its rows of the output is one function `G` of the input, index by index.
-/
import proofs.«209894_g19731079758016_cont_8to1_1440_21_alg».proof.Proof.OnKernelIdeal.Value

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

section TileBody

variable (m : (ℓ : Loc nD τ sig) → Buf (Elt F) ℓ)
variable [FloatOps F]
variable (d : Dev nD) (L : grid0.Coords)

/-- What a subcore is handed — its block of the input and of the output as the launch left them — and what it hands
    back: the input block unchanged, the output block at `G` of the input. -/
def goRes : sProp 𝕄 := iprop((xLoc d ↦[XT L]{fullShare} m (xLoc d)) ∗ (yLoc d ↦[YT L]{fullShare} m (yLoc d)))
def tdRes : sProp 𝕄 := iprop((xLoc d ↦[XT L]{fullShare} m (xLoc d)) ∗ (yLoc d ↦[YT L]{fullShare} G d (m (xLoc d))))

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goRes m d L
        ∗ scopedBufs (thrOf d L) ∗ scopedSems0 (thrOf d L) ∗ owes (thrOf d L) O W)
      ⊢ wp frame (wpE (defs₀ (F := F)) 𝒱₀ (thrOf d L) none) Set.univ
          (cc0__mix_copy_body L xV (Memref.isWhole_whole _) yV (Memref.isWhole_whole _) sA (Memref.isWhole_whole _) sB (Memref.isWhole_whole _) b0 (Memref.isWhole_whole _) b1 (Memref.isWhole_whole _) b2 (Memref.isWhole_whole _) cc0_scratch5 cc0_scratch6 cc0_scratch7 cc0_scratch8 cc0_scratch9 cc0_scratch10 cc0_scoped0 cc0_scoped1)
          fun _ => iprop(tdRes m d L ∗ scopedBufs (thrOf d L) ∗ scopedSems0 (thrOf d L)
            ∗ ∃ W', ⌜∀ p ∈ W', p ∈ W ∨ p.2 = none⌝ ∗ owes (thrOf d L) O W') := by
  unfold goRes tdRes
  rw [xBlock_pieces, yBlock_pieces, yBlock_pieces]
  simp only [cc0__mix_copy_body_eq_skeleton]; unfold cc0__mix_copy_body_skel
  rw [(K (F := F)).scopedBufs_V hF d (cV L) (jV L), SparseCore.Cfg.scopedSems0_V (Val := Elt F) d (cV L) (jV L), ownSems0_tile, ownBufs_tile]
  iintro ⟨#Hlv, -, ⟨⟨⟨Hx0, Hx1, Hx2, Hx3, HxL⟩, ⟨HxA, HxB, HxR⟩⟩, ⟨Hy0, Hy1, Hy2, Hy3⟩⟩,
    ⟨⟨%fa, HsA⟩, ⟨%fb, HsB⟩, ⟨%f0, Hb0⟩, ⟨%f1, Hb1⟩, ⟨%f2, Hb2⟩, Hbufs⟩, ⟨Hc5, Hc6, Hc7, Hc8, Hc9, Hc10, Hcs0, Hcs1, Hsems⟩, HO⟩
  ihave Hmw := ((K (F := F)).mayWaits_none (thr := thrOf d L) hO) $$ Hlv
  ihave Hx0' := (Entails.of_eq (show ((xLoc d ↦[XR0 L]{fullShare.left} m (xLoc d) : sProp 𝕄)) = ((xRow0 L).view.loc (thrOf d L) ↦[(xRow0 L).view.set]{fullShare.left} m (xLoc d)) from rfl)) $$ Hx0
  ihave Hx1' := (Entails.of_eq (show ((xLoc d ↦[XR1 L]{fullShare.left} m (xLoc d) : sProp 𝕄)) = ((xRow1 L).view.loc (thrOf d L) ↦[(xRow1 L).view.set]{fullShare.left} m (xLoc d)) from rfl)) $$ Hx1
  ihave Hx2' := (Entails.of_eq (show ((xLoc d ↦[XR2 L]{fullShare.left} m (xLoc d) : sProp 𝕄)) = ((xRow2 L).view.loc (thrOf d L) ↦[(xRow2 L).view.set]{fullShare.left} m (xLoc d)) from rfl)) $$ Hx2
  ihave Hx3' := (Entails.of_eq (show ((xLoc d ↦[XR3 L]{fullShare.left} m (xLoc d) : sProp 𝕄)) = ((xRow3 L).view.loc (thrOf d L) ↦[(xRow3 L).view.set]{fullShare.left} m (xLoc d)) from rfl)) $$ Hx3
  ihave HxA' := (Entails.of_eq (show ((xLoc d ↦[XSA L]{fullShare.right} m (xLoc d) : sProp 𝕄)) = ((xSlabA L).view.loc (thrOf d L) ↦[(xSlabA L).view.set]{fullShare.right} m (xLoc d)) from rfl)) $$ HxA
  ihave HxB' := (Entails.of_eq (show ((xLoc d ↦[XSB L]{fullShare.right} m (xLoc d) : sProp 𝕄)) = ((xSlabB L).view.loc (thrOf d L) ↦[(xSlabB L).view.set]{fullShare.right} m (xLoc d)) from rfl)) $$ HxB
  ihave Hy0' := (Entails.of_eq (show ((yLoc d ↦[YR0 L]{fullShare} m (yLoc d) : sProp 𝕄)) = ((yRow0 L).view.loc (thrOf d L) ↦[(yRow0 L).view.set]{fullShare} m (yLoc d)) from rfl)) $$ Hy0
  ihave Hy1' := (Entails.of_eq (show ((yLoc d ↦[YR1 L]{fullShare} m (yLoc d) : sProp 𝕄)) = ((yRow1 L).view.loc (thrOf d L) ↦[(yRow1 L).view.set]{fullShare} m (yLoc d)) from rfl)) $$ Hy1
  ihave Hy2' := (Entails.of_eq (show ((yLoc d ↦[YR2 L]{fullShare} m (yLoc d) : sProp 𝕄)) = ((yRow2 L).view.loc (thrOf d L) ↦[(yRow2 L).view.set]{fullShare} m (yLoc d)) from rfl)) $$ Hy2
  ihave Hy3' := (Entails.of_eq (show ((yLoc d ↦[YR3 L]{fullShare} m (yLoc d) : sProp 𝕄)) = ((yRow3 L).view.loc (thrOf d L) ↦[(yRow3 L).view.set]{fullShare} m (yLoc d)) from rfl)) $$ Hy3
  ihave HsA' := (Entails.of_eq (show (((thrOf d L).loc cc0_scratch0 ↦{fullShare} fa : sProp 𝕄)) = ((sA).view.loc (thrOf d L) ↦{fullShare} fa) from rfl)) $$ HsA
  ihave HsB' := (Entails.of_eq (show (((thrOf d L).loc cc0_scratch1 ↦{fullShare} fb : sProp 𝕄)) = ((sB).view.loc (thrOf d L) ↦{fullShare} fb) from rfl)) $$ HsB
  ihave Hb0' := (Entails.of_eq (show (((thrOf d L).loc cc0_scratch2 ↦{fullShare} f0 : sProp 𝕄)) = ((b0).view.loc (thrOf d L) ↦{fullShare} f0) from rfl)) $$ Hb0
  ihave Hb1' := (Entails.of_eq (show (((thrOf d L).loc cc0_scratch3 ↦{fullShare} f1 : sProp 𝕄)) = ((b1).view.loc (thrOf d L) ↦{fullShare} f1) from rfl)) $$ Hb1
  ihave Hb2' := (Entails.of_eq (show (((thrOf d L).loc cc0_scratch4 ↦{fullShare} f2 : sProp 𝕄)) = ((b2).view.loc (thrOf d L) ↦{fullShare} f2) from rfl)) $$ Hb2
  sl_exec_parts
  sl_step
  ihave Hx0 := (Entails.of_eq (show (((xRow0 L).view.loc (thrOf d L) ↦[(xRow0 L).view.set]{fullShare.left} m (xLoc d) : sProp 𝕄)) = (xLoc d ↦[XR0 L]{fullShare.left} m (xLoc d)) from rfl)) $$ Hx0'
  ihave Hx1 := (Entails.of_eq (show (((xRow1 L).view.loc (thrOf d L) ↦[(xRow1 L).view.set]{fullShare.left} m (xLoc d) : sProp 𝕄)) = (xLoc d ↦[XR1 L]{fullShare.left} m (xLoc d)) from rfl)) $$ Hx1'
  ihave Hx2 := (Entails.of_eq (show (((xRow2 L).view.loc (thrOf d L) ↦[(xRow2 L).view.set]{fullShare.left} m (xLoc d) : sProp 𝕄)) = (xLoc d ↦[XR2 L]{fullShare.left} m (xLoc d)) from rfl)) $$ Hx2'
  ihave Hx3 := (Entails.of_eq (show (((xRow3 L).view.loc (thrOf d L) ↦[(xRow3 L).view.set]{fullShare.left} m (xLoc d) : sProp 𝕄)) = (xLoc d ↦[XR3 L]{fullShare.left} m (xLoc d)) from rfl)) $$ Hx3'
  ihave HxA := (Entails.of_eq (show (((xSlabA L).view.loc (thrOf d L) ↦[(xSlabA L).view.set]{fullShare.right} m (xLoc d) : sProp 𝕄)) = (xLoc d ↦[XSA L]{fullShare.right} m (xLoc d)) from rfl)) $$ HxA'
  ihave HxB := (Entails.of_eq (show (((xSlabB L).view.loc (thrOf d L) ↦[(xSlabB L).view.set]{fullShare.right} m (xLoc d) : sProp 𝕄)) = (xLoc d ↦[XSB L]{fullShare.right} m (xLoc d)) from rfl)) $$ HxB'
  have hv0 : ∀ i ∈ YR0 L, ((yRow0 L).view.writes (Elt F) (m (yLoc d)) [⟨Rect.whole S1x32768, tile_body.sl.dma30 m d L fa fb f0⟩]) i = G d (m (xLoc d)) i :=
    row_val0 m d L fa fb f0
  ihave Hy0 := (Entails.of_eq ((show (((yRow0 L).view.loc (thrOf d L) ↦[(yRow0 L).view.set]{fullShare} ((yRow0 L).view.writes (Elt F) (m (yLoc d)) [⟨Rect.whole S1x32768, tile_body.sl.dma30 m d L fa fb f0⟩]) : sProp 𝕄))
      = (yLoc d ↦[YR0 L]{fullShare} ((yRow0 L).view.writes (Elt F) (m (yLoc d)) [⟨Rect.whole S1x32768, tile_body.sl.dma30 m d L fa fb f0⟩])) from rfl).trans (pointsTo_congr hv0))) $$ Hy0'
  have hv1 : ∀ i ∈ YR1 L, ((yRow1 L).view.writes (Elt F) (m (yLoc d)) [⟨Rect.whole S1x32768, tile_body.sl.dma36 m d L fa fb f1⟩]) i = G d (m (xLoc d)) i :=
    row_val1 m d L fa fb f1
  ihave Hy1 := (Entails.of_eq ((show (((yRow1 L).view.loc (thrOf d L) ↦[(yRow1 L).view.set]{fullShare} ((yRow1 L).view.writes (Elt F) (m (yLoc d)) [⟨Rect.whole S1x32768, tile_body.sl.dma36 m d L fa fb f1⟩]) : sProp 𝕄))
      = (yLoc d ↦[YR1 L]{fullShare} ((yRow1 L).view.writes (Elt F) (m (yLoc d)) [⟨Rect.whole S1x32768, tile_body.sl.dma36 m d L fa fb f1⟩])) from rfl).trans (pointsTo_congr hv1))) $$ Hy1'
  have hv2 : ∀ i ∈ YR2 L, ((yRow2 L).view.writes (Elt F) (m (yLoc d)) [⟨Rect.whole S1x32768, tile_body.sl.dma42 m d L fa fb f2⟩]) i = G d (m (xLoc d)) i :=
    row_val2 m d L fa fb f2
  ihave Hy2 := (Entails.of_eq ((show (((yRow2 L).view.loc (thrOf d L) ↦[(yRow2 L).view.set]{fullShare} ((yRow2 L).view.writes (Elt F) (m (yLoc d)) [⟨Rect.whole S1x32768, tile_body.sl.dma42 m d L fa fb f2⟩]) : sProp 𝕄))
      = (yLoc d ↦[YR2 L]{fullShare} ((yRow2 L).view.writes (Elt F) (m (yLoc d)) [⟨Rect.whole S1x32768, tile_body.sl.dma42 m d L fa fb f2⟩])) from rfl).trans (pointsTo_congr hv2))) $$ Hy2'
  have hv3 : ∀ i ∈ YR3 L, ((yRow3 L).view.writes (Elt F) (m (yLoc d)) [⟨Rect.whole S1x32768, tile_body.sl.dma48 m d L fa fb f0⟩]) i = G d (m (xLoc d)) i :=
    row_val3 m d L fa fb _
  ihave Hy3 := (Entails.of_eq ((show (((yRow3 L).view.loc (thrOf d L) ↦[(yRow3 L).view.set]{fullShare} ((yRow3 L).view.writes (Elt F) (m (yLoc d)) [⟨Rect.whole S1x32768, tile_body.sl.dma48 m d L fa fb f0⟩]) : sProp 𝕄))
      = (yLoc d ↦[YR3 L]{fullShare} ((yRow3 L).view.writes (Elt F) (m (yLoc d)) [⟨Rect.whole S1x32768, tile_body.sl.dma48 m d L fa fb f0⟩])) from rfl).trans (pointsTo_congr hv3))) $$ Hy3'
  ihave HsA := (Entails.of_eq (show (((sA).view.loc (thrOf d L) ↦{fullShare} _ : sProp 𝕄)) = ((thrOf d L).loc cc0_scratch0 ↦{fullShare} _) from rfl)) $$ HsA'
  ihave HsB := (Entails.of_eq (show (((sB).view.loc (thrOf d L) ↦{fullShare} _ : sProp 𝕄)) = ((thrOf d L).loc cc0_scratch1 ↦{fullShare} _) from rfl)) $$ HsB'
  ihave Hb0 := (Entails.of_eq (show (((b0).view.loc (thrOf d L) ↦{fullShare} _ : sProp 𝕄)) = ((thrOf d L).loc cc0_scratch2 ↦{fullShare} _) from rfl)) $$ Hb0'
  ihave Hb1 := (Entails.of_eq (show (((b1).view.loc (thrOf d L) ↦{fullShare} _ : sProp 𝕄)) = ((thrOf d L).loc cc0_scratch3 ↦{fullShare} _) from rfl)) $$ Hb1'
  ihave Hb2 := (Entails.of_eq (show (((b2).view.loc (thrOf d L) ↦{fullShare} _ : sProp 𝕄)) = ((thrOf d L).loc cc0_scratch4 ↦{fullShare} _) from rfl)) $$ Hb2'
  isplitl [Hx0 Hx1 Hx2 Hx3 HxL HxA HxB HxR Hy0 Hy1 Hy2 Hy3]
  · isplitl [Hx0 Hx1 Hx2 Hx3 HxL HxA HxB HxR]
    · isplitl [Hx0 Hx1 Hx2 Hx3 HxL]
      · isplitl [Hx0]; · iexact Hx0
        isplitl [Hx1]; · iexact Hx1
        isplitl [Hx2]; · iexact Hx2
        isplitl [Hx3]; · iexact Hx3
        iexact HxL
      · isplitl [HxA]; · iexact HxA
        isplitl [HxB]; · iexact HxB
        iexact HxR
    · isplitl [Hy0]; · iexact Hy0
      isplitl [Hy1]; · iexact Hy1
      isplitl [Hy2]; · iexact Hy2
      iexact Hy3
  isplitl [HsA HsB Hb0 Hb1 Hb2 Hbufs]
  · isplitl [HsA]; · iexists _; iexact HsA
    isplitl [HsB]; · iexists _; iexact HsB
    isplitl [Hb0]; · iexists _; iexact Hb0
    isplitl [Hb1]; · iexists _; iexact Hb1
    isplitl [Hb2]; · iexists _; iexact Hb2
    iexact Hbufs
  isplitl [Hc5 Hc6 Hc7 Hc8 Hc9 Hc10 Hcs0 Hcs1 Hsems]
  · isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hcs0]; · iexact Hcs0
    isplitl [Hcs1]; · iexact Hcs1
    iexact Hsems
  iexists _; isplitr
  swap
  · iexact HO
  · ipureintro; intro p hp
    simp only [Finset.mem_insert] at hp
    rcases hp with rfl | rfl | rfl | rfl | rfl | rfl | rfl | rfl | rfl | rfl | hp
    all_goals first | exact .inr rfl | exact .inl hp

end TileBody

end Cert.Proof.OnKernelIdeal

end
-- ==== Proof.OnKernelIdeal.Launch.lean ====
/-
  The whole program from the subcores' tasks.  The one call hands every vector subcore its block of the input and of the
  output — the 32 blocks tile both arrays, block (core c, subcore s) being rows 8 s + 4 c .. + 3 — and takes them back
  with the output at `G` of the input; the two slices of the input that follow the call run on the TensorCore over the
  arrays held whole.  Every weakly fair execution of all the threads therefore ends, faulting nowhere, with the input
  unchanged, the first result at `G` of the input and the other two at planes 1 and 2 of it.
-/
import proofs.«209894_g19731079758016_cont_8to1_1440_21_alg».proof.Proof.OnKernelIdeal.Tile

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The 32 blocks tile the arrays -/

theorem xBlocks_disjoint : ∀ p ∈ (Finset.univ : Finset (Fin 2 × Fin 16)), ∀ p' ∈ (Finset.univ : Finset (Fin 2 × Fin 16)), p ≠ p' →
    Disjoint (XB p.1.val p.2.val p.1.isLt p.2.isLt) (XB p'.1.val p'.2.val p'.1.isLt p'.2.isLt) := by
  intro p _ p' _ hne
  rw [Finset.disjoint_left]
  intro j hj hj'
  rw [mem_XB] at hj hj'
  have h1 := p.1.isLt; have h2 := p.2.isLt; have h1' := p'.1.isLt; have h2' := p'.2.isLt
  unfold row0 at hj hj'
  exact hne (Prod.ext (Fin.ext (by omega)) (Fin.ext (by omega)))
theorem yBlocks_disjoint : ∀ p ∈ (Finset.univ : Finset (Fin 2 × Fin 16)), ∀ p' ∈ (Finset.univ : Finset (Fin 2 × Fin 16)), p ≠ p' →
    Disjoint (YB p.1.val p.2.val p.1.isLt p.2.isLt) (YB p'.1.val p'.2.val p'.1.isLt p'.2.isLt) := by
  intro p _ p' _ hne
  rw [Finset.disjoint_left]
  intro j hj hj'
  rw [mem_YB] at hj hj'
  have h1 := p.1.isLt; have h2 := p.2.isLt; have h1' := p'.1.isLt; have h2' := p'.2.isLt
  unfold row0 at hj hj'
  exact hne (Prod.ext (Fin.ext (by omega)) (Fin.ext (by omega)))
theorem xBlocks_cover : (Finset.univ : Finset (Fin 2 × Fin 16)).biUnion (fun p => XB p.1.val p.2.val p.1.isLt p.2.isLt) = Finset.univ := by
  ext j
  simp only [Finset.mem_biUnion, Finset.mem_univ, true_and, iff_true]
  have hj : (j 1).val < 128 := (j 1).isLt
  refine ⟨(⟨((j 1).val % 8) / 4, by omega⟩, ⟨(j 1).val / 8, by omega⟩), ?_⟩
  rw [mem_XB]; unfold row0; dsimp only; omega
theorem yBlocks_cover : (Finset.univ : Finset (Fin 2 × Fin 16)).biUnion (fun p => YB p.1.val p.2.val p.1.isLt p.2.isLt) = Finset.univ := by
  ext j
  simp only [Finset.mem_biUnion, Finset.mem_univ, true_and, iff_true]
  have hj : (j 0).val < 128 := (j 0).isLt
  refine ⟨(⟨((j 0).val % 8) / 4, by omega⟩, ⟨(j 0).val / 8, by omega⟩), ?_⟩
  rw [mem_YB]; unfold row0; dsimp only; omega

theorem xWhole_blocks (d : Dev nD) (f : Buf (Elt F) (xLoc d)) :
    (xLoc d ↦{fullShare} f : sProp 𝕄)
      = bigSep (Finset.univ : Finset (Fin 2)) fun c => bigSep (Finset.univ : Finset (Fin 16)) fun i => xLoc d ↦[XB c.val i.val c.isLt i.isLt]{fullShare} f := by
  rw [← SparseCore.bigSep_product (M := 𝕄) Finset.univ Finset.univ (fun p : Fin 2 × Fin 16 => xLoc d ↦[XB p.1.val p.2.val p.1.isLt p.2.isLt]{fullShare} f),
    Finset.univ_product_univ, ← pointsTo_biUnion Finset.univ (ℓ := xLoc d) (fun p : Fin 2 × Fin 16 => XB p.1.val p.2.val p.1.isLt p.2.isLt) xBlocks_disjoint, xBlocks_cover]
  try rfl
theorem yWhole_blocks (d : Dev nD) (f : Buf (Elt F) (yLoc d)) :
    (yLoc d ↦{fullShare} f : sProp 𝕄)
      = bigSep (Finset.univ : Finset (Fin 2)) fun c => bigSep (Finset.univ : Finset (Fin 16)) fun i => yLoc d ↦[YB c.val i.val c.isLt i.isLt]{fullShare} f := by
  rw [← SparseCore.bigSep_product (M := 𝕄) Finset.univ Finset.univ (fun p : Fin 2 × Fin 16 => yLoc d ↦[YB p.1.val p.2.val p.1.isLt p.2.isLt]{fullShare} f),
    Finset.univ_product_univ, ← pointsTo_biUnion Finset.univ (ℓ := yLoc d) (fun p : Fin 2 × Fin 16 => YB p.1.val p.2.val p.1.isLt p.2.isLt) yBlocks_disjoint, yBlocks_cover]
  try rfl

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

abbrev xPts (d : Dev nD) : sProp 𝕄 := xLoc d ↦{fullShare} m (xLoc d)
abbrev yPts (d : Dev nD) (f : Buf (Elt F) (yLoc d)) : sProp 𝕄 := yLoc d ↦{fullShare} f

/-- The one call takes both arrays for its two SparseCores, each SparseCore its sixteen subcores' blocks, each subcore
    its block; back the same way, the output at `G` of the input. -/
def P : (K (F := F)).Pay (nD := nD) (Val := Elt F) (Name := ℕ) (U := UU) where
  st := fun q d c => match q with
    | 0 => bigSep (Finset.univ : Finset (Fin 16)) fun i => goRes m d (coordsV ⟨c.val, c.isLt⟩ ⟨i.val, i.isLt⟩)
  dn := fun q d c => match q with
    | 0 => bigSep (Finset.univ : Finset (Fin 16)) fun i => tdRes m d (coordsV ⟨c.val, c.isLt⟩ ⟨i.val, i.isLt⟩)
  go := fun q d c i => match q with | 0 => goRes m d (coordsV ⟨c.val, c.isLt⟩ ⟨i.val, i.isLt⟩)
  td := fun q d c i => match q with | 0 => tdRes m d (coordsV ⟨c.val, c.isLt⟩ ⟨i.val, i.isLt⟩)
  x := fun _ _ => iprop(emp)

instance goRes_storable (d : Dev nD) (L : grid0.Coords) : BI.Storable (upEmb : UEmb _ 𝕄) (goRes m d L) := by
  unfold goRes; infer_instance
instance tdRes_storable (d : Dev nD) (L : grid0.Coords) : BI.Storable (upEmb : UEmb _ 𝕄) (tdRes m d L) := by
  unfold tdRes; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## The launch theorem's obligations -/

theorem defs₀_vector (c : Fin τ.nSC) (s : Fin τ.nSub) :
    defs₀ (F := F) (.scVector c s) 0 ()
      = SparseCore.onTile hcore0 hsub0 (fun c s => cc0__mix_copy_body (coordsV c s)
          xV (Memref.isWhole_whole _) yV (Memref.isWhole_whole _) sA (Memref.isWhole_whole _) sB (Memref.isWhole_whole _)
          b0 (Memref.isWhole_whole _) b1 (Memref.isWhole_whole _) b2 (Memref.isWhole_whole _)
          cc0_scratch5 cc0_scratch6 cc0_scratch7 cc0_scratch8 cc0_scratch9 cc0_scratch10 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (bigSep (Finset.univ : Finset (Fin 16)) fun i => goRes m d (coordsV ⟨c.val, c.isLt⟩ ⟨i.val, i.isLt⟩)) ⊢ |={Set.univ}=> iprop(
      (bigSep (Finset.univ : Finset (Fin 16)) fun i => goRes m d (coordsV ⟨c.val, c.isLt⟩ ⟨i.val, i.isLt⟩))
      ∗ ((bigSep (Finset.univ : Finset (Fin 16)) fun i => tdRes m d (coordsV ⟨c.val, c.isLt⟩ ⟨i.val, i.isLt⟩))
          -∗ (bigSep (Finset.univ : Finset (Fin 16)) fun i => tdRes m d (coordsV ⟨c.val, c.isLt⟩ ⟨i.val, i.isLt⟩))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev y' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)

/-- The two slices of the input after the call, each reshaped to a plane. -/
abbrev hostOps : List (HloOp τ sig (Elt F)) :=
  [ StableHlo.unary main_arg0 main_v1 ((extractStridedSlice S1x128x32768 ![1, 0, 0] · slices_S3x128x32768_S1x128x32768_1_0_0) : (⟨S3x128x32768, .f32⟩ : BufTy).Contents (Elt F) → (⟨S1x128x32768, .f32⟩ : BufTy).Contents (Elt F)),
    StableHlo.reshape main_v1 main_v2 rfl shapeCasts_S1x128x32768_S128x32768,
    StableHlo.unary main_arg0 main_v3 ((extractStridedSlice S1x128x32768 ![2, 0, 0] · slices_S3x128x32768_S1x128x32768_2_0_0) : (⟨S3x128x32768, .f32⟩ : BufTy).Contents (Elt F) → (⟨S1x128x32768, .f32⟩ : BufTy).Contents (Elt F)),
    StableHlo.reshape main_v3 main_v4 rfl shapeCasts_S1x128x32768_S128x32768 ]

/-- The TensorCore's arrays, all unscoped; the two the call takes. -/
abbrev S6 : Finset (DevRef τ sig) := {x', y', r1', r2', r3', r4'}
abbrev S2 : Finset (DevRef τ sig) := {x', y'}

omit [FloatOps F] in
theorem held_S6 (d : Dev nD) (W : Valuation τ sig (Elt F)) :
    (StableHlo.held (T d) S6 W : sProp 𝕄) = iprop((xLoc d ↦{fullShare} W x') ∗ (yLoc d ↦{fullShare} W y') ∗ ((SparseCore.T d).loc main_v1 ↦{fullShare} W r1')
      ∗ ((SparseCore.T d).loc main_v2 ↦{fullShare} W r2') ∗ ((SparseCore.T d).loc main_v3 ↦{fullShare} W r3') ∗ ((SparseCore.T d).loc main_v4 ↦{fullShare} W r4')) := by
  unfold StableHlo.held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3) ∗ ((SparseCore.T d).loc main_v4 ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the call, the output at `G` of the input. -/
def V0 (d : Dev nD) : Valuation τ sig (Elt F) := fun b => m (d, b)
def V1 (d : Dev nD) : Valuation τ sig (Elt F) := Function.update (V0 m d) y' (G d (m (xLoc d)))

theorem unscoped_held (d : Dev nD) : (unscopedBufs d (fun b => m ((SparseCore.T d).loc b)) : sProp 𝕄) = StableHlo.held (T d) S6 (V0 m d) := by
  rw [unscopedBufs_eq, held_S6]; rfl

theorem V1_y (d : Dev nD) : V1 m d y' = G d (m (xLoc d)) := Function.update_self _ _ _
theorem V1_x (d : Dev nD) : V1 m d x' = m (xLoc d) := Function.update_of_ne (show x' ≠ y' by decide) _ _
theorem V1_r1 (d : Dev nD) : V1 m d r1' = V0 m d r1' := Function.update_of_ne (show r1' ≠ y' by decide) _ _
theorem V1_r2 (d : Dev nD) : V1 m d r2' = V0 m d r2' := Function.update_of_ne (show r2' ≠ y' by decide) _ _
theorem V1_r3 (d : Dev nD) : V1 m d r3' = V0 m d r3' := Function.update_of_ne (show r3' ≠ y' by decide) _ _
theorem V1_r4 (d : Dev nD) : V1 m d r4' = V0 m d r4' := Function.update_of_ne (show r4' ≠ y' by decide) _ _

/-- What the call takes for the two SparseCores, and what it hands back: the arrays whole. -/
theorem st0_eq (d : Dev nD) : (bigSep Finset.univ fun c : Fin ((K (F := F)).nCore 0) => (P m).st 0 d c) = iprop(xPts m d ∗ yPts d (m (yLoc d))) := by
  show (bigSep (Finset.univ : Finset (Fin 2)) fun c => bigSep (Finset.univ : Finset (Fin 16)) fun i =>
      iprop((xLoc d ↦[XB c.val i.val c.isLt i.isLt]{fullShare} m (xLoc d)) ∗ (yLoc d ↦[YB c.val i.val c.isLt i.isLt]{fullShare} m (yLoc d)))) = _
  unfold xPts yPts
  rw [xWhole_blocks, yWhole_blocks, ← bigSep_sep']
  exact bigSep_congr fun c _ => bigSep_sep' _ _ _
theorem dn0_eq (d : Dev nD) : (bigSep Finset.univ fun c : Fin ((K (F := F)).nCore 0) => (P m).dn 0 d c) = iprop(xPts m d ∗ yPts d (G d (m (xLoc d)))) := by
  show (bigSep (Finset.univ : Finset (Fin 2)) fun c => bigSep (Finset.univ : Finset (Fin 16)) fun i =>
      iprop((xLoc d ↦[XB c.val i.val c.isLt i.isLt]{fullShare} m (xLoc d)) ∗ (yLoc d ↦[YB c.val i.val c.isLt i.isLt]{fullShare} G d (m (xLoc d))))) = _
  unfold xPts yPts
  rw [xWhole_blocks, yWhole_blocks, ← bigSep_sep']
  exact bigSep_congr fun c _ => bigSep_sep' _ _ _

theorem hostOps_sub : ∀ op ∈ (hostOps (F := F)), op.bufs ⊆ S6 := by
  intro op h
  simp only [List.mem_cons, List.not_mem_nil, or_false] at h
  rcases h with rfl | rfl | rfl | rfl
  · rw [StableHlo.unary_bufs]; decide
  · rw [StableHlo.reshape_bufs]; decide
  · rw [StableHlo.unary_bufs]; decide
  · rw [StableHlo.reshape_bufs]; decide
theorem hostOps_fresh : ∀ op ∈ (hostOps (F := F)), op.fresh = ∅ := by
  intro _ h; (repeat (cases h with | head => rfl | tail _ h => ?_)); exact nomatch h

/-- What @main leaves the claim: all six arrays, at the two slices' results over the call's. -/
def FIN (d : Dev nD) : sProp 𝕄 := StableHlo.held (T d) S6 (StableHlo.after hostOps (V1 m d))

theorem main_eq (d : Dev nD) : main (F := F) d = ((K (F := F)).run d 0 >>= fun _ => (StableHlo.seq hostOps >>= fun u => Pure.pure u)) := by
  rw [bind_pure]; rfl

set_option backward.isDefEq.respectTransparency.types false in
/-- @main on device `d`'s TensorCore: the call, from the two arrays whole; then the two slices over all six arrays held. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq, wp_bind]
  iintro ⟨#Hctx, Hst, ⟨Hb, Hheld, -, -⟩, -⟩
  ihave Hh := (Entails.of_eq (held_S6 (F := F) d _)) $$ Hheld
  icases Hh with ⟨Hx, Hy, H1, H2, H3, H4⟩
  iapply ((K (F := F)).wp_run (D (F := F)) 𝒱 (EH := EH) (P := P m) κ d 0) $$ [Hst Hx Hy Hb H1 H2 H3 H4]
  isplitr; · iexact Hctx
  isplitl [Hst]; · iexact Hst
  isplitl [Hx Hy]
  · rw [st0_eq]
    isplitl [Hx]; · iexact Hx
    iexact Hy
  iintro ⟨Hst, Hdn⟩
  ihave Hdn' := (Entails.of_eq (dn0_eq m d)) $$ Hdn
  icases Hdn' with ⟨Hx, Hy⟩
  iapply (StableHlo.wp_seq 𝒱 none Set.univ d S6 (fun u => Pure.pure u) (hostOps (F := F)) hostOps_sub hostOps_fresh (V1 m d)) $$ [Hb Hx Hy H1 H2 H3 H4]
  · isplitl [Hb]; · iexact Hb
    rw [held_S6, V1_x, V1_y, V1_r1, V1_r2, V1_r3, V1_r4]
    isplitl [Hx]; · iexact Hx
    isplitl [Hy]; · iexact Hy
    isplitl [H1]; · iexact H1
    isplitl [H2]; · iexact H2
    isplitl [H3]; · iexact H3
    iexact H4
  iintro ⟨-, Hheld⟩
  rw [wp_pure]; imodintro
  isplitl [Hst]; · iexact Hst
  unfold FIN; iexact Hheld

/-! ## The final memory -/

attribute [local irreducible] G in
theorem fin_x (d : Dev nD) : StableHlo.after (hostOps (F := F)) (V1 m d) x' = m (xLoc d) := by
  simp only [StableHlo.after_cons, StableHlo.after_nil]; rfl
attribute [local irreducible] G in
theorem fin_y (d : Dev nD) : StableHlo.after (hostOps (F := F)) (V1 m d) y' = G d (m (xLoc d)) := by
  simp only [StableHlo.after_cons, StableHlo.after_nil]; exact V1_y m d
attribute [local irreducible] G in
theorem fin_r2 (d : Dev nD) : StableHlo.after (hostOps (F := F)) (V1 m d) r2'
    = shapeCast S128x32768 (extractStridedSlice S1x128x32768 ![1, 0, 0] (m (xLoc d)) slices_S3x128x32768_S1x128x32768_1_0_0) shapeCasts_S1x128x32768_S128x32768 := by
  simp only [StableHlo.after_cons, StableHlo.after_nil]; rfl
attribute [local irreducible] G in
theorem fin_r4 (d : Dev nD) : StableHlo.after (hostOps (F := F)) (V1 m d) r4'
    = shapeCast S128x32768 (extractStridedSlice S1x128x32768 ![2, 0, 0] (m (xLoc d)) slices_S3x128x32768_S1x128x32768_2_0_0) shapeCasts_S1x128x32768_S128x32768 := by
  simp only [StableHlo.after_cons, StableHlo.after_nil]; rfl

def fq (d : Dev nD) (s' : Phys nD τ sig (Elt F)) : Prop :=
  s'.mem.mem ((SparseCore.T d).loc main_v0) = G d (m (xLoc d))
  ∧ s'.mem.mem ((SparseCore.T d).loc main_v2) = shapeCast S128x32768 (extractStridedSlice S1x128x32768 ![1, 0, 0] (m (xLoc d)) slices_S3x128x32768_S1x128x32768_1_0_0) shapeCasts_S1x128x32768_S128x32768
  ∧ s'.mem.mem ((SparseCore.T d).loc main_v4) = shapeCast S128x32768 (extractStridedSlice S1x128x32768 ![2, 0, 0] (m (xLoc d)) slices_S3x128x32768_S1x128x32768_2_0_0) shapeCasts_S1x128x32768_S128x32768
  ∧ s'.mem.mem (xLoc d) = m (xLoc d)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (st := s') (c := d) (qs := fun _ => fullShare) (F := StableHlo.after (hostOps (F := F)) (V1 m d)) S6) $$ [HSI H]
  · isplitl [HSI]; · iexact HSI
    iexact H
  ipureintro
  exact ⟨(h y' (by decide)).trans (fin_y m d), (h r2' (by decide)).trans (fin_r2 m d), (h r4' (by decide)).trans (fin_r4 m d), (h x' (by decide)).trans (fin_x m d)⟩

/-! ## The program's run -/

def QC : PUnit × MemSt nD τ sig (Elt F) → Prop := fun r => ∀ c : Dev nD,
  r.2.mem ((SparseCore.T c).loc main_v0) = G c (m (xLoc c))
  ∧ r.2.mem ((SparseCore.T c).loc main_v2) = shapeCast S128x32768 (extractStridedSlice S1x128x32768 ![1, 0, 0] (m (xLoc c)) slices_S3x128x32768_S1x128x32768_1_0_0) shapeCasts_S1x128x32768_S128x32768
  ∧ r.2.mem ((SparseCore.T c).loc main_v4) = shapeCast S128x32768 (extractStridedSlice S1x128x32768 ![2, 0, 0] (m (xLoc c)) slices_S3x128x32768_S1x128x32768_2_0_0) shapeCasts_S1x128x32768_S128x32768
  ∧ r.2.mem (xLoc c) = m (xLoc c)

/-- Every weakly fair execution of the device's threads terminates, nothing faulting, with the first result at `G` of
    the input, the other two at its planes 1 and 2, and the input unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.OnKernelIdeal

end
-- ==== Proof.Spec.lean ====
/-
  What both programs compute, over the extended reals.

  The input is three planes of 128 rows by 32768 columns.  Plane 0 is mixed row by row: for j < 16, column j becomes
  ((x[j] + x[16384 + j]) mod 1024) + 1 and column 16384 + j becomes (((1024 + x[j]) - x[16384 + j]) mod 1024) + 1,
  where "mod 1024" is the truncated remainder moved into [0, 1024) — 1024 added when the remainder is negative —; every
  other column is kept.  Planes 1 and 2 are returned as they are.
-/
import Idealize.ShloMosaic.PureOps.Ideal
import Idealize.ShloMosaic.Lib.ValueIdx

noncomputable section

namespace Cert.Proof.Spec

open Idealize.ShloMosaic Idealize.ShloMosaic.ValueIdx

/-- The three float constants the programs spell, as the extended reals their bit patterns denote. -/
theorem bits_zero : Ideal.ofBits .f32 0x00000000#32 = 0 := by
  simp [Ideal.ofBits, Ideal.ieee]
theorem bits_one : Ideal.ofBits .f32 0x3F800000#32 = 1 := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num

/-- The truncated remainder by 1024, moved into [0, 1024). -/
def wrap (x : EReal) : EReal :=
  if Ideal.remf x ((1024 : ℝ) : EReal) < 0 then Ideal.remf x ((1024 : ℝ) : EReal) + ((1024 : ℝ) : EReal)
  else Ideal.remf x ((1024 : ℝ) : EReal)

/-- The new values of a left column and of its right partner, from the old two. -/
def left (a b : EReal) : EReal := wrap (a + b) + 1
def right (a b : EReal) : EReal := wrap ((((1024 : ℝ) : EReal) + a) - b) + 1

/-- Plane 0 mixed: one whole-array function of the input. -/
def mixed (X : (⟨3, ![3, 128, 32768]⟩ : Shape).Idx → EReal) : (⟨2, ![128, 32768]⟩ : Shape).Idx → EReal := fun i =>
  if h : (i 1).val < 16 then
    left (X (ix3 (0 : Fin 3) (i 0) (⟨(i 1).val, by omega⟩ : Fin 32768))) (X (ix3 (0 : Fin 3) (i 0) (⟨(i 1).val + 16384, by omega⟩ : Fin 32768)))
  else if h' : 16384 ≤ (i 1).val ∧ (i 1).val < 16400 then
    right (X (ix3 (0 : Fin 3) (i 0) (⟨(i 1).val - 16384, by omega⟩ : Fin 32768))) (X (ix3 (0 : Fin 3) (i 0) (i 1)))
  else X (ix3 (0 : Fin 3) (i 0) (i 1))

/-- Plane `p` as it is. -/
def plane (p : Fin 3) (X : (⟨3, ![3, 128, 32768]⟩ : Shape).Idx → EReal) : (⟨2, ![128, 32768]⟩ : Shape).Idx → EReal :=
  fun i => X (ix3 p (i 0) (i 1))

end Cert.Proof.Spec

end
-- ==== Proof.Bridge.lean ====
/-
  At the extended reals the function the kernel writes is the specification's.  Lane by lane the kernel's left and
  right values are ((a + b) rem 1024, plus 1024 when that is negative) + 1 and the same of (1024 + a) - b: the sign of
  the divisor 1024 is positive, so "the remainder's sign differs from the divisor's and the remainder is not zero" says
  "the remainder is negative".  A slice of plane `p` reshaped to 128 × 32768 is plane `p`, index by index.
-/
import proofs.«209894_g19731079758016_cont_8to1_1440_21_alg».proof.Proof.OnKernelIdeal.Launch
import proofs.«209894_g19731079758016_cont_8to1_1440_21_alg».proof.Proof.Spec

noncomputable section

namespace Cert.Proof.OnKernelIdeal

open Cert.KernelIdeal Cert.KernelIdeal.Gen
open Idealize.ShloMosaic Idealize.ShloMosaic.ValueIdx

theorem cmp_olt (x y : EReal) : Ideal.cmp .olt x y = BitVec.ofBool (decide (x < y)) := rfl
theorem cmp_one (x y : EReal) : Ideal.cmp .one x y = BitVec.ofBool (decide (x ≠ y)) := rfl

/-- The sign test of the floored remainder, over the extended reals. -/
theorem wrap_select (r : EReal) :
    Scalar.select (IntOp.andi (IntOp.xori (Ideal.cmp .olt r 0) (Ideal.cmp .olt ((1024 : ℝ) : EReal) 0)) (Ideal.cmp .one r 0)) (r + ((1024 : ℝ) : EReal)) r
      = if r < 0 then r + ((1024 : ℝ) : EReal) else r := by
  have h1024 : ¬ (((1024 : ℝ) : EReal) < 0) := by
    rw [not_lt]; exact_mod_cast (by norm_num : (0 : ℝ) ≤ 1024)
  rw [cmp_olt, cmp_olt, cmp_one]
  unfold Scalar.select IntOp.andi IntOp.xori
  by_cases hr : r < 0
  · have hne : r ≠ 0 := ne_of_lt hr
    simp [hr, hne, h1024]
  · simp [hr, h1024]

theorem mixL_ideal (a b : EReal) : mixL (F := Ideal) a b = Spec.left a b := by
  unfold mixL Spec.left Spec.wrap
  show (Scalar.select (IntOp.andi (IntOp.xori (Ideal.cmp .olt (Ideal.remf (a + b) (Ideal.ofBits .f32 0x44800000#32)) (Ideal.ofBits .f32 0x00000000#32))
      (Ideal.cmp .olt (Ideal.ofBits .f32 0x44800000#32) (Ideal.ofBits .f32 0x00000000#32)))
      (Ideal.cmp .one (Ideal.remf (a + b) (Ideal.ofBits .f32 0x44800000#32)) (Ideal.ofBits .f32 0x00000000#32)))
      (Ideal.remf (a + b) (Ideal.ofBits .f32 0x44800000#32) + Ideal.ofBits .f32 0x44800000#32) (Ideal.remf (a + b) (Ideal.ofBits .f32 0x44800000#32)))
      + Ideal.ofBits .f32 0x3F800000#32 = _
  rw [Spec.bits_1024, Spec.bits_zero, Spec.bits_one, wrap_select]

theorem mixR_ideal (a b : EReal) : mixR (F := Ideal) a b = Spec.right a b := by
  unfold mixR Spec.right Spec.wrap
  show (Scalar.select (IntOp.andi (IntOp.xori (Ideal.cmp .olt (Ideal.remf (Ideal.ofBits .f32 0x44800000#32 + a - b) (Ideal.ofBits .f32 0x44800000#32)) (Ideal.ofBits .f32 0x00000000#32))
      (Ideal.cmp .olt (Ideal.ofBits .f32 0x44800000#32) (Ideal.ofBits .f32 0x00000000#32)))
      (Ideal.cmp .one (Ideal.remf (Ideal.ofBits .f32 0x44800000#32 + a - b) (Ideal.ofBits .f32 0x44800000#32)) (Ideal.ofBits .f32 0x00000000#32)))
      (Ideal.remf (Ideal.ofBits .f32 0x44800000#32 + a - b) (Ideal.ofBits .f32 0x44800000#32) + Ideal.ofBits .f32 0x44800000#32) (Ideal.remf (Ideal.ofBits .f32 0x44800000#32 + a - b) (Ideal.ofBits .f32 0x44800000#32)))
      + Ideal.ofBits .f32 0x3F800000#32 = _
  rw [Spec.bits_1024, Spec.bits_zero, Spec.bits_one, wrap_select]

/-- The kernel's function is the specification's, over the extended reals. -/
theorem G_ideal (d : Dev nD) (X : Buf (Elt Ideal) (xLoc d)) : G (F := Ideal) d X = Spec.mixed X := by
  funext i
  unfold G Spec.mixed
  simp only [mixL_ideal, mixR_ideal]

/-- A slice of one plane, reshaped, is that plane. -/
theorem plane1_eq (X : (⟨S3x128x32768, .f32⟩ : BufTy).Contents (Elt Ideal)) :
    shapeCast S128x32768 (extractStridedSlice S1x128x32768 ![1, 0, 0] X slices_S3x128x32768_S1x128x32768_1_0_0) shapeCasts_S1x128x32768_S128x32768 = Spec.plane 1 X := by
  funext i
  have hi0 : (i 0).val < 128 := (i 0).isLt
  have hi1 : (i 1).val < 32768 := (i 1).isLt
  rw [shapeCast_apply _ _ i (ix3 (0 : Fin 1) (i 0 : Fin 128) (i 1 : Fin 32768) : S1x128x32768.Idx) (by
    have h1 := Shape.rowMajor_val_three (d := ![1, 128, 32768]) (ix3 (0 : Fin 1) (i 0 : Fin 128) (i 1 : Fin 32768))
    have h2 := Shape.rowMajor_val_two (d := ![128, 32768]) i
    refine h1.trans (Eq.trans ?_ h2.symm)
    show ((0 : ℕ) * 128 + (i 0).val) * 32768 + (i 1).val = (i 0).val * 32768 + (i 1).val
    omega)]
  rw [extractStridedSlice_apply _ _ _ _ (ix3 (1 : Fin 3) (i 0 : Fin 128) (i 1 : Fin 32768) : S3x128x32768.Idx) (by
    intro a
    match a with
    | ⟨0, _⟩ => rfl
    | ⟨1, _⟩ => show (i 0).val = 0 + (i 0).val; omega
    | ⟨2, _⟩ => show (i 1).val = 0 + (i 1).val; omega)]
  rfl
theorem plane2_eq (X : (⟨S3x128x32768, .f32⟩ : BufTy).Contents (Elt Ideal)) :
    shapeCast S128x32768 (extractStridedSlice S1x128x32768 ![2, 0, 0] X slices_S3x128x32768_S1x128x32768_2_0_0) shapeCasts_S1x128x32768_S128x32768 = Spec.plane 2 X := by
  funext i
  have hi0 : (i 0).val < 128 := (i 0).isLt
  have hi1 : (i 1).val < 32768 := (i 1).isLt
  rw [shapeCast_apply _ _ i (ix3 (0 : Fin 1) (i 0 : Fin 128) (i 1 : Fin 32768) : S1x128x32768.Idx) (by
    have h1 := Shape.rowMajor_val_three (d := ![1, 128, 32768]) (ix3 (0 : Fin 1) (i 0 : Fin 128) (i 1 : Fin 32768))
    have h2 := Shape.rowMajor_val_two (d := ![128, 32768]) i
    refine h1.trans (Eq.trans ?_ h2.symm)
    show ((0 : ℕ) * 128 + (i 0).val) * 32768 + (i 1).val = (i 0).val * 32768 + (i 1).val
    omega)]
  rw [extractStridedSlice_apply _ _ _ _ (ix3 (2 : Fin 3) (i 0 : Fin 128) (i 1 : Fin 32768) : S3x128x32768.Idx) (by
    intro a
    match a with
    | ⟨0, _⟩ => rfl
    | ⟨1, _⟩ => show (i 0).val = 0 + (i 0).val; omega
    | ⟨2, _⟩ => show (i 1).val = 0 + (i 1).val; omega)]
  rfl

end Cert.Proof.OnKernelIdeal

end
-- ==== Proof.OnReference.Ops.lean ====
/-
  The reference's @main as a straight line of host operations, cut where the mathematics cuts it: a prologue
  (plane 0 of the argument, reshaped, and that array minus one), sixteen iterations (iteration t computes the two
  wrapped remainders of columns t and 16384 + t of plane 0 and writes them over columns t and 16384 + t of the
  running array), and an epilogue (the running array plus one; planes 1 and 2 reshaped).  The printed program runs
  seven windows in order; each window is a run of whole pieces and of one iteration's head or tail, so the whole
  program is the concatenation of the pieces.
-/
import proofs.«209894_g19731079758016_cont_8to1_1440_21_alg».proof.Proof.Gen.ReferenceIdeal
import Idealize.ShloMosaic.Lib.StableHlo.Run

set_option Elab.async false

noncomputable section

namespace Cert.Proof.OnReference

open Cert.ReferenceIdeal Cert.ReferenceIdeal.Gen Idealize.ShloMosaic Idealize.ShloMosaic.TcCoe Idealize.SL.Sem Idealize.ShloMosaic.StableHlo

variable {F : FTy → Type} [FloatOps F]

/-- The prologue: plane 0 sliced and reshaped (`main_v1`), the constant one broadcast, and `main_v3 = main_v1 - 1`. -/
def pro : List (HloOp τ sig (Elt F)) :=
  [ unary main_arg0 main_v0 ((extractStridedSlice S1x128x32768 ![0, 0, 0] · slices_S3x128x32768_S1x128x32768_0_0_0) : (⟨S3x128x32768, .f32⟩ : BufTy).Contents (Elt F) → (⟨S1x128x32768, .f32⟩ : BufTy).Contents (Elt F)),
    reshape main_v0 main_v1 rfl shapeCasts_S1x128x32768_S128x32768,
    nullary main_cst (constant S_ .f32 0x3F800000#32),
    unary main_cst main_v2 (broadcastInDim S128x32768 ![] bcast_S_S128x32768 : (⟨S_, .f32⟩ : BufTy).Contents (Elt F) → (⟨S128x32768, .f32⟩ : BufTy).Contents (Elt F)),
    binary main_v1 main_v2 main_v3 (subf : (⟨S128x32768, .f32⟩ : BufTy).Contents (Elt F) → (⟨S128x32768, .f32⟩ : BufTy).Contents (Elt F) → (⟨S128x32768, .f32⟩ : BufTy).Contents (Elt F)) ]

/-- Iteration 0: from `main_v1` the wrapped remainders of columns 0 and 16384, written over those columns of `main_v3`, giving `main_v21`. -/
def it0 : List (HloOp τ sig (Elt F)) :=
  [ unary main_v1 main_v4 ((extractStridedSlice S128x1 ![0, 0] · slices_S128x32768_S128x1_0_0) : (⟨S128x32768, .f32⟩ : BufTy).Contents (Elt F) → (⟨S128x1, .f32⟩ : BufTy).Contents (Elt F)),
    reshape main_v4 main_v5 rfl shapeCasts_S128x1_S128,
    unary main_v1 main_v6 ((extractStridedSlice S128x1 ![0, 16384] · slices_S128x32768_S128x1_0_16384) : (⟨S128x32768, .f32⟩ : BufTy).Contents (Elt F) → (⟨S128x1, .f32⟩ : BufTy).Contents (Elt F)),
    reshape main_v6 main_v7 rfl shapeCasts_S128x1_S128,
    binary main_v5 main_v7 main_v8 (addf : (⟨S128, .f32⟩ : BufTy).Contents (Elt F) → (⟨S128, .f32⟩ : BufTy).Contents (Elt F) → (⟨S128, .f32⟩ : BufTy).Contents (Elt F)),
    nullary main_c (constantI S_ 32 1024#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S128, .f32⟩) main_call0_v1) (broadcastInDim S128 ![] bcast_S_S128),
    TRef.binary (TRef.of (T := ⟨S128, .f32⟩) main_v8) (TRef.of (T := ⟨S128, .f32⟩) main_call0_v1) (TRef.of (T := ⟨S128, .f32⟩) main_call0_v2) Host.remf,
    TRef.nullary (TRef.of (T := ⟨S_, .f32⟩) main_call0_cst) (constant S_ .f32 0x00000000#32),
    TRef.unary (TRef.of (T := ⟨S_, .f32⟩) main_call0_cst) (TRef.of (T := ⟨S128, .f32⟩) main_call0_v3) (broadcastInDim S128 ![] bcast_S_S128),
    TRef.binary (TRef.of (T := ⟨S128, .f32⟩) main_call0_v2) (TRef.of (T := ⟨S128, .f32⟩) main_call0_v3) (TRef.of (T := ⟨S128, .i1⟩) main_call0_v4) (cmpf .une),
    TRef.nullary (TRef.of (T := ⟨S_, .f32⟩) main_call0_cst_0) (constant S_ .f32 0x00000000#32),
    TRef.unary (TRef.of (T := ⟨S_, .f32⟩) main_call0_cst_0) (TRef.of (T := ⟨S128, .f32⟩) main_call0_v5) (broadcastInDim S128 ![] bcast_S_S128),
    TRef.binary (TRef.of (T := ⟨S128, .f32⟩) main_call0_v2) (TRef.of (T := ⟨S128, .f32⟩) main_call0_v5) (TRef.of (T := ⟨S128, .i1⟩) main_call0_v6) (cmpf .olt),
    TRef.nullary (TRef.of (T := ⟨S_, .f32⟩) main_call0_cst_1) (constant S_ .f32 0x00000000#32),
    TRef.binary (TRef.of (T := ⟨S_, .f32⟩) main_call0_v0) (TRef.of (T := ⟨S_, .f32⟩) main_call0_cst_1) (TRef.of (T := ⟨S_, .i1⟩) main_call0_v7) (cmpf .olt),
    TRef.unary (TRef.of (T := ⟨S_, .i1⟩) main_call0_v7) (TRef.of (T := ⟨S128, .i1⟩) main_call0_v8) (broadcastInDim S128 ![] bcast_S_S128),
    TRef.binary (TRef.of (T := ⟨S128, .i1⟩) main_call0_v6) (TRef.of (T := ⟨S128, .i1⟩) main_call0_v8) (TRef.of (T := ⟨S128, .i1⟩) main_call0_v9) (cmpi .ne),
    TRef.binary (TRef.of (T := ⟨S128, .i1⟩) main_call0_v9) (TRef.of (T := ⟨S128, .i1⟩) main_call0_v4) (TRef.of (T := ⟨S128, .i1⟩) main_call0_v10) andi,
    TRef.unary (TRef.of (T := ⟨S_, .f32⟩) main_call0_v0) (TRef.of (T := ⟨S128, .f32⟩) main_call0_v11) (broadcastInDim S128 ![] bcast_S_S128),
    TRef.binary (TRef.of (T := ⟨S128, .f32⟩) main_call0_v2) (TRef.of (T := ⟨S128, .f32⟩) main_call0_v11) (TRef.of (T := ⟨S128, .f32⟩) main_call0_v12) addf,
    TRef.ternary (TRef.of (T := ⟨S128, .i1⟩) main_call0_v10) (TRef.of (T := ⟨S128, .f32⟩) main_call0_v12) (TRef.of (T := ⟨S128, .f32⟩) main_call0_v2) (TRef.of (T := ⟨S128, .f32⟩) main_v9) select,
    unary main_v1 main_v10 ((extractStridedSlice S128x1 ![0, 0] · slices_S128x32768_S128x1_0_0) : (⟨S128x32768, .f32⟩ : BufTy).Contents (Elt F) → (⟨S128x1, .f32⟩ : BufTy).Contents (Elt F)),
    reshape main_v10 main_v11 rfl shapeCasts_S128x1_S128,
    nullary main_cst_0 (constant S_ .f32 0x44800000#32),
    unary main_cst_0 main_v12 (broadcastInDim S128 ![] bcast_S_S128 : (⟨S_, .f32⟩ : BufTy).Contents (Elt F) → (⟨S128, .f32⟩ : BufTy).Contents (Elt F)),
    binary main_v12 main_v11 main_v13 (addf : (⟨S128, .f32⟩ : BufTy).Contents (Elt F) → (⟨S128, .f32⟩ : BufTy).Contents (Elt F) → (⟨S128, .f32⟩ : BufTy).Contents (Elt F)),
    unary main_v1 main_v14 ((extractStridedSlice S128x1 ![0, 16384] · slices_S128x32768_S128x1_0_16384) : (⟨S128x32768, .f32⟩ : BufTy).Contents (Elt F) → (⟨S128x1, .f32⟩ : BufTy).Contents (Elt F)),
    reshape main_v14 main_v15 rfl shapeCasts_S128x1_S128,
    binary main_v13 main_v15 main_v16 (subf : (⟨S128, .f32⟩ : BufTy).Contents (Elt F) → (⟨S128, .f32⟩ : BufTy).Contents (Elt F) → (⟨S128, .f32⟩ : BufTy).Contents (Elt F)),
    nullary main_c_1 (constantI S_ 32 1024#32),
    TRef.unary (TRef.of (T := ⟨S_, .i32⟩) main_c_1) (TRef.of (T := ⟨S_, .f32⟩) main_call1_v0) (sitofp .f32),
    TRef.unary (TRef.of (T := ⟨S_, .f32⟩) main_call1_v0) (TRef.of (T := ⟨S128, .f32⟩) main_call1_v1) (broadcastInDim S128 ![] bcast_S_S128),
    TRef.binary (TRef.of (T := ⟨S128, .f32⟩) main_v16) (TRef.of (T := ⟨S128, .f32⟩) main_call1_v1) (TRef.of (T := ⟨S128, .f32⟩) main_call1_v2) Host.remf,
    TRef.nullary (TRef.of (T := ⟨S_, .f32⟩) main_call1_cst) (constant S_ .f32 0x00000000#32),
    TRef.unary (TRef.of (T := ⟨S_, .f32⟩) main_call1_cst) (TRef.of (T := ⟨S128, .f32⟩) main_call1_v3) (broadcastInDim S128 ![] bcast_S_S128),
    TRef.binary (TRef.of (T := ⟨S128, .f32⟩) main_call1_v2) (TRef.of (T := ⟨S128, .f32⟩) main_call1_v3) (TRef.of (T := ⟨S128, .i1⟩) main_call1_v4) (cmpf .une),
    TRef.nullary (TRef.of (T := ⟨S_, .f32⟩) main_call1_cst_0) (constant S_ .f32 0x00000000#32),
    TRef.unary (TRef.of (T := ⟨S_, .f32⟩) main_call1_cst_0) (TRef.of (T := ⟨S128, .f32⟩) main_call1_v5) (broadcastInDim S128 ![] bcast_S_S128),
    TRef.binary (TRef.of (T := ⟨S128, .f32⟩) main_call1_v2) (TRef.of (T := ⟨S128, .f32⟩) main_call1_v5) (TRef.of (T := ⟨S128, .i1⟩) main_call1_v6) (cmpf .olt),
    TRef.nullary (TRef.of (T := ⟨S_, .f32⟩) main_call1_cst_1) (constant S_ .f32 0x00000000#32),
    TRef.binary (TRef.of (T := ⟨S_, .f32⟩) main_call1_v0) (TRef.of (T := ⟨S_, .f32⟩) main_call1_cst_1) (TRef.of (T := ⟨S_, .i1⟩) main_call1_v7) (cmpf .olt),
    TRef.unary (TRef.of (T := ⟨S_, .i1⟩) main_call1_v7) (TRef.of (T := ⟨S128, .i1⟩) main_call1_v8) (broadcastInDim S128 ![] bcast_S_S128),
    TRef.binary (TRef.of (T := ⟨S128, .i1⟩) main_call1_v6) (TRef.of (T := ⟨S128, .i1⟩) main_call1_v8) (TRef.of (T := ⟨S128, .i1⟩) main_call1_v9) (cmpi .ne),
    TRef.binary (TRef.of (T := ⟨S128, .i1⟩) main_call1_v9) (TRef.of (T := ⟨S128, .i1⟩) main_call1_v4) (TRef.of (T := ⟨S128, .i1⟩) main_call1_v10) andi,
    TRef.unary (TRef.of (T := ⟨S_, .f32⟩) main_call1_v0) (TRef.of (T := ⟨S128, .f32⟩) main_call1_v11) (broadcastInDim S128 ![] bcast_S_S128),
    TRef.binary (TRef.of (T := ⟨S128, .f32⟩) main_call1_v2) (TRef.of (T := ⟨S128, .f32⟩) main_call1_v11) (TRef.of (T := ⟨S128, .f32⟩) main_call1_v12) addf,
    TRef.ternary (TRef.of (T := ⟨S128, .i1⟩) main_call1_v10) (TRef.of (T := ⟨S128, .f32⟩) main_call1_v12) (TRef.of (T := ⟨S128, .f32⟩) main_call1_v2) (TRef.of (T := ⟨S128, .f32⟩) main_v17) select,
    nullary main_c_2 (constantI S_ 32 0#32),
    unary main_c_2 main_v18 (broadcastInDim S1 ![] bcast_S_S1 : (⟨S_, .i32⟩ : BufTy).Contents (Elt F) → (⟨S1, .i32⟩ : BufTy).Contents (Elt F)),
    ternary main_v3 main_v18 main_v9 main_v19 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_3 (constantI S_ 32 16384#32),
    unary main_c_3 main_v20 (broadcastInDim S1 ![] bcast_S_S1 : (⟨S_, .i32⟩ : BufTy).Contents (Elt F) → (⟨S1, .i32⟩ : BufTy).Contents (Elt F)),
    ternary main_v19 main_v20 main_v17 main_v21 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 1: from `main_v1` the wrapped remainders of columns 1 and 16385, written over those columns of `main_v21`, giving `main_v39`. -/
def it1 : List (HloOp τ sig (Elt F)) :=
  [ unary main_v1 main_v22 ((extractStridedSlice S128x1 ![0, 1] · slices_S128x32768_S128x1_0_1) : (⟨S128x32768, .f32⟩ : BufTy).Contents (Elt F) → (⟨S128x1, .f32⟩ : BufTy).Contents (Elt F)),
    reshape main_v22 main_v23 rfl shapeCasts_S128x1_S128,
    unary main_v1 main_v24 ((extractStridedSlice S128x1 ![0, 16385] · slices_S128x32768_S128x1_0_16385) : (⟨S128x32768, .f32⟩ : BufTy).Contents (Elt F) → (⟨S128x1, .f32⟩ : BufTy).Contents (Elt F)),
    reshape main_v24 main_v25 rfl shapeCasts_S128x1_S128,
    binary main_v23 main_v25 main_v26 (addf : (⟨S128, .f32⟩ : BufTy).Contents (Elt F) → (⟨S128, .f32⟩ : BufTy).Contents (Elt F) → (⟨S128, .f32⟩ : BufTy).Contents (Elt F)),
    nullary main_c_4 (constantI S_ 32 1024#32),
    TRef.unary (TRef.of (T := ⟨S_, .i32⟩) main_c_4) (TRef.of (T := ⟨S_, .f32⟩) main_call2_v0) (sitofp .f32),
    TRef.unary (TRef.of (T := ⟨S_, .f32⟩) main_call2_v0) (TRef.of (T := ⟨S128, .f32⟩) main_call2_v1) (broadcastInDim S128 ![] bcast_S_S128),
    TRef.binary (TRef.of (T := ⟨S128, .f32⟩) main_v26) (TRef.of (T := ⟨S128, .f32⟩) main_call2_v1) (TRef.of (T := ⟨S128, .f32⟩) main_call2_v2) Host.remf,
    TRef.nullary (TRef.of (T := ⟨S_, .f32⟩) main_call2_cst) (constant S_ .f32 0x00000000#32),
    TRef.unary (TRef.of (T := ⟨S_, .f32⟩) main_call2_cst) (TRef.of (T := ⟨S128, .f32⟩) main_call2_v3) (broadcastInDim S128 ![] bcast_S_S128),
    TRef.binary (TRef.of (T := ⟨S128, .f32⟩) main_call2_v2) (TRef.of (T := ⟨S128, .f32⟩) main_call2_v3) (TRef.of (T := ⟨S128, .i1⟩) main_call2_v4) (cmpf .une),
    TRef.nullary (TRef.of (T := ⟨S_, .f32⟩) main_call2_cst_0) (constant S_ .f32 0x00000000#32),
    TRef.unary (TRef.of (T := ⟨S_, .f32⟩) main_call2_cst_0) (TRef.of (T := ⟨S128, .f32⟩) main_call2_v5) (broadcastInDim S128 ![] bcast_S_S128),
    TRef.binary (TRef.of (T := ⟨S128, .f32⟩) main_call2_v2) (TRef.of (T := ⟨S128, .f32⟩) main_call2_v5) (TRef.of (T := ⟨S128, .i1⟩) main_call2_v6) (cmpf .olt),
    TRef.nullary (TRef.of (T := ⟨S_, .f32⟩) main_call2_cst_1) (constant S_ .f32 0x00000000#32),
    TRef.binary (TRef.of (T := ⟨S_, .f32⟩) main_call2_v0) (TRef.of (T := ⟨S_, .f32⟩) main_call2_cst_1) (TRef.of (T := ⟨S_, .i1⟩) main_call2_v7) (cmpf .olt),
    TRef.unary (TRef.of (T := ⟨S_, .i1⟩) main_call2_v7) (TRef.of (T := ⟨S128, .i1⟩) main_call2_v8) (broadcastInDim S128 ![] bcast_S_S128),
    TRef.binary (TRef.of (T := ⟨S128, .i1⟩) main_call2_v6) (TRef.of (T := ⟨S128, .i1⟩) main_call2_v8) (TRef.of (T := ⟨S128, .i1⟩) main_call2_v9) (cmpi .ne),
    TRef.binary (TRef.of (T := ⟨S128, .i1⟩) main_call2_v9) (TRef.of (T := ⟨S128, .i1⟩) main_call2_v4) (TRef.of (T := ⟨S128, .i1⟩) main_call2_v10) andi,
    TRef.unary (TRef.of (T := ⟨S_, .f32⟩) main_call2_v0) (TRef.of (T := ⟨S128, .f32⟩) main_call2_v11) (broadcastInDim S128 ![] bcast_S_S128),
    TRef.binary (TRef.of (T := ⟨S128, .f32⟩) main_call2_v2) (TRef.of (T := ⟨S128, .f32⟩) main_call2_v11) (TRef.of (T := ⟨S128, .f32⟩) main_call2_v12) addf,
    TRef.ternary (TRef.of (T := ⟨S128, .i1⟩) main_call2_v10) (TRef.of (T := ⟨S128, .f32⟩) main_call2_v12) (TRef.of (T := ⟨S128, .f32⟩) main_call2_v2) (TRef.of (T := ⟨S128, .f32⟩) main_v27) select,
    unary main_v1 main_v28 ((extractStridedSlice S128x1 ![0, 1] · slices_S128x32768_S128x1_0_1) : (⟨S128x32768, .f32⟩ : BufTy).Contents (Elt F) → (⟨S128x1, .f32⟩ : BufTy).Contents (Elt F)),
    reshape main_v28 main_v29 rfl shapeCasts_S128x1_S128,
    nullary main_cst_5 (constant S_ .f32 0x44800000#32),
    unary main_cst_5 main_v30 (broadcastInDim S128 ![] bcast_S_S128 : (⟨S_, .f32⟩ : BufTy).Contents (Elt F) → (⟨S128, .f32⟩ : BufTy).Contents (Elt F)),
    binary main_v30 main_v29 main_v31 (addf : (⟨S128, .f32⟩ : BufTy).Contents (Elt F) → (⟨S128, .f32⟩ : BufTy).Contents (Elt F) → (⟨S128, .f32⟩ : BufTy).Contents (Elt F)),
    unary main_v1 main_v32 ((extractStridedSlice S128x1 ![0, 16385] · slices_S128x32768_S128x1_0_16385) : (⟨S128x32768, .f32⟩ : BufTy).Contents (Elt F) → (⟨S128x1, .f32⟩ : BufTy).Contents (Elt F)),
    reshape main_v32 main_v33 rfl shapeCasts_S128x1_S128,
    binary main_v31 main_v33 main_v34 (subf : (⟨S128, .f32⟩ : BufTy).Contents (Elt F) → (⟨S128, .f32⟩ : BufTy).Contents (Elt F) → (⟨S128, .f32⟩ : BufTy).Contents (Elt F)),
    nullary main_c_6 (constantI S_ 32 1024#32),
    TRef.unary (TRef.of (T := ⟨S_, .i32⟩) main_c_6) (TRef.of (T := ⟨S_, .f32⟩) main_call3_v0) (sitofp .f32),
    TRef.unary (TRef.of (T := ⟨S_, .f32⟩) main_call3_v0) (TRef.of (T := ⟨S128, .f32⟩) main_call3_v1) (broadcastInDim S128 ![] bcast_S_S128),
    TRef.binary (TRef.of (T := ⟨S128, .f32⟩) main_v34) (TRef.of (T := ⟨S128, .f32⟩) main_call3_v1) (TRef.of (T := ⟨S128, .f32⟩) main_call3_v2) Host.remf,
    TRef.nullary (TRef.of (T := ⟨S_, .f32⟩) main_call3_cst) (constant S_ .f32 0x00000000#32),
    TRef.unary (TRef.of (T := ⟨S_, .f32⟩) main_call3_cst) (TRef.of (T := ⟨S128, .f32⟩) main_call3_v3) (broadcastInDim S128 ![] bcast_S_S128),
    TRef.binary (TRef.of (T := ⟨S128, .f32⟩) main_call3_v2) (TRef.of (T := ⟨S128, .f32⟩) main_call3_v3) (TRef.of (T := ⟨S128, .i1⟩) main_call3_v4) (cmpf .une),
    TRef.nullary (TRef.of (T := ⟨S_, .f32⟩) main_call3_cst_0) (constant S_ .f32 0x00000000#32),
    TRef.unary (TRef.of (T := ⟨S_, .f32⟩) main_call3_cst_0) (TRef.of (T := ⟨S128, .f32⟩) main_call3_v5) (broadcastInDim S128 ![] bcast_S_S128),
    TRef.binary (TRef.of (T := ⟨S128, .f32⟩) main_call3_v2) (TRef.of (T := ⟨S128, .f32⟩) main_call3_v5) (TRef.of (T := ⟨S128, .i1⟩) main_call3_v6) (cmpf .olt),
    TRef.nullary (TRef.of (T := ⟨S_, .f32⟩) main_call3_cst_1) (constant S_ .f32 0x00000000#32),
    TRef.binary (TRef.of (T := ⟨S_, .f32⟩) main_call3_v0) (TRef.of (T := ⟨S_, .f32⟩) main_call3_cst_1) (TRef.of (T := ⟨S_, .i1⟩) main_call3_v7) (cmpf .olt),
    TRef.unary (TRef.of (T := ⟨S_, .i1⟩) main_call3_v7) (TRef.of (T := ⟨S128, .i1⟩) main_call3_v8) (broadcastInDim S128 ![] bcast_S_S128),
    TRef.binary (TRef.of (T := ⟨S128, .i1⟩) main_call3_v6) (TRef.of (T := ⟨S128, .i1⟩) main_call3_v8) (TRef.of (T := ⟨S128, .i1⟩) main_call3_v9) (cmpi .ne),
    TRef.binary (TRef.of (T := ⟨S128, .i1⟩) main_call3_v9) (TRef.of (T := ⟨S128, .i1⟩) main_call3_v4) (TRef.of (T := ⟨S128, .i1⟩) main_call3_v10) andi,
    TRef.unary (TRef.of (T := ⟨S_, .f32⟩) main_call3_v0) (TRef.of (T := ⟨S128, .f32⟩) main_call3_v11) (broadcastInDim S128 ![] bcast_S_S128),
    TRef.binary (TRef.of (T := ⟨S128, .f32⟩) main_call3_v2) (TRef.of (T := ⟨S128, .f32⟩) main_call3_v11) (TRef.of (T := ⟨S128, .f32⟩) main_call3_v12) addf,
    TRef.ternary (TRef.of (T := ⟨S128, .i1⟩) main_call3_v10) (TRef.of (T := ⟨S128, .f32⟩) main_call3_v12) (TRef.of (T := ⟨S128, .f32⟩) main_call3_v2) (TRef.of (T := ⟨S128, .f32⟩) main_v35) select,
    nullary main_c_7 (constantI S_ 32 1#32),
    unary main_c_7 main_v36 (broadcastInDim S1 ![] bcast_S_S1 : (⟨S_, .i32⟩ : BufTy).Contents (Elt F) → (⟨S1, .i32⟩ : BufTy).Contents (Elt F)),
    ternary main_v21 main_v36 main_v27 main_v37 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_8 (constantI S_ 32 16385#32),
    unary main_c_8 main_v38 (broadcastInDim S1 ![] bcast_S_S1 : (⟨S_, .i32⟩ : BufTy).Contents (Elt F) → (⟨S1, .i32⟩ : BufTy).Contents (Elt F)),
    ternary main_v37 main_v38 main_v35 main_v39 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 2: from `main_v1` the wrapped remainders of columns 2 and 16386, written over those columns of `main_v39`, giving `main_v57`. -/
def it2 : List (HloOp τ sig (Elt F)) :=
  [ unary main_v1 main_v40 ((extractStridedSlice S128x1 ![0, 2] · slices_S128x32768_S128x1_0_2) : (⟨S128x32768, .f32⟩ : BufTy).Contents (Elt F) → (⟨S128x1, .f32⟩ : BufTy).Contents (Elt F)),
    reshape main_v40 main_v41 rfl shapeCasts_S128x1_S128,
    unary main_v1 main_v42 ((extractStridedSlice S128x1 ![0, 16386] · slices_S128x32768_S128x1_0_16386) : (⟨S128x32768, .f32⟩ : BufTy).Contents (Elt F) → (⟨S128x1, .f32⟩ : BufTy).Contents (Elt F)),
    reshape main_v42 main_v43 rfl shapeCasts_S128x1_S128,
    binary main_v41 main_v43 main_v44 (addf : (⟨S128, .f32⟩ : BufTy).Contents (Elt F) → (⟨S128, .f32⟩ : BufTy).Contents (Elt F) → (⟨S128, .f32⟩ : BufTy).Contents (Elt F)),
    nullary main_c_9 (constantI S_ 32 1024#32),
    TRef.unary (TRef.of (T := ⟨S_, .i32⟩) main_c_9) (TRef.of (T := ⟨S_, .f32⟩) main_call4_v0) (sitofp .f32),
    TRef.unary (TRef.of (T := ⟨S_, .f32⟩) main_call4_v0) (TRef.of (T := ⟨S128, .f32⟩) main_call4_v1) (broadcastInDim S128 ![] bcast_S_S128),
    TRef.binary (TRef.of (T := ⟨S128, .f32⟩) main_v44) (TRef.of (T := ⟨S128, .f32⟩) main_call4_v1) (TRef.of (T := ⟨S128, .f32⟩) main_call4_v2) Host.remf,
    TRef.nullary (TRef.of (T := ⟨S_, .f32⟩) main_call4_cst) (constant S_ .f32 0x00000000#32),
    TRef.unary (TRef.of (T := ⟨S_, .f32⟩) main_call4_cst) (TRef.of (T := ⟨S128, .f32⟩) main_call4_v3) (broadcastInDim S128 ![] bcast_S_S128),
    TRef.binary (TRef.of (T := ⟨S128, .f32⟩) main_call4_v2) (TRef.of (T := ⟨S128, .f32⟩) main_call4_v3) (TRef.of (T := ⟨S128, .i1⟩) main_call4_v4) (cmpf .une),
    TRef.nullary (TRef.of (T := ⟨S_, .f32⟩) main_call4_cst_0) (constant S_ .f32 0x00000000#32),
    TRef.unary (TRef.of (T := ⟨S_, .f32⟩) main_call4_cst_0) (TRef.of (T := ⟨S128, .f32⟩) main_call4_v5) (broadcastInDim S128 ![] bcast_S_S128),
    TRef.binary (TRef.of (T := ⟨S128, .f32⟩) main_call4_v2) (TRef.of (T := ⟨S128, .f32⟩) main_call4_v5) (TRef.of (T := ⟨S128, .i1⟩) main_call4_v6) (cmpf .olt),
    TRef.nullary (TRef.of (T := ⟨S_, .f32⟩) main_call4_cst_1) (constant S_ .f32 0x00000000#32),
    TRef.binary (TRef.of (T := ⟨S_, .f32⟩) main_call4_v0) (TRef.of (T := ⟨S_, .f32⟩) main_call4_cst_1) (TRef.of (T := ⟨S_, .i1⟩) main_call4_v7) (cmpf .olt),
    TRef.unary (TRef.of (T := ⟨S_, .i1⟩) main_call4_v7) (TRef.of (T := ⟨S128, .i1⟩) main_call4_v8) (broadcastInDim S128 ![] bcast_S_S128),
    TRef.binary (TRef.of (T := ⟨S128, .i1⟩) main_call4_v6) (TRef.of (T := ⟨S128, .i1⟩) main_call4_v8) (TRef.of (T := ⟨S128, .i1⟩) main_call4_v9) (cmpi .ne),
    TRef.binary (TRef.of (T := ⟨S128, .i1⟩) main_call4_v9) (TRef.of (T := ⟨S128, .i1⟩) main_call4_v4) (TRef.of (T := ⟨S128, .i1⟩) main_call4_v10) andi,
    TRef.unary (TRef.of (T := ⟨S_, .f32⟩) main_call4_v0) (TRef.of (T := ⟨S128, .f32⟩) main_call4_v11) (broadcastInDim S128 ![] bcast_S_S128),
    TRef.binary (TRef.of (T := ⟨S128, .f32⟩) main_call4_v2) (TRef.of (T := ⟨S128, .f32⟩) main_call4_v11) (TRef.of (T := ⟨S128, .f32⟩) main_call4_v12) addf,
    TRef.ternary (TRef.of (T := ⟨S128, .i1⟩) main_call4_v10) (TRef.of (T := ⟨S128, .f32⟩) main_call4_v12) (TRef.of (T := ⟨S128, .f32⟩) main_call4_v2) (TRef.of (T := ⟨S128, .f32⟩) main_v45) select,
    unary main_v1 main_v46 ((extractStridedSlice S128x1 ![0, 2] · slices_S128x32768_S128x1_0_2) : (⟨S128x32768, .f32⟩ : BufTy).Contents (Elt F) → (⟨S128x1, .f32⟩ : BufTy).Contents (Elt F)),
    reshape main_v46 main_v47 rfl shapeCasts_S128x1_S128,
    nullary main_cst_10 (constant S_ .f32 0x44800000#32),
    unary main_cst_10 main_v48 (broadcastInDim S128 ![] bcast_S_S128 : (⟨S_, .f32⟩ : BufTy).Contents (Elt F) → (⟨S128, .f32⟩ : BufTy).Contents (Elt F)),
    binary main_v48 main_v47 main_v49 (addf : (⟨S128, .f32⟩ : BufTy).Contents (Elt F) → (⟨S128, .f32⟩ : BufTy).Contents (Elt F) → (⟨S128, .f32⟩ : BufTy).Contents (Elt F)),
    unary main_v1 main_v50 ((extractStridedSlice S128x1 ![0, 16386] · slices_S128x32768_S128x1_0_16386) : (⟨S128x32768, .f32⟩ : BufTy).Contents (Elt F) → (⟨S128x1, .f32⟩ : BufTy).Contents (Elt F)),
    reshape main_v50 main_v51 rfl shapeCasts_S128x1_S128,
    binary main_v49 main_v51 main_v52 (subf : (⟨S128, .f32⟩ : BufTy).Contents (Elt F) → (⟨S128, .f32⟩ : BufTy).Contents (Elt F) → (⟨S128, .f32⟩ : BufTy).Contents (Elt F)),
    nullary main_c_11 (constantI S_ 32 1024#32),
    TRef.unary (TRef.of (T := ⟨S_, .i32⟩) main_c_11) (TRef.of (T := ⟨S_, .f32⟩) main_call5_v0) (sitofp .f32),
    TRef.unary (TRef.of (T := ⟨S_, .f32⟩) main_call5_v0) (TRef.of (T := ⟨S128, .f32⟩) main_call5_v1) (broadcastInDim S128 ![] bcast_S_S128),
    TRef.binary (TRef.of (T := ⟨S128, .f32⟩) main_v52) (TRef.of (T := ⟨S128, .f32⟩) main_call5_v1) (TRef.of (T := ⟨S128, .f32⟩) main_call5_v2) Host.remf,
    TRef.nullary (TRef.of (T := ⟨S_, .f32⟩) main_call5_cst) (constant S_ .f32 0x00000000#32),
    TRef.unary (TRef.of (T := ⟨S_, .f32⟩) main_call5_cst) (TRef.of (T := ⟨S128, .f32⟩) main_call5_v3) (broadcastInDim S128 ![] bcast_S_S128),
    TRef.binary (TRef.of (T := ⟨S128, .f32⟩) main_call5_v2) (TRef.of (T := ⟨S128, .f32⟩) main_call5_v3) (TRef.of (T := ⟨S128, .i1⟩) main_call5_v4) (cmpf .une),
    TRef.nullary (TRef.of (T := ⟨S_, .f32⟩) main_call5_cst_0) (constant S_ .f32 0x00000000#32),
    TRef.unary (TRef.of (T := ⟨S_, .f32⟩) main_call5_cst_0) (TRef.of (T := ⟨S128, .f32⟩) main_call5_v5) (broadcastInDim S128 ![] bcast_S_S128),
    TRef.binary (TRef.of (T := ⟨S128, .f32⟩) main_call5_v2) (TRef.of (T := ⟨S128, .f32⟩) main_call5_v5) (TRef.of (T := ⟨S128, .i1⟩) main_call5_v6) (cmpf .olt),
    TRef.nullary (TRef.of (T := ⟨S_, .f32⟩) main_call5_cst_1) (constant S_ .f32 0x00000000#32),
    TRef.binary (TRef.of (T := ⟨S_, .f32⟩) main_call5_v0) (TRef.of (T := ⟨S_, .f32⟩) main_call5_cst_1) (TRef.of (T := ⟨S_, .i1⟩) main_call5_v7) (cmpf .olt),
    TRef.unary (TRef.of (T := ⟨S_, .i1⟩) main_call5_v7) (TRef.of (T := ⟨S128, .i1⟩) main_call5_v8) (broadcastInDim S128 ![] bcast_S_S128),
    TRef.binary (TRef.of (T := ⟨S128, .i1⟩) main_call5_v6) (TRef.of (T := ⟨S128, .i1⟩) main_call5_v8) (TRef.of (T := ⟨S128, .i1⟩) main_call5_v9) (cmpi .ne),
    TRef.binary (TRef.of (T := ⟨S128, .i1⟩) main_call5_v9) (TRef.of (T := ⟨S128, .i1⟩) main_call5_v4) (TRef.of (T := ⟨S128, .i1⟩) main_call5_v10) andi,
    TRef.unary (TRef.of (T := ⟨S_, .f32⟩) main_call5_v0) (TRef.of (T := ⟨S128, .f32⟩) main_call5_v11) (broadcastInDim S128 ![] bcast_S_S128),
    TRef.binary (TRef.of (T := ⟨S128, .f32⟩) main_call5_v2) (TRef.of (T := ⟨S128, .f32⟩) main_call5_v11) (TRef.of (T := ⟨S128, .f32⟩) main_call5_v12) addf,
    TRef.ternary (TRef.of (T := ⟨S128, .i1⟩) main_call5_v10) (TRef.of (T := ⟨S128, .f32⟩) main_call5_v12) (TRef.of (T := ⟨S128, .f32⟩) main_call5_v2) (TRef.of (T := ⟨S128, .f32⟩) main_v53) select,
    nullary main_c_12 (constantI S_ 32 2#32),
    unary main_c_12 main_v54 (broadcastInDim S1 ![] bcast_S_S1 : (⟨S_, .i32⟩ : BufTy).Contents (Elt F) → (⟨S1, .i32⟩ : BufTy).Contents (Elt F)),
    ternary main_v39 main_v54 main_v45 main_v55 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_13 (constantI S_ 32 16386#32),
    unary main_c_13 main_v56 (broadcastInDim S1 ![] bcast_S_S1 : (⟨S_, .i32⟩ : BufTy).Contents (Elt F) → (⟨S1, .i32⟩ : BufTy).Contents (Elt F)),
    ternary main_v55 main_v56 main_v53 main_v57 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 3: from `main_v1` the wrapped remainders of columns 3 and 16387, written over those columns of `main_v57`, giving `main_v75`. -/
def it3 : List (HloOp τ sig (Elt F)) :=
  [ unary main_v1 main_v58 ((extractStridedSlice S128x1 ![0, 3] · slices_S128x32768_S128x1_0_3) : (⟨S128x32768, .f32⟩ : BufTy).Contents (Elt F) → (⟨S128x1, .f32⟩ : BufTy).Contents (Elt F)),
    reshape main_v58 main_v59 rfl shapeCasts_S128x1_S128,
    unary main_v1 main_v60 ((extractStridedSlice S128x1 ![0, 16387] · slices_S128x32768_S128x1_0_16387) : (⟨S128x32768, .f32⟩ : BufTy).Contents (Elt F) → (⟨S128x1, .f32⟩ : BufTy).Contents (Elt F)),
    reshape main_v60 main_v61 rfl shapeCasts_S128x1_S128,
    binary main_v59 main_v61 main_v62 (addf : (⟨S128, .f32⟩ : BufTy).Contents (Elt F) → (⟨S128, .f32⟩ : BufTy).Contents (Elt F) → (⟨S128, .f32⟩ : BufTy).Contents (Elt F)),
    nullary main_c_14 (constantI S_ 32 1024#32),
    TRef.unary (TRef.of (T := ⟨S_, .i32⟩) main_c_14) (TRef.of (T := ⟨S_, .f32⟩) main_call6_v0) (sitofp .f32),
    TRef.unary (TRef.of (T := ⟨S_, .f32⟩) main_call6_v0) (TRef.of (T := ⟨S128, .f32⟩) main_call6_v1) (broadcastInDim S128 ![] bcast_S_S128),
    TRef.binary (TRef.of (T := ⟨S128, .f32⟩) main_v62) (TRef.of (T := ⟨S128, .f32⟩) main_call6_v1) (TRef.of (T := ⟨S128, .f32⟩) main_call6_v2) Host.remf,
    TRef.nullary (TRef.of (T := ⟨S_, .f32⟩) main_call6_cst) (constant S_ .f32 0x00000000#32),
    TRef.unary (TRef.of (T := ⟨S_, .f32⟩) main_call6_cst) (TRef.of (T := ⟨S128, .f32⟩) main_call6_v3) (broadcastInDim S128 ![] bcast_S_S128),
    TRef.binary (TRef.of (T := ⟨S128, .f32⟩) main_call6_v2) (TRef.of (T := ⟨S128, .f32⟩) main_call6_v3) (TRef.of (T := ⟨S128, .i1⟩) main_call6_v4) (cmpf .une),
    TRef.nullary (TRef.of (T := ⟨S_, .f32⟩) main_call6_cst_0) (constant S_ .f32 0x00000000#32),
    TRef.unary (TRef.of (T := ⟨S_, .f32⟩) main_call6_cst_0) (TRef.of (T := ⟨S128, .f32⟩) main_call6_v5) (broadcastInDim S128 ![] bcast_S_S128),
    TRef.binary (TRef.of (T := ⟨S128, .f32⟩) main_call6_v2) (TRef.of (T := ⟨S128, .f32⟩) main_call6_v5) (TRef.of (T := ⟨S128, .i1⟩) main_call6_v6) (cmpf .olt),
    TRef.nullary (TRef.of (T := ⟨S_, .f32⟩) main_call6_cst_1) (constant S_ .f32 0x00000000#32),
    TRef.binary (TRef.of (T := ⟨S_, .f32⟩) main_call6_v0) (TRef.of (T := ⟨S_, .f32⟩) main_call6_cst_1) (TRef.of (T := ⟨S_, .i1⟩) main_call6_v7) (cmpf .olt),
    TRef.unary (TRef.of (T := ⟨S_, .i1⟩) main_call6_v7) (TRef.of (T := ⟨S128, .i1⟩) main_call6_v8) (broadcastInDim S128 ![] bcast_S_S128),
    TRef.binary (TRef.of (T := ⟨S128, .i1⟩) main_call6_v6) (TRef.of (T := ⟨S128, .i1⟩) main_call6_v8) (TRef.of (T := ⟨S128, .i1⟩) main_call6_v9) (cmpi .ne),
    TRef.binary (TRef.of (T := ⟨S128, .i1⟩) main_call6_v9) (TRef.of (T := ⟨S128, .i1⟩) main_call6_v4) (TRef.of (T := ⟨S128, .i1⟩) main_call6_v10) andi,
    TRef.unary (TRef.of (T := ⟨S_, .f32⟩) main_call6_v0) (TRef.of (T := ⟨S128, .f32⟩) main_call6_v11) (broadcastInDim S128 ![] bcast_S_S128),
    TRef.binary (TRef.of (T := ⟨S128, .f32⟩) main_call6_v2) (TRef.of (T := ⟨S128, .f32⟩) main_call6_v11) (TRef.of (T := ⟨S128, .f32⟩) main_call6_v12) addf,
    TRef.ternary (TRef.of (T := ⟨S128, .i1⟩) main_call6_v10) (TRef.of (T := ⟨S128, .f32⟩) main_call6_v12) (TRef.of (T := ⟨S128, .f32⟩) main_call6_v2) (TRef.of (T := ⟨S128, .f32⟩) main_v63) select,
    unary main_v1 main_v64 ((extractStridedSlice S128x1 ![0, 3] · slices_S128x32768_S128x1_0_3) : (⟨S128x32768, .f32⟩ : BufTy).Contents (Elt F) → (⟨S128x1, .f32⟩ : BufTy).Contents (Elt F)),
    reshape main_v64 main_v65 rfl shapeCasts_S128x1_S128,
    nullary main_cst_15 (constant S_ .f32 0x44800000#32),
    unary main_cst_15 main_v66 (broadcastInDim S128 ![] bcast_S_S128 : (⟨S_, .f32⟩ : BufTy).Contents (Elt F) → (⟨S128, .f32⟩ : BufTy).Contents (Elt F)),
    binary main_v66 main_v65 main_v67 (addf : (⟨S128, .f32⟩ : BufTy).Contents (Elt F) → (⟨S128, .f32⟩ : BufTy).Contents (Elt F) → (⟨S128, .f32⟩ : BufTy).Contents (Elt F)),
    unary main_v1 main_v68 ((extractStridedSlice S128x1 ![0, 16387] · slices_S128x32768_S128x1_0_16387) : (⟨S128x32768, .f32⟩ : BufTy).Contents (Elt F) → (⟨S128x1, .f32⟩ : BufTy).Contents (Elt F)),
    reshape main_v68 main_v69 rfl shapeCasts_S128x1_S128,
    binary main_v67 main_v69 main_v70 (subf : (⟨S128, .f32⟩ : BufTy).Contents (Elt F) → (⟨S128, .f32⟩ : BufTy).Contents (Elt F) → (⟨S128, .f32⟩ : BufTy).Contents (Elt F)),
    nullary main_c_16 (constantI S_ 32 1024#32),
    TRef.unary (TRef.of (T := ⟨S_, .i32⟩) main_c_16) (TRef.of (T := ⟨S_, .f32⟩) main_call7_v0) (sitofp .f32),
    TRef.unary (TRef.of (T := ⟨S_, .f32⟩) main_call7_v0) (TRef.of (T := ⟨S128, .f32⟩) main_call7_v1) (broadcastInDim S128 ![] bcast_S_S128),
    TRef.binary (TRef.of (T := ⟨S128, .f32⟩) main_v70) (TRef.of (T := ⟨S128, .f32⟩) main_call7_v1) (TRef.of (T := ⟨S128, .f32⟩) main_call7_v2) Host.remf,
    TRef.nullary (TRef.of (T := ⟨S_, .f32⟩) main_call7_cst) (constant S_ .f32 0x00000000#32),
    TRef.unary (TRef.of (T := ⟨S_, .f32⟩) main_call7_cst) (TRef.of (T := ⟨S128, .f32⟩) main_call7_v3) (broadcastInDim S128 ![] bcast_S_S128),
    TRef.binary (TRef.of (T := ⟨S128, .f32⟩) main_call7_v2) (TRef.of (T := ⟨S128, .f32⟩) main_call7_v3) (TRef.of (T := ⟨S128, .i1⟩) main_call7_v4) (cmpf .une),
    TRef.nullary (TRef.of (T := ⟨S_, .f32⟩) main_call7_cst_0) (constant S_ .f32 0x00000000#32),
    TRef.unary (TRef.of (T := ⟨S_, .f32⟩) main_call7_cst_0) (TRef.of (T := ⟨S128, .f32⟩) main_call7_v5) (broadcastInDim S128 ![] bcast_S_S128),
    TRef.binary (TRef.of (T := ⟨S128, .f32⟩) main_call7_v2) (TRef.of (T := ⟨S128, .f32⟩) main_call7_v5) (TRef.of (T := ⟨S128, .i1⟩) main_call7_v6) (cmpf .olt),
    TRef.nullary (TRef.of (T := ⟨S_, .f32⟩) main_call7_cst_1) (constant S_ .f32 0x00000000#32),
    TRef.binary (TRef.of (T := ⟨S_, .f32⟩) main_call7_v0) (TRef.of (T := ⟨S_, .f32⟩) main_call7_cst_1) (TRef.of (T := ⟨S_, .i1⟩) main_call7_v7) (cmpf .olt),
    TRef.unary (TRef.of (T := ⟨S_, .i1⟩) main_call7_v7) (TRef.of (T := ⟨S128, .i1⟩) main_call7_v8) (broadcastInDim S128 ![] bcast_S_S128),
    TRef.binary (TRef.of (T := ⟨S128, .i1⟩) main_call7_v6) (TRef.of (T := ⟨S128, .i1⟩) main_call7_v8) (TRef.of (T := ⟨S128, .i1⟩) main_call7_v9) (cmpi .ne),
    TRef.binary (TRef.of (T := ⟨S128, .i1⟩) main_call7_v9) (TRef.of (T := ⟨S128, .i1⟩) main_call7_v4) (TRef.of (T := ⟨S128, .i1⟩) main_call7_v10) andi,
    TRef.unary (TRef.of (T := ⟨S_, .f32⟩) main_call7_v0) (TRef.of (T := ⟨S128, .f32⟩) main_call7_v11) (broadcastInDim S128 ![] bcast_S_S128),
    TRef.binary (TRef.of (T := ⟨S128, .f32⟩) main_call7_v2) (TRef.of (T := ⟨S128, .f32⟩) main_call7_v11) (TRef.of (T := ⟨S128, .f32⟩) main_call7_v12) addf,
    TRef.ternary (TRef.of (T := ⟨S128, .i1⟩) main_call7_v10) (TRef.of (T := ⟨S128, .f32⟩) main_call7_v12) (TRef.of (T := ⟨S128, .f32⟩) main_call7_v2) (TRef.of (T := ⟨S128, .f32⟩) main_v71) select,
    nullary main_c_17 (constantI S_ 32 3#32),
    unary main_c_17 main_v72 (broadcastInDim S1 ![] bcast_S_S1 : (⟨S_, .i32⟩ : BufTy).Contents (Elt F) → (⟨S1, .i32⟩ : BufTy).Contents (Elt F)),
    ternary main_v57 main_v72 main_v63 main_v73 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_18 (constantI S_ 32 16387#32),
    unary main_c_18 main_v74 (broadcastInDim S1 ![] bcast_S_S1 : (⟨S_, .i32⟩ : BufTy).Contents (Elt F) → (⟨S1, .i32⟩ : BufTy).Contents (Elt F)),
    ternary main_v73 main_v74 main_v71 main_v75 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 4: from `main_v1` the wrapped remainders of columns 4 and 16388, written over those columns of `main_v75`, giving `main_v93`. -/
def it4 : List (HloOp τ sig (Elt F)) :=
  [ unary main_v1 main_v76 ((extractStridedSlice S128x1 ![0, 4] · slices_S128x32768_S128x1_0_4) : (⟨S128x32768, .f32⟩ : BufTy).Contents (Elt F) → (⟨S128x1, .f32⟩ : BufTy).Contents (Elt F)),
    reshape main_v76 main_v77 rfl shapeCasts_S128x1_S128,
    unary main_v1 main_v78 ((extractStridedSlice S128x1 ![0, 16388] · slices_S128x32768_S128x1_0_16388) : (⟨S128x32768, .f32⟩ : BufTy).Contents (Elt F) → (⟨S128x1, .f32⟩ : BufTy).Contents (Elt F)),
    reshape main_v78 main_v79 rfl shapeCasts_S128x1_S128,
    binary main_v77 main_v79 main_v80 (addf : (⟨S128, .f32⟩ : BufTy).Contents (Elt F) → (⟨S128, .f32⟩ : BufTy).Contents (Elt F) → (⟨S128, .f32⟩ : BufTy).Contents (Elt F)),
    nullary main_c_19 (constantI S_ 32 1024#32),
    TRef.unary (TRef.of (T := ⟨S_, .i32⟩) main_c_19) (TRef.of (T := ⟨S_, .f32⟩) main_call8_v0) (sitofp .f32),
    TRef.unary (TRef.of (T := ⟨S_, .f32⟩) main_call8_v0) (TRef.of (T := ⟨S128, .f32⟩) main_call8_v1) (broadcastInDim S128 ![] bcast_S_S128),
    TRef.binary (TRef.of (T := ⟨S128, .f32⟩) main_v80) (TRef.of (T := ⟨S128, .f32⟩) main_call8_v1) (TRef.of (T := ⟨S128, .f32⟩) main_call8_v2) Host.remf,
    TRef.nullary (TRef.of (T := ⟨S_, .f32⟩) main_call8_cst) (constant S_ .f32 0x00000000#32),
    TRef.unary (TRef.of (T := ⟨S_, .f32⟩) main_call8_cst) (TRef.of (T := ⟨S128, .f32⟩) main_call8_v3) (broadcastInDim S128 ![] bcast_S_S128),
    TRef.binary (TRef.of (T := ⟨S128, .f32⟩) main_call8_v2) (TRef.of (T := ⟨S128, .f32⟩) main_call8_v3) (TRef.of (T := ⟨S128, .i1⟩) main_call8_v4) (cmpf .une),
    TRef.nullary (TRef.of (T := ⟨S_, .f32⟩) main_call8_cst_0) (constant S_ .f32 0x00000000#32),
    TRef.unary (TRef.of (T := ⟨S_, .f32⟩) main_call8_cst_0) (TRef.of (T := ⟨S128, .f32⟩) main_call8_v5) (broadcastInDim S128 ![] bcast_S_S128),
    TRef.binary (TRef.of (T := ⟨S128, .f32⟩) main_call8_v2) (TRef.of (T := ⟨S128, .f32⟩) main_call8_v5) (TRef.of (T := ⟨S128, .i1⟩) main_call8_v6) (cmpf .olt),
    TRef.nullary (TRef.of (T := ⟨S_, .f32⟩) main_call8_cst_1) (constant S_ .f32 0x00000000#32),
    TRef.binary (TRef.of (T := ⟨S_, .f32⟩) main_call8_v0) (TRef.of (T := ⟨S_, .f32⟩) main_call8_cst_1) (TRef.of (T := ⟨S_, .i1⟩) main_call8_v7) (cmpf .olt),
    TRef.unary (TRef.of (T := ⟨S_, .i1⟩) main_call8_v7) (TRef.of (T := ⟨S128, .i1⟩) main_call8_v8) (broadcastInDim S128 ![] bcast_S_S128),
    TRef.binary (TRef.of (T := ⟨S128, .i1⟩) main_call8_v6) (TRef.of (T := ⟨S128, .i1⟩) main_call8_v8) (TRef.of (T := ⟨S128, .i1⟩) main_call8_v9) (cmpi .ne),
    TRef.binary (TRef.of (T := ⟨S128, .i1⟩) main_call8_v9) (TRef.of (T := ⟨S128, .i1⟩) main_call8_v4) (TRef.of (T := ⟨S128, .i1⟩) main_call8_v10) andi,
    TRef.unary (TRef.of (T := ⟨S_, .f32⟩) main_call8_v0) (TRef.of (T := ⟨S128, .f32⟩) main_call8_v11) (broadcastInDim S128 ![] bcast_S_S128),
    TRef.binary (TRef.of (T := ⟨S128, .f32⟩) main_call8_v2) (TRef.of (T := ⟨S128, .f32⟩) main_call8_v11) (TRef.of (T := ⟨S128, .f32⟩) main_call8_v12) addf,
    TRef.ternary (TRef.of (T := ⟨S128, .i1⟩) main_call8_v10) (TRef.of (T := ⟨S128, .f32⟩) main_call8_v12) (TRef.of (T := ⟨S128, .f32⟩) main_call8_v2) (TRef.of (T := ⟨S128, .f32⟩) main_v81) select,
    unary main_v1 main_v82 ((extractStridedSlice S128x1 ![0, 4] · slices_S128x32768_S128x1_0_4) : (⟨S128x32768, .f32⟩ : BufTy).Contents (Elt F) → (⟨S128x1, .f32⟩ : BufTy).Contents (Elt F)),
    reshape main_v82 main_v83 rfl shapeCasts_S128x1_S128,
    nullary main_cst_20 (constant S_ .f32 0x44800000#32),
    unary main_cst_20 main_v84 (broadcastInDim S128 ![] bcast_S_S128 : (⟨S_, .f32⟩ : BufTy).Contents (Elt F) → (⟨S128, .f32⟩ : BufTy).Contents (Elt F)),
    binary main_v84 main_v83 main_v85 (addf : (⟨S128, .f32⟩ : BufTy).Contents (Elt F) → (⟨S128, .f32⟩ : BufTy).Contents (Elt F) → (⟨S128, .f32⟩ : BufTy).Contents (Elt F)),
    unary main_v1 main_v86 ((extractStridedSlice S128x1 ![0, 16388] · slices_S128x32768_S128x1_0_16388) : (⟨S128x32768, .f32⟩ : BufTy).Contents (Elt F) → (⟨S128x1, .f32⟩ : BufTy).Contents (Elt F)),
    reshape main_v86 main_v87 rfl shapeCasts_S128x1_S128,
    binary main_v85 main_v87 main_v88 (subf : (⟨S128, .f32⟩ : BufTy).Contents (Elt F) → (⟨S128, .f32⟩ : BufTy).Contents (Elt F) → (⟨S128, .f32⟩ : BufTy).Contents (Elt F)),
    nullary main_c_21 (constantI S_ 32 1024#32),
    TRef.unary (TRef.of (T := ⟨S_, .i32⟩) main_c_21) (TRef.of (T := ⟨S_, .f32⟩) main_call9_v0) (sitofp .f32),
    TRef.unary (TRef.of (T := ⟨S_, .f32⟩) main_call9_v0) (TRef.of (T := ⟨S128, .f32⟩) main_call9_v1) (broadcastInDim S128 ![] bcast_S_S128),
    TRef.binary (TRef.of (T := ⟨S128, .f32⟩) main_v88) (TRef.of (T := ⟨S128, .f32⟩) main_call9_v1) (TRef.of (T := ⟨S128, .f32⟩) main_call9_v2) Host.remf,
    TRef.nullary (TRef.of (T := ⟨S_, .f32⟩) main_call9_cst) (constant S_ .f32 0x00000000#32),
    TRef.unary (TRef.of (T := ⟨S_, .f32⟩) main_call9_cst) (TRef.of (T := ⟨S128, .f32⟩) main_call9_v3) (broadcastInDim S128 ![] bcast_S_S128),
    TRef.binary (TRef.of (T := ⟨S128, .f32⟩) main_call9_v2) (TRef.of (T := ⟨S128, .f32⟩) main_call9_v3) (TRef.of (T := ⟨S128, .i1⟩) main_call9_v4) (cmpf .une),
    TRef.nullary (TRef.of (T := ⟨S_, .f32⟩) main_call9_cst_0) (constant S_ .f32 0x00000000#32),
    TRef.unary (TRef.of (T := ⟨S_, .f32⟩) main_call9_cst_0) (TRef.of (T := ⟨S128, .f32⟩) main_call9_v5) (broadcastInDim S128 ![] bcast_S_S128),
    TRef.binary (TRef.of (T := ⟨S128, .f32⟩) main_call9_v2) (TRef.of (T := ⟨S128, .f32⟩) main_call9_v5) (TRef.of (T := ⟨S128, .i1⟩) main_call9_v6) (cmpf .olt),
    TRef.nullary (TRef.of (T := ⟨S_, .f32⟩) main_call9_cst_1) (constant S_ .f32 0x00000000#32),
    TRef.binary (TRef.of (T := ⟨S_, .f32⟩) main_call9_v0) (TRef.of (T := ⟨S_, .f32⟩) main_call9_cst_1) (TRef.of (T := ⟨S_, .i1⟩) main_call9_v7) (cmpf .olt),
    TRef.unary (TRef.of (T := ⟨S_, .i1⟩) main_call9_v7) (TRef.of (T := ⟨S128, .i1⟩) main_call9_v8) (broadcastInDim S128 ![] bcast_S_S128),
    TRef.binary (TRef.of (T := ⟨S128, .i1⟩) main_call9_v6) (TRef.of (T := ⟨S128, .i1⟩) main_call9_v8) (TRef.of (T := ⟨S128, .i1⟩) main_call9_v9) (cmpi .ne),
    TRef.binary (TRef.of (T := ⟨S128, .i1⟩) main_call9_v9) (TRef.of (T := ⟨S128, .i1⟩) main_call9_v4) (TRef.of (T := ⟨S128, .i1⟩) main_call9_v10) andi,
    TRef.unary (TRef.of (T := ⟨S_, .f32⟩) main_call9_v0) (TRef.of (T := ⟨S128, .f32⟩) main_call9_v11) (broadcastInDim S128 ![] bcast_S_S128),
    TRef.binary (TRef.of (T := ⟨S128, .f32⟩) main_call9_v2) (TRef.of (T := ⟨S128, .f32⟩) main_call9_v11) (TRef.of (T := ⟨S128, .f32⟩) main_call9_v12) addf,
    TRef.ternary (TRef.of (T := ⟨S128, .i1⟩) main_call9_v10) (TRef.of (T := ⟨S128, .f32⟩) main_call9_v12) (TRef.of (T := ⟨S128, .f32⟩) main_call9_v2) (TRef.of (T := ⟨S128, .f32⟩) main_v89) select,
    nullary main_c_22 (constantI S_ 32 4#32),
    unary main_c_22 main_v90 (broadcastInDim S1 ![] bcast_S_S1 : (⟨S_, .i32⟩ : BufTy).Contents (Elt F) → (⟨S1, .i32⟩ : BufTy).Contents (Elt F)),
    ternary main_v75 main_v90 main_v81 main_v91 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_23 (constantI S_ 32 16388#32),
    unary main_c_23 main_v92 (broadcastInDim S1 ![] bcast_S_S1 : (⟨S_, .i32⟩ : BufTy).Contents (Elt F) → (⟨S1, .i32⟩ : BufTy).Contents (Elt F)),
    ternary main_v91 main_v92 main_v89 main_v93 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 5: from `main_v1` the wrapped remainders of columns 5 and 16389, written over those columns of `main_v93`, giving `main_v111`. -/
def it5 : List (HloOp τ sig (Elt F)) :=
  [ unary main_v1 main_v94 ((extractStridedSlice S128x1 ![0, 5] · slices_S128x32768_S128x1_0_5) : (⟨S128x32768, .f32⟩ : BufTy).Contents (Elt F) → (⟨S128x1, .f32⟩ : BufTy).Contents (Elt F)),
    reshape main_v94 main_v95 rfl shapeCasts_S128x1_S128,
    unary main_v1 main_v96 ((extractStridedSlice S128x1 ![0, 16389] · slices_S128x32768_S128x1_0_16389) : (⟨S128x32768, .f32⟩ : BufTy).Contents (Elt F) → (⟨S128x1, .f32⟩ : BufTy).Contents (Elt F)),
    reshape main_v96 main_v97 rfl shapeCasts_S128x1_S128,
    binary main_v95 main_v97 main_v98 (addf : (⟨S128, .f32⟩ : BufTy).Contents (Elt F) → (⟨S128, .f32⟩ : BufTy).Contents (Elt F) → (⟨S128, .f32⟩ : BufTy).Contents (Elt F)),
    nullary main_c_24 (constantI S_ 32 1024#32),
    TRef.unary (TRef.of (T := ⟨S_, .i32⟩) main_c_24) (TRef.of (T := ⟨S_, .f32⟩) main_call10_v0) (sitofp .f32),
    TRef.unary (TRef.of (T := ⟨S_, .f32⟩) main_call10_v0) (TRef.of (T := ⟨S128, .f32⟩) main_call10_v1) (broadcastInDim S128 ![] bcast_S_S128),
    TRef.binary (TRef.of (T := ⟨S128, .f32⟩) main_v98) (TRef.of (T := ⟨S128, .f32⟩) main_call10_v1) (TRef.of (T := ⟨S128, .f32⟩) main_call10_v2) Host.remf,
    TRef.nullary (TRef.of (T := ⟨S_, .f32⟩) main_call10_cst) (constant S_ .f32 0x00000000#32),
    TRef.unary (TRef.of (T := ⟨S_, .f32⟩) main_call10_cst) (TRef.of (T := ⟨S128, .f32⟩) main_call10_v3) (broadcastInDim S128 ![] bcast_S_S128),
    TRef.binary (TRef.of (T := ⟨S128, .f32⟩) main_call10_v2) (TRef.of (T := ⟨S128, .f32⟩) main_call10_v3) (TRef.of (T := ⟨S128, .i1⟩) main_call10_v4) (cmpf .une),
    TRef.nullary (TRef.of (T := ⟨S_, .f32⟩) main_call10_cst_0) (constant S_ .f32 0x00000000#32),
    TRef.unary (TRef.of (T := ⟨S_, .f32⟩) main_call10_cst_0) (TRef.of (T := ⟨S128, .f32⟩) main_call10_v5) (broadcastInDim S128 ![] bcast_S_S128),
    TRef.binary (TRef.of (T := ⟨S128, .f32⟩) main_call10_v2) (TRef.of (T := ⟨S128, .f32⟩) main_call10_v5) (TRef.of (T := ⟨S128, .i1⟩) main_call10_v6) (cmpf .olt),
    TRef.nullary (TRef.of (T := ⟨S_, .f32⟩) main_call10_cst_1) (constant S_ .f32 0x00000000#32),
    TRef.binary (TRef.of (T := ⟨S_, .f32⟩) main_call10_v0) (TRef.of (T := ⟨S_, .f32⟩) main_call10_cst_1) (TRef.of (T := ⟨S_, .i1⟩) main_call10_v7) (cmpf .olt),
    TRef.unary (TRef.of (T := ⟨S_, .i1⟩) main_call10_v7) (TRef.of (T := ⟨S128, .i1⟩) main_call10_v8) (broadcastInDim S128 ![] bcast_S_S128),
    TRef.binary (TRef.of (T := ⟨S128, .i1⟩) main_call10_v6) (TRef.of (T := ⟨S128, .i1⟩) main_call10_v8) (TRef.of (T := ⟨S128, .i1⟩) main_call10_v9) (cmpi .ne),
    TRef.binary (TRef.of (T := ⟨S128, .i1⟩) main_call10_v9) (TRef.of (T := ⟨S128, .i1⟩) main_call10_v4) (TRef.of (T := ⟨S128, .i1⟩) main_call10_v10) andi,
    TRef.unary (TRef.of (T := ⟨S_, .f32⟩) main_call10_v0) (TRef.of (T := ⟨S128, .f32⟩) main_call10_v11) (broadcastInDim S128 ![] bcast_S_S128),
    TRef.binary (TRef.of (T := ⟨S128, .f32⟩) main_call10_v2) (TRef.of (T := ⟨S128, .f32⟩) main_call10_v11) (TRef.of (T := ⟨S128, .f32⟩) main_call10_v12) addf,
    TRef.ternary (TRef.of (T := ⟨S128, .i1⟩) main_call10_v10) (TRef.of (T := ⟨S128, .f32⟩) main_call10_v12) (TRef.of (T := ⟨S128, .f32⟩) main_call10_v2) (TRef.of (T := ⟨S128, .f32⟩) main_v99) select,
    unary main_v1 main_v100 ((extractStridedSlice S128x1 ![0, 5] · slices_S128x32768_S128x1_0_5) : (⟨S128x32768, .f32⟩ : BufTy).Contents (Elt F) → (⟨S128x1, .f32⟩ : BufTy).Contents (Elt F)),
    reshape main_v100 main_v101 rfl shapeCasts_S128x1_S128,
    nullary main_cst_25 (constant S_ .f32 0x44800000#32),
    unary main_cst_25 main_v102 (broadcastInDim S128 ![] bcast_S_S128 : (⟨S_, .f32⟩ : BufTy).Contents (Elt F) → (⟨S128, .f32⟩ : BufTy).Contents (Elt F)),
    binary main_v102 main_v101 main_v103 (addf : (⟨S128, .f32⟩ : BufTy).Contents (Elt F) → (⟨S128, .f32⟩ : BufTy).Contents (Elt F) → (⟨S128, .f32⟩ : BufTy).Contents (Elt F)),
    unary main_v1 main_v104 ((extractStridedSlice S128x1 ![0, 16389] · slices_S128x32768_S128x1_0_16389) : (⟨S128x32768, .f32⟩ : BufTy).Contents (Elt F) → (⟨S128x1, .f32⟩ : BufTy).Contents (Elt F)),
    reshape main_v104 main_v105 rfl shapeCasts_S128x1_S128,
    binary main_v103 main_v105 main_v106 (subf : (⟨S128, .f32⟩ : BufTy).Contents (Elt F) → (⟨S128, .f32⟩ : BufTy).Contents (Elt F) → (⟨S128, .f32⟩ : BufTy).Contents (Elt F)),
    nullary main_c_26 (constantI S_ 32 1024#32),
    TRef.unary (TRef.of (T := ⟨S_, .i32⟩) main_c_26) (TRef.of (T := ⟨S_, .f32⟩) main_call11_v0) (sitofp .f32),
    TRef.unary (TRef.of (T := ⟨S_, .f32⟩) main_call11_v0) (TRef.of (T := ⟨S128, .f32⟩) main_call11_v1) (broadcastInDim S128 ![] bcast_S_S128),
    TRef.binary (TRef.of (T := ⟨S128, .f32⟩) main_v106) (TRef.of (T := ⟨S128, .f32⟩) main_call11_v1) (TRef.of (T := ⟨S128, .f32⟩) main_call11_v2) Host.remf,
    TRef.nullary (TRef.of (T := ⟨S_, .f32⟩) main_call11_cst) (constant S_ .f32 0x00000000#32),
    TRef.unary (TRef.of (T := ⟨S_, .f32⟩) main_call11_cst) (TRef.of (T := ⟨S128, .f32⟩) main_call11_v3) (broadcastInDim S128 ![] bcast_S_S128),
    TRef.binary (TRef.of (T := ⟨S128, .f32⟩) main_call11_v2) (TRef.of (T := ⟨S128, .f32⟩) main_call11_v3) (TRef.of (T := ⟨S128, .i1⟩) main_call11_v4) (cmpf .une),
    TRef.nullary (TRef.of (T := ⟨S_, .f32⟩) main_call11_cst_0) (constant S_ .f32 0x00000000#32),
    TRef.unary (TRef.of (T := ⟨S_, .f32⟩) main_call11_cst_0) (TRef.of (T := ⟨S128, .f32⟩) main_call11_v5) (broadcastInDim S128 ![] bcast_S_S128),
    TRef.binary (TRef.of (T := ⟨S128, .f32⟩) main_call11_v2) (TRef.of (T := ⟨S128, .f32⟩) main_call11_v5) (TRef.of (T := ⟨S128, .i1⟩) main_call11_v6) (cmpf .olt),
    TRef.nullary (TRef.of (T := ⟨S_, .f32⟩) main_call11_cst_1) (constant S_ .f32 0x00000000#32),
    TRef.binary (TRef.of (T := ⟨S_, .f32⟩) main_call11_v0) (TRef.of (T := ⟨S_, .f32⟩) main_call11_cst_1) (TRef.of (T := ⟨S_, .i1⟩) main_call11_v7) (cmpf .olt),
    TRef.unary (TRef.of (T := ⟨S_, .i1⟩) main_call11_v7) (TRef.of (T := ⟨S128, .i1⟩) main_call11_v8) (broadcastInDim S128 ![] bcast_S_S128),
    TRef.binary (TRef.of (T := ⟨S128, .i1⟩) main_call11_v6) (TRef.of (T := ⟨S128, .i1⟩) main_call11_v8) (TRef.of (T := ⟨S128, .i1⟩) main_call11_v9) (cmpi .ne),
    TRef.binary (TRef.of (T := ⟨S128, .i1⟩) main_call11_v9) (TRef.of (T := ⟨S128, .i1⟩) main_call11_v4) (TRef.of (T := ⟨S128, .i1⟩) main_call11_v10) andi,
    TRef.unary (TRef.of (T := ⟨S_, .f32⟩) main_call11_v0) (TRef.of (T := ⟨S128, .f32⟩) main_call11_v11) (broadcastInDim S128 ![] bcast_S_S128),
    TRef.binary (TRef.of (T := ⟨S128, .f32⟩) main_call11_v2) (TRef.of (T := ⟨S128, .f32⟩) main_call11_v11) (TRef.of (T := ⟨S128, .f32⟩) main_call11_v12) addf,
    TRef.ternary (TRef.of (T := ⟨S128, .i1⟩) main_call11_v10) (TRef.of (T := ⟨S128, .f32⟩) main_call11_v12) (TRef.of (T := ⟨S128, .f32⟩) main_call11_v2) (TRef.of (T := ⟨S128, .f32⟩) main_v107) select,
    nullary main_c_27 (constantI S_ 32 5#32),
    unary main_c_27 main_v108 (broadcastInDim S1 ![] bcast_S_S1 : (⟨S_, .i32⟩ : BufTy).Contents (Elt F) → (⟨S1, .i32⟩ : BufTy).Contents (Elt F)),
    ternary main_v93 main_v108 main_v99 main_v109 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_28 (constantI S_ 32 16389#32),
    unary main_c_28 main_v110 (broadcastInDim S1 ![] bcast_S_S1 : (⟨S_, .i32⟩ : BufTy).Contents (Elt F) → (⟨S1, .i32⟩ : BufTy).Contents (Elt F)),
    ternary main_v109 main_v110 main_v107 main_v111 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 6: from `main_v1` the wrapped remainders of columns 6 and 16390, written over those columns of `main_v111`, giving `main_v129`. -/
def it6 : List (HloOp τ sig (Elt F)) :=
  [ unary main_v1 main_v112 ((extractStridedSlice S128x1 ![0, 6] · slices_S128x32768_S128x1_0_6) : (⟨S128x32768, .f32⟩ : BufTy).Contents (Elt F) → (⟨S128x1, .f32⟩ : BufTy).Contents (Elt F)),
    reshape main_v112 main_v113 rfl shapeCasts_S128x1_S128,
    unary main_v1 main_v114 ((extractStridedSlice S128x1 ![0, 16390] · slices_S128x32768_S128x1_0_16390) : (⟨S128x32768, .f32⟩ : BufTy).Contents (Elt F) → (⟨S128x1, .f32⟩ : BufTy).Contents (Elt F)),
    reshape main_v114 main_v115 rfl shapeCasts_S128x1_S128,
    binary main_v113 main_v115 main_v116 (addf : (⟨S128, .f32⟩ : BufTy).Contents (Elt F) → (⟨S128, .f32⟩ : BufTy).Contents (Elt F) → (⟨S128, .f32⟩ : BufTy).Contents (Elt F)),
    nullary main_c_29 (constantI S_ 32 1024#32),
    TRef.unary (TRef.of (T := ⟨S_, .i32⟩) main_c_29) (TRef.of (T := ⟨S_, .f32⟩) main_call12_v0) (sitofp .f32),
    TRef.unary (TRef.of (T := ⟨S_, .f32⟩) main_call12_v0) (TRef.of (T := ⟨S128, .f32⟩) main_call12_v1) (broadcastInDim S128 ![] bcast_S_S128),
    TRef.binary (TRef.of (T := ⟨S128, .f32⟩) main_v116) (TRef.of (T := ⟨S128, .f32⟩) main_call12_v1) (TRef.of (T := ⟨S128, .f32⟩) main_call12_v2) Host.remf,
    TRef.nullary (TRef.of (T := ⟨S_, .f32⟩) main_call12_cst) (constant S_ .f32 0x00000000#32),
    TRef.unary (TRef.of (T := ⟨S_, .f32⟩) main_call12_cst) (TRef.of (T := ⟨S128, .f32⟩) main_call12_v3) (broadcastInDim S128 ![] bcast_S_S128),
    TRef.binary (TRef.of (T := ⟨S128, .f32⟩) main_call12_v2) (TRef.of (T := ⟨S128, .f32⟩) main_call12_v3) (TRef.of (T := ⟨S128, .i1⟩) main_call12_v4) (cmpf .une),
    TRef.nullary (TRef.of (T := ⟨S_, .f32⟩) main_call12_cst_0) (constant S_ .f32 0x00000000#32),
    TRef.unary (TRef.of (T := ⟨S_, .f32⟩) main_call12_cst_0) (TRef.of (T := ⟨S128, .f32⟩) main_call12_v5) (broadcastInDim S128 ![] bcast_S_S128),
    TRef.binary (TRef.of (T := ⟨S128, .f32⟩) main_call12_v2) (TRef.of (T := ⟨S128, .f32⟩) main_call12_v5) (TRef.of (T := ⟨S128, .i1⟩) main_call12_v6) (cmpf .olt),
    TRef.nullary (TRef.of (T := ⟨S_, .f32⟩) main_call12_cst_1) (constant S_ .f32 0x00000000#32),
    TRef.binary (TRef.of (T := ⟨S_, .f32⟩) main_call12_v0) (TRef.of (T := ⟨S_, .f32⟩) main_call12_cst_1) (TRef.of (T := ⟨S_, .i1⟩) main_call12_v7) (cmpf .olt),
    TRef.unary (TRef.of (T := ⟨S_, .i1⟩) main_call12_v7) (TRef.of (T := ⟨S128, .i1⟩) main_call12_v8) (broadcastInDim S128 ![] bcast_S_S128),
    TRef.binary (TRef.of (T := ⟨S128, .i1⟩) main_call12_v6) (TRef.of (T := ⟨S128, .i1⟩) main_call12_v8) (TRef.of (T := ⟨S128, .i1⟩) main_call12_v9) (cmpi .ne),
    TRef.binary (TRef.of (T := ⟨S128, .i1⟩) main_call12_v9) (TRef.of (T := ⟨S128, .i1⟩) main_call12_v4) (TRef.of (T := ⟨S128, .i1⟩) main_call12_v10) andi,
    TRef.unary (TRef.of (T := ⟨S_, .f32⟩) main_call12_v0) (TRef.of (T := ⟨S128, .f32⟩) main_call12_v11) (broadcastInDim S128 ![] bcast_S_S128),
    TRef.binary (TRef.of (T := ⟨S128, .f32⟩) main_call12_v2) (TRef.of (T := ⟨S128, .f32⟩) main_call12_v11) (TRef.of (T := ⟨S128, .f32⟩) main_call12_v12) addf,
    TRef.ternary (TRef.of (T := ⟨S128, .i1⟩) main_call12_v10) (TRef.of (T := ⟨S128, .f32⟩) main_call12_v12) (TRef.of (T := ⟨S128, .f32⟩) main_call12_v2) (TRef.of (T := ⟨S128, .f32⟩) main_v117) select,
    unary main_v1 main_v118 ((extractStridedSlice S128x1 ![0, 6] · slices_S128x32768_S128x1_0_6) : (⟨S128x32768, .f32⟩ : BufTy).Contents (Elt F) → (⟨S128x1, .f32⟩ : BufTy).Contents (Elt F)),
    reshape main_v118 main_v119 rfl shapeCasts_S128x1_S128,
    nullary main_cst_30 (constant S_ .f32 0x44800000#32),
    unary main_cst_30 main_v120 (broadcastInDim S128 ![] bcast_S_S128 : (⟨S_, .f32⟩ : BufTy).Contents (Elt F) → (⟨S128, .f32⟩ : BufTy).Contents (Elt F)),
    binary main_v120 main_v119 main_v121 (addf : (⟨S128, .f32⟩ : BufTy).Contents (Elt F) → (⟨S128, .f32⟩ : BufTy).Contents (Elt F) → (⟨S128, .f32⟩ : BufTy).Contents (Elt F)),
    unary main_v1 main_v122 ((extractStridedSlice S128x1 ![0, 16390] · slices_S128x32768_S128x1_0_16390) : (⟨S128x32768, .f32⟩ : BufTy).Contents (Elt F) → (⟨S128x1, .f32⟩ : BufTy).Contents (Elt F)),
    reshape main_v122 main_v123 rfl shapeCasts_S128x1_S128,
    binary main_v121 main_v123 main_v124 (subf : (⟨S128, .f32⟩ : BufTy).Contents (Elt F) → (⟨S128, .f32⟩ : BufTy).Contents (Elt F) → (⟨S128, .f32⟩ : BufTy).Contents (Elt F)),
    nullary main_c_31 (constantI S_ 32 1024#32),
    TRef.unary (TRef.of (T := ⟨S_, .i32⟩) main_c_31) (TRef.of (T := ⟨S_, .f32⟩) main_call13_v0) (sitofp .f32),
    TRef.unary (TRef.of (T := ⟨S_, .f32⟩) main_call13_v0) (TRef.of (T := ⟨S128, .f32⟩) main_call13_v1) (broadcastInDim S128 ![] bcast_S_S128),
    TRef.binary (TRef.of (T := ⟨S128, .f32⟩) main_v124) (TRef.of (T := ⟨S128, .f32⟩) main_call13_v1) (TRef.of (T := ⟨S128, .f32⟩) main_call13_v2) Host.remf,
    TRef.nullary (TRef.of (T := ⟨S_, .f32⟩) main_call13_cst) (constant S_ .f32 0x00000000#32),
    TRef.unary (TRef.of (T := ⟨S_, .f32⟩) main_call13_cst) (TRef.of (T := ⟨S128, .f32⟩) main_call13_v3) (broadcastInDim S128 ![] bcast_S_S128),
    TRef.binary (TRef.of (T := ⟨S128, .f32⟩) main_call13_v2) (TRef.of (T := ⟨S128, .f32⟩) main_call13_v3) (TRef.of (T := ⟨S128, .i1⟩) main_call13_v4) (cmpf .une),
    TRef.nullary (TRef.of (T := ⟨S_, .f32⟩) main_call13_cst_0) (constant S_ .f32 0x00000000#32),
    TRef.unary (TRef.of (T := ⟨S_, .f32⟩) main_call13_cst_0) (TRef.of (T := ⟨S128, .f32⟩) main_call13_v5) (broadcastInDim S128 ![] bcast_S_S128),
    TRef.binary (TRef.of (T := ⟨S128, .f32⟩) main_call13_v2) (TRef.of (T := ⟨S128, .f32⟩) main_call13_v5) (TRef.of (T := ⟨S128, .i1⟩) main_call13_v6) (cmpf .olt),
    TRef.nullary (TRef.of (T := ⟨S_, .f32⟩) main_call13_cst_1) (constant S_ .f32 0x00000000#32),
    TRef.binary (TRef.of (T := ⟨S_, .f32⟩) main_call13_v0) (TRef.of (T := ⟨S_, .f32⟩) main_call13_cst_1) (TRef.of (T := ⟨S_, .i1⟩) main_call13_v7) (cmpf .olt),
    TRef.unary (TRef.of (T := ⟨S_, .i1⟩) main_call13_v7) (TRef.of (T := ⟨S128, .i1⟩) main_call13_v8) (broadcastInDim S128 ![] bcast_S_S128),
    TRef.binary (TRef.of (T := ⟨S128, .i1⟩) main_call13_v6) (TRef.of (T := ⟨S128, .i1⟩) main_call13_v8) (TRef.of (T := ⟨S128, .i1⟩) main_call13_v9) (cmpi .ne),
    TRef.binary (TRef.of (T := ⟨S128, .i1⟩) main_call13_v9) (TRef.of (T := ⟨S128, .i1⟩) main_call13_v4) (TRef.of (T := ⟨S128, .i1⟩) main_call13_v10) andi,
    TRef.unary (TRef.of (T := ⟨S_, .f32⟩) main_call13_v0) (TRef.of (T := ⟨S128, .f32⟩) main_call13_v11) (broadcastInDim S128 ![] bcast_S_S128),
    TRef.binary (TRef.of (T := ⟨S128, .f32⟩) main_call13_v2) (TRef.of (T := ⟨S128, .f32⟩) main_call13_v11) (TRef.of (T := ⟨S128, .f32⟩) main_call13_v12) addf,
    TRef.ternary (TRef.of (T := ⟨S128, .i1⟩) main_call13_v10) (TRef.of (T := ⟨S128, .f32⟩) main_call13_v12) (TRef.of (T := ⟨S128, .f32⟩) main_call13_v2) (TRef.of (T := ⟨S128, .f32⟩) main_v125) select,
    nullary main_c_32 (constantI S_ 32 6#32),
    unary main_c_32 main_v126 (broadcastInDim S1 ![] bcast_S_S1 : (⟨S_, .i32⟩ : BufTy).Contents (Elt F) → (⟨S1, .i32⟩ : BufTy).Contents (Elt F)),
    ternary main_v111 main_v126 main_v117 main_v127 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_33 (constantI S_ 32 16390#32),
    unary main_c_33 main_v128 (broadcastInDim S1 ![] bcast_S_S1 : (⟨S_, .i32⟩ : BufTy).Contents (Elt F) → (⟨S1, .i32⟩ : BufTy).Contents (Elt F)),
    ternary main_v127 main_v128 main_v125 main_v129 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 7: from `main_v1` the wrapped remainders of columns 7 and 16391, written over those columns of `main_v129`, giving `main_v147`. -/
def it7 : List (HloOp τ sig (Elt F)) :=
  [ unary main_v1 main_v130 ((extractStridedSlice S128x1 ![0, 7] · slices_S128x32768_S128x1_0_7) : (⟨S128x32768, .f32⟩ : BufTy).Contents (Elt F) → (⟨S128x1, .f32⟩ : BufTy).Contents (Elt F)),
    reshape main_v130 main_v131 rfl shapeCasts_S128x1_S128,
    unary main_v1 main_v132 ((extractStridedSlice S128x1 ![0, 16391] · slices_S128x32768_S128x1_0_16391) : (⟨S128x32768, .f32⟩ : BufTy).Contents (Elt F) → (⟨S128x1, .f32⟩ : BufTy).Contents (Elt F)),
    reshape main_v132 main_v133 rfl shapeCasts_S128x1_S128,
    binary main_v131 main_v133 main_v134 (addf : (⟨S128, .f32⟩ : BufTy).Contents (Elt F) → (⟨S128, .f32⟩ : BufTy).Contents (Elt F) → (⟨S128, .f32⟩ : BufTy).Contents (Elt F)),
    nullary main_c_34 (constantI S_ 32 1024#32),
    TRef.unary (TRef.of (T := ⟨S_, .i32⟩) main_c_34) (TRef.of (T := ⟨S_, .f32⟩) main_call14_v0) (sitofp .f32),
    TRef.unary (TRef.of (T := ⟨S_, .f32⟩) main_call14_v0) (TRef.of (T := ⟨S128, .f32⟩) main_call14_v1) (broadcastInDim S128 ![] bcast_S_S128),
    TRef.binary (TRef.of (T := ⟨S128, .f32⟩) main_v134) (TRef.of (T := ⟨S128, .f32⟩) main_call14_v1) (TRef.of (T := ⟨S128, .f32⟩) main_call14_v2) Host.remf,
    TRef.nullary (TRef.of (T := ⟨S_, .f32⟩) main_call14_cst) (constant S_ .f32 0x00000000#32),
    TRef.unary (TRef.of (T := ⟨S_, .f32⟩) main_call14_cst) (TRef.of (T := ⟨S128, .f32⟩) main_call14_v3) (broadcastInDim S128 ![] bcast_S_S128),
    TRef.binary (TRef.of (T := ⟨S128, .f32⟩) main_call14_v2) (TRef.of (T := ⟨S128, .f32⟩) main_call14_v3) (TRef.of (T := ⟨S128, .i1⟩) main_call14_v4) (cmpf .une),
    TRef.nullary (TRef.of (T := ⟨S_, .f32⟩) main_call14_cst_0) (constant S_ .f32 0x00000000#32),
    TRef.unary (TRef.of (T := ⟨S_, .f32⟩) main_call14_cst_0) (TRef.of (T := ⟨S128, .f32⟩) main_call14_v5) (broadcastInDim S128 ![] bcast_S_S128),
    TRef.binary (TRef.of (T := ⟨S128, .f32⟩) main_call14_v2) (TRef.of (T := ⟨S128, .f32⟩) main_call14_v5) (TRef.of (T := ⟨S128, .i1⟩) main_call14_v6) (cmpf .olt),
    TRef.nullary (TRef.of (T := ⟨S_, .f32⟩) main_call14_cst_1) (constant S_ .f32 0x00000000#32),
    TRef.binary (TRef.of (T := ⟨S_, .f32⟩) main_call14_v0) (TRef.of (T := ⟨S_, .f32⟩) main_call14_cst_1) (TRef.of (T := ⟨S_, .i1⟩) main_call14_v7) (cmpf .olt),
    TRef.unary (TRef.of (T := ⟨S_, .i1⟩) main_call14_v7) (TRef.of (T := ⟨S128, .i1⟩) main_call14_v8) (broadcastInDim S128 ![] bcast_S_S128),
    TRef.binary (TRef.of (T := ⟨S128, .i1⟩) main_call14_v6) (TRef.of (T := ⟨S128, .i1⟩) main_call14_v8) (TRef.of (T := ⟨S128, .i1⟩) main_call14_v9) (cmpi .ne),
    TRef.binary (TRef.of (T := ⟨S128, .i1⟩) main_call14_v9) (TRef.of (T := ⟨S128, .i1⟩) main_call14_v4) (TRef.of (T := ⟨S128, .i1⟩) main_call14_v10) andi,
    TRef.unary (TRef.of (T := ⟨S_, .f32⟩) main_call14_v0) (TRef.of (T := ⟨S128, .f32⟩) main_call14_v11) (broadcastInDim S128 ![] bcast_S_S128),
    TRef.binary (TRef.of (T := ⟨S128, .f32⟩) main_call14_v2) (TRef.of (T := ⟨S128, .f32⟩) main_call14_v11) (TRef.of (T := ⟨S128, .f32⟩) main_call14_v12) addf,
    TRef.ternary (TRef.of (T := ⟨S128, .i1⟩) main_call14_v10) (TRef.of (T := ⟨S128, .f32⟩) main_call14_v12) (TRef.of (T := ⟨S128, .f32⟩) main_call14_v2) (TRef.of (T := ⟨S128, .f32⟩) main_v135) select,
    unary main_v1 main_v136 ((extractStridedSlice S128x1 ![0, 7] · slices_S128x32768_S128x1_0_7) : (⟨S128x32768, .f32⟩ : BufTy).Contents (Elt F) → (⟨S128x1, .f32⟩ : BufTy).Contents (Elt F)),
    reshape main_v136 main_v137 rfl shapeCasts_S128x1_S128,
    nullary main_cst_35 (constant S_ .f32 0x44800000#32),
    unary main_cst_35 main_v138 (broadcastInDim S128 ![] bcast_S_S128 : (⟨S_, .f32⟩ : BufTy).Contents (Elt F) → (⟨S128, .f32⟩ : BufTy).Contents (Elt F)),
    binary main_v138 main_v137 main_v139 (addf : (⟨S128, .f32⟩ : BufTy).Contents (Elt F) → (⟨S128, .f32⟩ : BufTy).Contents (Elt F) → (⟨S128, .f32⟩ : BufTy).Contents (Elt F)),
    unary main_v1 main_v140 ((extractStridedSlice S128x1 ![0, 16391] · slices_S128x32768_S128x1_0_16391) : (⟨S128x32768, .f32⟩ : BufTy).Contents (Elt F) → (⟨S128x1, .f32⟩ : BufTy).Contents (Elt F)),
    reshape main_v140 main_v141 rfl shapeCasts_S128x1_S128,
    binary main_v139 main_v141 main_v142 (subf : (⟨S128, .f32⟩ : BufTy).Contents (Elt F) → (⟨S128, .f32⟩ : BufTy).Contents (Elt F) → (⟨S128, .f32⟩ : BufTy).Contents (Elt F)),
    nullary main_c_36 (constantI S_ 32 1024#32),
    TRef.unary (TRef.of (T := ⟨S_, .i32⟩) main_c_36) (TRef.of (T := ⟨S_, .f32⟩) main_call15_v0) (sitofp .f32),
    TRef.unary (TRef.of (T := ⟨S_, .f32⟩) main_call15_v0) (TRef.of (T := ⟨S128, .f32⟩) main_call15_v1) (broadcastInDim S128 ![] bcast_S_S128),
    TRef.binary (TRef.of (T := ⟨S128, .f32⟩) main_v142) (TRef.of (T := ⟨S128, .f32⟩) main_call15_v1) (TRef.of (T := ⟨S128, .f32⟩) main_call15_v2) Host.remf,
    TRef.nullary (TRef.of (T := ⟨S_, .f32⟩) main_call15_cst) (constant S_ .f32 0x00000000#32),
    TRef.unary (TRef.of (T := ⟨S_, .f32⟩) main_call15_cst) (TRef.of (T := ⟨S128, .f32⟩) main_call15_v3) (broadcastInDim S128 ![] bcast_S_S128),
    TRef.binary (TRef.of (T := ⟨S128, .f32⟩) main_call15_v2) (TRef.of (T := ⟨S128, .f32⟩) main_call15_v3) (TRef.of (T := ⟨S128, .i1⟩) main_call15_v4) (cmpf .une),
    TRef.nullary (TRef.of (T := ⟨S_, .f32⟩) main_call15_cst_0) (constant S_ .f32 0x00000000#32),
    TRef.unary (TRef.of (T := ⟨S_, .f32⟩) main_call15_cst_0) (TRef.of (T := ⟨S128, .f32⟩) main_call15_v5) (broadcastInDim S128 ![] bcast_S_S128),
    TRef.binary (TRef.of (T := ⟨S128, .f32⟩) main_call15_v2) (TRef.of (T := ⟨S128, .f32⟩) main_call15_v5) (TRef.of (T := ⟨S128, .i1⟩) main_call15_v6) (cmpf .olt),
    TRef.nullary (TRef.of (T := ⟨S_, .f32⟩) main_call15_cst_1) (constant S_ .f32 0x00000000#32),
    TRef.binary (TRef.of (T := ⟨S_, .f32⟩) main_call15_v0) (TRef.of (T := ⟨S_, .f32⟩) main_call15_cst_1) (TRef.of (T := ⟨S_, .i1⟩) main_call15_v7) (cmpf .olt),
    TRef.unary (TRef.of (T := ⟨S_, .i1⟩) main_call15_v7) (TRef.of (T := ⟨S128, .i1⟩) main_call15_v8) (broadcastInDim S128 ![] bcast_S_S128),
    TRef.binary (TRef.of (T := ⟨S128, .i1⟩) main_call15_v6) (TRef.of (T := ⟨S128, .i1⟩) main_call15_v8) (TRef.of (T := ⟨S128, .i1⟩) main_call15_v9) (cmpi .ne),
    TRef.binary (TRef.of (T := ⟨S128, .i1⟩) main_call15_v9) (TRef.of (T := ⟨S128, .i1⟩) main_call15_v4) (TRef.of (T := ⟨S128, .i1⟩) main_call15_v10) andi,
    TRef.unary (TRef.of (T := ⟨S_, .f32⟩) main_call15_v0) (TRef.of (T := ⟨S128, .f32⟩) main_call15_v11) (broadcastInDim S128 ![] bcast_S_S128),
    TRef.binary (TRef.of (T := ⟨S128, .f32⟩) main_call15_v2) (TRef.of (T := ⟨S128, .f32⟩) main_call15_v11) (TRef.of (T := ⟨S128, .f32⟩) main_call15_v12) addf,
    TRef.ternary (TRef.of (T := ⟨S128, .i1⟩) main_call15_v10) (TRef.of (T := ⟨S128, .f32⟩) main_call15_v12) (TRef.of (T := ⟨S128, .f32⟩) main_call15_v2) (TRef.of (T := ⟨S128, .f32⟩) main_v143) select,
    nullary main_c_37 (constantI S_ 32 7#32),
    unary main_c_37 main_v144 (broadcastInDim S1 ![] bcast_S_S1 : (⟨S_, .i32⟩ : BufTy).Contents (Elt F) → (⟨S1, .i32⟩ : BufTy).Contents (Elt F)),
    ternary main_v129 main_v144 main_v135 main_v145 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_38 (constantI S_ 32 16391#32),
    unary main_c_38 main_v146 (broadcastInDim S1 ![] bcast_S_S1 : (⟨S_, .i32⟩ : BufTy).Contents (Elt F) → (⟨S1, .i32⟩ : BufTy).Contents (Elt F)),
    ternary main_v145 main_v146 main_v143 main_v147 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 8: from `main_v1` the wrapped remainders of columns 8 and 16392, written over those columns of `main_v147`, giving `main_v165`. -/
def it8 : List (HloOp τ sig (Elt F)) :=
  [ unary main_v1 main_v148 ((extractStridedSlice S128x1 ![0, 8] · slices_S128x32768_S128x1_0_8) : (⟨S128x32768, .f32⟩ : BufTy).Contents (Elt F) → (⟨S128x1, .f32⟩ : BufTy).Contents (Elt F)),
    reshape main_v148 main_v149 rfl shapeCasts_S128x1_S128,
    unary main_v1 main_v150 ((extractStridedSlice S128x1 ![0, 16392] · slices_S128x32768_S128x1_0_16392) : (⟨S128x32768, .f32⟩ : BufTy).Contents (Elt F) → (⟨S128x1, .f32⟩ : BufTy).Contents (Elt F)),
    reshape main_v150 main_v151 rfl shapeCasts_S128x1_S128,
    binary main_v149 main_v151 main_v152 (addf : (⟨S128, .f32⟩ : BufTy).Contents (Elt F) → (⟨S128, .f32⟩ : BufTy).Contents (Elt F) → (⟨S128, .f32⟩ : BufTy).Contents (Elt F)),
    nullary main_c_39 (constantI S_ 32 1024#32),
    TRef.unary (TRef.of (T := ⟨S_, .i32⟩) main_c_39) (TRef.of (T := ⟨S_, .f32⟩) main_call16_v0) (sitofp .f32),
    TRef.unary (TRef.of (T := ⟨S_, .f32⟩) main_call16_v0) (TRef.of (T := ⟨S128, .f32⟩) main_call16_v1) (broadcastInDim S128 ![] bcast_S_S128),
    TRef.binary (TRef.of (T := ⟨S128, .f32⟩) main_v152) (TRef.of (T := ⟨S128, .f32⟩) main_call16_v1) (TRef.of (T := ⟨S128, .f32⟩) main_call16_v2) Host.remf,
    TRef.nullary (TRef.of (T := ⟨S_, .f32⟩) main_call16_cst) (constant S_ .f32 0x00000000#32),
    TRef.unary (TRef.of (T := ⟨S_, .f32⟩) main_call16_cst) (TRef.of (T := ⟨S128, .f32⟩) main_call16_v3) (broadcastInDim S128 ![] bcast_S_S128),
    TRef.binary (TRef.of (T := ⟨S128, .f32⟩) main_call16_v2) (TRef.of (T := ⟨S128, .f32⟩) main_call16_v3) (TRef.of (T := ⟨S128, .i1⟩) main_call16_v4) (cmpf .une),
    TRef.nullary (TRef.of (T := ⟨S_, .f32⟩) main_call16_cst_0) (constant S_ .f32 0x00000000#32),
    TRef.unary (TRef.of (T := ⟨S_, .f32⟩) main_call16_cst_0) (TRef.of (T := ⟨S128, .f32⟩) main_call16_v5) (broadcastInDim S128 ![] bcast_S_S128),
    TRef.binary (TRef.of (T := ⟨S128, .f32⟩) main_call16_v2) (TRef.of (T := ⟨S128, .f32⟩) main_call16_v5) (TRef.of (T := ⟨S128, .i1⟩) main_call16_v6) (cmpf .olt),
    TRef.nullary (TRef.of (T := ⟨S_, .f32⟩) main_call16_cst_1) (constant S_ .f32 0x00000000#32),
    TRef.binary (TRef.of (T := ⟨S_, .f32⟩) main_call16_v0) (TRef.of (T := ⟨S_, .f32⟩) main_call16_cst_1) (TRef.of (T := ⟨S_, .i1⟩) main_call16_v7) (cmpf .olt),
    TRef.unary (TRef.of (T := ⟨S_, .i1⟩) main_call16_v7) (TRef.of (T := ⟨S128, .i1⟩) main_call16_v8) (broadcastInDim S128 ![] bcast_S_S128),
    TRef.binary (TRef.of (T := ⟨S128, .i1⟩) main_call16_v6) (TRef.of (T := ⟨S128, .i1⟩) main_call16_v8) (TRef.of (T := ⟨S128, .i1⟩) main_call16_v9) (cmpi .ne),
    TRef.binary (TRef.of (T := ⟨S128, .i1⟩) main_call16_v9) (TRef.of (T := ⟨S128, .i1⟩) main_call16_v4) (TRef.of (T := ⟨S128, .i1⟩) main_call16_v10) andi,
    TRef.unary (TRef.of (T := ⟨S_, .f32⟩) main_call16_v0) (TRef.of (T := ⟨S128, .f32⟩) main_call16_v11) (broadcastInDim S128 ![] bcast_S_S128),
    TRef.binary (TRef.of (T := ⟨S128, .f32⟩) main_call16_v2) (TRef.of (T := ⟨S128, .f32⟩) main_call16_v11) (TRef.of (T := ⟨S128, .f32⟩) main_call16_v12) addf,
    TRef.ternary (TRef.of (T := ⟨S128, .i1⟩) main_call16_v10) (TRef.of (T := ⟨S128, .f32⟩) main_call16_v12) (TRef.of (T := ⟨S128, .f32⟩) main_call16_v2) (TRef.of (T := ⟨S128, .f32⟩) main_v153) select,
    unary main_v1 main_v154 ((extractStridedSlice S128x1 ![0, 8] · slices_S128x32768_S128x1_0_8) : (⟨S128x32768, .f32⟩ : BufTy).Contents (Elt F) → (⟨S128x1, .f32⟩ : BufTy).Contents (Elt F)),
    reshape main_v154 main_v155 rfl shapeCasts_S128x1_S128,
    nullary main_cst_40 (constant S_ .f32 0x44800000#32),
    unary main_cst_40 main_v156 (broadcastInDim S128 ![] bcast_S_S128 : (⟨S_, .f32⟩ : BufTy).Contents (Elt F) → (⟨S128, .f32⟩ : BufTy).Contents (Elt F)),
    binary main_v156 main_v155 main_v157 (addf : (⟨S128, .f32⟩ : BufTy).Contents (Elt F) → (⟨S128, .f32⟩ : BufTy).Contents (Elt F) → (⟨S128, .f32⟩ : BufTy).Contents (Elt F)),
    unary main_v1 main_v158 ((extractStridedSlice S128x1 ![0, 16392] · slices_S128x32768_S128x1_0_16392) : (⟨S128x32768, .f32⟩ : BufTy).Contents (Elt F) → (⟨S128x1, .f32⟩ : BufTy).Contents (Elt F)),
    reshape main_v158 main_v159 rfl shapeCasts_S128x1_S128,
    binary main_v157 main_v159 main_v160 (subf : (⟨S128, .f32⟩ : BufTy).Contents (Elt F) → (⟨S128, .f32⟩ : BufTy).Contents (Elt F) → (⟨S128, .f32⟩ : BufTy).Contents (Elt F)),
    nullary main_c_41 (constantI S_ 32 1024#32),
    TRef.unary (TRef.of (T := ⟨S_, .i32⟩) main_c_41) (TRef.of (T := ⟨S_, .f32⟩) main_call17_v0) (sitofp .f32),
    TRef.unary (TRef.of (T := ⟨S_, .f32⟩) main_call17_v0) (TRef.of (T := ⟨S128, .f32⟩) main_call17_v1) (broadcastInDim S128 ![] bcast_S_S128),
    TRef.binary (TRef.of (T := ⟨S128, .f32⟩) main_v160) (TRef.of (T := ⟨S128, .f32⟩) main_call17_v1) (TRef.of (T := ⟨S128, .f32⟩) main_call17_v2) Host.remf,
    TRef.nullary (TRef.of (T := ⟨S_, .f32⟩) main_call17_cst) (constant S_ .f32 0x00000000#32),
    TRef.unary (TRef.of (T := ⟨S_, .f32⟩) main_call17_cst) (TRef.of (T := ⟨S128, .f32⟩) main_call17_v3) (broadcastInDim S128 ![] bcast_S_S128),
    TRef.binary (TRef.of (T := ⟨S128, .f32⟩) main_call17_v2) (TRef.of (T := ⟨S128, .f32⟩) main_call17_v3) (TRef.of (T := ⟨S128, .i1⟩) main_call17_v4) (cmpf .une),
    TRef.nullary (TRef.of (T := ⟨S_, .f32⟩) main_call17_cst_0) (constant S_ .f32 0x00000000#32),
    TRef.unary (TRef.of (T := ⟨S_, .f32⟩) main_call17_cst_0) (TRef.of (T := ⟨S128, .f32⟩) main_call17_v5) (broadcastInDim S128 ![] bcast_S_S128),
    TRef.binary (TRef.of (T := ⟨S128, .f32⟩) main_call17_v2) (TRef.of (T := ⟨S128, .f32⟩) main_call17_v5) (TRef.of (T := ⟨S128, .i1⟩) main_call17_v6) (cmpf .olt),
    TRef.nullary (TRef.of (T := ⟨S_, .f32⟩) main_call17_cst_1) (constant S_ .f32 0x00000000#32),
    TRef.binary (TRef.of (T := ⟨S_, .f32⟩) main_call17_v0) (TRef.of (T := ⟨S_, .f32⟩) main_call17_cst_1) (TRef.of (T := ⟨S_, .i1⟩) main_call17_v7) (cmpf .olt),
    TRef.unary (TRef.of (T := ⟨S_, .i1⟩) main_call17_v7) (TRef.of (T := ⟨S128, .i1⟩) main_call17_v8) (broadcastInDim S128 ![] bcast_S_S128),
    TRef.binary (TRef.of (T := ⟨S128, .i1⟩) main_call17_v6) (TRef.of (T := ⟨S128, .i1⟩) main_call17_v8) (TRef.of (T := ⟨S128, .i1⟩) main_call17_v9) (cmpi .ne),
    TRef.binary (TRef.of (T := ⟨S128, .i1⟩) main_call17_v9) (TRef.of (T := ⟨S128, .i1⟩) main_call17_v4) (TRef.of (T := ⟨S128, .i1⟩) main_call17_v10) andi,
    TRef.unary (TRef.of (T := ⟨S_, .f32⟩) main_call17_v0) (TRef.of (T := ⟨S128, .f32⟩) main_call17_v11) (broadcastInDim S128 ![] bcast_S_S128),
    TRef.binary (TRef.of (T := ⟨S128, .f32⟩) main_call17_v2) (TRef.of (T := ⟨S128, .f32⟩) main_call17_v11) (TRef.of (T := ⟨S128, .f32⟩) main_call17_v12) addf,
    TRef.ternary (TRef.of (T := ⟨S128, .i1⟩) main_call17_v10) (TRef.of (T := ⟨S128, .f32⟩) main_call17_v12) (TRef.of (T := ⟨S128, .f32⟩) main_call17_v2) (TRef.of (T := ⟨S128, .f32⟩) main_v161) select,
    nullary main_c_42 (constantI S_ 32 8#32),
    unary main_c_42 main_v162 (broadcastInDim S1 ![] bcast_S_S1 : (⟨S_, .i32⟩ : BufTy).Contents (Elt F) → (⟨S1, .i32⟩ : BufTy).Contents (Elt F)),
    ternary main_v147 main_v162 main_v153 main_v163 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_43 (constantI S_ 32 16392#32),
    unary main_c_43 main_v164 (broadcastInDim S1 ![] bcast_S_S1 : (⟨S_, .i32⟩ : BufTy).Contents (Elt F) → (⟨S1, .i32⟩ : BufTy).Contents (Elt F)),
    ternary main_v163 main_v164 main_v161 main_v165 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 9: from `main_v1` the wrapped remainders of columns 9 and 16393, written over those columns of `main_v165`, giving `main_v183`. -/
def it9 : List (HloOp τ sig (Elt F)) :=
  [ unary main_v1 main_v166 ((extractStridedSlice S128x1 ![0, 9] · slices_S128x32768_S128x1_0_9) : (⟨S128x32768, .f32⟩ : BufTy).Contents (Elt F) → (⟨S128x1, .f32⟩ : BufTy).Contents (Elt F)),
    reshape main_v166 main_v167 rfl shapeCasts_S128x1_S128,
    unary main_v1 main_v168 ((extractStridedSlice S128x1 ![0, 16393] · slices_S128x32768_S128x1_0_16393) : (⟨S128x32768, .f32⟩ : BufTy).Contents (Elt F) → (⟨S128x1, .f32⟩ : BufTy).Contents (Elt F)),
    reshape main_v168 main_v169 rfl shapeCasts_S128x1_S128,
    binary main_v167 main_v169 main_v170 (addf : (⟨S128, .f32⟩ : BufTy).Contents (Elt F) → (⟨S128, .f32⟩ : BufTy).Contents (Elt F) → (⟨S128, .f32⟩ : BufTy).Contents (Elt F)),
    nullary main_c_44 (constantI S_ 32 1024#32),
    TRef.unary (TRef.of (T := ⟨S_, .i32⟩) main_c_44) (TRef.of (T := ⟨S_, .f32⟩) main_call18_v0) (sitofp .f32),
    TRef.unary (TRef.of (T := ⟨S_, .f32⟩) main_call18_v0) (TRef.of (T := ⟨S128, .f32⟩) main_call18_v1) (broadcastInDim S128 ![] bcast_S_S128),
    TRef.binary (TRef.of (T := ⟨S128, .f32⟩) main_v170) (TRef.of (T := ⟨S128, .f32⟩) main_call18_v1) (TRef.of (T := ⟨S128, .f32⟩) main_call18_v2) Host.remf,
    TRef.nullary (TRef.of (T := ⟨S_, .f32⟩) main_call18_cst) (constant S_ .f32 0x00000000#32),
    TRef.unary (TRef.of (T := ⟨S_, .f32⟩) main_call18_cst) (TRef.of (T := ⟨S128, .f32⟩) main_call18_v3) (broadcastInDim S128 ![] bcast_S_S128),
    TRef.binary (TRef.of (T := ⟨S128, .f32⟩) main_call18_v2) (TRef.of (T := ⟨S128, .f32⟩) main_call18_v3) (TRef.of (T := ⟨S128, .i1⟩) main_call18_v4) (cmpf .une),
    TRef.nullary (TRef.of (T := ⟨S_, .f32⟩) main_call18_cst_0) (constant S_ .f32 0x00000000#32),
    TRef.unary (TRef.of (T := ⟨S_, .f32⟩) main_call18_cst_0) (TRef.of (T := ⟨S128, .f32⟩) main_call18_v5) (broadcastInDim S128 ![] bcast_S_S128),
    TRef.binary (TRef.of (T := ⟨S128, .f32⟩) main_call18_v2) (TRef.of (T := ⟨S128, .f32⟩) main_call18_v5) (TRef.of (T := ⟨S128, .i1⟩) main_call18_v6) (cmpf .olt),
    TRef.nullary (TRef.of (T := ⟨S_, .f32⟩) main_call18_cst_1) (constant S_ .f32 0x00000000#32),
    TRef.binary (TRef.of (T := ⟨S_, .f32⟩) main_call18_v0) (TRef.of (T := ⟨S_, .f32⟩) main_call18_cst_1) (TRef.of (T := ⟨S_, .i1⟩) main_call18_v7) (cmpf .olt),
    TRef.unary (TRef.of (T := ⟨S_, .i1⟩) main_call18_v7) (TRef.of (T := ⟨S128, .i1⟩) main_call18_v8) (broadcastInDim S128 ![] bcast_S_S128),
    TRef.binary (TRef.of (T := ⟨S128, .i1⟩) main_call18_v6) (TRef.of (T := ⟨S128, .i1⟩) main_call18_v8) (TRef.of (T := ⟨S128, .i1⟩) main_call18_v9) (cmpi .ne),
    TRef.binary (TRef.of (T := ⟨S128, .i1⟩) main_call18_v9) (TRef.of (T := ⟨S128, .i1⟩) main_call18_v4) (TRef.of (T := ⟨S128, .i1⟩) main_call18_v10) andi,
    TRef.unary (TRef.of (T := ⟨S_, .f32⟩) main_call18_v0) (TRef.of (T := ⟨S128, .f32⟩) main_call18_v11) (broadcastInDim S128 ![] bcast_S_S128),
    TRef.binary (TRef.of (T := ⟨S128, .f32⟩) main_call18_v2) (TRef.of (T := ⟨S128, .f32⟩) main_call18_v11) (TRef.of (T := ⟨S128, .f32⟩) main_call18_v12) addf,
    TRef.ternary (TRef.of (T := ⟨S128, .i1⟩) main_call18_v10) (TRef.of (T := ⟨S128, .f32⟩) main_call18_v12) (TRef.of (T := ⟨S128, .f32⟩) main_call18_v2) (TRef.of (T := ⟨S128, .f32⟩) main_v171) select,
    unary main_v1 main_v172 ((extractStridedSlice S128x1 ![0, 9] · slices_S128x32768_S128x1_0_9) : (⟨S128x32768, .f32⟩ : BufTy).Contents (Elt F) → (⟨S128x1, .f32⟩ : BufTy).Contents (Elt F)),
    reshape main_v172 main_v173 rfl shapeCasts_S128x1_S128,
    nullary main_cst_45 (constant S_ .f32 0x44800000#32),
    unary main_cst_45 main_v174 (broadcastInDim S128 ![] bcast_S_S128 : (⟨S_, .f32⟩ : BufTy).Contents (Elt F) → (⟨S128, .f32⟩ : BufTy).Contents (Elt F)),
    binary main_v174 main_v173 main_v175 (addf : (⟨S128, .f32⟩ : BufTy).Contents (Elt F) → (⟨S128, .f32⟩ : BufTy).Contents (Elt F) → (⟨S128, .f32⟩ : BufTy).Contents (Elt F)),
    unary main_v1 main_v176 ((extractStridedSlice S128x1 ![0, 16393] · slices_S128x32768_S128x1_0_16393) : (⟨S128x32768, .f32⟩ : BufTy).Contents (Elt F) → (⟨S128x1, .f32⟩ : BufTy).Contents (Elt F)),
    reshape main_v176 main_v177 rfl shapeCasts_S128x1_S128,
    binary main_v175 main_v177 main_v178 (subf : (⟨S128, .f32⟩ : BufTy).Contents (Elt F) → (⟨S128, .f32⟩ : BufTy).Contents (Elt F) → (⟨S128, .f32⟩ : BufTy).Contents (Elt F)),
    nullary main_c_46 (constantI S_ 32 1024#32),
    TRef.unary (TRef.of (T := ⟨S_, .i32⟩) main_c_46) (TRef.of (T := ⟨S_, .f32⟩) main_call19_v0) (sitofp .f32),
    TRef.unary (TRef.of (T := ⟨S_, .f32⟩) main_call19_v0) (TRef.of (T := ⟨S128, .f32⟩) main_call19_v1) (broadcastInDim S128 ![] bcast_S_S128),
    TRef.binary (TRef.of (T := ⟨S128, .f32⟩) main_v178) (TRef.of (T := ⟨S128, .f32⟩) main_call19_v1) (TRef.of (T := ⟨S128, .f32⟩) main_call19_v2) Host.remf,
    TRef.nullary (TRef.of (T := ⟨S_, .f32⟩) main_call19_cst) (constant S_ .f32 0x00000000#32),
    TRef.unary (TRef.of (T := ⟨S_, .f32⟩) main_call19_cst) (TRef.of (T := ⟨S128, .f32⟩) main_call19_v3) (broadcastInDim S128 ![] bcast_S_S128),
    TRef.binary (TRef.of (T := ⟨S128, .f32⟩) main_call19_v2) (TRef.of (T := ⟨S128, .f32⟩) main_call19_v3) (TRef.of (T := ⟨S128, .i1⟩) main_call19_v4) (cmpf .une),
    TRef.nullary (TRef.of (T := ⟨S_, .f32⟩) main_call19_cst_0) (constant S_ .f32 0x00000000#32),
    TRef.unary (TRef.of (T := ⟨S_, .f32⟩) main_call19_cst_0) (TRef.of (T := ⟨S128, .f32⟩) main_call19_v5) (broadcastInDim S128 ![] bcast_S_S128),
    TRef.binary (TRef.of (T := ⟨S128, .f32⟩) main_call19_v2) (TRef.of (T := ⟨S128, .f32⟩) main_call19_v5) (TRef.of (T := ⟨S128, .i1⟩) main_call19_v6) (cmpf .olt),
    TRef.nullary (TRef.of (T := ⟨S_, .f32⟩) main_call19_cst_1) (constant S_ .f32 0x00000000#32),
    TRef.binary (TRef.of (T := ⟨S_, .f32⟩) main_call19_v0) (TRef.of (T := ⟨S_, .f32⟩) main_call19_cst_1) (TRef.of (T := ⟨S_, .i1⟩) main_call19_v7) (cmpf .olt),
    TRef.unary (TRef.of (T := ⟨S_, .i1⟩) main_call19_v7) (TRef.of (T := ⟨S128, .i1⟩) main_call19_v8) (broadcastInDim S128 ![] bcast_S_S128),
    TRef.binary (TRef.of (T := ⟨S128, .i1⟩) main_call19_v6) (TRef.of (T := ⟨S128, .i1⟩) main_call19_v8) (TRef.of (T := ⟨S128, .i1⟩) main_call19_v9) (cmpi .ne),
    TRef.binary (TRef.of (T := ⟨S128, .i1⟩) main_call19_v9) (TRef.of (T := ⟨S128, .i1⟩) main_call19_v4) (TRef.of (T := ⟨S128, .i1⟩) main_call19_v10) andi,
    TRef.unary (TRef.of (T := ⟨S_, .f32⟩) main_call19_v0) (TRef.of (T := ⟨S128, .f32⟩) main_call19_v11) (broadcastInDim S128 ![] bcast_S_S128),
    TRef.binary (TRef.of (T := ⟨S128, .f32⟩) main_call19_v2) (TRef.of (T := ⟨S128, .f32⟩) main_call19_v11) (TRef.of (T := ⟨S128, .f32⟩) main_call19_v12) addf,
    TRef.ternary (TRef.of (T := ⟨S128, .i1⟩) main_call19_v10) (TRef.of (T := ⟨S128, .f32⟩) main_call19_v12) (TRef.of (T := ⟨S128, .f32⟩) main_call19_v2) (TRef.of (T := ⟨S128, .f32⟩) main_v179) select,
    nullary main_c_47 (constantI S_ 32 9#32),
    unary main_c_47 main_v180 (broadcastInDim S1 ![] bcast_S_S1 : (⟨S_, .i32⟩ : BufTy).Contents (Elt F) → (⟨S1, .i32⟩ : BufTy).Contents (Elt F)),
    ternary main_v165 main_v180 main_v171 main_v181 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_48 (constantI S_ 32 16393#32),
    unary main_c_48 main_v182 (broadcastInDim S1 ![] bcast_S_S1 : (⟨S_, .i32⟩ : BufTy).Contents (Elt F) → (⟨S1, .i32⟩ : BufTy).Contents (Elt F)),
    ternary main_v181 main_v182 main_v179 main_v183 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 10: from `main_v1` the wrapped remainders of columns 10 and 16394, written over those columns of `main_v183`, giving `main_v201`. -/
def it10 : List (HloOp τ sig (Elt F)) :=
  [ unary main_v1 main_v184 ((extractStridedSlice S128x1 ![0, 10] · slices_S128x32768_S128x1_0_10) : (⟨S128x32768, .f32⟩ : BufTy).Contents (Elt F) → (⟨S128x1, .f32⟩ : BufTy).Contents (Elt F)),
    reshape main_v184 main_v185 rfl shapeCasts_S128x1_S128,
    unary main_v1 main_v186 ((extractStridedSlice S128x1 ![0, 16394] · slices_S128x32768_S128x1_0_16394) : (⟨S128x32768, .f32⟩ : BufTy).Contents (Elt F) → (⟨S128x1, .f32⟩ : BufTy).Contents (Elt F)),
    reshape main_v186 main_v187 rfl shapeCasts_S128x1_S128,
    binary main_v185 main_v187 main_v188 (addf : (⟨S128, .f32⟩ : BufTy).Contents (Elt F) → (⟨S128, .f32⟩ : BufTy).Contents (Elt F) → (⟨S128, .f32⟩ : BufTy).Contents (Elt F)),
    nullary main_c_49 (constantI S_ 32 1024#32),
    TRef.unary (TRef.of (T := ⟨S_, .i32⟩) main_c_49) (TRef.of (T := ⟨S_, .f32⟩) main_call20_v0) (sitofp .f32),
    TRef.unary (TRef.of (T := ⟨S_, .f32⟩) main_call20_v0) (TRef.of (T := ⟨S128, .f32⟩) main_call20_v1) (broadcastInDim S128 ![] bcast_S_S128),
    TRef.binary (TRef.of (T := ⟨S128, .f32⟩) main_v188) (TRef.of (T := ⟨S128, .f32⟩) main_call20_v1) (TRef.of (T := ⟨S128, .f32⟩) main_call20_v2) Host.remf,
    TRef.nullary (TRef.of (T := ⟨S_, .f32⟩) main_call20_cst) (constant S_ .f32 0x00000000#32),
    TRef.unary (TRef.of (T := ⟨S_, .f32⟩) main_call20_cst) (TRef.of (T := ⟨S128, .f32⟩) main_call20_v3) (broadcastInDim S128 ![] bcast_S_S128),
    TRef.binary (TRef.of (T := ⟨S128, .f32⟩) main_call20_v2) (TRef.of (T := ⟨S128, .f32⟩) main_call20_v3) (TRef.of (T := ⟨S128, .i1⟩) main_call20_v4) (cmpf .une),
    TRef.nullary (TRef.of (T := ⟨S_, .f32⟩) main_call20_cst_0) (constant S_ .f32 0x00000000#32),
    TRef.unary (TRef.of (T := ⟨S_, .f32⟩) main_call20_cst_0) (TRef.of (T := ⟨S128, .f32⟩) main_call20_v5) (broadcastInDim S128 ![] bcast_S_S128),
    TRef.binary (TRef.of (T := ⟨S128, .f32⟩) main_call20_v2) (TRef.of (T := ⟨S128, .f32⟩) main_call20_v5) (TRef.of (T := ⟨S128, .i1⟩) main_call20_v6) (cmpf .olt),
    TRef.nullary (TRef.of (T := ⟨S_, .f32⟩) main_call20_cst_1) (constant S_ .f32 0x00000000#32),
    TRef.binary (TRef.of (T := ⟨S_, .f32⟩) main_call20_v0) (TRef.of (T := ⟨S_, .f32⟩) main_call20_cst_1) (TRef.of (T := ⟨S_, .i1⟩) main_call20_v7) (cmpf .olt),
    TRef.unary (TRef.of (T := ⟨S_, .i1⟩) main_call20_v7) (TRef.of (T := ⟨S128, .i1⟩) main_call20_v8) (broadcastInDim S128 ![] bcast_S_S128),
    TRef.binary (TRef.of (T := ⟨S128, .i1⟩) main_call20_v6) (TRef.of (T := ⟨S128, .i1⟩) main_call20_v8) (TRef.of (T := ⟨S128, .i1⟩) main_call20_v9) (cmpi .ne),
    TRef.binary (TRef.of (T := ⟨S128, .i1⟩) main_call20_v9) (TRef.of (T := ⟨S128, .i1⟩) main_call20_v4) (TRef.of (T := ⟨S128, .i1⟩) main_call20_v10) andi,
    TRef.unary (TRef.of (T := ⟨S_, .f32⟩) main_call20_v0) (TRef.of (T := ⟨S128, .f32⟩) main_call20_v11) (broadcastInDim S128 ![] bcast_S_S128),
    TRef.binary (TRef.of (T := ⟨S128, .f32⟩) main_call20_v2) (TRef.of (T := ⟨S128, .f32⟩) main_call20_v11) (TRef.of (T := ⟨S128, .f32⟩) main_call20_v12) addf,
    TRef.ternary (TRef.of (T := ⟨S128, .i1⟩) main_call20_v10) (TRef.of (T := ⟨S128, .f32⟩) main_call20_v12) (TRef.of (T := ⟨S128, .f32⟩) main_call20_v2) (TRef.of (T := ⟨S128, .f32⟩) main_v189) select,
    unary main_v1 main_v190 ((extractStridedSlice S128x1 ![0, 10] · slices_S128x32768_S128x1_0_10) : (⟨S128x32768, .f32⟩ : BufTy).Contents (Elt F) → (⟨S128x1, .f32⟩ : BufTy).Contents (Elt F)),
    reshape main_v190 main_v191 rfl shapeCasts_S128x1_S128,
    nullary main_cst_50 (constant S_ .f32 0x44800000#32),
    unary main_cst_50 main_v192 (broadcastInDim S128 ![] bcast_S_S128 : (⟨S_, .f32⟩ : BufTy).Contents (Elt F) → (⟨S128, .f32⟩ : BufTy).Contents (Elt F)),
    binary main_v192 main_v191 main_v193 (addf : (⟨S128, .f32⟩ : BufTy).Contents (Elt F) → (⟨S128, .f32⟩ : BufTy).Contents (Elt F) → (⟨S128, .f32⟩ : BufTy).Contents (Elt F)),
    unary main_v1 main_v194 ((extractStridedSlice S128x1 ![0, 16394] · slices_S128x32768_S128x1_0_16394) : (⟨S128x32768, .f32⟩ : BufTy).Contents (Elt F) → (⟨S128x1, .f32⟩ : BufTy).Contents (Elt F)),
    reshape main_v194 main_v195 rfl shapeCasts_S128x1_S128,
    binary main_v193 main_v195 main_v196 (subf : (⟨S128, .f32⟩ : BufTy).Contents (Elt F) → (⟨S128, .f32⟩ : BufTy).Contents (Elt F) → (⟨S128, .f32⟩ : BufTy).Contents (Elt F)),
    nullary main_c_51 (constantI S_ 32 1024#32),
    TRef.unary (TRef.of (T := ⟨S_, .i32⟩) main_c_51) (TRef.of (T := ⟨S_, .f32⟩) main_call21_v0) (sitofp .f32),
    TRef.unary (TRef.of (T := ⟨S_, .f32⟩) main_call21_v0) (TRef.of (T := ⟨S128, .f32⟩) main_call21_v1) (broadcastInDim S128 ![] bcast_S_S128),
    TRef.binary (TRef.of (T := ⟨S128, .f32⟩) main_v196) (TRef.of (T := ⟨S128, .f32⟩) main_call21_v1) (TRef.of (T := ⟨S128, .f32⟩) main_call21_v2) Host.remf,
    TRef.nullary (TRef.of (T := ⟨S_, .f32⟩) main_call21_cst) (constant S_ .f32 0x00000000#32),
    TRef.unary (TRef.of (T := ⟨S_, .f32⟩) main_call21_cst) (TRef.of (T := ⟨S128, .f32⟩) main_call21_v3) (broadcastInDim S128 ![] bcast_S_S128),
    TRef.binary (TRef.of (T := ⟨S128, .f32⟩) main_call21_v2) (TRef.of (T := ⟨S128, .f32⟩) main_call21_v3) (TRef.of (T := ⟨S128, .i1⟩) main_call21_v4) (cmpf .une),
    TRef.nullary (TRef.of (T := ⟨S_, .f32⟩) main_call21_cst_0) (constant S_ .f32 0x00000000#32),
    TRef.unary (TRef.of (T := ⟨S_, .f32⟩) main_call21_cst_0) (TRef.of (T := ⟨S128, .f32⟩) main_call21_v5) (broadcastInDim S128 ![] bcast_S_S128),
    TRef.binary (TRef.of (T := ⟨S128, .f32⟩) main_call21_v2) (TRef.of (T := ⟨S128, .f32⟩) main_call21_v5) (TRef.of (T := ⟨S128, .i1⟩) main_call21_v6) (cmpf .olt),
    TRef.nullary (TRef.of (T := ⟨S_, .f32⟩) main_call21_cst_1) (constant S_ .f32 0x00000000#32),
    TRef.binary (TRef.of (T := ⟨S_, .f32⟩) main_call21_v0) (TRef.of (T := ⟨S_, .f32⟩) main_call21_cst_1) (TRef.of (T := ⟨S_, .i1⟩) main_call21_v7) (cmpf .olt),
    TRef.unary (TRef.of (T := ⟨S_, .i1⟩) main_call21_v7) (TRef.of (T := ⟨S128, .i1⟩) main_call21_v8) (broadcastInDim S128 ![] bcast_S_S128),
    TRef.binary (TRef.of (T := ⟨S128, .i1⟩) main_call21_v6) (TRef.of (T := ⟨S128, .i1⟩) main_call21_v8) (TRef.of (T := ⟨S128, .i1⟩) main_call21_v9) (cmpi .ne),
    TRef.binary (TRef.of (T := ⟨S128, .i1⟩) main_call21_v9) (TRef.of (T := ⟨S128, .i1⟩) main_call21_v4) (TRef.of (T := ⟨S128, .i1⟩) main_call21_v10) andi,
    TRef.unary (TRef.of (T := ⟨S_, .f32⟩) main_call21_v0) (TRef.of (T := ⟨S128, .f32⟩) main_call21_v11) (broadcastInDim S128 ![] bcast_S_S128),
    TRef.binary (TRef.of (T := ⟨S128, .f32⟩) main_call21_v2) (TRef.of (T := ⟨S128, .f32⟩) main_call21_v11) (TRef.of (T := ⟨S128, .f32⟩) main_call21_v12) addf,
    TRef.ternary (TRef.of (T := ⟨S128, .i1⟩) main_call21_v10) (TRef.of (T := ⟨S128, .f32⟩) main_call21_v12) (TRef.of (T := ⟨S128, .f32⟩) main_call21_v2) (TRef.of (T := ⟨S128, .f32⟩) main_v197) select,
    nullary main_c_52 (constantI S_ 32 10#32),
    unary main_c_52 main_v198 (broadcastInDim S1 ![] bcast_S_S1 : (⟨S_, .i32⟩ : BufTy).Contents (Elt F) → (⟨S1, .i32⟩ : BufTy).Contents (Elt F)),
    ternary main_v183 main_v198 main_v189 main_v199 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_53 (constantI S_ 32 16394#32),
    unary main_c_53 main_v200 (broadcastInDim S1 ![] bcast_S_S1 : (⟨S_, .i32⟩ : BufTy).Contents (Elt F) → (⟨S1, .i32⟩ : BufTy).Contents (Elt F)),
    ternary main_v199 main_v200 main_v197 main_v201 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 11: from `main_v1` the wrapped remainders of columns 11 and 16395, written over those columns of `main_v201`, giving `main_v219`. -/
def it11 : List (HloOp τ sig (Elt F)) :=
  [ unary main_v1 main_v202 ((extractStridedSlice S128x1 ![0, 11] · slices_S128x32768_S128x1_0_11) : (⟨S128x32768, .f32⟩ : BufTy).Contents (Elt F) → (⟨S128x1, .f32⟩ : BufTy).Contents (Elt F)),
    reshape main_v202 main_v203 rfl shapeCasts_S128x1_S128,
    unary main_v1 main_v204 ((extractStridedSlice S128x1 ![0, 16395] · slices_S128x32768_S128x1_0_16395) : (⟨S128x32768, .f32⟩ : BufTy).Contents (Elt F) → (⟨S128x1, .f32⟩ : BufTy).Contents (Elt F)),
    reshape main_v204 main_v205 rfl shapeCasts_S128x1_S128,
    binary main_v203 main_v205 main_v206 (addf : (⟨S128, .f32⟩ : BufTy).Contents (Elt F) → (⟨S128, .f32⟩ : BufTy).Contents (Elt F) → (⟨S128, .f32⟩ : BufTy).Contents (Elt F)),
    nullary main_c_54 (constantI S_ 32 1024#32),
    TRef.unary (TRef.of (T := ⟨S_, .i32⟩) main_c_54) (TRef.of (T := ⟨S_, .f32⟩) main_call22_v0) (sitofp .f32),
    TRef.unary (TRef.of (T := ⟨S_, .f32⟩) main_call22_v0) (TRef.of (T := ⟨S128, .f32⟩) main_call22_v1) (broadcastInDim S128 ![] bcast_S_S128),
    TRef.binary (TRef.of (T := ⟨S128, .f32⟩) main_v206) (TRef.of (T := ⟨S128, .f32⟩) main_call22_v1) (TRef.of (T := ⟨S128, .f32⟩) main_call22_v2) Host.remf,
    TRef.nullary (TRef.of (T := ⟨S_, .f32⟩) main_call22_cst) (constant S_ .f32 0x00000000#32),
    TRef.unary (TRef.of (T := ⟨S_, .f32⟩) main_call22_cst) (TRef.of (T := ⟨S128, .f32⟩) main_call22_v3) (broadcastInDim S128 ![] bcast_S_S128),
    TRef.binary (TRef.of (T := ⟨S128, .f32⟩) main_call22_v2) (TRef.of (T := ⟨S128, .f32⟩) main_call22_v3) (TRef.of (T := ⟨S128, .i1⟩) main_call22_v4) (cmpf .une),
    TRef.nullary (TRef.of (T := ⟨S_, .f32⟩) main_call22_cst_0) (constant S_ .f32 0x00000000#32),
    TRef.unary (TRef.of (T := ⟨S_, .f32⟩) main_call22_cst_0) (TRef.of (T := ⟨S128, .f32⟩) main_call22_v5) (broadcastInDim S128 ![] bcast_S_S128),
    TRef.binary (TRef.of (T := ⟨S128, .f32⟩) main_call22_v2) (TRef.of (T := ⟨S128, .f32⟩) main_call22_v5) (TRef.of (T := ⟨S128, .i1⟩) main_call22_v6) (cmpf .olt),
    TRef.nullary (TRef.of (T := ⟨S_, .f32⟩) main_call22_cst_1) (constant S_ .f32 0x00000000#32),
    TRef.binary (TRef.of (T := ⟨S_, .f32⟩) main_call22_v0) (TRef.of (T := ⟨S_, .f32⟩) main_call22_cst_1) (TRef.of (T := ⟨S_, .i1⟩) main_call22_v7) (cmpf .olt),
    TRef.unary (TRef.of (T := ⟨S_, .i1⟩) main_call22_v7) (TRef.of (T := ⟨S128, .i1⟩) main_call22_v8) (broadcastInDim S128 ![] bcast_S_S128),
    TRef.binary (TRef.of (T := ⟨S128, .i1⟩) main_call22_v6) (TRef.of (T := ⟨S128, .i1⟩) main_call22_v8) (TRef.of (T := ⟨S128, .i1⟩) main_call22_v9) (cmpi .ne),
    TRef.binary (TRef.of (T := ⟨S128, .i1⟩) main_call22_v9) (TRef.of (T := ⟨S128, .i1⟩) main_call22_v4) (TRef.of (T := ⟨S128, .i1⟩) main_call22_v10) andi,
    TRef.unary (TRef.of (T := ⟨S_, .f32⟩) main_call22_v0) (TRef.of (T := ⟨S128, .f32⟩) main_call22_v11) (broadcastInDim S128 ![] bcast_S_S128),
    TRef.binary (TRef.of (T := ⟨S128, .f32⟩) main_call22_v2) (TRef.of (T := ⟨S128, .f32⟩) main_call22_v11) (TRef.of (T := ⟨S128, .f32⟩) main_call22_v12) addf,
    TRef.ternary (TRef.of (T := ⟨S128, .i1⟩) main_call22_v10) (TRef.of (T := ⟨S128, .f32⟩) main_call22_v12) (TRef.of (T := ⟨S128, .f32⟩) main_call22_v2) (TRef.of (T := ⟨S128, .f32⟩) main_v207) select,
    unary main_v1 main_v208 ((extractStridedSlice S128x1 ![0, 11] · slices_S128x32768_S128x1_0_11) : (⟨S128x32768, .f32⟩ : BufTy).Contents (Elt F) → (⟨S128x1, .f32⟩ : BufTy).Contents (Elt F)),
    reshape main_v208 main_v209 rfl shapeCasts_S128x1_S128,
    nullary main_cst_55 (constant S_ .f32 0x44800000#32),
    unary main_cst_55 main_v210 (broadcastInDim S128 ![] bcast_S_S128 : (⟨S_, .f32⟩ : BufTy).Contents (Elt F) → (⟨S128, .f32⟩ : BufTy).Contents (Elt F)),
    binary main_v210 main_v209 main_v211 (addf : (⟨S128, .f32⟩ : BufTy).Contents (Elt F) → (⟨S128, .f32⟩ : BufTy).Contents (Elt F) → (⟨S128, .f32⟩ : BufTy).Contents (Elt F)),
    unary main_v1 main_v212 ((extractStridedSlice S128x1 ![0, 16395] · slices_S128x32768_S128x1_0_16395) : (⟨S128x32768, .f32⟩ : BufTy).Contents (Elt F) → (⟨S128x1, .f32⟩ : BufTy).Contents (Elt F)),
    reshape main_v212 main_v213 rfl shapeCasts_S128x1_S128,
    binary main_v211 main_v213 main_v214 (subf : (⟨S128, .f32⟩ : BufTy).Contents (Elt F) → (⟨S128, .f32⟩ : BufTy).Contents (Elt F) → (⟨S128, .f32⟩ : BufTy).Contents (Elt F)),
    nullary main_c_56 (constantI S_ 32 1024#32),
    TRef.unary (TRef.of (T := ⟨S_, .i32⟩) main_c_56) (TRef.of (T := ⟨S_, .f32⟩) main_call23_v0) (sitofp .f32),
    TRef.unary (TRef.of (T := ⟨S_, .f32⟩) main_call23_v0) (TRef.of (T := ⟨S128, .f32⟩) main_call23_v1) (broadcastInDim S128 ![] bcast_S_S128),
    TRef.binary (TRef.of (T := ⟨S128, .f32⟩) main_v214) (TRef.of (T := ⟨S128, .f32⟩) main_call23_v1) (TRef.of (T := ⟨S128, .f32⟩) main_call23_v2) Host.remf,
    TRef.nullary (TRef.of (T := ⟨S_, .f32⟩) main_call23_cst) (constant S_ .f32 0x00000000#32),
    TRef.unary (TRef.of (T := ⟨S_, .f32⟩) main_call23_cst) (TRef.of (T := ⟨S128, .f32⟩) main_call23_v3) (broadcastInDim S128 ![] bcast_S_S128),
    TRef.binary (TRef.of (T := ⟨S128, .f32⟩) main_call23_v2) (TRef.of (T := ⟨S128, .f32⟩) main_call23_v3) (TRef.of (T := ⟨S128, .i1⟩) main_call23_v4) (cmpf .une),
    TRef.nullary (TRef.of (T := ⟨S_, .f32⟩) main_call23_cst_0) (constant S_ .f32 0x00000000#32),
    TRef.unary (TRef.of (T := ⟨S_, .f32⟩) main_call23_cst_0) (TRef.of (T := ⟨S128, .f32⟩) main_call23_v5) (broadcastInDim S128 ![] bcast_S_S128),
    TRef.binary (TRef.of (T := ⟨S128, .f32⟩) main_call23_v2) (TRef.of (T := ⟨S128, .f32⟩) main_call23_v5) (TRef.of (T := ⟨S128, .i1⟩) main_call23_v6) (cmpf .olt),
    TRef.nullary (TRef.of (T := ⟨S_, .f32⟩) main_call23_cst_1) (constant S_ .f32 0x00000000#32),
    TRef.binary (TRef.of (T := ⟨S_, .f32⟩) main_call23_v0) (TRef.of (T := ⟨S_, .f32⟩) main_call23_cst_1) (TRef.of (T := ⟨S_, .i1⟩) main_call23_v7) (cmpf .olt),
    TRef.unary (TRef.of (T := ⟨S_, .i1⟩) main_call23_v7) (TRef.of (T := ⟨S128, .i1⟩) main_call23_v8) (broadcastInDim S128 ![] bcast_S_S128),
    TRef.binary (TRef.of (T := ⟨S128, .i1⟩) main_call23_v6) (TRef.of (T := ⟨S128, .i1⟩) main_call23_v8) (TRef.of (T := ⟨S128, .i1⟩) main_call23_v9) (cmpi .ne),
    TRef.binary (TRef.of (T := ⟨S128, .i1⟩) main_call23_v9) (TRef.of (T := ⟨S128, .i1⟩) main_call23_v4) (TRef.of (T := ⟨S128, .i1⟩) main_call23_v10) andi,
    TRef.unary (TRef.of (T := ⟨S_, .f32⟩) main_call23_v0) (TRef.of (T := ⟨S128, .f32⟩) main_call23_v11) (broadcastInDim S128 ![] bcast_S_S128),
    TRef.binary (TRef.of (T := ⟨S128, .f32⟩) main_call23_v2) (TRef.of (T := ⟨S128, .f32⟩) main_call23_v11) (TRef.of (T := ⟨S128, .f32⟩) main_call23_v12) addf,
    TRef.ternary (TRef.of (T := ⟨S128, .i1⟩) main_call23_v10) (TRef.of (T := ⟨S128, .f32⟩) main_call23_v12) (TRef.of (T := ⟨S128, .f32⟩) main_call23_v2) (TRef.of (T := ⟨S128, .f32⟩) main_v215) select,
    nullary main_c_57 (constantI S_ 32 11#32),
    unary main_c_57 main_v216 (broadcastInDim S1 ![] bcast_S_S1 : (⟨S_, .i32⟩ : BufTy).Contents (Elt F) → (⟨S1, .i32⟩ : BufTy).Contents (Elt F)),
    ternary main_v201 main_v216 main_v207 main_v217 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_58 (constantI S_ 32 16395#32),
    unary main_c_58 main_v218 (broadcastInDim S1 ![] bcast_S_S1 : (⟨S_, .i32⟩ : BufTy).Contents (Elt F) → (⟨S1, .i32⟩ : BufTy).Contents (Elt F)),
    ternary main_v217 main_v218 main_v215 main_v219 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 12: from `main_v1` the wrapped remainders of columns 12 and 16396, written over those columns of `main_v219`, giving `main_v237`. -/
def it12 : List (HloOp τ sig (Elt F)) :=
  [ unary main_v1 main_v220 ((extractStridedSlice S128x1 ![0, 12] · slices_S128x32768_S128x1_0_12) : (⟨S128x32768, .f32⟩ : BufTy).Contents (Elt F) → (⟨S128x1, .f32⟩ : BufTy).Contents (Elt F)),
    reshape main_v220 main_v221 rfl shapeCasts_S128x1_S128,
    unary main_v1 main_v222 ((extractStridedSlice S128x1 ![0, 16396] · slices_S128x32768_S128x1_0_16396) : (⟨S128x32768, .f32⟩ : BufTy).Contents (Elt F) → (⟨S128x1, .f32⟩ : BufTy).Contents (Elt F)),
    reshape main_v222 main_v223 rfl shapeCasts_S128x1_S128,
    binary main_v221 main_v223 main_v224 (addf : (⟨S128, .f32⟩ : BufTy).Contents (Elt F) → (⟨S128, .f32⟩ : BufTy).Contents (Elt F) → (⟨S128, .f32⟩ : BufTy).Contents (Elt F)),
    nullary main_c_59 (constantI S_ 32 1024#32),
    TRef.unary (TRef.of (T := ⟨S_, .i32⟩) main_c_59) (TRef.of (T := ⟨S_, .f32⟩) main_call24_v0) (sitofp .f32),
    TRef.unary (TRef.of (T := ⟨S_, .f32⟩) main_call24_v0) (TRef.of (T := ⟨S128, .f32⟩) main_call24_v1) (broadcastInDim S128 ![] bcast_S_S128),
    TRef.binary (TRef.of (T := ⟨S128, .f32⟩) main_v224) (TRef.of (T := ⟨S128, .f32⟩) main_call24_v1) (TRef.of (T := ⟨S128, .f32⟩) main_call24_v2) Host.remf,
    TRef.nullary (TRef.of (T := ⟨S_, .f32⟩) main_call24_cst) (constant S_ .f32 0x00000000#32),
    TRef.unary (TRef.of (T := ⟨S_, .f32⟩) main_call24_cst) (TRef.of (T := ⟨S128, .f32⟩) main_call24_v3) (broadcastInDim S128 ![] bcast_S_S128),
    TRef.binary (TRef.of (T := ⟨S128, .f32⟩) main_call24_v2) (TRef.of (T := ⟨S128, .f32⟩) main_call24_v3) (TRef.of (T := ⟨S128, .i1⟩) main_call24_v4) (cmpf .une),
    TRef.nullary (TRef.of (T := ⟨S_, .f32⟩) main_call24_cst_0) (constant S_ .f32 0x00000000#32),
    TRef.unary (TRef.of (T := ⟨S_, .f32⟩) main_call24_cst_0) (TRef.of (T := ⟨S128, .f32⟩) main_call24_v5) (broadcastInDim S128 ![] bcast_S_S128),
    TRef.binary (TRef.of (T := ⟨S128, .f32⟩) main_call24_v2) (TRef.of (T := ⟨S128, .f32⟩) main_call24_v5) (TRef.of (T := ⟨S128, .i1⟩) main_call24_v6) (cmpf .olt),
    TRef.nullary (TRef.of (T := ⟨S_, .f32⟩) main_call24_cst_1) (constant S_ .f32 0x00000000#32),
    TRef.binary (TRef.of (T := ⟨S_, .f32⟩) main_call24_v0) (TRef.of (T := ⟨S_, .f32⟩) main_call24_cst_1) (TRef.of (T := ⟨S_, .i1⟩) main_call24_v7) (cmpf .olt),
    TRef.unary (TRef.of (T := ⟨S_, .i1⟩) main_call24_v7) (TRef.of (T := ⟨S128, .i1⟩) main_call24_v8) (broadcastInDim S128 ![] bcast_S_S128),
    TRef.binary (TRef.of (T := ⟨S128, .i1⟩) main_call24_v6) (TRef.of (T := ⟨S128, .i1⟩) main_call24_v8) (TRef.of (T := ⟨S128, .i1⟩) main_call24_v9) (cmpi .ne),
    TRef.binary (TRef.of (T := ⟨S128, .i1⟩) main_call24_v9) (TRef.of (T := ⟨S128, .i1⟩) main_call24_v4) (TRef.of (T := ⟨S128, .i1⟩) main_call24_v10) andi,
    TRef.unary (TRef.of (T := ⟨S_, .f32⟩) main_call24_v0) (TRef.of (T := ⟨S128, .f32⟩) main_call24_v11) (broadcastInDim S128 ![] bcast_S_S128),
    TRef.binary (TRef.of (T := ⟨S128, .f32⟩) main_call24_v2) (TRef.of (T := ⟨S128, .f32⟩) main_call24_v11) (TRef.of (T := ⟨S128, .f32⟩) main_call24_v12) addf,
    TRef.ternary (TRef.of (T := ⟨S128, .i1⟩) main_call24_v10) (TRef.of (T := ⟨S128, .f32⟩) main_call24_v12) (TRef.of (T := ⟨S128, .f32⟩) main_call24_v2) (TRef.of (T := ⟨S128, .f32⟩) main_v225) select,
    unary main_v1 main_v226 ((extractStridedSlice S128x1 ![0, 12] · slices_S128x32768_S128x1_0_12) : (⟨S128x32768, .f32⟩ : BufTy).Contents (Elt F) → (⟨S128x1, .f32⟩ : BufTy).Contents (Elt F)),
    reshape main_v226 main_v227 rfl shapeCasts_S128x1_S128,
    nullary main_cst_60 (constant S_ .f32 0x44800000#32),
    unary main_cst_60 main_v228 (broadcastInDim S128 ![] bcast_S_S128 : (⟨S_, .f32⟩ : BufTy).Contents (Elt F) → (⟨S128, .f32⟩ : BufTy).Contents (Elt F)),
    binary main_v228 main_v227 main_v229 (addf : (⟨S128, .f32⟩ : BufTy).Contents (Elt F) → (⟨S128, .f32⟩ : BufTy).Contents (Elt F) → (⟨S128, .f32⟩ : BufTy).Contents (Elt F)),
    unary main_v1 main_v230 ((extractStridedSlice S128x1 ![0, 16396] · slices_S128x32768_S128x1_0_16396) : (⟨S128x32768, .f32⟩ : BufTy).Contents (Elt F) → (⟨S128x1, .f32⟩ : BufTy).Contents (Elt F)),
    reshape main_v230 main_v231 rfl shapeCasts_S128x1_S128,
    binary main_v229 main_v231 main_v232 (subf : (⟨S128, .f32⟩ : BufTy).Contents (Elt F) → (⟨S128, .f32⟩ : BufTy).Contents (Elt F) → (⟨S128, .f32⟩ : BufTy).Contents (Elt F)),
    nullary main_c_61 (constantI S_ 32 1024#32),
    TRef.unary (TRef.of (T := ⟨S_, .i32⟩) main_c_61) (TRef.of (T := ⟨S_, .f32⟩) main_call25_v0) (sitofp .f32),
    TRef.unary (TRef.of (T := ⟨S_, .f32⟩) main_call25_v0) (TRef.of (T := ⟨S128, .f32⟩) main_call25_v1) (broadcastInDim S128 ![] bcast_S_S128),
    TRef.binary (TRef.of (T := ⟨S128, .f32⟩) main_v232) (TRef.of (T := ⟨S128, .f32⟩) main_call25_v1) (TRef.of (T := ⟨S128, .f32⟩) main_call25_v2) Host.remf,
    TRef.nullary (TRef.of (T := ⟨S_, .f32⟩) main_call25_cst) (constant S_ .f32 0x00000000#32),
    TRef.unary (TRef.of (T := ⟨S_, .f32⟩) main_call25_cst) (TRef.of (T := ⟨S128, .f32⟩) main_call25_v3) (broadcastInDim S128 ![] bcast_S_S128),
    TRef.binary (TRef.of (T := ⟨S128, .f32⟩) main_call25_v2) (TRef.of (T := ⟨S128, .f32⟩) main_call25_v3) (TRef.of (T := ⟨S128, .i1⟩) main_call25_v4) (cmpf .une),
    TRef.nullary (TRef.of (T := ⟨S_, .f32⟩) main_call25_cst_0) (constant S_ .f32 0x00000000#32),
    TRef.unary (TRef.of (T := ⟨S_, .f32⟩) main_call25_cst_0) (TRef.of (T := ⟨S128, .f32⟩) main_call25_v5) (broadcastInDim S128 ![] bcast_S_S128),
    TRef.binary (TRef.of (T := ⟨S128, .f32⟩) main_call25_v2) (TRef.of (T := ⟨S128, .f32⟩) main_call25_v5) (TRef.of (T := ⟨S128, .i1⟩) main_call25_v6) (cmpf .olt),
    TRef.nullary (TRef.of (T := ⟨S_, .f32⟩) main_call25_cst_1) (constant S_ .f32 0x00000000#32),
    TRef.binary (TRef.of (T := ⟨S_, .f32⟩) main_call25_v0) (TRef.of (T := ⟨S_, .f32⟩) main_call25_cst_1) (TRef.of (T := ⟨S_, .i1⟩) main_call25_v7) (cmpf .olt),
    TRef.unary (TRef.of (T := ⟨S_, .i1⟩) main_call25_v7) (TRef.of (T := ⟨S128, .i1⟩) main_call25_v8) (broadcastInDim S128 ![] bcast_S_S128),
    TRef.binary (TRef.of (T := ⟨S128, .i1⟩) main_call25_v6) (TRef.of (T := ⟨S128, .i1⟩) main_call25_v8) (TRef.of (T := ⟨S128, .i1⟩) main_call25_v9) (cmpi .ne),
    TRef.binary (TRef.of (T := ⟨S128, .i1⟩) main_call25_v9) (TRef.of (T := ⟨S128, .i1⟩) main_call25_v4) (TRef.of (T := ⟨S128, .i1⟩) main_call25_v10) andi,
    TRef.unary (TRef.of (T := ⟨S_, .f32⟩) main_call25_v0) (TRef.of (T := ⟨S128, .f32⟩) main_call25_v11) (broadcastInDim S128 ![] bcast_S_S128),
    TRef.binary (TRef.of (T := ⟨S128, .f32⟩) main_call25_v2) (TRef.of (T := ⟨S128, .f32⟩) main_call25_v11) (TRef.of (T := ⟨S128, .f32⟩) main_call25_v12) addf,
    TRef.ternary (TRef.of (T := ⟨S128, .i1⟩) main_call25_v10) (TRef.of (T := ⟨S128, .f32⟩) main_call25_v12) (TRef.of (T := ⟨S128, .f32⟩) main_call25_v2) (TRef.of (T := ⟨S128, .f32⟩) main_v233) select,
    nullary main_c_62 (constantI S_ 32 12#32),
    unary main_c_62 main_v234 (broadcastInDim S1 ![] bcast_S_S1 : (⟨S_, .i32⟩ : BufTy).Contents (Elt F) → (⟨S1, .i32⟩ : BufTy).Contents (Elt F)),
    ternary main_v219 main_v234 main_v225 main_v235 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_63 (constantI S_ 32 16396#32),
    unary main_c_63 main_v236 (broadcastInDim S1 ![] bcast_S_S1 : (⟨S_, .i32⟩ : BufTy).Contents (Elt F) → (⟨S1, .i32⟩ : BufTy).Contents (Elt F)),
    ternary main_v235 main_v236 main_v233 main_v237 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 13: from `main_v1` the wrapped remainders of columns 13 and 16397, written over those columns of `main_v237`, giving `main_v255`. -/
def it13 : List (HloOp τ sig (Elt F)) :=
  [ unary main_v1 main_v238 ((extractStridedSlice S128x1 ![0, 13] · slices_S128x32768_S128x1_0_13) : (⟨S128x32768, .f32⟩ : BufTy).Contents (Elt F) → (⟨S128x1, .f32⟩ : BufTy).Contents (Elt F)),
    reshape main_v238 main_v239 rfl shapeCasts_S128x1_S128,
    unary main_v1 main_v240 ((extractStridedSlice S128x1 ![0, 16397] · slices_S128x32768_S128x1_0_16397) : (⟨S128x32768, .f32⟩ : BufTy).Contents (Elt F) → (⟨S128x1, .f32⟩ : BufTy).Contents (Elt F)),
    reshape main_v240 main_v241 rfl shapeCasts_S128x1_S128,
    binary main_v239 main_v241 main_v242 (addf : (⟨S128, .f32⟩ : BufTy).Contents (Elt F) → (⟨S128, .f32⟩ : BufTy).Contents (Elt F) → (⟨S128, .f32⟩ : BufTy).Contents (Elt F)),
    nullary main_c_64 (constantI S_ 32 1024#32),
    TRef.unary (TRef.of (T := ⟨S_, .i32⟩) main_c_64) (TRef.of (T := ⟨S_, .f32⟩) main_call26_v0) (sitofp .f32),
    TRef.unary (TRef.of (T := ⟨S_, .f32⟩) main_call26_v0) (TRef.of (T := ⟨S128, .f32⟩) main_call26_v1) (broadcastInDim S128 ![] bcast_S_S128),
    TRef.binary (TRef.of (T := ⟨S128, .f32⟩) main_v242) (TRef.of (T := ⟨S128, .f32⟩) main_call26_v1) (TRef.of (T := ⟨S128, .f32⟩) main_call26_v2) Host.remf,
    TRef.nullary (TRef.of (T := ⟨S_, .f32⟩) main_call26_cst) (constant S_ .f32 0x00000000#32),
    TRef.unary (TRef.of (T := ⟨S_, .f32⟩) main_call26_cst) (TRef.of (T := ⟨S128, .f32⟩) main_call26_v3) (broadcastInDim S128 ![] bcast_S_S128),
    TRef.binary (TRef.of (T := ⟨S128, .f32⟩) main_call26_v2) (TRef.of (T := ⟨S128, .f32⟩) main_call26_v3) (TRef.of (T := ⟨S128, .i1⟩) main_call26_v4) (cmpf .une),
    TRef.nullary (TRef.of (T := ⟨S_, .f32⟩) main_call26_cst_0) (constant S_ .f32 0x00000000#32),
    TRef.unary (TRef.of (T := ⟨S_, .f32⟩) main_call26_cst_0) (TRef.of (T := ⟨S128, .f32⟩) main_call26_v5) (broadcastInDim S128 ![] bcast_S_S128),
    TRef.binary (TRef.of (T := ⟨S128, .f32⟩) main_call26_v2) (TRef.of (T := ⟨S128, .f32⟩) main_call26_v5) (TRef.of (T := ⟨S128, .i1⟩) main_call26_v6) (cmpf .olt),
    TRef.nullary (TRef.of (T := ⟨S_, .f32⟩) main_call26_cst_1) (constant S_ .f32 0x00000000#32),
    TRef.binary (TRef.of (T := ⟨S_, .f32⟩) main_call26_v0) (TRef.of (T := ⟨S_, .f32⟩) main_call26_cst_1) (TRef.of (T := ⟨S_, .i1⟩) main_call26_v7) (cmpf .olt),
    TRef.unary (TRef.of (T := ⟨S_, .i1⟩) main_call26_v7) (TRef.of (T := ⟨S128, .i1⟩) main_call26_v8) (broadcastInDim S128 ![] bcast_S_S128),
    TRef.binary (TRef.of (T := ⟨S128, .i1⟩) main_call26_v6) (TRef.of (T := ⟨S128, .i1⟩) main_call26_v8) (TRef.of (T := ⟨S128, .i1⟩) main_call26_v9) (cmpi .ne),
    TRef.binary (TRef.of (T := ⟨S128, .i1⟩) main_call26_v9) (TRef.of (T := ⟨S128, .i1⟩) main_call26_v4) (TRef.of (T := ⟨S128, .i1⟩) main_call26_v10) andi,
    TRef.unary (TRef.of (T := ⟨S_, .f32⟩) main_call26_v0) (TRef.of (T := ⟨S128, .f32⟩) main_call26_v11) (broadcastInDim S128 ![] bcast_S_S128),
    TRef.binary (TRef.of (T := ⟨S128, .f32⟩) main_call26_v2) (TRef.of (T := ⟨S128, .f32⟩) main_call26_v11) (TRef.of (T := ⟨S128, .f32⟩) main_call26_v12) addf,
    TRef.ternary (TRef.of (T := ⟨S128, .i1⟩) main_call26_v10) (TRef.of (T := ⟨S128, .f32⟩) main_call26_v12) (TRef.of (T := ⟨S128, .f32⟩) main_call26_v2) (TRef.of (T := ⟨S128, .f32⟩) main_v243) select,
    unary main_v1 main_v244 ((extractStridedSlice S128x1 ![0, 13] · slices_S128x32768_S128x1_0_13) : (⟨S128x32768, .f32⟩ : BufTy).Contents (Elt F) → (⟨S128x1, .f32⟩ : BufTy).Contents (Elt F)),
    reshape main_v244 main_v245 rfl shapeCasts_S128x1_S128,
    nullary main_cst_65 (constant S_ .f32 0x44800000#32),
    unary main_cst_65 main_v246 (broadcastInDim S128 ![] bcast_S_S128 : (⟨S_, .f32⟩ : BufTy).Contents (Elt F) → (⟨S128, .f32⟩ : BufTy).Contents (Elt F)),
    binary main_v246 main_v245 main_v247 (addf : (⟨S128, .f32⟩ : BufTy).Contents (Elt F) → (⟨S128, .f32⟩ : BufTy).Contents (Elt F) → (⟨S128, .f32⟩ : BufTy).Contents (Elt F)),
    unary main_v1 main_v248 ((extractStridedSlice S128x1 ![0, 16397] · slices_S128x32768_S128x1_0_16397) : (⟨S128x32768, .f32⟩ : BufTy).Contents (Elt F) → (⟨S128x1, .f32⟩ : BufTy).Contents (Elt F)),
    reshape main_v248 main_v249 rfl shapeCasts_S128x1_S128,
    binary main_v247 main_v249 main_v250 (subf : (⟨S128, .f32⟩ : BufTy).Contents (Elt F) → (⟨S128, .f32⟩ : BufTy).Contents (Elt F) → (⟨S128, .f32⟩ : BufTy).Contents (Elt F)),
    nullary main_c_66 (constantI S_ 32 1024#32),
    TRef.unary (TRef.of (T := ⟨S_, .i32⟩) main_c_66) (TRef.of (T := ⟨S_, .f32⟩) main_call27_v0) (sitofp .f32),
    TRef.unary (TRef.of (T := ⟨S_, .f32⟩) main_call27_v0) (TRef.of (T := ⟨S128, .f32⟩) main_call27_v1) (broadcastInDim S128 ![] bcast_S_S128),
    TRef.binary (TRef.of (T := ⟨S128, .f32⟩) main_v250) (TRef.of (T := ⟨S128, .f32⟩) main_call27_v1) (TRef.of (T := ⟨S128, .f32⟩) main_call27_v2) Host.remf,
    TRef.nullary (TRef.of (T := ⟨S_, .f32⟩) main_call27_cst) (constant S_ .f32 0x00000000#32),
    TRef.unary (TRef.of (T := ⟨S_, .f32⟩) main_call27_cst) (TRef.of (T := ⟨S128, .f32⟩) main_call27_v3) (broadcastInDim S128 ![] bcast_S_S128),
    TRef.binary (TRef.of (T := ⟨S128, .f32⟩) main_call27_v2) (TRef.of (T := ⟨S128, .f32⟩) main_call27_v3) (TRef.of (T := ⟨S128, .i1⟩) main_call27_v4) (cmpf .une),
    TRef.nullary (TRef.of (T := ⟨S_, .f32⟩) main_call27_cst_0) (constant S_ .f32 0x00000000#32),
    TRef.unary (TRef.of (T := ⟨S_, .f32⟩) main_call27_cst_0) (TRef.of (T := ⟨S128, .f32⟩) main_call27_v5) (broadcastInDim S128 ![] bcast_S_S128),
    TRef.binary (TRef.of (T := ⟨S128, .f32⟩) main_call27_v2) (TRef.of (T := ⟨S128, .f32⟩) main_call27_v5) (TRef.of (T := ⟨S128, .i1⟩) main_call27_v6) (cmpf .olt),
    TRef.nullary (TRef.of (T := ⟨S_, .f32⟩) main_call27_cst_1) (constant S_ .f32 0x00000000#32),
    TRef.binary (TRef.of (T := ⟨S_, .f32⟩) main_call27_v0) (TRef.of (T := ⟨S_, .f32⟩) main_call27_cst_1) (TRef.of (T := ⟨S_, .i1⟩) main_call27_v7) (cmpf .olt),
    TRef.unary (TRef.of (T := ⟨S_, .i1⟩) main_call27_v7) (TRef.of (T := ⟨S128, .i1⟩) main_call27_v8) (broadcastInDim S128 ![] bcast_S_S128),
    TRef.binary (TRef.of (T := ⟨S128, .i1⟩) main_call27_v6) (TRef.of (T := ⟨S128, .i1⟩) main_call27_v8) (TRef.of (T := ⟨S128, .i1⟩) main_call27_v9) (cmpi .ne),
    TRef.binary (TRef.of (T := ⟨S128, .i1⟩) main_call27_v9) (TRef.of (T := ⟨S128, .i1⟩) main_call27_v4) (TRef.of (T := ⟨S128, .i1⟩) main_call27_v10) andi,
    TRef.unary (TRef.of (T := ⟨S_, .f32⟩) main_call27_v0) (TRef.of (T := ⟨S128, .f32⟩) main_call27_v11) (broadcastInDim S128 ![] bcast_S_S128),
    TRef.binary (TRef.of (T := ⟨S128, .f32⟩) main_call27_v2) (TRef.of (T := ⟨S128, .f32⟩) main_call27_v11) (TRef.of (T := ⟨S128, .f32⟩) main_call27_v12) addf,
    TRef.ternary (TRef.of (T := ⟨S128, .i1⟩) main_call27_v10) (TRef.of (T := ⟨S128, .f32⟩) main_call27_v12) (TRef.of (T := ⟨S128, .f32⟩) main_call27_v2) (TRef.of (T := ⟨S128, .f32⟩) main_v251) select,
    nullary main_c_67 (constantI S_ 32 13#32),
    unary main_c_67 main_v252 (broadcastInDim S1 ![] bcast_S_S1 : (⟨S_, .i32⟩ : BufTy).Contents (Elt F) → (⟨S1, .i32⟩ : BufTy).Contents (Elt F)),
    ternary main_v237 main_v252 main_v243 main_v253 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_68 (constantI S_ 32 16397#32),
    unary main_c_68 main_v254 (broadcastInDim S1 ![] bcast_S_S1 : (⟨S_, .i32⟩ : BufTy).Contents (Elt F) → (⟨S1, .i32⟩ : BufTy).Contents (Elt F)),
    ternary main_v253 main_v254 main_v251 main_v255 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 14: from `main_v1` the wrapped remainders of columns 14 and 16398, written over those columns of `main_v255`, giving `main_v273`. -/
def it14 : List (HloOp τ sig (Elt F)) :=
  [ unary main_v1 main_v256 ((extractStridedSlice S128x1 ![0, 14] · slices_S128x32768_S128x1_0_14) : (⟨S128x32768, .f32⟩ : BufTy).Contents (Elt F) → (⟨S128x1, .f32⟩ : BufTy).Contents (Elt F)),
    reshape main_v256 main_v257 rfl shapeCasts_S128x1_S128,
    unary main_v1 main_v258 ((extractStridedSlice S128x1 ![0, 16398] · slices_S128x32768_S128x1_0_16398) : (⟨S128x32768, .f32⟩ : BufTy).Contents (Elt F) → (⟨S128x1, .f32⟩ : BufTy).Contents (Elt F)),
    reshape main_v258 main_v259 rfl shapeCasts_S128x1_S128,
    binary main_v257 main_v259 main_v260 (addf : (⟨S128, .f32⟩ : BufTy).Contents (Elt F) → (⟨S128, .f32⟩ : BufTy).Contents (Elt F) → (⟨S128, .f32⟩ : BufTy).Contents (Elt F)),
    nullary main_c_69 (constantI S_ 32 1024#32),
    TRef.unary (TRef.of (T := ⟨S_, .i32⟩) main_c_69) (TRef.of (T := ⟨S_, .f32⟩) main_call28_v0) (sitofp .f32),
    TRef.unary (TRef.of (T := ⟨S_, .f32⟩) main_call28_v0) (TRef.of (T := ⟨S128, .f32⟩) main_call28_v1) (broadcastInDim S128 ![] bcast_S_S128),
    TRef.binary (TRef.of (T := ⟨S128, .f32⟩) main_v260) (TRef.of (T := ⟨S128, .f32⟩) main_call28_v1) (TRef.of (T := ⟨S128, .f32⟩) main_call28_v2) Host.remf,
    TRef.nullary (TRef.of (T := ⟨S_, .f32⟩) main_call28_cst) (constant S_ .f32 0x00000000#32),
    TRef.unary (TRef.of (T := ⟨S_, .f32⟩) main_call28_cst) (TRef.of (T := ⟨S128, .f32⟩) main_call28_v3) (broadcastInDim S128 ![] bcast_S_S128),
    TRef.binary (TRef.of (T := ⟨S128, .f32⟩) main_call28_v2) (TRef.of (T := ⟨S128, .f32⟩) main_call28_v3) (TRef.of (T := ⟨S128, .i1⟩) main_call28_v4) (cmpf .une),
    TRef.nullary (TRef.of (T := ⟨S_, .f32⟩) main_call28_cst_0) (constant S_ .f32 0x00000000#32),
    TRef.unary (TRef.of (T := ⟨S_, .f32⟩) main_call28_cst_0) (TRef.of (T := ⟨S128, .f32⟩) main_call28_v5) (broadcastInDim S128 ![] bcast_S_S128),
    TRef.binary (TRef.of (T := ⟨S128, .f32⟩) main_call28_v2) (TRef.of (T := ⟨S128, .f32⟩) main_call28_v5) (TRef.of (T := ⟨S128, .i1⟩) main_call28_v6) (cmpf .olt),
    TRef.nullary (TRef.of (T := ⟨S_, .f32⟩) main_call28_cst_1) (constant S_ .f32 0x00000000#32),
    TRef.binary (TRef.of (T := ⟨S_, .f32⟩) main_call28_v0) (TRef.of (T := ⟨S_, .f32⟩) main_call28_cst_1) (TRef.of (T := ⟨S_, .i1⟩) main_call28_v7) (cmpf .olt),
    TRef.unary (TRef.of (T := ⟨S_, .i1⟩) main_call28_v7) (TRef.of (T := ⟨S128, .i1⟩) main_call28_v8) (broadcastInDim S128 ![] bcast_S_S128),
    TRef.binary (TRef.of (T := ⟨S128, .i1⟩) main_call28_v6) (TRef.of (T := ⟨S128, .i1⟩) main_call28_v8) (TRef.of (T := ⟨S128, .i1⟩) main_call28_v9) (cmpi .ne),
    TRef.binary (TRef.of (T := ⟨S128, .i1⟩) main_call28_v9) (TRef.of (T := ⟨S128, .i1⟩) main_call28_v4) (TRef.of (T := ⟨S128, .i1⟩) main_call28_v10) andi,
    TRef.unary (TRef.of (T := ⟨S_, .f32⟩) main_call28_v0) (TRef.of (T := ⟨S128, .f32⟩) main_call28_v11) (broadcastInDim S128 ![] bcast_S_S128),
    TRef.binary (TRef.of (T := ⟨S128, .f32⟩) main_call28_v2) (TRef.of (T := ⟨S128, .f32⟩) main_call28_v11) (TRef.of (T := ⟨S128, .f32⟩) main_call28_v12) addf,
    TRef.ternary (TRef.of (T := ⟨S128, .i1⟩) main_call28_v10) (TRef.of (T := ⟨S128, .f32⟩) main_call28_v12) (TRef.of (T := ⟨S128, .f32⟩) main_call28_v2) (TRef.of (T := ⟨S128, .f32⟩) main_v261) select,
    unary main_v1 main_v262 ((extractStridedSlice S128x1 ![0, 14] · slices_S128x32768_S128x1_0_14) : (⟨S128x32768, .f32⟩ : BufTy).Contents (Elt F) → (⟨S128x1, .f32⟩ : BufTy).Contents (Elt F)),
    reshape main_v262 main_v263 rfl shapeCasts_S128x1_S128,
    nullary main_cst_70 (constant S_ .f32 0x44800000#32),
    unary main_cst_70 main_v264 (broadcastInDim S128 ![] bcast_S_S128 : (⟨S_, .f32⟩ : BufTy).Contents (Elt F) → (⟨S128, .f32⟩ : BufTy).Contents (Elt F)),
    binary main_v264 main_v263 main_v265 (addf : (⟨S128, .f32⟩ : BufTy).Contents (Elt F) → (⟨S128, .f32⟩ : BufTy).Contents (Elt F) → (⟨S128, .f32⟩ : BufTy).Contents (Elt F)),
    unary main_v1 main_v266 ((extractStridedSlice S128x1 ![0, 16398] · slices_S128x32768_S128x1_0_16398) : (⟨S128x32768, .f32⟩ : BufTy).Contents (Elt F) → (⟨S128x1, .f32⟩ : BufTy).Contents (Elt F)),
    reshape main_v266 main_v267 rfl shapeCasts_S128x1_S128,
    binary main_v265 main_v267 main_v268 (subf : (⟨S128, .f32⟩ : BufTy).Contents (Elt F) → (⟨S128, .f32⟩ : BufTy).Contents (Elt F) → (⟨S128, .f32⟩ : BufTy).Contents (Elt F)),
    nullary main_c_71 (constantI S_ 32 1024#32),
    TRef.unary (TRef.of (T := ⟨S_, .i32⟩) main_c_71) (TRef.of (T := ⟨S_, .f32⟩) main_call29_v0) (sitofp .f32),
    TRef.unary (TRef.of (T := ⟨S_, .f32⟩) main_call29_v0) (TRef.of (T := ⟨S128, .f32⟩) main_call29_v1) (broadcastInDim S128 ![] bcast_S_S128),
    TRef.binary (TRef.of (T := ⟨S128, .f32⟩) main_v268) (TRef.of (T := ⟨S128, .f32⟩) main_call29_v1) (TRef.of (T := ⟨S128, .f32⟩) main_call29_v2) Host.remf,
    TRef.nullary (TRef.of (T := ⟨S_, .f32⟩) main_call29_cst) (constant S_ .f32 0x00000000#32),
    TRef.unary (TRef.of (T := ⟨S_, .f32⟩) main_call29_cst) (TRef.of (T := ⟨S128, .f32⟩) main_call29_v3) (broadcastInDim S128 ![] bcast_S_S128),
    TRef.binary (TRef.of (T := ⟨S128, .f32⟩) main_call29_v2) (TRef.of (T := ⟨S128, .f32⟩) main_call29_v3) (TRef.of (T := ⟨S128, .i1⟩) main_call29_v4) (cmpf .une),
    TRef.nullary (TRef.of (T := ⟨S_, .f32⟩) main_call29_cst_0) (constant S_ .f32 0x00000000#32),
    TRef.unary (TRef.of (T := ⟨S_, .f32⟩) main_call29_cst_0) (TRef.of (T := ⟨S128, .f32⟩) main_call29_v5) (broadcastInDim S128 ![] bcast_S_S128),
    TRef.binary (TRef.of (T := ⟨S128, .f32⟩) main_call29_v2) (TRef.of (T := ⟨S128, .f32⟩) main_call29_v5) (TRef.of (T := ⟨S128, .i1⟩) main_call29_v6) (cmpf .olt),
    TRef.nullary (TRef.of (T := ⟨S_, .f32⟩) main_call29_cst_1) (constant S_ .f32 0x00000000#32),
    TRef.binary (TRef.of (T := ⟨S_, .f32⟩) main_call29_v0) (TRef.of (T := ⟨S_, .f32⟩) main_call29_cst_1) (TRef.of (T := ⟨S_, .i1⟩) main_call29_v7) (cmpf .olt),
    TRef.unary (TRef.of (T := ⟨S_, .i1⟩) main_call29_v7) (TRef.of (T := ⟨S128, .i1⟩) main_call29_v8) (broadcastInDim S128 ![] bcast_S_S128),
    TRef.binary (TRef.of (T := ⟨S128, .i1⟩) main_call29_v6) (TRef.of (T := ⟨S128, .i1⟩) main_call29_v8) (TRef.of (T := ⟨S128, .i1⟩) main_call29_v9) (cmpi .ne),
    TRef.binary (TRef.of (T := ⟨S128, .i1⟩) main_call29_v9) (TRef.of (T := ⟨S128, .i1⟩) main_call29_v4) (TRef.of (T := ⟨S128, .i1⟩) main_call29_v10) andi,
    TRef.unary (TRef.of (T := ⟨S_, .f32⟩) main_call29_v0) (TRef.of (T := ⟨S128, .f32⟩) main_call29_v11) (broadcastInDim S128 ![] bcast_S_S128),
    TRef.binary (TRef.of (T := ⟨S128, .f32⟩) main_call29_v2) (TRef.of (T := ⟨S128, .f32⟩) main_call29_v11) (TRef.of (T := ⟨S128, .f32⟩) main_call29_v12) addf,
    TRef.ternary (TRef.of (T := ⟨S128, .i1⟩) main_call29_v10) (TRef.of (T := ⟨S128, .f32⟩) main_call29_v12) (TRef.of (T := ⟨S128, .f32⟩) main_call29_v2) (TRef.of (T := ⟨S128, .f32⟩) main_v269) select,
    nullary main_c_72 (constantI S_ 32 14#32),
    unary main_c_72 main_v270 (broadcastInDim S1 ![] bcast_S_S1 : (⟨S_, .i32⟩ : BufTy).Contents (Elt F) → (⟨S1, .i32⟩ : BufTy).Contents (Elt F)),
    ternary main_v255 main_v270 main_v261 main_v271 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_73 (constantI S_ 32 16398#32),
    unary main_c_73 main_v272 (broadcastInDim S1 ![] bcast_S_S1 : (⟨S_, .i32⟩ : BufTy).Contents (Elt F) → (⟨S1, .i32⟩ : BufTy).Contents (Elt F)),
    ternary main_v271 main_v272 main_v269 main_v273 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- Iteration 15: from `main_v1` the wrapped remainders of columns 15 and 16399, written over those columns of `main_v273`, giving `main_v291`. -/
def it15 : List (HloOp τ sig (Elt F)) :=
  [ unary main_v1 main_v274 ((extractStridedSlice S128x1 ![0, 15] · slices_S128x32768_S128x1_0_15) : (⟨S128x32768, .f32⟩ : BufTy).Contents (Elt F) → (⟨S128x1, .f32⟩ : BufTy).Contents (Elt F)),
    reshape main_v274 main_v275 rfl shapeCasts_S128x1_S128,
    unary main_v1 main_v276 ((extractStridedSlice S128x1 ![0, 16399] · slices_S128x32768_S128x1_0_16399) : (⟨S128x32768, .f32⟩ : BufTy).Contents (Elt F) → (⟨S128x1, .f32⟩ : BufTy).Contents (Elt F)),
    reshape main_v276 main_v277 rfl shapeCasts_S128x1_S128,
    binary main_v275 main_v277 main_v278 (addf : (⟨S128, .f32⟩ : BufTy).Contents (Elt F) → (⟨S128, .f32⟩ : BufTy).Contents (Elt F) → (⟨S128, .f32⟩ : BufTy).Contents (Elt F)),
    nullary main_c_74 (constantI S_ 32 1024#32),
    TRef.unary (TRef.of (T := ⟨S_, .i32⟩) main_c_74) (TRef.of (T := ⟨S_, .f32⟩) main_call30_v0) (sitofp .f32),
    TRef.unary (TRef.of (T := ⟨S_, .f32⟩) main_call30_v0) (TRef.of (T := ⟨S128, .f32⟩) main_call30_v1) (broadcastInDim S128 ![] bcast_S_S128),
    TRef.binary (TRef.of (T := ⟨S128, .f32⟩) main_v278) (TRef.of (T := ⟨S128, .f32⟩) main_call30_v1) (TRef.of (T := ⟨S128, .f32⟩) main_call30_v2) Host.remf,
    TRef.nullary (TRef.of (T := ⟨S_, .f32⟩) main_call30_cst) (constant S_ .f32 0x00000000#32),
    TRef.unary (TRef.of (T := ⟨S_, .f32⟩) main_call30_cst) (TRef.of (T := ⟨S128, .f32⟩) main_call30_v3) (broadcastInDim S128 ![] bcast_S_S128),
    TRef.binary (TRef.of (T := ⟨S128, .f32⟩) main_call30_v2) (TRef.of (T := ⟨S128, .f32⟩) main_call30_v3) (TRef.of (T := ⟨S128, .i1⟩) main_call30_v4) (cmpf .une),
    TRef.nullary (TRef.of (T := ⟨S_, .f32⟩) main_call30_cst_0) (constant S_ .f32 0x00000000#32),
    TRef.unary (TRef.of (T := ⟨S_, .f32⟩) main_call30_cst_0) (TRef.of (T := ⟨S128, .f32⟩) main_call30_v5) (broadcastInDim S128 ![] bcast_S_S128),
    TRef.binary (TRef.of (T := ⟨S128, .f32⟩) main_call30_v2) (TRef.of (T := ⟨S128, .f32⟩) main_call30_v5) (TRef.of (T := ⟨S128, .i1⟩) main_call30_v6) (cmpf .olt),
    TRef.nullary (TRef.of (T := ⟨S_, .f32⟩) main_call30_cst_1) (constant S_ .f32 0x00000000#32),
    TRef.binary (TRef.of (T := ⟨S_, .f32⟩) main_call30_v0) (TRef.of (T := ⟨S_, .f32⟩) main_call30_cst_1) (TRef.of (T := ⟨S_, .i1⟩) main_call30_v7) (cmpf .olt),
    TRef.unary (TRef.of (T := ⟨S_, .i1⟩) main_call30_v7) (TRef.of (T := ⟨S128, .i1⟩) main_call30_v8) (broadcastInDim S128 ![] bcast_S_S128),
    TRef.binary (TRef.of (T := ⟨S128, .i1⟩) main_call30_v6) (TRef.of (T := ⟨S128, .i1⟩) main_call30_v8) (TRef.of (T := ⟨S128, .i1⟩) main_call30_v9) (cmpi .ne),
    TRef.binary (TRef.of (T := ⟨S128, .i1⟩) main_call30_v9) (TRef.of (T := ⟨S128, .i1⟩) main_call30_v4) (TRef.of (T := ⟨S128, .i1⟩) main_call30_v10) andi,
    TRef.unary (TRef.of (T := ⟨S_, .f32⟩) main_call30_v0) (TRef.of (T := ⟨S128, .f32⟩) main_call30_v11) (broadcastInDim S128 ![] bcast_S_S128),
    TRef.binary (TRef.of (T := ⟨S128, .f32⟩) main_call30_v2) (TRef.of (T := ⟨S128, .f32⟩) main_call30_v11) (TRef.of (T := ⟨S128, .f32⟩) main_call30_v12) addf,
    TRef.ternary (TRef.of (T := ⟨S128, .i1⟩) main_call30_v10) (TRef.of (T := ⟨S128, .f32⟩) main_call30_v12) (TRef.of (T := ⟨S128, .f32⟩) main_call30_v2) (TRef.of (T := ⟨S128, .f32⟩) main_v279) select,
    unary main_v1 main_v280 ((extractStridedSlice S128x1 ![0, 15] · slices_S128x32768_S128x1_0_15) : (⟨S128x32768, .f32⟩ : BufTy).Contents (Elt F) → (⟨S128x1, .f32⟩ : BufTy).Contents (Elt F)),
    reshape main_v280 main_v281 rfl shapeCasts_S128x1_S128,
    nullary main_cst_75 (constant S_ .f32 0x44800000#32),
    unary main_cst_75 main_v282 (broadcastInDim S128 ![] bcast_S_S128 : (⟨S_, .f32⟩ : BufTy).Contents (Elt F) → (⟨S128, .f32⟩ : BufTy).Contents (Elt F)),
    binary main_v282 main_v281 main_v283 (addf : (⟨S128, .f32⟩ : BufTy).Contents (Elt F) → (⟨S128, .f32⟩ : BufTy).Contents (Elt F) → (⟨S128, .f32⟩ : BufTy).Contents (Elt F)),
    unary main_v1 main_v284 ((extractStridedSlice S128x1 ![0, 16399] · slices_S128x32768_S128x1_0_16399) : (⟨S128x32768, .f32⟩ : BufTy).Contents (Elt F) → (⟨S128x1, .f32⟩ : BufTy).Contents (Elt F)),
    reshape main_v284 main_v285 rfl shapeCasts_S128x1_S128,
    binary main_v283 main_v285 main_v286 (subf : (⟨S128, .f32⟩ : BufTy).Contents (Elt F) → (⟨S128, .f32⟩ : BufTy).Contents (Elt F) → (⟨S128, .f32⟩ : BufTy).Contents (Elt F)),
    nullary main_c_76 (constantI S_ 32 1024#32),
    TRef.unary (TRef.of (T := ⟨S_, .i32⟩) main_c_76) (TRef.of (T := ⟨S_, .f32⟩) main_call31_v0) (sitofp .f32),
    TRef.unary (TRef.of (T := ⟨S_, .f32⟩) main_call31_v0) (TRef.of (T := ⟨S128, .f32⟩) main_call31_v1) (broadcastInDim S128 ![] bcast_S_S128),
    TRef.binary (TRef.of (T := ⟨S128, .f32⟩) main_v286) (TRef.of (T := ⟨S128, .f32⟩) main_call31_v1) (TRef.of (T := ⟨S128, .f32⟩) main_call31_v2) Host.remf,
    TRef.nullary (TRef.of (T := ⟨S_, .f32⟩) main_call31_cst) (constant S_ .f32 0x00000000#32),
    TRef.unary (TRef.of (T := ⟨S_, .f32⟩) main_call31_cst) (TRef.of (T := ⟨S128, .f32⟩) main_call31_v3) (broadcastInDim S128 ![] bcast_S_S128),
    TRef.binary (TRef.of (T := ⟨S128, .f32⟩) main_call31_v2) (TRef.of (T := ⟨S128, .f32⟩) main_call31_v3) (TRef.of (T := ⟨S128, .i1⟩) main_call31_v4) (cmpf .une),
    TRef.nullary (TRef.of (T := ⟨S_, .f32⟩) main_call31_cst_0) (constant S_ .f32 0x00000000#32),
    TRef.unary (TRef.of (T := ⟨S_, .f32⟩) main_call31_cst_0) (TRef.of (T := ⟨S128, .f32⟩) main_call31_v5) (broadcastInDim S128 ![] bcast_S_S128),
    TRef.binary (TRef.of (T := ⟨S128, .f32⟩) main_call31_v2) (TRef.of (T := ⟨S128, .f32⟩) main_call31_v5) (TRef.of (T := ⟨S128, .i1⟩) main_call31_v6) (cmpf .olt),
    TRef.nullary (TRef.of (T := ⟨S_, .f32⟩) main_call31_cst_1) (constant S_ .f32 0x00000000#32),
    TRef.binary (TRef.of (T := ⟨S_, .f32⟩) main_call31_v0) (TRef.of (T := ⟨S_, .f32⟩) main_call31_cst_1) (TRef.of (T := ⟨S_, .i1⟩) main_call31_v7) (cmpf .olt),
    TRef.unary (TRef.of (T := ⟨S_, .i1⟩) main_call31_v7) (TRef.of (T := ⟨S128, .i1⟩) main_call31_v8) (broadcastInDim S128 ![] bcast_S_S128),
    TRef.binary (TRef.of (T := ⟨S128, .i1⟩) main_call31_v6) (TRef.of (T := ⟨S128, .i1⟩) main_call31_v8) (TRef.of (T := ⟨S128, .i1⟩) main_call31_v9) (cmpi .ne),
    TRef.binary (TRef.of (T := ⟨S128, .i1⟩) main_call31_v9) (TRef.of (T := ⟨S128, .i1⟩) main_call31_v4) (TRef.of (T := ⟨S128, .i1⟩) main_call31_v10) andi,
    TRef.unary (TRef.of (T := ⟨S_, .f32⟩) main_call31_v0) (TRef.of (T := ⟨S128, .f32⟩) main_call31_v11) (broadcastInDim S128 ![] bcast_S_S128),
    TRef.binary (TRef.of (T := ⟨S128, .f32⟩) main_call31_v2) (TRef.of (T := ⟨S128, .f32⟩) main_call31_v11) (TRef.of (T := ⟨S128, .f32⟩) main_call31_v12) addf,
    TRef.ternary (TRef.of (T := ⟨S128, .i1⟩) main_call31_v10) (TRef.of (T := ⟨S128, .f32⟩) main_call31_v12) (TRef.of (T := ⟨S128, .f32⟩) main_call31_v2) (TRef.of (T := ⟨S128, .f32⟩) main_v287) select,
    nullary main_c_77 (constantI S_ 32 15#32),
    unary main_c_77 main_v288 (broadcastInDim S1 ![] bcast_S_S1 : (⟨S_, .i32⟩ : BufTy).Contents (Elt F) → (⟨S1, .i32⟩ : BufTy).Contents (Elt F)),
    ternary main_v273 main_v288 main_v279 main_v289 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)),
    nullary main_c_78 (constantI S_ 32 16399#32),
    unary main_c_78 main_v290 (broadcastInDim S1 ![] bcast_S_S1 : (⟨S_, .i32⟩ : BufTy).Contents (Elt F) → (⟨S1, .i32⟩ : BufTy).Contents (Elt F)),
    ternary main_v289 main_v290 main_v287 main_v291 ((fun x i u => Host.scatter scatter_S128x32768_S1_S128_0_1_1_0 (fun _ b => b) x i u) : (⟨S128x32768, .f32⟩ : BufTy).Contents (Elt F) → (⟨S1, .i32⟩ : BufTy).Contents (Elt F) → (⟨S128, .f32⟩ : BufTy).Contents (Elt F) → (⟨S128x32768, .f32⟩ : BufTy).Contents (Elt F)) ]

/-- The epilogue: `main_v293 = main_v291 + 1`, and planes 1 and 2 sliced and reshaped (`main_v295`, `main_v297`). -/
def epi : List (HloOp τ sig (Elt F)) :=
  [ nullary main_cst_79 (constant S_ .f32 0x3F800000#32),
    unary main_cst_79 main_v292 (broadcastInDim S128x32768 ![] bcast_S_S128x32768 : (⟨S_, .f32⟩ : BufTy).Contents (Elt F) → (⟨S128x32768, .f32⟩ : BufTy).Contents (Elt F)),
    binary main_v291 main_v292 main_v293 (addf : (⟨S128x32768, .f32⟩ : BufTy).Contents (Elt F) → (⟨S128x32768, .f32⟩ : BufTy).Contents (Elt F) → (⟨S128x32768, .f32⟩ : BufTy).Contents (Elt F)),
    unary main_arg0 main_v294 ((extractStridedSlice S1x128x32768 ![1, 0, 0] · slices_S3x128x32768_S1x128x32768_1_0_0) : (⟨S3x128x32768, .f32⟩ : BufTy).Contents (Elt F) → (⟨S1x128x32768, .f32⟩ : BufTy).Contents (Elt F)),
    reshape main_v294 main_v295 rfl shapeCasts_S1x128x32768_S128x32768,
    unary main_arg0 main_v296 ((extractStridedSlice S1x128x32768 ![2, 0, 0] · slices_S3x128x32768_S1x128x32768_2_0_0) : (⟨S3x128x32768, .f32⟩ : BufTy).Contents (Elt F) → (⟨S1x128x32768, .f32⟩ : BufTy).Contents (Elt F)),
    reshape main_v296 main_v297 rfl shapeCasts_S1x128x32768_S128x32768 ]

/-- Every operation of the program, in order. -/
def allOps : List (HloOp τ sig (Elt F)) :=
  pro ++ (it0 ++ (it1 ++ (it2 ++ (it3 ++ (it4 ++ (it5 ++ (it6 ++ (it7 ++ (it8 ++ (it9 ++ (it10 ++ (it11 ++ (it12 ++ (it13 ++ (it14 ++ (it15 ++ (epi)))))))))))))))))

set_option maxRecDepth 8192 in
set_option maxHeartbeats 4000000 in
/-- Window 0 of @main is the straight line of these pieces. -/
theorem part0_eq (c : Dev nD) : main_part0 (F := F) c = seq (pro ++ (it0 ++ (it1 ++ (it2.take 25)))) := rfl

set_option maxRecDepth 8192 in
set_option maxHeartbeats 4000000 in
/-- Window 1 of @main is the straight line of these pieces. -/
theorem part1_eq (c : Dev nD) : main_part1 (F := F) c = seq (it2.drop 25 ++ (it3 ++ (it4))) := rfl

set_option maxRecDepth 8192 in
set_option maxHeartbeats 4000000 in
/-- Window 2 of @main is the straight line of these pieces. -/
theorem part2_eq (c : Dev nD) : main_part2 (F := F) c = seq (it5 ++ (it6 ++ (it7.take 30))) := rfl

set_option maxRecDepth 8192 in
set_option maxHeartbeats 4000000 in
/-- Window 3 of @main is the straight line of these pieces. -/
theorem part3_eq (c : Dev nD) : main_part3 (F := F) c = seq (it7.drop 30 ++ (it8 ++ (it9 ++ (it10.take 5)))) := rfl

set_option maxRecDepth 8192 in
set_option maxHeartbeats 4000000 in
/-- Window 4 of @main is the straight line of these pieces. -/
theorem part4_eq (c : Dev nD) : main_part4 (F := F) c = seq (it10.drop 5 ++ (it11 ++ (it12.take 51))) := rfl

set_option maxRecDepth 8192 in
set_option maxHeartbeats 4000000 in
/-- Window 5 of @main is the straight line of these pieces. -/
theorem part5_eq (c : Dev nD) : main_part5 (F := F) c = seq (it12.drop 51 ++ (it13 ++ (it14 ++ (it15.take 26)))) := rfl

set_option maxRecDepth 8192 in
set_option maxHeartbeats 4000000 in
/-- Window 6 of @main is the straight line of these pieces. -/
theorem part6_eq (c : Dev nD) : main_part6 (F := F) c = seq (it15.drop 26 ++ (epi)) := rfl

/-- A list's head of length `n`, then its tail, then more, is the list, then more. -/
theorem take_drop_append {α : Type} (n : Nat) (l r : List α) : l.take n ++ (l.drop n ++ r) = l ++ r := by
  rw [← List.append_assoc, List.take_append_drop]

/-- @main runs its seven windows in order, so it is the straight line of all the operations. -/
theorem main_eq (c : Dev nD) : main (F := F) c = seq allOps := by
  have h : main (F := F) c = (main_part0 c >>= fun _ => main_part1 c >>= fun _ => main_part2 c >>= fun _ =>
      main_part3 c >>= fun _ => main_part4 c >>= fun _ => main_part5 c >>= fun _ => main_part6 c) := rfl
  rw [h, part0_eq, part1_eq, part2_eq, part3_eq, part4_eq, part5_eq, part6_eq]
  simp only [← seq_append]
  exact congrArg seq (by simp only [allOps, List.append_assoc, take_drop_append])

theorem scopedRefs_eq : (Finset.univ.filter fun b : Ref sig .tc => b.isScoped) = ∅ := by decide
theorem scopedSems_eq : (Finset.univ.filter fun sm : SemLoc sig => sm.isScoped .tc) = ∅ := by decide

/-- Every operation of `pro` touches TensorCore references only, and determines its results. -/
theorem pro_sub : (pro : List (HloOp τ sig (Elt F))).Forall fun op => op.bufs ⊆ tcRefs τ sig :=
  ⟨unary_bufs_sub .., reshape_bufs_sub .., nullary_bufs_sub .., unary_bufs_sub .., binary_bufs_sub ..⟩
theorem pro_fresh : (pro : List (HloOp τ sig (Elt F))).Forall fun op => op.fresh = ∅ :=
  ⟨rfl, rfl, rfl, rfl, rfl⟩

/-- Every operation of `it0` touches TensorCore references only, and determines its results. -/
theorem it0_sub : (it0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it0_fresh : (it0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it1` touches TensorCore references only, and determines its results. -/
theorem it1_sub : (it1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it1_fresh : (it1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it2` touches TensorCore references only, and determines its results. -/
theorem it2_sub : (it2 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it2_fresh : (it2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it3` touches TensorCore references only, and determines its results. -/
theorem it3_sub : (it3 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it3_fresh : (it3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it4` touches TensorCore references only, and determines its results. -/
theorem it4_sub : (it4 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it4_fresh : (it4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it5` touches TensorCore references only, and determines its results. -/
theorem it5_sub : (it5 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it5_fresh : (it5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it6` touches TensorCore references only, and determines its results. -/
theorem it6_sub : (it6 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it6_fresh : (it6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it7` touches TensorCore references only, and determines its results. -/
theorem it7_sub : (it7 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it7_fresh : (it7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it8` touches TensorCore references only, and determines its results. -/
theorem it8_sub : (it8 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it8_fresh : (it8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it9` touches TensorCore references only, and determines its results. -/
theorem it9_sub : (it9 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it9_fresh : (it9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it10` touches TensorCore references only, and determines its results. -/
theorem it10_sub : (it10 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it10_fresh : (it10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it11` touches TensorCore references only, and determines its results. -/
theorem it11_sub : (it11 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it11_fresh : (it11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it12` touches TensorCore references only, and determines its results. -/
theorem it12_sub : (it12 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it12_fresh : (it12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it13` touches TensorCore references only, and determines its results. -/
theorem it13_sub : (it13 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it13_fresh : (it13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it14` touches TensorCore references only, and determines its results. -/
theorem it14_sub : (it14 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it14_fresh : (it14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `it15` touches TensorCore references only, and determines its results. -/
theorem it15_sub : (it15 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., ternary_bufs_sub .., nullary_bufs_sub .., unary_bufs_sub .., ternary_bufs_sub ..⟩
theorem it15_fresh : (it15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `epi` touches TensorCore references only, and determines its results. -/
theorem epi_sub : (epi : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub ..⟩
theorem epi_fresh : (epi : List (HloOp τ sig (Elt F))).Forall fun op => op.fresh = ∅ :=
  ⟨rfl, rfl, rfl, rfl, rfl, rfl, rfl⟩

theorem allOps_sub : (allOps : List (HloOp τ sig (Elt F))).Forall fun op => op.bufs ⊆ tcRefs τ sig :=
  List.forall_append.mpr ⟨pro_sub, List.forall_append.mpr ⟨it0_sub, List.forall_append.mpr ⟨it1_sub, List.forall_append.mpr ⟨it2_sub, List.forall_append.mpr ⟨it3_sub, List.forall_append.mpr ⟨it4_sub, List.forall_append.mpr ⟨it5_sub, List.forall_append.mpr ⟨it6_sub, List.forall_append.mpr ⟨it7_sub, List.forall_append.mpr ⟨it8_sub, List.forall_append.mpr ⟨it9_sub, List.forall_append.mpr ⟨it10_sub, List.forall_append.mpr ⟨it11_sub, List.forall_append.mpr ⟨it12_sub, List.forall_append.mpr ⟨it13_sub, List.forall_append.mpr ⟨it14_sub, List.forall_append.mpr ⟨it15_sub, epi_sub⟩⟩⟩⟩⟩⟩⟩⟩⟩⟩⟩⟩⟩⟩⟩⟩⟩
theorem allOps_fresh : (allOps : List (HloOp τ sig (Elt F))).Forall fun op => op.fresh = ∅ :=
  List.forall_append.mpr ⟨pro_fresh, List.forall_append.mpr ⟨it0_fresh, List.forall_append.mpr ⟨it1_fresh, List.forall_append.mpr ⟨it2_fresh, List.forall_append.mpr ⟨it3_fresh, List.forall_append.mpr ⟨it4_fresh, List.forall_append.mpr ⟨it5_fresh, List.forall_append.mpr ⟨it6_fresh, List.forall_append.mpr ⟨it7_fresh, List.forall_append.mpr ⟨it8_fresh, List.forall_append.mpr ⟨it9_fresh, List.forall_append.mpr ⟨it10_fresh, List.forall_append.mpr ⟨it11_fresh, List.forall_append.mpr ⟨it12_fresh, List.forall_append.mpr ⟨it13_fresh, List.forall_append.mpr ⟨it14_fresh, List.forall_append.mpr ⟨it15_fresh, epi_fresh⟩⟩⟩⟩⟩⟩⟩⟩⟩⟩⟩⟩⟩⟩⟩⟩⟩

/-- What the buffers hold after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after allOps (launchContents m c) (b : DevRef τ sig) :=
  run_seq scopedRefs_eq scopedSems_eq defs main (fun _ => allOps) main_eq (fun _ => allOps_sub) m ρ
    (fun _ => List.forall_iff_forall_mem.mp allOps_fresh)

end Cert.Proof.OnReference

end
-- ==== Proof.OnReference.Scatter.lean ====
/-
  A column scatter read at an index.  Every scatter of the reference writes one whole column of a 128 × 32768 array:
  the update is a vector of 128, its one scatter index the column, the window the rows.  The operation is the left fold,
  over the update's rows in order, of "write this row's element at (row, column)"; the targets of distinct rows are
  distinct, so the fold ends with column `k` holding the update and every other column what it held.
-/
import proofs.«209894_g19731079758016_cont_8to1_1440_21_alg».proof.Proof.Gen.ReferenceIdeal
import Idealize.ShloMosaic.Lib.ValueIdx

set_option Elab.async false

noncomputable section

namespace Cert.Proof.OnReference

open Cert.ReferenceIdeal Cert.ReferenceIdeal.Gen Idealize.ShloMosaic Idealize.ShloMosaic.ValueIdx

section Fold
variable {I N α : Type} [DecidableEq I]

/-- Writing `v n` at `tgt n` for each `n` of a list, in order: an index that no `n` targets keeps its value. -/
theorem foldl_set_miss (tgt : N → I) (v : N → α) (i : I) :
    ∀ (l : List N) (x : I → α), (∀ n ∈ l, tgt n ≠ i) →
      (l.foldl (fun r n => fun i' => if i' = tgt n then v n else r i') x) i = x i
  | [], _, _ => rfl
  | a :: l, x, h => by
    rw [List.foldl_cons, foldl_set_miss tgt v i l _ (fun n hn => h n (List.mem_cons_of_mem _ hn))]
    exact if_neg (fun e => h a List.mem_cons_self e.symm)

/-- … and, the targets of distinct `n` being distinct, the index an `n₀` of the list targets ends at `v n₀`. -/
theorem foldl_set_hit (tgt : N → I) (hinj : Function.Injective tgt) (v : N → α) (n₀ : N) (i : I) (hi : tgt n₀ = i) :
    ∀ (l : List N) (x : I → α), l.Nodup → n₀ ∈ l →
      (l.foldl (fun r n => fun i' => if i' = tgt n then v n else r i') x) i = v n₀
  | [], _, _, h => absurd h List.not_mem_nil
  | a :: l, x, hnd, h => by
    rw [List.foldl_cons]
    rcases List.mem_cons.mp h with e | hl
    · subst e
      rw [foldl_set_miss tgt v i l _ (fun n hn e' => (List.nodup_cons.mp hnd).1 (hinj (e'.trans hi.symm) ▸ hn))]
      exact if_pos hi.symm
    · exact foldl_set_hit tgt hinj v n₀ i hi l _ (List.nodup_cons.mp hnd).2 hl

end Fold

/-- A small natural number's 32-bit word, read signed, is the number. -/
theorem toInt_ofNat_small (k : ℕ) (hk : k < 32768) : (BitVec.ofNat 32 k).toInt = (k : Int) := by
  have h : (BitVec.ofNat 32 k).toNat = k := by
    rw [BitVec.toNat_ofNat]; exact Nat.mod_eq_of_lt (by omega)
  rw [BitVec.toInt_eq_toNat_of_lt (by rw [h]; omega), h]

local notation "sc" => scatter_S128x32768_S1_S128_0_1_1_0

/-- The window starts at row 0 … -/
theorem start_zero (j : S128.Idx) (idx : IVec S1 32) : (sc).start j idx 0 = 0 := by
  unfold ScatterDims.start
  split
  · rename_i h; exact absurd h (by decide)
  · rfl

/-- … and at the column the scatter index names. -/
theorem start_one (k : ℕ) (j : S128.Idx) (idx : IVec S1 32) (hidx : ∀ q, idx q = BitVec.ofNat 32 k) :
    (sc).start j idx 1 = (BitVec.ofNat 32 k).toInt := by
  unfold ScatterDims.start
  split
  · rw [hidx]
  · rename_i h; exact absurd (by decide) h

/-- The window coordinate of update row `j` is `j` on the row axis … -/
theorem window_zero (j : S128.Idx) : (sc).window j 0 = (j 0).val := by
  unfold ScatterDims.window
  split
  · rfl
  · rename_i h; exact absurd (by decide) h

/-- … and nothing on the column axis. -/
theorem window_one (j : S128.Idx) : (sc).window j 1 = 0 := by
  unfold ScatterDims.window
  split
  · rename_i h; exact absurd h (by decide)
  · rfl

/-- Update row `j` lands at (row `j`, column `k`). -/
theorem resultIdx_col (k : ℕ) (hk : k < 32768) (j : S128.Idx) (idx : IVec S1 32) (hidx : ∀ q, idx q = BitVec.ofNat 32 k) :
    (sc).resultIdx? j idx = some (ix2 (n0 := 128) (n1 := 32768) (j 0) ⟨k, hk⟩ : S128x32768.Idx) := by
  have h0 : (sc).start j idx 0 + ((sc).window j 0 : Int) = ((j 0).val : Int) := by
    rw [start_zero, window_zero]; simp
  have h1 : (sc).start j idx 1 + ((sc).window j 1 : Int) = (k : Int) := by
    rw [start_one k j idx hidx, window_one, toInt_ofNat_small k hk]; simp
  have hj : (j 0).val < 128 := (j 0).isLt
  unfold ScatterDims.resultIdx?
  split
  · congr 1
    funext a
    match a with
    | ⟨0, _⟩ => apply Fin.ext; show ((sc).start j idx 0 + ((sc).window j 0 : Int)).toNat = (j 0).val; rw [h0]; simp
    | ⟨1, _⟩ => apply Fin.ext; show ((sc).start j idx 1 + ((sc).window j 1 : Int)).toNat = k; rw [h1]; simp
  · rename_i h
    exfalso; apply h
    intro a
    match a with
    | ⟨0, _⟩ =>
      show 0 ≤ (sc).start j idx 0 + ((sc).window j 0 : Int) ∧ (sc).start j idx 0 + ((sc).window j 0 : Int) < ((128 : ℕ) : Int)
      rw [h0]; omega
    | ⟨1, _⟩ =>
      show 0 ≤ (sc).start j idx 1 + ((sc).window j 1 : Int) ∧ (sc).start j idx 1 + ((sc).window j 1 : Int) < ((32768 : ℕ) : Int)
      rw [h1]; omega

variable {α : Type}

/-- THE COLUMN SCATTER AT AN INDEX: column `k` is the update, every other column is kept. -/
theorem scatter_col (k : ℕ) (hk : k < 32768) (x : S128x32768.Idx → α) (idx : IVec S1 32)
    (hidx : ∀ q, idx q = BitVec.ofNat 32 k) (upd : S128.Idx → α) (i : S128x32768.Idx) :
    Host.scatter (sc) (fun _ b => b) x idx upd i = if (i 1).val = k then upd (ix1 (i 0)) else x i := by
  unfold Host.scatter
  simp only [resultIdx_col k hk _ idx hidx]
  have hinj : Function.Injective (fun n : Fin S128.numel =>
      (ix2 (n0 := 128) (n1 := 32768) ((S128.rowMajor.symm n) 0) ⟨k, hk⟩ : S128x32768.Idx)) := by
    intro n m e
    have e0 : (S128.rowMajor.symm n) 0 = (S128.rowMajor.symm m) 0 := congrFun e 0
    have : S128.rowMajor.symm n = S128.rowMajor.symm m := by
      rw [eq_ix1 (S128.rowMajor.symm n), eq_ix1 (S128.rowMajor.symm m), e0]
    exact S128.rowMajor.symm.injective this
  by_cases hc : (i 1).val = k
  · rw [if_pos hc]
    have hi : (fun n : Fin S128.numel =>
        (ix2 (n0 := 128) (n1 := 32768) ((S128.rowMajor.symm n) 0) ⟨k, hk⟩ : S128x32768.Idx)) (S128.rowMajor (ix1 (i 0))) = i := by
      show (ix2 (n0 := 128) (n1 := 32768) ((S128.rowMajor.symm (S128.rowMajor (ix1 (i 0)))) 0) ⟨k, hk⟩ : S128x32768.Idx) = i
      rw [Equiv.symm_apply_apply, eq_ix2 i]
      congr 1
      exact Fin.ext hc.symm
    have := foldl_set_hit _ hinj (fun n => upd (S128.rowMajor.symm n)) (S128.rowMajor (ix1 (i 0))) i hi
      (List.finRange S128.numel) x (List.nodup_finRange _) (List.mem_finRange _)
    rw [Equiv.symm_apply_apply] at this
    exact this
  · rw [if_neg hc]
    exact foldl_set_miss _ (fun n => upd (S128.rowMajor.symm n)) i (List.finRange S128.numel) x
      (fun n _ e => hc (by rw [← e]))

end Cert.Proof.OnReference

end
-- ==== Proof.OnReference.Step.lean ====
/-
  What one iteration of the reference computes, as a function of plane 0 and of the running array, and what the
  sixteen iterations compute together, read at an index over the extended reals.

  Iteration `k` (columns `k` and `16384 + k`) takes from plane 0 the two columns `a = x[:, k]` and `b = x[:, 16384 + k]`,
  forms `wrap (a + b)` and `wrap ((1024 + a) - b)` — `wrap` the truncated remainder by 1024 moved into [0, 1024), which
  is @remainder's body — and writes them over columns `k` and `16384 + k` of the running array.  After `n` iterations
  the columns below `n` and the columns from 16384 to below `16384 + n` hold those values; every other column is what the
  running array held at the start.
-/
import proofs.«209894_g19731079758016_cont_8to1_1440_21_alg».proof.Proof.OnReference.Scatter
import proofs.«209894_g19731079758016_cont_8to1_1440_21_alg».proof.Proof.Spec

set_option Elab.async false

noncomputable section

namespace Cert.Proof.OnReference

open Cert.ReferenceIdeal Cert.ReferenceIdeal.Gen Idealize.ShloMosaic Idealize.ShloMosaic.ValueIdx

local notation "sc" => scatter_S128x32768_S1_S128_0_1_1_0

section Defs
variable {F : FTy → Type} [FloatOps F]

/-- Column `k` of a 128 × 32768 array, as a vector of 128: the 128 × 1 block at column `k`, reshaped. -/
def col (k : ℕ) (hk : S128x32768.Slices ![0, k] S128x1) (X : FVec F S128x32768 .f32) : FVec F S128 .f32 :=
  shapeCast S128 (extractStridedSlice S128x1 ![0, k] X hk) shapeCasts_S128x1_S128

/-- @remainder's body as one function of its operand `a` and of the divisor word `n`: with `d` the divisor as a float
    and `r = remf a d`, the result is `r + d` where `r ≠ 0` and the signs of `r` and `d` differ, else `r`. -/
def rem (a : FVec F S128 .f32) (n : IVec S_ 32) : FVec F S128 .f32 :=
  select
    (andi
      (cmpi .ne
        (cmpf .olt (Host.remf a (broadcastInDim S128 ![] bcast_S_S128 (sitofp .f32 n : FVec F S_ .f32)))
          (broadcastInDim S128 ![] bcast_S_S128 (constant S_ .f32 0x00000000#32)))
        (broadcastInDim S128 ![] bcast_S_S128 (cmpf .olt (sitofp .f32 n : FVec F S_ .f32) (constant S_ .f32 0x00000000#32))))
      (cmpf .une (Host.remf a (broadcastInDim S128 ![] bcast_S_S128 (sitofp .f32 n : FVec F S_ .f32)))
        (broadcastInDim S128 ![] bcast_S_S128 (constant S_ .f32 0x00000000#32))))
    (addf (Host.remf a (broadcastInDim S128 ![] bcast_S_S128 (sitofp .f32 n : FVec F S_ .f32)))
      (broadcastInDim S128 ![] bcast_S_S128 (sitofp .f32 n : FVec F S_ .f32)))
    (Host.remf a (broadcastInDim S128 ![] bcast_S_S128 (sitofp .f32 n : FVec F S_ .f32)))

/-- One iteration: from plane 0 `X`, the wrapped sum of columns `k` and `k'` written over column `k` of the running
    array `R`, then the wrapped `(1024 + column k) - column k'` written over column `k'`. -/
def step (k k' : ℕ) (hk : S128x32768.Slices ![0, k] S128x1) (hk' : S128x32768.Slices ![0, k'] S128x1)
    (X R : FVec F S128x32768 .f32) : FVec F S128x32768 .f32 :=
  Host.scatter (sc) (fun _ b => b)
    (Host.scatter (sc) (fun _ b => b) R
      (broadcastInDim S1 ![] bcast_S_S1 (constantI S_ 32 (BitVec.ofNat 32 k)))
      (rem (addf (col k hk X) (col k' hk' X)) (constantI S_ 32 1024#32)))
    (broadcastInDim S1 ![] bcast_S_S1 (constantI S_ 32 (BitVec.ofNat 32 k')))
    (rem (subf (addf (broadcastInDim S128 ![] bcast_S_S128 (constant S_ .f32 0x44800000#32)) (col k hk X)) (col k' hk' X))
      (constantI S_ 32 1024#32))

/-- A 128 × 1 block fits at every column below 32768. -/
theorem slices_col (k : ℕ) (hk : k < 32768) : S128x32768.Slices ![0, k] S128x1 :=
  ⟨rfl, fun a => match a with
    | ⟨0, _⟩ => by show 0 + 128 ≤ 128; omega
    | ⟨1, _⟩ => by show k + 1 ≤ 32768; omega⟩

/-- The first `n` iterations, in order. -/
def steps : (n : ℕ) → n ≤ 16 → FVec F S128x32768 .f32 → FVec F S128x32768 .f32 → FVec F S128x32768 .f32
  | 0, _, _, R => R
  | n + 1, h, X, R =>
    step n (16384 + n) (slices_col n (by omega)) (slices_col (16384 + n) (by omega)) X (steps n (by omega) X R)

end Defs

/-! ## At an index, over the extended reals -/

section AtIdeal

theorem cmpf_ideal (p : CmpFPredicate) (x y : Ideal .f32) : FloatOps.cmpf p x y = Ideal.cmp p x y := rfl
theorem sitofp_ideal (b : BitVec 32) : (FloatOps.sitofp .f32 b : Ideal .f32) = ((b.toInt : ℝ) : EReal) := rfl

/-- Subtracting one and adding it back is the identity on every extended real, the infinities included. -/
theorem sub_one_add_one (x : EReal) : x - 1 + 1 = x := by
  induction x using EReal.rec with
  | bot => simp
  | top => rw [← EReal.coe_one, EReal.top_sub_coe, EReal.top_add_coe]
  | coe r => norm_cast; ring

/-- The bits @remainder computes: "the remainder is negative, the divisor is not, and the remainder is not zero" is
    "the remainder is negative". -/
theorem wrap_bits (r d : EReal) (hd : ¬ d < 0) :
    Scalar.select (IntOp.andi (IntOp.cmpi .ne (Ideal.cmp .olt r 0) (Ideal.cmp .olt d 0)) (Ideal.cmp .une r 0)) (r + d) r
      = if r < 0 then r + d else r := by
  by_cases h : r < 0
  · have hne : r ≠ 0 := ne_of_lt h
    simp [Ideal.cmp, IntOp.cmpi, IntOp.andi, Scalar.select, h, hd, hne]
  · simp [Ideal.cmp, IntOp.cmpi, IntOp.andi, Scalar.select, h, hd]

/-- @remainder by 1024 at one element: the truncated remainder moved into [0, 1024). -/
theorem rem_apply (a : FVec Ideal S128 .f32) (j : S128.Idx) :
    rem a (constantI S_ 32 1024#32) j = Spec.wrap (a j) := by
  have hd : (FloatOps.sitofp .f32 (1024#32 : BitVec 32) : Ideal .f32) = ((1024 : ℝ) : EReal) := by
    rw [sitofp_ideal]
    have : (1024#32 : BitVec 32).toInt = 1024 := by decide
    rw [this]; norm_num
  have hz : (FloatOps.ofBits .f32 (0x00000000#32 : BitVec 32) : Ideal .f32) = 0 := Spec.bits_zero
  have hd0 : ¬ ((1024 : ℝ) : EReal) < 0 := by
    rw [not_lt]; exact_mod_cast (by norm_num : (0 : ℝ) ≤ 1024)
  show Scalar.select
      (IntOp.andi
        (IntOp.cmpi .ne
          (FloatOps.cmpf .olt (FloatOps.hostRemf (a j) (FloatOps.sitofp .f32 (1024#32 : BitVec 32))) (FloatOps.ofBits .f32 (0x00000000#32 : BitVec 32)))
          (FloatOps.cmpf .olt (FloatOps.sitofp .f32 (1024#32 : BitVec 32) : Ideal .f32) (FloatOps.ofBits .f32 (0x00000000#32 : BitVec 32))))
        (FloatOps.cmpf .une (FloatOps.hostRemf (a j) (FloatOps.sitofp .f32 (1024#32 : BitVec 32))) (FloatOps.ofBits .f32 (0x00000000#32 : BitVec 32))))
      (FloatOps.addf (FloatOps.hostRemf (a j) (FloatOps.sitofp .f32 (1024#32 : BitVec 32))) (FloatOps.sitofp .f32 (1024#32 : BitVec 32)))
      (FloatOps.hostRemf (a j) (FloatOps.sitofp .f32 (1024#32 : BitVec 32))) = Spec.wrap (a j)
  rw [hd, hz]
  simp only [cmpf_ideal, Ideal.hostRemf_def, Ideal.addf_def]
  rw [wrap_bits _ _ hd0]
  rfl

/-- A column read at a row. -/
theorem col_apply (k : ℕ) (hk : k < 32768) (hs : S128x32768.Slices ![0, k] S128x1) (X : FVec Ideal S128x32768 .f32)
    (r : Fin 128) : col k hs X (ix1 r) = X (ix2 r ⟨k, hk⟩) := by
  have he : Shape.reshapeEquiv (s := S128x1) (s' := S128) shapeCasts_S128x1_S128 (ix1 r) = (ix2 r (⟨0, Nat.one_pos⟩ : Fin 1) : S128x1.Idx) := by
    apply Shape.reshapeEquiv_eq_of_rowMajor
    rw [Shape.rowMajor_val_two, Shape.rowMajor_val_one]
    show r.val * 1 + 0 = r.val
    omega
  show X (fun a => ⟨![0, k] a + ((Shape.reshapeEquiv (s := S128x1) (s' := S128) shapeCasts_S128x1_S128 (ix1 r)) (a.cast _)).val, _⟩) = _
  rw [he]
  congr 1
  funext a
  match a with
  | ⟨0, _⟩ => apply Fin.ext; show 0 + r.val = r.val; omega
  | ⟨1, _⟩ => apply Fin.ext; show k + 0 = k; omega

/-- Plane `p` of the argument, reshaped to 128 × 32768, read at an index. -/
theorem plane_apply (p : ℕ) (hp : p < 3) (hs : S3x128x32768.Slices ![p, 0, 0] S1x128x32768)
    (A : FVec Ideal S3x128x32768 .f32) (i : S128x32768.Idx) :
    shapeCast S128x32768 (extractStridedSlice S1x128x32768 ![p, 0, 0] A hs) shapeCasts_S1x128x32768_S128x32768 i
      = A (ix3 (⟨p, hp⟩ : Fin 3) (i 0) (i 1)) := by
  have he : Shape.reshapeEquiv (s := S1x128x32768) (s' := S128x32768) shapeCasts_S1x128x32768_S128x32768 i
      = (ix3 (⟨0, Nat.one_pos⟩ : Fin 1) (i 0) (i 1) : S1x128x32768.Idx) := by
    apply Shape.reshapeEquiv_eq_of_rowMajor
    rw [Shape.rowMajor_val_three, Shape.rowMajor_val_two]
    show (0 * 128 + (i 0).val) * 32768 + (i 1).val = (i 0).val * 32768 + (i 1).val
    omega
  show A (fun a => ⟨![p, 0, 0] a + ((Shape.reshapeEquiv (s := S1x128x32768) (s' := S128x32768) shapeCasts_S1x128x32768_S128x32768 i) (a.cast _)).val, _⟩) = _
  rw [he]
  congr 1
  funext a
  match a with
  | ⟨0, _⟩ => apply Fin.ext; show p + 0 = p; omega
  | ⟨1, _⟩ => apply Fin.ext; show 0 + (i 0).val = (i 0).val; omega
  | ⟨2, _⟩ => apply Fin.ext; show 0 + (i 1).val = (i 1).val; omega

/-- The column scatter at (row, column). -/
theorem scatter_col' {α : Type} (k : ℕ) (hk : k < 32768) (x : S128x32768.Idx → α) (idx : IVec S1 32)
    (hidx : ∀ q, idx q = BitVec.ofNat 32 k) (upd : S128.Idx → α) (r : Fin 128) (c : Fin 32768) :
    Host.scatter (sc) (fun _ b => b) x idx upd (ix2 r c) = if c.val = k then upd (ix1 r) else x (ix2 r c) :=
  scatter_col k hk x idx hidx upd (ix2 r c)

/-- ONE ITERATION AT AN INDEX: column `16384 + k` is the wrapped `(1024 + a) - b`, column `k` the wrapped `a + b` — `a`, `b`
    plane 0's elements of that row at columns `k` and `16384 + k` —, every other column the running array's. -/
theorem step_apply (k : ℕ) (hk : k < 16384) (hs : S128x32768.Slices ![0, k] S128x1) (hs' : S128x32768.Slices ![0, 16384 + k] S128x1)
    (X R : FVec Ideal S128x32768 .f32) (r : Fin 128) (c : Fin 32768) :
    step k (16384 + k) hs hs' X R (ix2 r c)
      = if c.val = 16384 + k then
          Spec.wrap ((((1024 : ℝ) : EReal) + X (ix2 r ⟨k, by omega⟩)) - X (ix2 r ⟨16384 + k, by omega⟩))
        else if c.val = k then Spec.wrap (X (ix2 r ⟨k, by omega⟩) + X (ix2 r ⟨16384 + k, by omega⟩))
        else R (ix2 r c) := by
  unfold step
  rw [scatter_col' (16384 + k) (by omega) _ (broadcastInDim S1 ![] bcast_S_S1 (constantI S_ 32 (BitVec.ofNat 32 (16384 + k)))) (fun _ => rfl),
    scatter_col' k (by omega) _ (broadcastInDim S1 ![] bcast_S_S1 (constantI S_ 32 (BitVec.ofNat 32 k))) (fun _ => rfl),
    rem_apply, rem_apply]
  have h1024 : ∀ j : S128.Idx, (broadcastInDim S128 ![] bcast_S_S128 (constant (F := Ideal) S_ .f32 0x44800000#32)) j
      = ((1024 : ℝ) : EReal) := fun _ => Spec.bits_1024
  simp only [subf_apply, addf_apply, h1024, col_apply k (by omega), col_apply (16384 + k) (by omega)]

/-- THE FIRST `n` ITERATIONS AT AN INDEX. -/
theorem steps_apply (n : ℕ) (hn : n ≤ 16) (X R : FVec Ideal S128x32768 .f32) (r : Fin 128) (c : ℕ) (hc : c < 32768) :
    steps n hn X R (ix2 r ⟨c, hc⟩)
      = if h : c < n then Spec.wrap (X (ix2 r ⟨c, hc⟩) + X (ix2 r ⟨c + 16384, by omega⟩))
        else if h' : 16384 ≤ c ∧ c < 16384 + n then
          Spec.wrap ((((1024 : ℝ) : EReal) + X (ix2 r ⟨c - 16384, by omega⟩)) - X (ix2 r ⟨c, hc⟩))
        else R (ix2 r ⟨c, hc⟩) := by
  induction n with
  | zero =>
    rw [dif_neg (by omega), dif_neg (by omega)]
    rfl
  | succ n ih =>
    show step n (16384 + n) _ _ X (steps n (by omega) X R) (ix2 r ⟨c, hc⟩) = _
    rw [step_apply n (by omega), ih (by omega)]
    by_cases h1 : c = 16384 + n
    · rw [if_pos h1, dif_neg (show ¬ c < n + 1 by omega), dif_pos (show 16384 ≤ c ∧ c < 16384 + (n + 1) by omega)]
      have e1 : (⟨n, by omega⟩ : Fin 32768) = ⟨c - 16384, by omega⟩ := Fin.ext (by show n = c - 16384; omega)
      have e2 : (⟨16384 + n, by omega⟩ : Fin 32768) = ⟨c, hc⟩ := Fin.ext (by show 16384 + n = c; omega)
      rw [e1, e2]
    · rw [if_neg h1]
      by_cases h2 : c = n
      · rw [if_pos h2, dif_pos (show c < n + 1 by omega)]
        have e1 : (⟨n, by omega⟩ : Fin 32768) = ⟨c, hc⟩ := Fin.ext (by show n = c; omega)
        have e2 : (⟨16384 + n, by omega⟩ : Fin 32768) = ⟨c + 16384, by omega⟩ := Fin.ext (by show 16384 + n = c + 16384; omega)
        rw [e1, e2]
      · rw [if_neg h2]
        by_cases h3 : c < n
        · rw [dif_pos h3, dif_pos (show c < n + 1 by omega)]
        · rw [dif_neg h3, dif_neg (show ¬ c < n + 1 by omega)]
          by_cases h4 : 16384 ≤ c ∧ c < 16384 + n
          · rw [dif_pos h4, dif_pos (show 16384 ≤ c ∧ c < 16384 + (n + 1) by omega)]
          · rw [dif_neg h4, dif_neg (show ¬ (16384 ≤ c ∧ c < 16384 + (n + 1)) by omega)]

/-- THE SIXTEEN ITERATIONS, from plane 0 minus one, plus one: the specification's mixed plane. -/
theorem mixed_eq (A : FVec Ideal S3x128x32768 .f32) (X ones : FVec Ideal S128x32768 .f32)
    (hX : ∀ (r : Fin 128) (c : Fin 32768), X (ix2 r c) = A (ix3 (0 : Fin 3) r c)) (hones : ∀ i, ones i = 1) :
    addf (steps 16 (Nat.le_refl 16) X (subf X ones)) ones = Spec.mixed A := by
  funext i
  obtain ⟨r, c, rfl⟩ : ∃ (r : Fin 128) (c : Fin 32768), i = ix2 r c := ⟨i 0, i 1, eq_ix2 i⟩
  obtain ⟨c, hc⟩ := c
  show steps 16 (Nat.le_refl 16) X (subf X ones) (ix2 r ⟨c, hc⟩) + ones (ix2 r ⟨c, hc⟩) = Spec.mixed A (ix2 r ⟨c, hc⟩)
  rw [steps_apply 16 (Nat.le_refl 16) X (subf X ones) r c hc, hones]
  show _ = if h : c < 16 then
        Spec.left (A (ix3 (0 : Fin 3) r (⟨c, by omega⟩ : Fin 32768))) (A (ix3 (0 : Fin 3) r (⟨c + 16384, by omega⟩ : Fin 32768)))
      else if h' : 16384 ≤ c ∧ c < 16400 then
        Spec.right (A (ix3 (0 : Fin 3) r (⟨c - 16384, by omega⟩ : Fin 32768))) (A (ix3 (0 : Fin 3) r (⟨c, hc⟩ : Fin 32768)))
      else A (ix3 (0 : Fin 3) r (⟨c, hc⟩ : Fin 32768))
  by_cases h1 : c < 16
  · rw [dif_pos h1, dif_pos h1, hX, hX]; rfl
  · rw [dif_neg h1, dif_neg h1]
    by_cases h2 : 16384 ≤ c ∧ c < 16400
    · rw [dif_pos (show 16384 ≤ c ∧ c < 16384 + 16 by omega), dif_pos h2, hX, hX]; rfl
    · rw [dif_neg (show ¬ (16384 ≤ c ∧ c < 16384 + 16) by omega), dif_neg h2]
      show X (ix2 r ⟨c, hc⟩) - ones (ix2 r ⟨c, hc⟩) + 1 = _
      rw [hones, hX, sub_one_add_one]

end AtIdeal

end Cert.Proof.OnReference

end
-- ==== Proof.OnReference.Iter.lean ====
/-
  What each piece of the program leaves in the buffers the mathematics follows, from ANY contents `V` of the device's
  buffers: the prologue's plane 0 and plane 0 minus one; each iteration's new running array, a function (`step`) of
  plane 0 (`main_v1`) and of the running array it read, with `main_v1` and the argument unchanged; the epilogue's three
  results.  Each is the fold of the piece's operations computed at one buffer: every operation rewrites the buffer it
  writes and leaves the others, which is a computation on literal references.
-/
import proofs.«209894_g19731079758016_cont_8to1_1440_21_alg».proof.Proof.OnReference.Ops
import proofs.«209894_g19731079758016_cont_8to1_1440_21_alg».proof.Proof.OnReference.Step

set_option Elab.async false

noncomputable section

namespace Cert.Proof.OnReference

open Cert.ReferenceIdeal Cert.ReferenceIdeal.Gen Idealize.ShloMosaic Idealize.ShloMosaic.TcCoe Idealize.SL.Sem Idealize.ShloMosaic.StableHlo

variable {F : FTy → Type} [FloatOps F]

/-- The constant one, broadcast to the array's shape. -/
abbrev ones : FVec F S128x32768 .f32 := broadcastInDim S128x32768 ![] bcast_S_S128x32768 (constant S_ .f32 0x3F800000#32)

/-- Plane `p` of a 3 × 128 × 32768 array, reshaped to 128 × 32768. -/
abbrev planeOf (p : ℕ) (hs : S3x128x32768.Slices ![p, 0, 0] S1x128x32768) (A : FVec F S3x128x32768 .f32) : FVec F S128x32768 .f32 :=
  shapeCast S128x32768 (extractStridedSlice S1x128x32768 ![p, 0, 0] A hs) shapeCasts_S1x128x32768_S128x32768

attribute [local irreducible] Host.scatter in
set_option maxRecDepth 8192 in
set_option maxHeartbeats 4000000 in
/-- The prologue leaves plane 0 in `main_v1` … -/
theorem pro_v1 (V : Valuation τ sig (Elt F)) :
    after pro V (main_v1 : DevRef τ sig) = planeOf 0 slices_S3x128x32768_S1x128x32768_0_0_0 (V (main_arg0 : DevRef τ sig)) := by
  simp only [pro, after_cons, after_nil]
  rfl

attribute [local irreducible] Host.scatter in
set_option maxRecDepth 8192 in
set_option maxHeartbeats 4000000 in
/-- … plane 0 minus one in `main_v3` … -/
theorem pro_v3 (V : Valuation τ sig (Elt F)) :
    after pro V (main_v3 : DevRef τ sig) = subf (planeOf 0 slices_S3x128x32768_S1x128x32768_0_0_0 (V (main_arg0 : DevRef τ sig))) ones := by
  simp only [pro, after_cons, after_nil]
  rfl

attribute [local irreducible] Host.scatter in
set_option maxRecDepth 8192 in
set_option maxHeartbeats 4000000 in
/-- … and the argument as it was. -/
theorem pro_arg0 (V : Valuation τ sig (Elt F)) :
    after pro V (main_arg0 : DevRef τ sig) = V (main_arg0 : DevRef τ sig) := by
  simp only [pro, after_cons, after_nil]
  rfl

attribute [local irreducible] Host.scatter in
set_option maxRecDepth 8192 in
set_option maxHeartbeats 4000000 in
/-- Iteration 0 leaves in `main_v21` the step at columns 0 and 16384 of plane 0 and of `main_v3` … -/
theorem it0_out (V : Valuation τ sig (Elt F)) :
    after it0 V (main_v21 : DevRef τ sig) = step 0 16384 slices_S128x32768_S128x1_0_0 slices_S128x32768_S128x1_0_16384 (V (main_v1 : DevRef τ sig)) (V (main_v3 : DevRef τ sig)) := by
  simp only [it0, after_cons, after_nil]
  rfl

attribute [local irreducible] Host.scatter in
set_option maxRecDepth 8192 in
set_option maxHeartbeats 4000000 in
/-- … and plane 0 … -/
theorem it0_v1 (V : Valuation τ sig (Elt F)) :
    after it0 V (main_v1 : DevRef τ sig) = V (main_v1 : DevRef τ sig) := by
  simp only [it0, after_cons, after_nil]
  rfl

attribute [local irreducible] Host.scatter in
set_option maxRecDepth 8192 in
set_option maxHeartbeats 4000000 in
/-- … and the argument as they were. -/
theorem it0_arg0 (V : Valuation τ sig (Elt F)) :
    after it0 V (main_arg0 : DevRef τ sig) = V (main_arg0 : DevRef τ sig) := by
  simp only [it0, after_cons, after_nil]
  rfl

attribute [local irreducible] Host.scatter in
set_option maxRecDepth 8192 in
set_option maxHeartbeats 4000000 in
/-- Iteration 1 leaves in `main_v39` the step at columns 1 and 16385 of plane 0 and of `main_v21` … -/
theorem it1_out (V : Valuation τ sig (Elt F)) :
    after it1 V (main_v39 : DevRef τ sig) = step 1 16385 slices_S128x32768_S128x1_0_1 slices_S128x32768_S128x1_0_16385 (V (main_v1 : DevRef τ sig)) (V (main_v21 : DevRef τ sig)) := by
  simp only [it1, after_cons, after_nil]
  rfl

attribute [local irreducible] Host.scatter in
set_option maxRecDepth 8192 in
set_option maxHeartbeats 4000000 in
/-- … and plane 0 … -/
theorem it1_v1 (V : Valuation τ sig (Elt F)) :
    after it1 V (main_v1 : DevRef τ sig) = V (main_v1 : DevRef τ sig) := by
  simp only [it1, after_cons, after_nil]
  rfl

attribute [local irreducible] Host.scatter in
set_option maxRecDepth 8192 in
set_option maxHeartbeats 4000000 in
/-- … and the argument as they were. -/
theorem it1_arg0 (V : Valuation τ sig (Elt F)) :
    after it1 V (main_arg0 : DevRef τ sig) = V (main_arg0 : DevRef τ sig) := by
  simp only [it1, after_cons, after_nil]
  rfl

attribute [local irreducible] Host.scatter in
set_option maxRecDepth 8192 in
set_option maxHeartbeats 4000000 in
/-- Iteration 2 leaves in `main_v57` the step at columns 2 and 16386 of plane 0 and of `main_v39` … -/
theorem it2_out (V : Valuation τ sig (Elt F)) :
    after it2 V (main_v57 : DevRef τ sig) = step 2 16386 slices_S128x32768_S128x1_0_2 slices_S128x32768_S128x1_0_16386 (V (main_v1 : DevRef τ sig)) (V (main_v39 : DevRef τ sig)) := by
  simp only [it2, after_cons, after_nil]
  rfl

attribute [local irreducible] Host.scatter in
set_option maxRecDepth 8192 in
set_option maxHeartbeats 4000000 in
/-- … and plane 0 … -/
theorem it2_v1 (V : Valuation τ sig (Elt F)) :
    after it2 V (main_v1 : DevRef τ sig) = V (main_v1 : DevRef τ sig) := by
  simp only [it2, after_cons, after_nil]
  rfl

attribute [local irreducible] Host.scatter in
set_option maxRecDepth 8192 in
set_option maxHeartbeats 4000000 in
/-- … and the argument as they were. -/
theorem it2_arg0 (V : Valuation τ sig (Elt F)) :
    after it2 V (main_arg0 : DevRef τ sig) = V (main_arg0 : DevRef τ sig) := by
  simp only [it2, after_cons, after_nil]
  rfl

attribute [local irreducible] Host.scatter in
set_option maxRecDepth 8192 in
set_option maxHeartbeats 4000000 in
/-- Iteration 3 leaves in `main_v75` the step at columns 3 and 16387 of plane 0 and of `main_v57` … -/
theorem it3_out (V : Valuation τ sig (Elt F)) :
    after it3 V (main_v75 : DevRef τ sig) = step 3 16387 slices_S128x32768_S128x1_0_3 slices_S128x32768_S128x1_0_16387 (V (main_v1 : DevRef τ sig)) (V (main_v57 : DevRef τ sig)) := by
  simp only [it3, after_cons, after_nil]
  rfl

attribute [local irreducible] Host.scatter in
set_option maxRecDepth 8192 in
set_option maxHeartbeats 4000000 in
/-- … and plane 0 … -/
theorem it3_v1 (V : Valuation τ sig (Elt F)) :
    after it3 V (main_v1 : DevRef τ sig) = V (main_v1 : DevRef τ sig) := by
  simp only [it3, after_cons, after_nil]
  rfl

attribute [local irreducible] Host.scatter in
set_option maxRecDepth 8192 in
set_option maxHeartbeats 4000000 in
/-- … and the argument as they were. -/
theorem it3_arg0 (V : Valuation τ sig (Elt F)) :
    after it3 V (main_arg0 : DevRef τ sig) = V (main_arg0 : DevRef τ sig) := by
  simp only [it3, after_cons, after_nil]
  rfl

attribute [local irreducible] Host.scatter in
set_option maxRecDepth 8192 in
set_option maxHeartbeats 4000000 in
/-- Iteration 4 leaves in `main_v93` the step at columns 4 and 16388 of plane 0 and of `main_v75` … -/
theorem it4_out (V : Valuation τ sig (Elt F)) :
    after it4 V (main_v93 : DevRef τ sig) = step 4 16388 slices_S128x32768_S128x1_0_4 slices_S128x32768_S128x1_0_16388 (V (main_v1 : DevRef τ sig)) (V (main_v75 : DevRef τ sig)) := by
  simp only [it4, after_cons, after_nil]
  rfl

attribute [local irreducible] Host.scatter in
set_option maxRecDepth 8192 in
set_option maxHeartbeats 4000000 in
/-- … and plane 0 … -/
theorem it4_v1 (V : Valuation τ sig (Elt F)) :
    after it4 V (main_v1 : DevRef τ sig) = V (main_v1 : DevRef τ sig) := by
  simp only [it4, after_cons, after_nil]
  rfl

attribute [local irreducible] Host.scatter in
set_option maxRecDepth 8192 in
set_option maxHeartbeats 4000000 in
/-- … and the argument as they were. -/
theorem it4_arg0 (V : Valuation τ sig (Elt F)) :
    after it4 V (main_arg0 : DevRef τ sig) = V (main_arg0 : DevRef τ sig) := by
  simp only [it4, after_cons, after_nil]
  rfl

attribute [local irreducible] Host.scatter in
set_option maxRecDepth 8192 in
set_option maxHeartbeats 4000000 in
/-- Iteration 5 leaves in `main_v111` the step at columns 5 and 16389 of plane 0 and of `main_v93` … -/
theorem it5_out (V : Valuation τ sig (Elt F)) :
    after it5 V (main_v111 : DevRef τ sig) = step 5 16389 slices_S128x32768_S128x1_0_5 slices_S128x32768_S128x1_0_16389 (V (main_v1 : DevRef τ sig)) (V (main_v93 : DevRef τ sig)) := by
  simp only [it5, after_cons, after_nil]
  rfl

attribute [local irreducible] Host.scatter in
set_option maxRecDepth 8192 in
set_option maxHeartbeats 4000000 in
/-- … and plane 0 … -/
theorem it5_v1 (V : Valuation τ sig (Elt F)) :
    after it5 V (main_v1 : DevRef τ sig) = V (main_v1 : DevRef τ sig) := by
  simp only [it5, after_cons, after_nil]
  rfl

attribute [local irreducible] Host.scatter in
set_option maxRecDepth 8192 in
set_option maxHeartbeats 4000000 in
/-- … and the argument as they were. -/
theorem it5_arg0 (V : Valuation τ sig (Elt F)) :
    after it5 V (main_arg0 : DevRef τ sig) = V (main_arg0 : DevRef τ sig) := by
  simp only [it5, after_cons, after_nil]
  rfl

attribute [local irreducible] Host.scatter in
set_option maxRecDepth 8192 in
set_option maxHeartbeats 4000000 in
/-- Iteration 6 leaves in `main_v129` the step at columns 6 and 16390 of plane 0 and of `main_v111` … -/
theorem it6_out (V : Valuation τ sig (Elt F)) :
    after it6 V (main_v129 : DevRef τ sig) = step 6 16390 slices_S128x32768_S128x1_0_6 slices_S128x32768_S128x1_0_16390 (V (main_v1 : DevRef τ sig)) (V (main_v111 : DevRef τ sig)) := by
  simp only [it6, after_cons, after_nil]
  rfl

attribute [local irreducible] Host.scatter in
set_option maxRecDepth 8192 in
set_option maxHeartbeats 4000000 in
/-- … and plane 0 … -/
theorem it6_v1 (V : Valuation τ sig (Elt F)) :
    after it6 V (main_v1 : DevRef τ sig) = V (main_v1 : DevRef τ sig) := by
  simp only [it6, after_cons, after_nil]
  rfl

attribute [local irreducible] Host.scatter in
set_option maxRecDepth 8192 in
set_option maxHeartbeats 4000000 in
/-- … and the argument as they were. -/
theorem it6_arg0 (V : Valuation τ sig (Elt F)) :
    after it6 V (main_arg0 : DevRef τ sig) = V (main_arg0 : DevRef τ sig) := by
  simp only [it6, after_cons, after_nil]
  rfl

attribute [local irreducible] Host.scatter in
set_option maxRecDepth 8192 in
set_option maxHeartbeats 4000000 in
/-- Iteration 7 leaves in `main_v147` the step at columns 7 and 16391 of plane 0 and of `main_v129` … -/
theorem it7_out (V : Valuation τ sig (Elt F)) :
    after it7 V (main_v147 : DevRef τ sig) = step 7 16391 slices_S128x32768_S128x1_0_7 slices_S128x32768_S128x1_0_16391 (V (main_v1 : DevRef τ sig)) (V (main_v129 : DevRef τ sig)) := by
  simp only [it7, after_cons, after_nil]
  rfl

attribute [local irreducible] Host.scatter in
set_option maxRecDepth 8192 in
set_option maxHeartbeats 4000000 in
/-- … and plane 0 … -/
theorem it7_v1 (V : Valuation τ sig (Elt F)) :
    after it7 V (main_v1 : DevRef τ sig) = V (main_v1 : DevRef τ sig) := by
  simp only [it7, after_cons, after_nil]
  rfl

attribute [local irreducible] Host.scatter in
set_option maxRecDepth 8192 in
set_option maxHeartbeats 4000000 in
/-- … and the argument as they were. -/
theorem it7_arg0 (V : Valuation τ sig (Elt F)) :
    after it7 V (main_arg0 : DevRef τ sig) = V (main_arg0 : DevRef τ sig) := by
  simp only [it7, after_cons, after_nil]
  rfl

attribute [local irreducible] Host.scatter in
set_option maxRecDepth 8192 in
set_option maxHeartbeats 4000000 in
/-- Iteration 8 leaves in `main_v165` the step at columns 8 and 16392 of plane 0 and of `main_v147` … -/
theorem it8_out (V : Valuation τ sig (Elt F)) :
    after it8 V (main_v165 : DevRef τ sig) = step 8 16392 slices_S128x32768_S128x1_0_8 slices_S128x32768_S128x1_0_16392 (V (main_v1 : DevRef τ sig)) (V (main_v147 : DevRef τ sig)) := by
  simp only [it8, after_cons, after_nil]
  rfl

attribute [local irreducible] Host.scatter in
set_option maxRecDepth 8192 in
set_option maxHeartbeats 4000000 in
/-- … and plane 0 … -/
theorem it8_v1 (V : Valuation τ sig (Elt F)) :
    after it8 V (main_v1 : DevRef τ sig) = V (main_v1 : DevRef τ sig) := by
  simp only [it8, after_cons, after_nil]
  rfl

attribute [local irreducible] Host.scatter in
set_option maxRecDepth 8192 in
set_option maxHeartbeats 4000000 in
/-- … and the argument as they were. -/
theorem it8_arg0 (V : Valuation τ sig (Elt F)) :
    after it8 V (main_arg0 : DevRef τ sig) = V (main_arg0 : DevRef τ sig) := by
  simp only [it8, after_cons, after_nil]
  rfl

attribute [local irreducible] Host.scatter in
set_option maxRecDepth 8192 in
set_option maxHeartbeats 4000000 in
/-- Iteration 9 leaves in `main_v183` the step at columns 9 and 16393 of plane 0 and of `main_v165` … -/
theorem it9_out (V : Valuation τ sig (Elt F)) :
    after it9 V (main_v183 : DevRef τ sig) = step 9 16393 slices_S128x32768_S128x1_0_9 slices_S128x32768_S128x1_0_16393 (V (main_v1 : DevRef τ sig)) (V (main_v165 : DevRef τ sig)) := by
  simp only [it9, after_cons, after_nil]
  rfl

attribute [local irreducible] Host.scatter in
set_option maxRecDepth 8192 in
set_option maxHeartbeats 4000000 in
/-- … and plane 0 … -/
theorem it9_v1 (V : Valuation τ sig (Elt F)) :
    after it9 V (main_v1 : DevRef τ sig) = V (main_v1 : DevRef τ sig) := by
  simp only [it9, after_cons, after_nil]
  rfl

attribute [local irreducible] Host.scatter in
set_option maxRecDepth 8192 in
set_option maxHeartbeats 4000000 in
/-- … and the argument as they were. -/
theorem it9_arg0 (V : Valuation τ sig (Elt F)) :
    after it9 V (main_arg0 : DevRef τ sig) = V (main_arg0 : DevRef τ sig) := by
  simp only [it9, after_cons, after_nil]
  rfl

attribute [local irreducible] Host.scatter in
set_option maxRecDepth 8192 in
set_option maxHeartbeats 4000000 in
/-- Iteration 10 leaves in `main_v201` the step at columns 10 and 16394 of plane 0 and of `main_v183` … -/
theorem it10_out (V : Valuation τ sig (Elt F)) :
    after it10 V (main_v201 : DevRef τ sig) = step 10 16394 slices_S128x32768_S128x1_0_10 slices_S128x32768_S128x1_0_16394 (V (main_v1 : DevRef τ sig)) (V (main_v183 : DevRef τ sig)) := by
  simp only [it10, after_cons, after_nil]
  rfl

attribute [local irreducible] Host.scatter in
set_option maxRecDepth 8192 in
set_option maxHeartbeats 4000000 in
/-- … and plane 0 … -/
theorem it10_v1 (V : Valuation τ sig (Elt F)) :
    after it10 V (main_v1 : DevRef τ sig) = V (main_v1 : DevRef τ sig) := by
  simp only [it10, after_cons, after_nil]
  rfl

attribute [local irreducible] Host.scatter in
set_option maxRecDepth 8192 in
set_option maxHeartbeats 4000000 in
/-- … and the argument as they were. -/
theorem it10_arg0 (V : Valuation τ sig (Elt F)) :
    after it10 V (main_arg0 : DevRef τ sig) = V (main_arg0 : DevRef τ sig) := by
  simp only [it10, after_cons, after_nil]
  rfl

attribute [local irreducible] Host.scatter in
set_option maxRecDepth 8192 in
set_option maxHeartbeats 4000000 in
/-- Iteration 11 leaves in `main_v219` the step at columns 11 and 16395 of plane 0 and of `main_v201` … -/
theorem it11_out (V : Valuation τ sig (Elt F)) :
    after it11 V (main_v219 : DevRef τ sig) = step 11 16395 slices_S128x32768_S128x1_0_11 slices_S128x32768_S128x1_0_16395 (V (main_v1 : DevRef τ sig)) (V (main_v201 : DevRef τ sig)) := by
  simp only [it11, after_cons, after_nil]
  rfl

attribute [local irreducible] Host.scatter in
set_option maxRecDepth 8192 in
set_option maxHeartbeats 4000000 in
/-- … and plane 0 … -/
theorem it11_v1 (V : Valuation τ sig (Elt F)) :
    after it11 V (main_v1 : DevRef τ sig) = V (main_v1 : DevRef τ sig) := by
  simp only [it11, after_cons, after_nil]
  rfl

attribute [local irreducible] Host.scatter in
set_option maxRecDepth 8192 in
set_option maxHeartbeats 4000000 in
/-- … and the argument as they were. -/
theorem it11_arg0 (V : Valuation τ sig (Elt F)) :
    after it11 V (main_arg0 : DevRef τ sig) = V (main_arg0 : DevRef τ sig) := by
  simp only [it11, after_cons, after_nil]
  rfl

attribute [local irreducible] Host.scatter in
set_option maxRecDepth 8192 in
set_option maxHeartbeats 4000000 in
/-- Iteration 12 leaves in `main_v237` the step at columns 12 and 16396 of plane 0 and of `main_v219` … -/
theorem it12_out (V : Valuation τ sig (Elt F)) :
    after it12 V (main_v237 : DevRef τ sig) = step 12 16396 slices_S128x32768_S128x1_0_12 slices_S128x32768_S128x1_0_16396 (V (main_v1 : DevRef τ sig)) (V (main_v219 : DevRef τ sig)) := by
  simp only [it12, after_cons, after_nil]
  rfl

attribute [local irreducible] Host.scatter in
set_option maxRecDepth 8192 in
set_option maxHeartbeats 4000000 in
/-- … and plane 0 … -/
theorem it12_v1 (V : Valuation τ sig (Elt F)) :
    after it12 V (main_v1 : DevRef τ sig) = V (main_v1 : DevRef τ sig) := by
  simp only [it12, after_cons, after_nil]
  rfl

attribute [local irreducible] Host.scatter in
set_option maxRecDepth 8192 in
set_option maxHeartbeats 4000000 in
/-- … and the argument as they were. -/
theorem it12_arg0 (V : Valuation τ sig (Elt F)) :
    after it12 V (main_arg0 : DevRef τ sig) = V (main_arg0 : DevRef τ sig) := by
  simp only [it12, after_cons, after_nil]
  rfl

attribute [local irreducible] Host.scatter in
set_option maxRecDepth 8192 in
set_option maxHeartbeats 4000000 in
/-- Iteration 13 leaves in `main_v255` the step at columns 13 and 16397 of plane 0 and of `main_v237` … -/
theorem it13_out (V : Valuation τ sig (Elt F)) :
    after it13 V (main_v255 : DevRef τ sig) = step 13 16397 slices_S128x32768_S128x1_0_13 slices_S128x32768_S128x1_0_16397 (V (main_v1 : DevRef τ sig)) (V (main_v237 : DevRef τ sig)) := by
  simp only [it13, after_cons, after_nil]
  rfl

attribute [local irreducible] Host.scatter in
set_option maxRecDepth 8192 in
set_option maxHeartbeats 4000000 in
/-- … and plane 0 … -/
theorem it13_v1 (V : Valuation τ sig (Elt F)) :
    after it13 V (main_v1 : DevRef τ sig) = V (main_v1 : DevRef τ sig) := by
  simp only [it13, after_cons, after_nil]
  rfl

attribute [local irreducible] Host.scatter in
set_option maxRecDepth 8192 in
set_option maxHeartbeats 4000000 in
/-- … and the argument as they were. -/
theorem it13_arg0 (V : Valuation τ sig (Elt F)) :
    after it13 V (main_arg0 : DevRef τ sig) = V (main_arg0 : DevRef τ sig) := by
  simp only [it13, after_cons, after_nil]
  rfl

attribute [local irreducible] Host.scatter in
set_option maxRecDepth 8192 in
set_option maxHeartbeats 4000000 in
/-- Iteration 14 leaves in `main_v273` the step at columns 14 and 16398 of plane 0 and of `main_v255` … -/
theorem it14_out (V : Valuation τ sig (Elt F)) :
    after it14 V (main_v273 : DevRef τ sig) = step 14 16398 slices_S128x32768_S128x1_0_14 slices_S128x32768_S128x1_0_16398 (V (main_v1 : DevRef τ sig)) (V (main_v255 : DevRef τ sig)) := by
  simp only [it14, after_cons, after_nil]
  rfl

attribute [local irreducible] Host.scatter in
set_option maxRecDepth 8192 in
set_option maxHeartbeats 4000000 in
/-- … and plane 0 … -/
theorem it14_v1 (V : Valuation τ sig (Elt F)) :
    after it14 V (main_v1 : DevRef τ sig) = V (main_v1 : DevRef τ sig) := by
  simp only [it14, after_cons, after_nil]
  rfl

attribute [local irreducible] Host.scatter in
set_option maxRecDepth 8192 in
set_option maxHeartbeats 4000000 in
/-- … and the argument as they were. -/
theorem it14_arg0 (V : Valuation τ sig (Elt F)) :
    after it14 V (main_arg0 : DevRef τ sig) = V (main_arg0 : DevRef τ sig) := by
  simp only [it14, after_cons, after_nil]
  rfl

attribute [local irreducible] Host.scatter in
set_option maxRecDepth 8192 in
set_option maxHeartbeats 4000000 in
/-- Iteration 15 leaves in `main_v291` the step at columns 15 and 16399 of plane 0 and of `main_v273` … -/
theorem it15_out (V : Valuation τ sig (Elt F)) :
    after it15 V (main_v291 : DevRef τ sig) = step 15 16399 slices_S128x32768_S128x1_0_15 slices_S128x32768_S128x1_0_16399 (V (main_v1 : DevRef τ sig)) (V (main_v273 : DevRef τ sig)) := by
  simp only [it15, after_cons, after_nil]
  rfl

attribute [local irreducible] Host.scatter in
set_option maxRecDepth 8192 in
set_option maxHeartbeats 4000000 in
/-- … and plane 0 … -/
theorem it15_v1 (V : Valuation τ sig (Elt F)) :
    after it15 V (main_v1 : DevRef τ sig) = V (main_v1 : DevRef τ sig) := by
  simp only [it15, after_cons, after_nil]
  rfl

attribute [local irreducible] Host.scatter in
set_option maxRecDepth 8192 in
set_option maxHeartbeats 4000000 in
/-- … and the argument as they were. -/
theorem it15_arg0 (V : Valuation τ sig (Elt F)) :
    after it15 V (main_arg0 : DevRef τ sig) = V (main_arg0 : DevRef τ sig) := by
  simp only [it15, after_cons, after_nil]
  rfl

attribute [local irreducible] Host.scatter in
set_option maxRecDepth 8192 in
set_option maxHeartbeats 4000000 in
/-- The epilogue leaves the last running array plus one in `main_v293` … -/
theorem epi_v293 (V : Valuation τ sig (Elt F)) :
    after epi V (main_v293 : DevRef τ sig) = addf (V (main_v291 : DevRef τ sig)) ones := by
  simp only [epi, after_cons, after_nil]
  rfl

attribute [local irreducible] Host.scatter in
set_option maxRecDepth 8192 in
set_option maxHeartbeats 4000000 in
/-- … plane 1 in `main_v295` … -/
theorem epi_v295 (V : Valuation τ sig (Elt F)) :
    after epi V (main_v295 : DevRef τ sig) = planeOf 1 slices_S3x128x32768_S1x128x32768_1_0_0 (V (main_arg0 : DevRef τ sig)) := by
  simp only [epi, after_cons, after_nil]
  rfl

attribute [local irreducible] Host.scatter in
set_option maxRecDepth 8192 in
set_option maxHeartbeats 4000000 in
/-- … plane 2 in `main_v297` … -/
theorem epi_v297 (V : Valuation τ sig (Elt F)) :
    after epi V (main_v297 : DevRef τ sig) = planeOf 2 slices_S3x128x32768_S1x128x32768_2_0_0 (V (main_arg0 : DevRef τ sig)) := by
  simp only [epi, after_cons, after_nil]
  rfl

attribute [local irreducible] Host.scatter in
set_option maxRecDepth 8192 in
set_option maxHeartbeats 4000000 in
/-- … and the argument as it was. -/
theorem epi_arg0 (V : Valuation τ sig (Elt F)) :
    after epi V (main_arg0 : DevRef τ sig) = V (main_arg0 : DevRef τ sig) := by
  simp only [epi, after_cons, after_nil]
  rfl

end Cert.Proof.OnReference

end
-- ==== Proof.OnReference.Run.lean ====
/-
  The reference's run.  Every weakly fair execution of @main terminates, and its results are the specification's:
  the first result plane 0 mixed (`Spec.mixed`), the second and third planes 1 and 2, the argument unchanged.

  The program is a straight line of host operations, so its final buffers are the fold of the operations over the
  launch contents (`run_main`).  The fold is taken piece by piece (`after_append`): the epilogue's results are
  functions of the last running array and of the argument; each iteration's running array is `step` of plane 0 and
  of the previous one; plane 0 and the argument pass through every iteration unchanged; the prologue supplies
  plane 0 and plane 0 minus one.  What is left is the sixteen steps composed, plus one, which is `Spec.mixed`
  index by index (`mixed_eq`).
-/
import proofs.«209894_g19731079758016_cont_8to1_1440_21_alg».proof.Proof.OnReference.Iter

set_option Elab.async false

noncomputable section

namespace Cert.Proof.OnReference

open Cert.ReferenceIdeal Cert.ReferenceIdeal.Gen Idealize.ShloMosaic Idealize.ShloMosaic.TcCoe Idealize.SL.Sem Idealize.ShloMosaic.StableHlo
open Idealize.ShloMosaic.ValueIdx

/-- The first result: the sixteen steps from plane 0 minus one, plus one, is plane 0 mixed. -/
theorem out_mixed (m : (ℓ : Loc nD τ sig) → Buf (Elt Ideal) ℓ) (c : Dev nD) :
    after (allOps (F := Ideal)) (launchContents m c) (main_v293 : DevRef τ sig)
      = Spec.mixed (m ((c.tc : Thread nD τ).loc main_arg0)) := by
  simp only [allOps, after_append]
  rw [epi_v293, it15_out, it14_out, it13_out, it12_out, it11_out, it10_out, it9_out, it8_out, it7_out, it6_out, it5_out, it4_out, it3_out, it2_out, it1_out, it0_out,
    it14_v1, it13_v1, it12_v1, it11_v1, it10_v1, it9_v1, it8_v1, it7_v1, it6_v1, it5_v1, it4_v1, it3_v1, it2_v1, it1_v1, it0_v1, pro_v1, pro_v3]
  exact mixed_eq (m ((c.tc : Thread nD τ).loc main_arg0))
    (planeOf 0 slices_S3x128x32768_S1x128x32768_0_0_0 (m ((c.tc : Thread nD τ).loc main_arg0))) ones
    (fun r c' => plane_apply 0 (by omega) _ _ (ix2 r c')) (fun _ => Spec.bits_one)

/-- The second and third results: planes 1 and 2. -/
theorem out_plane1 (m : (ℓ : Loc nD τ sig) → Buf (Elt Ideal) ℓ) (c : Dev nD) :
    after (allOps (F := Ideal)) (launchContents m c) (main_v295 : DevRef τ sig)
      = Spec.plane 1 (m ((c.tc : Thread nD τ).loc main_arg0)) := by
  simp only [allOps, after_append]
  rw [epi_v295, it15_arg0, it14_arg0, it13_arg0, it12_arg0, it11_arg0, it10_arg0, it9_arg0, it8_arg0, it7_arg0, it6_arg0, it5_arg0, it4_arg0, it3_arg0, it2_arg0, it1_arg0, it0_arg0, pro_arg0]
  funext i
  exact plane_apply 1 (by omega) _ _ i

theorem out_plane2 (m : (ℓ : Loc nD τ sig) → Buf (Elt Ideal) ℓ) (c : Dev nD) :
    after (allOps (F := Ideal)) (launchContents m c) (main_v297 : DevRef τ sig)
      = Spec.plane 2 (m ((c.tc : Thread nD τ).loc main_arg0)) := by
  simp only [allOps, after_append]
  rw [epi_v297, it15_arg0, it14_arg0, it13_arg0, it12_arg0, it11_arg0, it10_arg0, it9_arg0, it8_arg0, it7_arg0, it6_arg0, it5_arg0, it4_arg0, it3_arg0, it2_arg0, it1_arg0, it0_arg0, pro_arg0]
  funext i
  exact plane_apply 2 (by omega) _ _ i

/-- The argument is unchanged. -/
theorem out_arg0 (m : (ℓ : Loc nD τ sig) → Buf (Elt Ideal) ℓ) (c : Dev nD) :
    after (allOps (F := Ideal)) (launchContents m c) (main_arg0 : DevRef τ sig)
      = m ((c.tc : Thread nD τ).loc main_arg0) := by
  simp only [allOps, after_append]
  rw [epi_arg0, it15_arg0, it14_arg0, it13_arg0, it12_arg0, it11_arg0, it10_arg0, it9_arg0, it8_arg0, it7_arg0, it6_arg0, it5_arg0, it4_arg0, it3_arg0, it2_arg0, it1_arg0, it0_arg0, pro_arg0]

/-- THE REFERENCE'S RUN: from any memory with zero counters every weakly fair execution of @main terminates, with the
    first result plane 0 mixed, the second and third planes 1 and 2, and the argument unchanged, on every device. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc Cert.ReferenceIdeal.main_v293) = Cert.Proof.Spec.mixed (m ((c.tc : Thread _ _).loc Cert.ReferenceIdeal.main_arg0))
      ∧ r.2.mem ((c.tc : Thread _ _).loc Cert.ReferenceIdeal.main_v295) = Cert.Proof.Spec.plane 1 (m ((c.tc : Thread _ _).loc Cert.ReferenceIdeal.main_arg0))
      ∧ r.2.mem ((c.tc : Thread _ _).loc Cert.ReferenceIdeal.main_v297) = Cert.Proof.Spec.plane 2 (m ((c.tc : Thread _ _).loc Cert.ReferenceIdeal.main_arg0))
      ∧ r.2.mem ((c.tc : Thread _ _).loc Cert.ReferenceIdeal.main_arg0) = m ((c.tc : Thread _ _).loc Cert.ReferenceIdeal.main_arg0)) :=
  (θ_run defs _ _).mono (fun _ h c => ⟨(h c main_v293).trans (out_mixed m c), (h c main_v295).trans (out_plane1 m c),
      (h c main_v297).trans (out_plane2 m c), (h c main_arg0).trans (out_arg0 m c)⟩)
    (run_main m ρ)

end Cert.Proof.OnReference

end
-- ==== Proof.lean ====
/-
  The proof of `Cert.Claim`: the SparseCore kernel and its jnp reference compute the same three arrays.

  The input is three planes of 128 rows by 32768 columns.  Plane 0 is mixed row by row — for j < 16, column j becomes
  ((x[j] + x[16384 + j]) mod 1024) + 1 and column 16384 + j becomes (((1024 + x[j]) - x[16384 + j]) mod 1024) + 1, the
  other columns kept — and planes 1 and 2 are returned as they are (Proof/Spec.lean).

  The kernel: 32 vector subcores each take four rows; a subcore copies each of its rows through a staging buffer,
  overwrites the 32 special columns with values computed from two small slabs of the rows, and copies the row out; every
  copy in flight has a semaphore of its own.  Its run — every weakly fair execution of all the device's threads
  terminates, faults nowhere, leaves the input unchanged and the results at one function of the input — is proved once,
  for any float instance (Proof/OnKernelIdeal, and the same text over the word-level program in Proof/OnKernel); the two
  frames are that run with the values dropped.  Over the extended reals the kernel's function is the specification's
  (Proof/Bridge.lean).  The reference scatters the 32 new columns one at a time into plane 0 minus one and adds one at
  the end, which is the same function since (x - 1) + 1 = x for every extended real (Proof/OnReference).  The ideal pass
  rewrote nothing, so the idealization claim is trivial.
-/
import proofs.«209894_g19731079758016_cont_8to1_1440_21_alg».proof.Defs
import proofs.«209894_g19731079758016_cont_8to1_1440_21_alg».proof.Proof.Gen.Kernel
import proofs.«209894_g19731079758016_cont_8to1_1440_21_alg».proof.Proof.Gen.KernelIdeal
import proofs.«209894_g19731079758016_cont_8to1_1440_21_alg».proof.Proof.Gen.ReferenceIdeal
import proofs.«209894_g19731079758016_cont_8to1_1440_21_alg».proof.Proof.Gen.Pre_finite_inputs
import proofs.«209894_g19731079758016_cont_8to1_1440_21_alg».proof.Proof.OnKernel.Launch
import proofs.«209894_g19731079758016_cont_8to1_1440_21_alg».proof.Proof.OnKernelIdeal.Launch
import proofs.«209894_g19731079758016_cont_8to1_1440_21_alg».proof.Proof.Bridge
import proofs.«209894_g19731079758016_cont_8to1_1440_21_alg».proof.Proof.OnReference.Run

noncomputable section

namespace Cert.Proof

open Idealize.ShloMosaic Idealize.SL.Sem

/-- The word-level kernel runs and leaves its input unchanged: its run with the results dropped. -/
theorem frame_k : Cert.frame_Kernel := fun m ρ _ =>
  (θ_run Cert.Kernel.defs _ _).mono (fun _ h c => (h c).2.2.2) (Cert.Proof.OnKernel.run_main (F := Bits) m ρ)

/-- The idealized kernel likewise. -/
theorem frame_ki : Cert.frame_KernelIdeal := fun m ρ _ =>
  (θ_run Cert.KernelIdeal.defs _ _).mono (fun _ h c => (h c).2.2.2) (Cert.Proof.OnKernelIdeal.run_main (F := Ideal) m ρ)

/-- The reference runs and leaves its input unchanged: its run with the results dropped. -/
theorem frame_ri : Cert.frame_ReferenceIdeal := fun m ρ _ =>
  (θ_run Cert.ReferenceIdeal.defs _ _).mono (fun _ h c => (h c).2.2.2) (Cert.Proof.OnReference.run m ρ)

/-- The idealized kernel's run with its three results named by the specification. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => ∀ c : Dev Cert.KernelIdeal.nD,
        r.2.mem ((c.tc : Thread Cert.KernelIdeal.nD Cert.KernelIdeal.τ).loc Cert.KernelIdeal.main_v0) = Spec.mixed (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_v2) = Spec.plane 1 (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_v4) = Spec.plane 2 (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run Cert.KernelIdeal.defs _ _).mono (fun _ h c =>
      ⟨(h c).1.trans (Cert.Proof.OnKernelIdeal.G_ideal c _), (h c).2.1.trans (Cert.Proof.OnKernelIdeal.plane1_eq _),
        (h c).2.2.1.trans (Cert.Proof.OnKernelIdeal.plane2_eq _), (h c).2.2.2⟩)
    (Cert.Proof.OnKernelIdeal.run_main (F := Ideal) m ρ)

/-- The ideal pass rewrote no operation. -/
theorem preserves : Cert.preserves_Kernel_KernelIdeal := trivial

/-- From memories agreeing on the input both programs end with the specification's three arrays of that input. -/
theorem algebraic : Cert.algebraic_KernelIdeal_ReferenceIdeal := by
  intro m ρ m' ρ' _ hagree
  refine ⟨fun c => Spec.mixed (m ((c.tc : Thread Cert.KernelIdeal.nD Cert.KernelIdeal.τ).loc Cert.KernelIdeal.main_arg0)),
    fun c => Spec.plane 1 (m ((c.tc : Thread Cert.KernelIdeal.nD Cert.KernelIdeal.τ).loc Cert.KernelIdeal.main_arg0)),
    fun c => Spec.plane 2 (m ((c.tc : Thread Cert.KernelIdeal.nD Cert.KernelIdeal.τ).loc Cert.KernelIdeal.main_arg0)), kernel_run m ρ, ?_⟩
  refine (θ_run Cert.ReferenceIdeal.defs _ _).mono (fun _ h c => ⟨?_, ?_, ?_, (h c).2.2.2⟩) (Cert.Proof.OnReference.run m' ρ')
  · rw [(h c).1, hagree c]
  · rw [(h c).2.1, hagree c]
  · rw [(h c).2.2.1, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
